-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x128 : Shape := ⟨2, ![64, 128]⟩
abbrev S128 : Shape := ⟨1, ![128]⟩
abbrev S384x64 : Shape := ⟨2, ![384, 64]⟩
abbrev S64x64 : Shape := ⟨2, ![64, 64]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg18 : FVec F S128 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S64 .f32) (main_arg15 : FVec F S64x64 .f32) (main_arg16 : FVec F S64 .f32) (main_arg17 : FVec F S64x128 .f32) (main_arg18 : FVec F S128 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64x128 .f32) (main_arg12 : FVec F S128 .f32) (main_arg13 : FVec F S384x64 .f32) (main_arg14 : FVec F S64 .f32) (main_arg15 : FVec F S64x64 .f32) (main_arg16 : FVec F S64 .f32) (main_arg17 : FVec F S64x128 .f32) (main_arg18 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg11
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x64 .f32 := Host.absf main_arg13
  let main_cst_24 : FVec F S_ .f32 := constant S_ .f32 0x7F800000#32
  let main_v65 : FVec F S384x64 .f32 := broadcastInDim S384x64 ![] bcast_S_S384x64 main_cst_24
  let main_v66 : IVec S384x64 1 := cmpf .olt main_v64 main_v65
  let main_c_25 : IVec S_ 1 := constantI S_ 1 1#1
  let main_v67 : IVec S_ 1 := (fun x v => Host.reduce IntOp.andi x v reducesTo_S384x64_S_d0_1 h_S_) main_v66 main_c_25
  fn_part4 (F := F) main_arg14 main_arg15 main_arg16 main_arg17 main_arg18 main_v63 main_v67

def fn_part2 {F : FTy → Type} [FloatOps F] (main_arg7 : FVec F S64x128 .f32) (main_arg8 : FVec F S128 .f32) (main_arg9 : FVec F S256x64 .f32) (main_arg10 : FVec F S64 .f32) (main_arg11 : FVec F S64x128 .f32) (main_arg12 : FVec F S128 .f32) (main_arg13 : FVec F S384x64 .f32) (main_arg14 : FVec F S64 .f32) (main_arg15 : FVec F S64x64 .f32) (main_arg16 : FVec F S64 .f32) (main_arg17 : FVec F S64x128 .f32) (main_arg18 : FVec F S128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x64 .f32 := Host.absf main_arg9
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_v48 main_v49 main_v50

def fn_part1 {F : FTy → Type} [FloatOps F] (main_arg4 : FVec F S1 .f32) (main_arg5 : FVec F S256x64 .f32) (main_arg6 : FVec F S64 .f32) (main_arg7 : FVec F S64x128 .f32) (main_arg8 : FVec F S128 .f32) (main_arg9 : FVec F S256x64 .f32) (main_arg10 : FVec F S64 .f32) (main_arg11 : FVec F S64x128 .f32) (main_arg12 : FVec F S128 .f32) (main_arg13 : FVec F S384x64 .f32) (main_arg14 : FVec F S64 .f32) (main_arg15 : FVec F S64x64 .f32) (main_arg16 : FVec F S64 .f32) (main_arg17 : FVec F S64x128 .f32) (main_arg18 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S65536x128 .f32) (main_arg1 : FVec F S65536x128 .f32) (main_arg2 : FVec F S65536x128 .f32) (main_arg3 : FVec F S128x1 .f32) (main_arg4 : FVec F S1 .f32) (main_arg5 : FVec F S256x64 .f32) (main_arg6 : FVec F S64 .f32) (main_arg7 : FVec F S64x128 .f32) (main_arg8 : FVec F S128 .f32) (main_arg9 : FVec F S256x64 .f32) (main_arg10 : FVec F S64 .f32) (main_arg11 : FVec F S64x128 .f32) (main_arg12 : FVec F S128 .f32) (main_arg13 : FVec F S384x64 .f32) (main_arg14 : FVec F S64 .f32) (main_arg15 : FVec F S64x64 .f32) (main_arg16 : FVec F S64 .f32) (main_arg17 : FVec F S64x128 .f32) (main_arg18 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S65536x128 : Shape := ⟨2, ![65536, 128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x128 : Shape := ⟨2, ![64, 128]⟩
abbrev S128 : Shape := ⟨1, ![128]⟩
abbrev S384x64 : Shape := ⟨2, ![384, 64]⟩
abbrev S64x64 : Shape := ⟨2, ![64, 64]⟩
abbrev S1x1 : Shape := ⟨2, ![1, 1]⟩
abbrev S1x64 : Shape := ⟨2, ![1, 64]⟩
abbrev S1x128 : Shape := ⟨2, ![1, 128]⟩
abbrev S1024x128 : Shape := ⟨2, ![1024, 128]⟩
abbrev S1024x1 : Shape := ⟨2, ![1024, 1]⟩
abbrev S1024 : Shape := ⟨1, ![1024]⟩
abbrev S1024x3 : Shape := ⟨2, ![1024, 3]⟩
abbrev S1024x256 : Shape := ⟨2, ![1024, 256]⟩
abbrev S1024x64 : Shape := ⟨2, ![1024, 64]⟩
abbrev S1024x6 : Shape := ⟨2, ![1024, 6]⟩
abbrev S1024x384 : Shape := ⟨2, ![1024, 384]⟩

abbrev nBuf : Space → Nat
  | .hbm => 28
  | .vmem => 24
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x1, .f32⟩
  | .hbm, ⟨4, _⟩ => ⟨S1, .f32⟩
  | .hbm, ⟨5, _⟩ => ⟨S256x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S256x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S384x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x128, .f32⟩
  | .hbm, ⟨18, _⟩ => ⟨S128, .f32⟩
  | .hbm, ⟨19, _⟩ => ⟨S1x1, .f32⟩
  | .hbm, ⟨20, _⟩ => ⟨S1x64, .f32⟩
  | .hbm, ⟨21, _⟩ => ⟨S1x128, .f32⟩
  | .hbm, ⟨22, _⟩ => ⟨S1x64, .f32⟩
  | .hbm, ⟨23, _⟩ => ⟨S1x128, .f32⟩
  | .hbm, ⟨24, _⟩ => ⟨S1x64, .f32⟩
  | .hbm, ⟨25, _⟩ => ⟨S1x64, .f32⟩
  | .hbm, ⟨26, _⟩ => ⟨S1x128, .f32⟩
  | .hbm, ⟨27, _⟩ => ⟨S65536x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x1, .f32⟩
  | .local _ .vmem, ⟨7, _⟩ => ⟨S1x1, .f32⟩
  | .local _ .vmem, ⟨8, _⟩ => ⟨S256x64, .f32⟩
  | .local _ .vmem, ⟨9, _⟩ => ⟨S1x64, .f32⟩
  | .local _ .vmem, ⟨10, _⟩ => ⟨S64x128, .f32⟩
  | .local _ .vmem, ⟨11, _⟩ => ⟨S1x128, .f32⟩
  | .local _ .vmem, ⟨12, _⟩ => ⟨S256x64, .f32⟩
  | .local _ .vmem, ⟨13, _⟩ => ⟨S1x64, .f32⟩
  | .local _ .vmem, ⟨14, _⟩ => ⟨S64x128, .f32⟩
  | .local _ .vmem, ⟨15, _⟩ => ⟨S1x128, .f32⟩
  | .local _ .vmem, ⟨16, _⟩ => ⟨S384x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x128, .f32⟩
  | .local _ .vmem, ⟨21, _⟩ => ⟨S1x128, .f32⟩
  | .local _ .vmem, ⟨22, _⟩ => ⟨S1024x128, .f32⟩
  | .local _ .vmem, ⟨23, _⟩ => ⟨S1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S1_S1x1 : S1.ShapeCasts S1x1
  shapeCasts_S64_S1x64 : S64.ShapeCasts S1x64
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  broadcasts_S1x1_S1024x1 : S1x1.Broadcasts S1024x1
  broadcasts_S1024x1_S1024x128 : S1024x1.Broadcasts S1024x128
  reduces_S1024x128_S1024 : S1024x128.Reduces [1] S1024
  shapeCasts_S1024_S1024x1 : S1024.ShapeCasts S1024x1
  concatenates_S1024x1_S1024x1_S1024x1_S1024x3_d1 : Shape.Concatenates [S1024x1, S1024x1, S1024x1] S1024x3 1
  reduces_S1024x3_S1024 : S1024x3.Reduces [1] S1024
  broadcasts_S1024x1_S1024x3 : S1024x1.Broadcasts S1024x3
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S1024x128_S1024x128_S1024x256_d1 : Shape.Concatenates [S1024x128, S1024x128] S1024x256 1
  broadcasts_S1x64_S1024x64 : S1x64.Broadcasts S1024x64
  broadcasts_S1x128_S1024x128 : S1x128.Broadcasts S1024x128
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  concatenates_S1024x1_S1024x1_S1024x1_S1024x1_S1024x1_S1024x1_S1024x6_d1 : Shape.Concatenates [S1024x1, S1024x1, S1024x1, S1024x1, S1024x1, S1024x1] S1024x6 1
  reduces_S1024x6_S1024 : S1024x6.Reduces [1] S1024
  broadcasts_S1024x1_S1024x6 : S1024x1.Broadcasts S1024x6
  inb_S384x64_S384x64_0_0 : ∀ a, (![0, 0] : Fin 2 → Nat) a + S384x64.size a ≤ S384x64.size a
  h_S384x64 : 0 < S384x64.numel
  inb_S64x64_S64x64_0_0 : ∀ a, (![0, 0] : Fin 2 → Nat) a + S64x64.size a ≤ S64x64.size a
  h_S64x64 : 0 < S64x64.numel
  slices_S1024x6_o0_0_S1024x1 : S1024x6.Slices ![0, 0] S1024x1
  slices_S1024x6_o0_1_S1024x1 : S1024x6.Slices ![0, 1] S1024x1
  slices_S1024x6_o0_2_S1024x1 : S1024x6.Slices ![0, 2] S1024x1
  slices_S1024x6_o0_3_S1024x1 : S1024x6.Slices ![0, 3] S1024x1
  slices_S1024x6_o0_4_S1024x1 : S1024x6.Slices ![0, 4] S1024x1
  slices_S1024x6_o0_5_S1024x1 : S1024x6.Slices ![0, 5] S1024x1
  concatenates_S1024x128_S1024x128_S1024x128_S1024x384_d1 : Shape.Concatenates [S1024x128, S1024x128, S1024x128] S1024x384 1
  dot_S1024x128_S128x1_S1024x1_1_0_0_1_n_n_wf : DotDims.WF S1024x128 S128x1 S1024x1 [1] [0] [0] [1] [] []
  dot_S1024x256_S256x64_S1024x64_1_0_0_1_n_n_wf : DotDims.WF S1024x256 S256x64 S1024x64 [1] [0] [0] [1] [] []
  dot_S1024x64_S64x128_S1024x128_1_0_0_1_n_n_wf : DotDims.WF S1024x64 S64x128 S1024x128 [1] [0] [0] [1] [] []
  dot_S1024x384_S384x64_S1024x64_1_0_0_1_n_n_wf : DotDims.WF S1024x384 S384x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .f32 = 32 ∨ (Rect.block (s := S65536x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .f32 = 32 ∨ (Rect.block (s := S256x64) S256x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384x64.size a ≤ S384x64.size a
  hwx0_13 : ∀ i : grid0.Coords, EltTy.bits .f32 = 32 ∨ (Rect.block (s := S384x64) S384x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x128.size a ≤ S64x128.size a
  hwx0_17 : ∀ i : grid0.Coords, EltTy.bits .f32 = 32 ∨ (Rect.block (s := S64x128) S64x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x128.size a ≤ S65536x128.size a
  hwx0_19 : ∀ i : grid0.Coords, EltTy.bits .f32 = 32 ∨ (Rect.block (s := S65536x128) S1024x128.size (cc0_transform_19 i) (hinb0_19 i)).WholeWords (EltTy.packing .f32)

variable [Facts₀]

def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x384_S384x64_S1024x64_1_0_0_1_n_n : DotDims S1024x384 S384x64 S1024x64 where
  lhsContracting := [1]
  rhsContracting := [0]
  lhsNonContracting := [0]
  rhsNonContracting := [1]
  lhsBatch := []
  rhsBatch := []
  wf := dot_S1024x384_S384x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S384x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8) S1024x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x128 : Shape := ⟨2, ![64, 128]⟩
abbrev S128 : Shape := ⟨1, ![128]⟩
abbrev S384x64 : Shape := ⟨2, ![384, 64]⟩
abbrev S64x64 : Shape := ⟨2, ![64, 64]⟩
abbrev S65536x1 : Shape := ⟨2, ![65536, 1]⟩
abbrev S1x1 : Shape := ⟨2, ![1, 1]⟩
abbrev S_ : Shape := ⟨0, ![]⟩
abbrev S65536 : Shape := ⟨1, ![65536]⟩
abbrev S65536x3 : Shape := ⟨2, ![65536, 3]⟩
abbrev S65536x256 : Shape := ⟨2, ![65536, 256]⟩
abbrev S65536x64 : Shape := ⟨2, ![65536, 64]⟩
abbrev S1x64 : Shape := ⟨2, ![1, 64]⟩
abbrev S1x128 : Shape := ⟨2, ![1, 128]⟩
abbrev S65536x6 : Shape := ⟨2, ![65536, 6]⟩
abbrev S65536x384 : Shape := ⟨2, ![65536, 384]⟩

abbrev nBuf : Space → Nat
  | .hbm => 464
  | .vmem => 0
  | .smem => 0
  | _ => 0

abbrev hbmTy0_0 (i : Nat) : BufTy := match i % 128 with
  | 0 => ⟨S65536x128, .f32⟩
  | 1 => ⟨S65536x128, .f32⟩
  | 2 => ⟨S65536x128, .f32⟩
  | 3 => ⟨S128x1, .f32⟩
  | 4 => ⟨S1, .f32⟩
  | 5 => ⟨S256x64, .f32⟩
  | 6 => ⟨S64, .f32⟩
  | 7 => ⟨S64x128, .f32⟩
  | 8 => ⟨S128, .f32⟩
  | 9 => ⟨S256x64, .f32⟩
  | 10 => ⟨S64, .f32⟩
  | 11 => ⟨S64x128, .f32⟩
  | 12 => ⟨S128, .f32⟩
  | 13 => ⟨S384x64, .f32⟩
  | 14 => ⟨S64, .f32⟩
  | 15 => ⟨S64x64, .f32⟩
  | 16 => ⟨S64, .f32⟩
  | 17 => ⟨S64x128, .f32⟩
  | 18 => ⟨S128, .f32⟩
  | 19 => ⟨S65536x1, .f32⟩
  | 20 => ⟨S1x1, .f32⟩
  | 21 => ⟨S65536x1, .f32⟩
  | 22 => ⟨S65536x1, .f32⟩
  | 23 => ⟨S65536x1, .f32⟩
  | 24 => ⟨S65536x1, .f32⟩
  | 25 => ⟨S1x1, .f32⟩
  | 26 => ⟨S65536x1, .f32⟩
  | 27 => ⟨S65536x1, .f32⟩
  | 28 => ⟨S65536x1, .f32⟩
  | 29 => ⟨S65536x1, .f32⟩
  | 30 => ⟨S1x1, .f32⟩
  | 31 => ⟨S65536x1, .f32⟩
  | 32 => ⟨S65536x1, .f32⟩
  | 33 => ⟨S65536x1, .f32⟩
  | 34 => ⟨S65536x128, .f32⟩
  | 35 => ⟨S65536x128, .f32⟩
  | 36 => ⟨S65536x128, .f32⟩
  | 37 => ⟨S65536x128, .f32⟩
  | 38 => ⟨S65536x128, .f32⟩
  | 39 => ⟨S65536x128, .f32⟩
  | 40 => ⟨S65536x128, .f32⟩
  | 41 => ⟨S65536x128, .f32⟩
  | 42 => ⟨S_, .f32⟩
  | 43 => ⟨S65536x128, .f32⟩
  | 44 => ⟨S65536x128, .f32⟩
  | 45 => ⟨S65536, .f32⟩
  | 46 => ⟨S65536, .f32⟩
  | 47 => ⟨S65536, .f32⟩
  | 48 => ⟨S_, .f32⟩
  | 49 => ⟨S65536, .f32⟩
  | 50 => ⟨S_, .f32⟩
  | 51 => ⟨S65536, .f32⟩
  | 52 => ⟨S65536, .f32⟩
  | 53 => ⟨S65536x1, .f32⟩
  | 54 => ⟨S65536x128, .f32⟩
  | 55 => ⟨S65536x128, .f32⟩
  | 56 => ⟨S65536x128, .f32⟩
  | 57 => ⟨S_, .f32⟩
  | 58 => ⟨S65536, .f32⟩
  | 59 => ⟨S65536x1, .f32⟩
  | 60 => ⟨S65536x128, .f32⟩
  | 61 => ⟨S65536x128, .f32⟩
  | 62 => ⟨S_, .f32⟩
  | 63 => ⟨S65536, .f32⟩
  | 64 => ⟨S_, .f32⟩
  | 65 => ⟨S65536, .f32⟩
  | 66 => ⟨S65536, .f32⟩
  | 67 => ⟨S65536x1, .f32⟩
  | 68 => ⟨S65536x128, .f32⟩
  | 69 => ⟨S65536x128, .f32⟩
  | 70 => ⟨S65536x128, .f32⟩
  | 71 => ⟨S_, .f32⟩
  | 72 => ⟨S65536, .f32⟩
  | 73 => ⟨S65536x1, .f32⟩
  | 74 => ⟨S65536x128, .f32⟩
  | 75 => ⟨S65536x128, .f32⟩
  | 76 => ⟨S_, .f32⟩
  | 77 => ⟨S65536, .f32⟩
  | 78 => ⟨S_, .f32⟩
  | 79 => ⟨S65536, .f32⟩
  | 80 => ⟨S65536, .f32⟩
  | 81 => ⟨S65536x1, .f32⟩
  | 82 => ⟨S65536x128, .f32⟩
  | 83 => ⟨S65536x128, .f32⟩
  | 84 => ⟨S65536x128, .f32⟩
  | 85 => ⟨S_, .f32⟩
  | 86 => ⟨S65536, .f32⟩
  | 87 => ⟨S65536x1, .f32⟩
  | 88 => ⟨S65536x128, .f32⟩
  | 89 => ⟨S65536x128, .f32⟩
  | 90 => ⟨S65536, .f32⟩
  | 91 => ⟨S65536x128, .f32⟩
  | 92 => ⟨S_, .f32⟩
  | 93 => ⟨S65536, .f32⟩
  | 94 => ⟨S_, .f32⟩
  | 95 => ⟨S65536, .f32⟩
  | 96 => ⟨S65536, .f32⟩
  | 97 => ⟨S65536, .f32⟩
  | 98 => ⟨S65536, .f32⟩
  | 99 => ⟨S65536x128, .f32⟩
  | 100 => ⟨S_, .f32⟩
  | 101 => ⟨S65536, .f32⟩
  | 102 => ⟨S_, .f32⟩
  | 103 => ⟨S65536, .f32⟩
  | 104 => ⟨S65536, .f32⟩
  | 105 => ⟨S65536, .f32⟩
  | 106 => ⟨S65536, .f32⟩
  | 107 => ⟨S65536x128, .f32⟩
  | 108 => ⟨S_, .f32⟩
  | 109 => ⟨S65536, .f32⟩
  | 110 => ⟨S_, .f32⟩
  | 111 => ⟨S65536, .f32⟩
  | 112 => ⟨S65536, .f32⟩
  | 113 => ⟨S65536, .f32⟩
  | 114 => ⟨S65536x1, .f32⟩
  | 115 => ⟨S65536x1, .f32⟩
  | 116 => ⟨S65536x1, .f32⟩
  | 117 => ⟨S65536x3, .f32⟩
  | 118 => ⟨S_, .f32⟩
  | 119 => ⟨S65536, .f32⟩
  | 120 => ⟨S_, .f32⟩
  | 121 => ⟨S65536, .f32⟩
  | 122 => ⟨S65536, .f32⟩
  | 123 => ⟨S65536x1, .f32⟩
  | 124 => ⟨S65536x3, .f32⟩
  | 125 => ⟨S65536x3, .f32⟩
  | 126 => ⟨S65536x3, .f32⟩
  | 127 => ⟨S_, .f32⟩
  | _ => ⟨S65536x128, .f32⟩

abbrev hbmTy0_1 (i : Nat) : BufTy := match i % 128 with
  | 0 => ⟨S65536, .f32⟩
  | 1 => ⟨S65536x1, .f32⟩
  | 2 => ⟨S65536x3, .f32⟩
  | 3 => ⟨S65536x3, .f32⟩
  | 4 => ⟨S65536x256, .f32⟩
  | 5 => ⟨S65536x64, .f32⟩
  | 6 => ⟨S1x64, .f32⟩
  | 7 => ⟨S65536x64, .f32⟩
  | 8 => ⟨S65536x64, .f32⟩
  | 9 => ⟨S_, .f32⟩
  | 10 => ⟨S_, .f32⟩
  | 11 => ⟨S65536x64, .f32⟩
  | 12 => ⟨S65536x64, .i1⟩
  | 13 => ⟨S_, .f32⟩
  | 14 => ⟨S65536x64, .f32⟩
  | 15 => ⟨S65536x64, .f32⟩
  | 16 => ⟨S65536x64, .f32⟩
  | 17 => ⟨S65536x128, .f32⟩
  | 18 => ⟨S1x128, .f32⟩
  | 19 => ⟨S65536x128, .f32⟩
  | 20 => ⟨S65536x128, .f32⟩
  | 21 => ⟨S65536x128, .f32⟩
  | 22 => ⟨S65536x256, .f32⟩
  | 23 => ⟨S65536x64, .f32⟩
  | 24 => ⟨S1x64, .f32⟩
  | 25 => ⟨S65536x64, .f32⟩
  | 26 => ⟨S65536x64, .f32⟩
  | 27 => ⟨S_, .f32⟩
  | 28 => ⟨S_, .f32⟩
  | 29 => ⟨S65536x64, .f32⟩
  | 30 => ⟨S65536x64, .i1⟩
  | 31 => ⟨S_, .f32⟩
  | 32 => ⟨S65536x64, .f32⟩
  | 33 => ⟨S65536x64, .f32⟩
  | 34 => ⟨S65536x64, .f32⟩
  | 35 => ⟨S65536x128, .f32⟩
  | 36 => ⟨S1x128, .f32⟩
  | 37 => ⟨S65536x128, .f32⟩
  | 38 => ⟨S65536x128, .f32⟩
  | 39 => ⟨S65536x128, .f32⟩
  | 40 => ⟨S65536x256, .f32⟩
  | 41 => ⟨S65536x64, .f32⟩
  | 42 => ⟨S1x64, .f32⟩
  | 43 => ⟨S65536x64, .f32⟩
  | 44 => ⟨S65536x64, .f32⟩
  | 45 => ⟨S_, .f32⟩
  | 46 => ⟨S_, .f32⟩
  | 47 => ⟨S65536x64, .f32⟩
  | 48 => ⟨S65536x64, .i1⟩
  | 49 => ⟨S_, .f32⟩
  | 50 => ⟨S65536x64, .f32⟩
  | 51 => ⟨S65536x64, .f32⟩
  | 52 => ⟨S65536x64, .f32⟩
  | 53 => ⟨S65536x128, .f32⟩
  | 54 => ⟨S1x128, .f32⟩
  | 55 => ⟨S65536x128, .f32⟩
  | 56 => ⟨S65536x128, .f32⟩
  | 57 => ⟨S65536x128, .f32⟩
  | 58 => ⟨S65536x1, .f32⟩
  | 59 => ⟨S65536x128, .f32⟩
  | 60 => ⟨S65536x128, .f32⟩
  | 61 => ⟨S65536x128, .f32⟩
  | 62 => ⟨S65536x1, .f32⟩
  | 63 => ⟨S65536x128, .f32⟩
  | 64 => ⟨S65536x128, .f32⟩
  | 65 => ⟨S65536x128, .f32⟩
  | 66 => ⟨S65536x1, .f32⟩
  | 67 => ⟨S65536x128, .f32⟩
  | 68 => ⟨S65536x128, .f32⟩
  | 69 => ⟨S65536x128, .f32⟩
  | 70 => ⟨S65536x128, .f32⟩
  | 71 => ⟨S65536x128, .f32⟩
  | 72 => ⟨S_, .f32⟩
  | 73 => ⟨S65536, .f32⟩
  | 74 => ⟨S_, .f32⟩
  | 75 => ⟨S65536, .f32⟩
  | 76 => ⟨S65536, .f32⟩
  | 77 => ⟨S65536x1, .f32⟩
  | 78 => ⟨S65536x128, .f32⟩
  | 79 => ⟨S65536x128, .f32⟩
  | 80 => ⟨S65536x128, .f32⟩
  | 81 => ⟨S_, .f32⟩
  | 82 => ⟨S65536, .f32⟩
  | 83 => ⟨S65536x1, .f32⟩
  | 84 => ⟨S65536x128, .f32⟩
  | 85 => ⟨S65536x128, .f32⟩
  | 86 => ⟨S_, .f32⟩
  | 87 => ⟨S65536, .f32⟩
  | 88 => ⟨S_, .f32⟩
  | 89 => ⟨S65536, .f32⟩
  | 90 => ⟨S65536, .f32⟩
  | 91 => ⟨S65536x1, .f32⟩
  | 92 => ⟨S65536x128, .f32⟩
  | 93 => ⟨S65536x128, .f32⟩
  | 94 => ⟨S65536x128, .f32⟩
  | 95 => ⟨S_, .f32⟩
  | 96 => ⟨S65536, .f32⟩
  | 97 => ⟨S65536x1, .f32⟩
  | 98 => ⟨S65536x128, .f32⟩
  | 99 => ⟨S65536x128, .f32⟩
  | 100 => ⟨S_, .f32⟩
  | 101 => ⟨S65536, .f32⟩
  | 102 => ⟨S_, .f32⟩
  | 103 => ⟨S65536, .f32⟩
  | 104 => ⟨S65536, .f32⟩
  | 105 => ⟨S65536x1, .f32⟩
  | 106 => ⟨S65536x128, .f32⟩
  | 107 => ⟨S65536x128, .f32⟩
  | 108 => ⟨S65536x128, .f32⟩
  | 109 => ⟨S_, .f32⟩
  | 110 => ⟨S65536, .f32⟩
  | 111 => ⟨S65536x1, .f32⟩
  | 112 => ⟨S65536x128, .f32⟩
  | 113 => ⟨S65536x128, .f32⟩
  | 114 => ⟨S65536, .f32⟩
  | 115 => ⟨S65536x128, .f32⟩
  | 116 => ⟨S_, .f32⟩
  | 117 => ⟨S65536, .f32⟩
  | 118 => ⟨S_, .f32⟩
  | 119 => ⟨S65536, .f32⟩
  | 120 => ⟨S65536, .f32⟩
  | 121 => ⟨S65536, .f32⟩
  | 122 => ⟨S65536, .f32⟩
  | 123 => ⟨S65536x128, .f32⟩
  | 124 => ⟨S_, .f32⟩
  | 125 => ⟨S65536, .f32⟩
  | 126 => ⟨S_, .f32⟩
  | 127 => ⟨S65536, .f32⟩
  | _ => ⟨S65536x128, .f32⟩

abbrev hbmTy0_2 (i : Nat) : BufTy := match i % 128 with
  | 0 => ⟨S65536, .f32⟩
  | 1 => ⟨S65536, .f32⟩
  | 2 => ⟨S65536, .f32⟩
  | 3 => ⟨S65536x128, .f32⟩
  | 4 => ⟨S_, .f32⟩
  | 5 => ⟨S65536, .f32⟩
  | 6 => ⟨S_, .f32⟩
  | 7 => ⟨S65536, .f32⟩
  | 8 => ⟨S65536, .f32⟩
  | 9 => ⟨S65536, .f32⟩
  | 10 => ⟨S65536, .f32⟩
  | 11 => ⟨S65536x128, .f32⟩
  | 12 => ⟨S_, .f32⟩
  | 13 => ⟨S65536, .f32⟩
  | 14 => ⟨S_, .f32⟩
  | 15 => ⟨S65536, .f32⟩
  | 16 => ⟨S65536, .f32⟩
  | 17 => ⟨S65536, .f32⟩
  | 18 => ⟨S65536, .f32⟩
  | 19 => ⟨S65536x128, .f32⟩
  | 20 => ⟨S_, .f32⟩
  | 21 => ⟨S65536, .f32⟩
  | 22 => ⟨S_, .f32⟩
  | 23 => ⟨S65536, .f32⟩
  | 24 => ⟨S65536, .f32⟩
  | 25 => ⟨S65536, .f32⟩
  | 26 => ⟨S65536, .f32⟩
  | 27 => ⟨S65536x128, .f32⟩
  | 28 => ⟨S_, .f32⟩
  | 29 => ⟨S65536, .f32⟩
  | 30 => ⟨S_, .f32⟩
  | 31 => ⟨S65536, .f32⟩
  | 32 => ⟨S65536, .f32⟩
  | 33 => ⟨S65536, .f32⟩
  | 34 => ⟨S65536x1, .f32⟩
  | 35 => ⟨S65536x1, .f32⟩
  | 36 => ⟨S65536x1, .f32⟩
  | 37 => ⟨S65536x1, .f32⟩
  | 38 => ⟨S65536x1, .f32⟩
  | 39 => ⟨S65536x1, .f32⟩
  | 40 => ⟨S65536x6, .f32⟩
  | 41 => ⟨S_, .f32⟩
  | 42 => ⟨S65536, .f32⟩
  | 43 => ⟨S_, .f32⟩
  | 44 => ⟨S65536, .f32⟩
  | 45 => ⟨S65536, .f32⟩
  | 46 => ⟨S65536x1, .f32⟩
  | 47 => ⟨S65536x6, .f32⟩
  | 48 => ⟨S65536x6, .f32⟩
  | 49 => ⟨S65536x6, .f32⟩
  | 50 => ⟨S_, .f32⟩
  | 51 => ⟨S65536, .f32⟩
  | 52 => ⟨S65536x1, .f32⟩
  | 53 => ⟨S65536x6, .f32⟩
  | 54 => ⟨S65536x6, .f32⟩
  | 55 => ⟨S65536x1, .f32⟩
  | 56 => ⟨S65536x256, .f32⟩
  | 57 => ⟨S65536x64, .f32⟩
  | 58 => ⟨S1x64, .f32⟩
  | 59 => ⟨S65536x64, .f32⟩
  | 60 => ⟨S65536x64, .f32⟩
  | 61 => ⟨S_, .f32⟩
  | 62 => ⟨S_, .f32⟩
  | 63 => ⟨S65536x64, .f32⟩
  | 64 => ⟨S65536x64, .i1⟩
  | 65 => ⟨S_, .f32⟩
  | 66 => ⟨S65536x64, .f32⟩
  | 67 => ⟨S65536x64, .f32⟩
  | 68 => ⟨S65536x64, .f32⟩
  | 69 => ⟨S65536x128, .f32⟩
  | 70 => ⟨S1x128, .f32⟩
  | 71 => ⟨S65536x128, .f32⟩
  | 72 => ⟨S65536x128, .f32⟩
  | 73 => ⟨S65536x128, .f32⟩
  | 74 => ⟨S65536x128, .f32⟩
  | 75 => ⟨S65536x128, .f32⟩
  | 76 => ⟨S65536x128, .f32⟩
  | 77 => ⟨S65536x1, .f32⟩
  | 78 => ⟨S65536x256, .f32⟩
  | 79 => ⟨S65536x64, .f32⟩
  | 80 => ⟨S1x64, .f32⟩
  | 81 => ⟨S65536x64, .f32⟩
  | 82 => ⟨S65536x64, .f32⟩
  | 83 => ⟨S_, .f32⟩
  | 84 => ⟨S_, .f32⟩
  | 85 => ⟨S65536x64, .f32⟩
  | 86 => ⟨S65536x64, .i1⟩
  | 87 => ⟨S_, .f32⟩
  | 88 => ⟨S65536x64, .f32⟩
  | 89 => ⟨S65536x64, .f32⟩
  | 90 => ⟨S65536x64, .f32⟩
  | 91 => ⟨S65536x128, .f32⟩
  | 92 => ⟨S1x128, .f32⟩
  | 93 => ⟨S65536x128, .f32⟩
  | 94 => ⟨S65536x128, .f32⟩
  | 95 => ⟨S65536x128, .f32⟩
  | 96 => ⟨S65536x128, .f32⟩
  | 97 => ⟨S65536x128, .f32⟩
  | 98 => ⟨S65536x128, .f32⟩
  | 99 => ⟨S65536x128, .f32⟩
  | 100 => ⟨S65536x1, .f32⟩
  | 101 => ⟨S65536x256, .f32⟩
  | 102 => ⟨S65536x64, .f32⟩
  | 103 => ⟨S1x64, .f32⟩
  | 104 => ⟨S65536x64, .f32⟩
  | 105 => ⟨S65536x64, .f32⟩
  | 106 => ⟨S_, .f32⟩
  | 107 => ⟨S_, .f32⟩
  | 108 => ⟨S65536x64, .f32⟩
  | 109 => ⟨S65536x64, .i1⟩
  | 110 => ⟨S_, .f32⟩
  | 111 => ⟨S65536x64, .f32⟩
  | 112 => ⟨S65536x64, .f32⟩
  | 113 => ⟨S65536x64, .f32⟩
  | 114 => ⟨S65536x128, .f32⟩
  | 115 => ⟨S1x128, .f32⟩
  | 116 => ⟨S65536x128, .f32⟩
  | 117 => ⟨S65536x128, .f32⟩
  | 118 => ⟨S65536x128, .f32⟩
  | 119 => ⟨S65536x128, .f32⟩
  | 120 => ⟨S65536x128, .f32⟩
  | 121 => ⟨S65536x128, .f32⟩
  | 122 => ⟨S65536x128, .f32⟩
  | 123 => ⟨S65536x1, .f32⟩
  | 124 => ⟨S65536x256, .f32⟩
  | 125 => ⟨S65536x64, .f32⟩
  | 126 => ⟨S1x64, .f32⟩
  | 127 => ⟨S65536x64, .f32⟩
  | _ => ⟨S65536x128, .f32⟩

abbrev hbmTy0_3 (i : Nat) : BufTy := match i % 128 with
  | 0 => ⟨S65536x64, .f32⟩
  | 1 => ⟨S_, .f32⟩
  | 2 => ⟨S_, .f32⟩
  | 3 => ⟨S65536x64, .f32⟩
  | 4 => ⟨S65536x64, .i1⟩
  | 5 => ⟨S_, .f32⟩
  | 6 => ⟨S65536x64, .f32⟩
  | 7 => ⟨S65536x64, .f32⟩
  | 8 => ⟨S65536x64, .f32⟩
  | 9 => ⟨S65536x128, .f32⟩
  | 10 => ⟨S1x128, .f32⟩
  | 11 => ⟨S65536x128, .f32⟩
  | 12 => ⟨S65536x128, .f32⟩
  | 13 => ⟨S65536x128, .f32⟩
  | 14 => ⟨S65536x128, .f32⟩
  | 15 => ⟨S65536x128, .f32⟩
  | 16 => ⟨S65536x128, .f32⟩
  | 17 => ⟨S65536x128, .f32⟩
  | 18 => ⟨S65536x1, .f32⟩
  | 19 => ⟨S65536x256, .f32⟩
  | 20 => ⟨S65536x64, .f32⟩
  | 21 => ⟨S1x64, .f32⟩
  | 22 => ⟨S65536x64, .f32⟩
  | 23 => ⟨S65536x64, .f32⟩
  | 24 => ⟨S_, .f32⟩
  | 25 => ⟨S_, .f32⟩
  | 26 => ⟨S65536x64, .f32⟩
  | 27 => ⟨S65536x64, .i1⟩
  | 28 => ⟨S_, .f32⟩
  | 29 => ⟨S65536x64, .f32⟩
  | 30 => ⟨S65536x64, .f32⟩
  | 31 => ⟨S65536x64, .f32⟩
  | 32 => ⟨S65536x128, .f32⟩
  | 33 => ⟨S1x128, .f32⟩
  | 34 => ⟨S65536x128, .f32⟩
  | 35 => ⟨S65536x128, .f32⟩
  | 36 => ⟨S65536x128, .f32⟩
  | 37 => ⟨S65536x128, .f32⟩
  | 38 => ⟨S65536x128, .f32⟩
  | 39 => ⟨S65536x128, .f32⟩
  | 40 => ⟨S65536x128, .f32⟩
  | 41 => ⟨S65536x1, .f32⟩
  | 42 => ⟨S65536x256, .f32⟩
  | 43 => ⟨S65536x64, .f32⟩
  | 44 => ⟨S1x64, .f32⟩
  | 45 => ⟨S65536x64, .f32⟩
  | 46 => ⟨S65536x64, .f32⟩
  | 47 => ⟨S_, .f32⟩
  | 48 => ⟨S_, .f32⟩
  | 49 => ⟨S65536x64, .f32⟩
  | 50 => ⟨S65536x64, .i1⟩
  | 51 => ⟨S_, .f32⟩
  | 52 => ⟨S65536x64, .f32⟩
  | 53 => ⟨S65536x64, .f32⟩
  | 54 => ⟨S65536x64, .f32⟩
  | 55 => ⟨S65536x128, .f32⟩
  | 56 => ⟨S1x128, .f32⟩
  | 57 => ⟨S65536x128, .f32⟩
  | 58 => ⟨S65536x128, .f32⟩
  | 59 => ⟨S65536x128, .f32⟩
  | 60 => ⟨S65536x128, .f32⟩
  | 61 => ⟨S65536x128, .f32⟩
  | 62 => ⟨S65536x128, .f32⟩
  | 63 => ⟨S65536x128, .f32⟩
  | 64 => ⟨S65536x384, .f32⟩
  | 65 => ⟨S65536x64, .f32⟩
  | 66 => ⟨S1x64, .f32⟩
  | 67 => ⟨S65536x64, .f32⟩
  | 68 => ⟨S65536x64, .f32⟩
  | 69 => ⟨S65536x64, .f32⟩
  | 70 => ⟨S65536x64, .f32⟩
  | 71 => ⟨S1x64, .f32⟩
  | 72 => ⟨S65536x64, .f32⟩
  | 73 => ⟨S65536x64, .f32⟩
  | 74 => ⟨S65536x64, .f32⟩
  | 75 => ⟨S65536x128, .f32⟩
  | 76 => ⟨S1x128, .f32⟩
  | 77 => ⟨S65536x128, .f32⟩
  | 78 => ⟨S65536x128, .f32⟩
  | 79 => ⟨S65536x128, .f32⟩
  | _ => ⟨S65536x128, .f32⟩

abbrev hbmTy (i : Nat) : BufTy := match i / 128 with
  | 0 => hbmTy0_0 i
  | 1 => hbmTy0_1 i
  | 2 => hbmTy0_2 i
  | 3 => hbmTy0_3 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_call0_cst : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_call0_v3 : Ref sig .tc := ⟨.hbm, 142, rfl⟩
abbrev main_call0_v4 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_19 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_20 : Ref sig .tc := ⟨.hbm, 173, rfl⟩
abbrev main_call2_cst : Ref sig .tc := ⟨.hbm, 174, rfl⟩
abbrev main_call2_v0 : Ref sig .tc := ⟨.hbm, 175, rfl⟩
abbrev main_call2_v1 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_21 : Ref sig .tc := ⟨.hbm, 200, rfl⟩
abbrev main_v141 : Ref sig .tc := ⟨.hbm, 201, rfl⟩
abbrev main_cst_22 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_23 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_24 : Ref sig .tc := ⟨.hbm, 214, rfl⟩
abbrev main_v152 : Ref sig .tc := ⟨.hbm, 215, rfl⟩
abbrev main_cst_25 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_cst_26 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_27 : Ref sig .tc := ⟨.hbm, 228, rfl⟩
abbrev main_v163 : Ref sig .tc := ⟨.hbm, 229, rfl⟩
abbrev main_cst_28 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_29 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_30 : Ref sig .tc := ⟨.hbm, 244, rfl⟩
abbrev main_v176 : Ref sig .tc := ⟨.hbm, 245, rfl⟩
abbrev main_cst_31 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_32 : Ref sig .tc := ⟨.hbm, 252, rfl⟩
abbrev main_v182 : Ref sig .tc := ⟨.hbm, 253, rfl⟩
abbrev main_cst_33 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_cst_34 : Ref sig .tc := ⟨.hbm, 260, rfl⟩
abbrev main_v188 : Ref sig .tc := ⟨.hbm, 261, rfl⟩
abbrev main_cst_35 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_cst_36 : Ref sig .tc := ⟨.hbm, 268, rfl⟩
abbrev main_v194 : Ref sig .tc := ⟨.hbm, 269, rfl⟩
abbrev main_cst_37 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_cst_38 : Ref sig .tc := ⟨.hbm, 276, rfl⟩
abbrev main_v200 : Ref sig .tc := ⟨.hbm, 277, rfl⟩
abbrev main_cst_39 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_cst_40 : Ref sig .tc := ⟨.hbm, 284, rfl⟩
abbrev main_v206 : Ref sig .tc := ⟨.hbm, 285, rfl⟩
abbrev main_cst_41 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_cst_42 : Ref sig .tc := ⟨.hbm, 297, rfl⟩
abbrev main_v217 : Ref sig .tc := ⟨.hbm, 298, rfl⟩
abbrev main_cst_43 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_cst_44 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_cst_45 : Ref sig .tc := ⟨.hbm, 317, rfl⟩
abbrev main_call3_cst : Ref sig .tc := ⟨.hbm, 318, rfl⟩
abbrev main_call3_v0 : Ref sig .tc := ⟨.hbm, 319, rfl⟩
abbrev main_call3_v1 : Ref sig .tc := ⟨.hbm, 320, rfl⟩
abbrev main_call3_v2 : Ref sig .tc := ⟨.hbm, 321, rfl⟩
abbrev main_call3_v3 : Ref sig .tc := ⟨.hbm, 322, rfl⟩
abbrev main_call3_v4 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_cst_46 : Ref sig .tc := ⟨.hbm, 339, rfl⟩
abbrev main_call4_cst : Ref sig .tc := ⟨.hbm, 340, rfl⟩
abbrev main_call4_v0 : Ref sig .tc := ⟨.hbm, 341, rfl⟩
abbrev main_call4_v1 : Ref sig .tc := ⟨.hbm, 342, rfl⟩
abbrev main_call4_v2 : Ref sig .tc := ⟨.hbm, 343, rfl⟩
abbrev main_call4_v3 : Ref sig .tc := ⟨.hbm, 344, rfl⟩
abbrev main_call4_v4 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_cst_47 : Ref sig .tc := ⟨.hbm, 362, rfl⟩
abbrev main_call5_cst : Ref sig .tc := ⟨.hbm, 363, rfl⟩
abbrev main_call5_v0 : Ref sig .tc := ⟨.hbm, 364, rfl⟩
abbrev main_call5_v1 : Ref sig .tc := ⟨.hbm, 365, rfl⟩
abbrev main_call5_v2 : Ref sig .tc := ⟨.hbm, 366, rfl⟩
abbrev main_call5_v3 : Ref sig .tc := ⟨.hbm, 367, rfl⟩
abbrev main_call5_v4 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_cst_48 : Ref sig .tc := ⟨.hbm, 385, rfl⟩
abbrev main_call6_cst : Ref sig .tc := ⟨.hbm, 386, rfl⟩
abbrev main_call6_v0 : Ref sig .tc := ⟨.hbm, 387, rfl⟩
abbrev main_call6_v1 : Ref sig .tc := ⟨.hbm, 388, rfl⟩
abbrev main_call6_v2 : Ref sig .tc := ⟨.hbm, 389, rfl⟩
abbrev main_call6_v3 : Ref sig .tc := ⟨.hbm, 390, rfl⟩
abbrev main_call6_v4 : Ref sig .tc := ⟨.hbm, 391, rfl⟩
abbrev main_v281 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_v286 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_v290 : Ref sig .tc := ⟨.hbm, 401, rfl⟩
abbrev main_v291 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_cst_49 : Ref sig .tc := ⟨.hbm, 408, rfl⟩
abbrev main_call7_cst : Ref sig .tc := ⟨.hbm, 409, rfl⟩
abbrev main_call7_v0 : Ref sig .tc := ⟨.hbm, 410, rfl⟩
abbrev main_call7_v1 : Ref sig .tc := ⟨.hbm, 411, rfl⟩
abbrev main_call7_v2 : Ref sig .tc := ⟨.hbm, 412, rfl⟩
abbrev main_call7_v3 : Ref sig .tc := ⟨.hbm, 413, rfl⟩
abbrev main_call7_v4 : Ref sig .tc := ⟨.hbm, 414, rfl⟩
abbrev main_v297 : Ref sig .tc := ⟨.hbm, 415, rfl⟩
abbrev main_v298 : Ref sig .tc := ⟨.hbm, 416, rfl⟩
abbrev main_v299 : Ref sig .tc := ⟨.hbm, 417, rfl⟩
abbrev main_v300 : Ref sig .tc := ⟨.hbm, 418, rfl⟩
abbrev main_v301 : Ref sig .tc := ⟨.hbm, 419, rfl⟩
abbrev main_v302 : Ref sig .tc := ⟨.hbm, 420, rfl⟩
abbrev main_v303 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_v308 : Ref sig .tc := ⟨.hbm, 426, rfl⟩
abbrev main_v309 : Ref sig .tc := ⟨.hbm, 427, rfl⟩
abbrev main_v310 : Ref sig .tc := ⟨.hbm, 428, rfl⟩
abbrev main_v311 : Ref sig .tc := ⟨.hbm, 429, rfl⟩
abbrev main_v312 : Ref sig .tc := ⟨.hbm, 430, rfl⟩
abbrev main_cst_50 : Ref sig .tc := ⟨.hbm, 431, rfl⟩
abbrev main_call8_cst : Ref sig .tc := ⟨.hbm, 432, rfl⟩
abbrev main_call8_v0 : Ref sig .tc := ⟨.hbm, 433, rfl⟩
abbrev main_call8_v1 : Ref sig .tc := ⟨.hbm, 434, rfl⟩
abbrev main_call8_v2 : Ref sig .tc := ⟨.hbm, 435, rfl⟩
abbrev main_call8_v3 : Ref sig .tc := ⟨.hbm, 436, rfl⟩
abbrev main_call8_v4 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_v326 : Ref sig .tc := ⟨.hbm, 451, rfl⟩
abbrev main_v327 : Ref sig .tc := ⟨.hbm, 452, rfl⟩
abbrev main_v328 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_v334 : Ref sig .tc := ⟨.hbm, 459, rfl⟩
abbrev main_v335 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x1_S65536x128_0_1 : S65536x1.BroadcastsInDim S65536x128 (![0, 1] : Fin 2 → Fin S65536x128.rank)
  bcast_S_S65536x128 : S_.BroadcastsInDim S65536x128 (![] : Fin 0 → Fin S65536x128.rank)
  shapeCasts_S65536x1_S65536 : S65536x1.ShapeCasts S65536
  reducesTo_S65536x128_S65536_d1 : S65536x128.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x1_S65536x3_d1 : Shape.Concatenates [S65536x1, S65536x1, S65536x1] S65536x3 1
  reducesTo_S65536x3_S65536_d1 : S65536x3.ReducesTo [1] S65536
  bcast_S65536x1_S65536x3_0_1 : S65536x1.BroadcastsInDim S65536x3 (![0, 1] : Fin 2 → Fin S65536x3.rank)
  concatenates_S65536x128_S65536x128_S65536x256_d1 : Shape.Concatenates [S65536x128, S65536x128] S65536x256 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S65536x3_S65536x1_0_0 : S65536x3.Slices ![0, 0] S65536x1
  slices_S65536x3_S65536x1_0_1 : S65536x3.Slices ![0, 1] S65536x1
  slices_S65536x3_S65536x1_0_2 : S65536x3.Slices ![0, 2] S65536x1
  concatenates_S65536x1_S65536x1_S65536x1_S65536x1_S65536x1_S65536x1_S65536x6_d1 : Shape.Concatenates [S65536x1, S65536x1, S65536x1, S65536x1, S65536x1, S65536x1] S65536x6 1
  reducesTo_S65536x6_S65536_d1 : S65536x6.ReducesTo [1] S65536
  bcast_S65536x1_S65536x6_0_1 : S65536x1.BroadcastsInDim S65536x6 (![0, 1] : Fin 2 → Fin S65536x6.rank)
  slices_S65536x6_S65536x1_0_0 : S65536x6.Slices ![0, 0] S65536x1
  slices_S65536x6_S65536x1_0_1 : S65536x6.Slices ![0, 1] S65536x1
  slices_S65536x6_S65536x1_0_2 : S65536x6.Slices ![0, 2] S65536x1
  slices_S65536x6_S65536x1_0_3 : S65536x6.Slices ![0, 3] S65536x1
  slices_S65536x6_S65536x1_0_4 : S65536x6.Slices ![0, 4] S65536x1
  slices_S65536x6_S65536x1_0_5 : S65536x6.Slices ![0, 5] S65536x1
  concatenates_S65536x128_S65536x128_S65536x128_S65536x384_d1 : Shape.Concatenates [S65536x128, S65536x128, S65536x128] S65536x384 1
  dot_S65536x128_S128x1_S65536x1_1_0_0_1_n_n_wf : DotDims.WF S65536x128 S128x1 S65536x1 [1] [0] [0] [1] [] []
  dot_S65536x256_S256x64_S65536x64_1_0_0_1_n_n_wf : DotDims.WF S65536x256 S256x64 S65536x64 [1] [0] [0] [1] [] []
  dot_S65536x64_S64x128_S65536x128_1_0_0_1_n_n_wf : DotDims.WF S65536x64 S64x128 S65536x128 [1] [0] [0] [1] [] []
  dot_S65536x384_S384x64_S65536x64_1_0_0_1_n_n_wf : DotDims.WF S65536x384 S384x64 S65536x64 [1] [0] [0] [1] [] []
  dot_S65536x64_S64x64_S65536x64_1_0_0_1_n_n_wf : DotDims.WF S65536x64 S64x64 S65536x64 [1] [0] [0] [1] [] []

variable [Facts₀]

def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x384_S384x64_S65536x64_1_0_0_1_n_n : DotDims S65536x384 S384x64 S65536x64 where
  lhsContracting := [1]
  rhsContracting := [0]
  lhsNonContracting := [0]
  rhsNonContracting := [1]
  lhsBatch := []
  rhsBatch := []
  wf := dot_S65536x384_S384x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf

class Facts : Prop extends Facts₀ where

variable [Facts]
-- ==== Proof.RefOps0.lean ====
/-
  The operations of statements 1 … 60 of the reference program's @main (its window 0), in program
  order, as one list of 60: a statement that is an operation stands as printed; a call of @leaky_relu
  stands as the seven operations of that function's body — the zero, its broadcast, the comparison with it, the
  slope's conversion, its broadcast, the product, and the select of the @_where it calls — over the call's own
  buffers and its two operands (0 such calls here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of @main as a list: its 60 operations in order, the calls' bodies in the calls' places. -/
abbrev ops0 : List (HloOp τ sig (Elt F)) :=
  [ StableHlo.binary main_arg1 main_arg3 main_v0 ((fun l r => Host.dotGeneral dot_S65536x128_S128x1_S65536x1_1_0_0_1_n_n none l r) : (⟨S65536x128, .f32⟩ : BufTy).Contents (Elt F) → (⟨S128x1, .f32⟩ : BufTy).Contents (Elt F) → (⟨S65536x1, .f32⟩ : BufTy).Contents (Elt F)),
    StableHlo.unary main_arg4 main_v1 (broadcastInDim S1x1 ![1] bcast_S1_S1x1_1 : (⟨S1, .f32⟩ : BufTy).Contents (Elt F) → (⟨S1x1, .f32⟩ : BufTy).Contents (Elt F)),
    StableHlo.unary main_v1 main_v2 (broadcastInDim S65536x1 ![0, 1] bcast_S1x1_S65536x1_0_1 : (⟨S1x1, .f32⟩ : BufTy).Contents (Elt F) → (⟨S65536x1, .f32⟩ : BufTy).Contents (Elt F)),
    StableHlo.binary main_v0 main_v2 main_v3 (addf : (⟨S65536x1, .f32⟩ : BufTy).Contents (Elt F) → (⟨S65536x1, .f32⟩ : BufTy).Contents (Elt F) → (⟨S65536x1, .f32⟩ : BufTy).Contents (Elt F)),
    StableHlo.unary main_v3 main_v4 (Host.tanh : (⟨S65536x1, .f32⟩ : BufTy).Contents (Elt F) → (⟨S65536x1, .f32⟩ : BufTy).Contents (Elt F)),
    StableHlo.binary main_arg2 main_arg3 main_v5 ((fun l r => Host.dotGeneral dot_S65536x128_S128x1_S65536x1_1_0_0_1_n_n none l r) : (⟨S65536x128, .f32⟩ : BufTy).Contents (Elt F) → (⟨S128x1, .f32⟩ : BufTy).Contents (Elt F) → (⟨S65536x1, .f32⟩ : BufTy).Contents (Elt F)),
    StableHlo.unary main_arg4 main_v6 (broadcastInDim S1x1 ![1] bcast_S1_S1x1_1 : (⟨S1, .f32⟩ : BufTy).Contents (Elt F) → (⟨S1x1, .f32⟩ : BufTy).Contents (Elt F)),
    StableHlo.unary main_v6 main_v7 (broadcastInDim S65536x1 ![0, 1] bcast_S1x1_S65536x1_0_1 : (⟨S1x1, .f32⟩ : BufTy).Contents (Elt F) → (⟨S65536x1, .f32⟩ : BufTy).Contents (Elt F)),
    StableHlo.binary main_v5 main_v7 main_v8 (addf : (⟨S65536x1, .f32⟩ : BufTy).Contents (Elt F) → (⟨S65536x1, .f32⟩ : BufTy).Contents (Elt F) → (⟨S65536x1, .f32⟩ : BufTy).Contents (Elt F)),
    StableHlo.unary main_v8 main_v9 (Host.tanh : (⟨S65536x1, .f32⟩ : BufTy).Contents (Elt F) → (⟨S65536x1, .f32⟩ : BufTy).Contents (Elt F)),
    StableHlo.binary main_arg0 main_arg3 main_v10 ((fun l r => Host.dotGeneral dot_S65536x128_S128x1_S65536x1_1_0_0_1_n_n none l r) : (⟨S65536x128, .f32⟩ : BufTy).Contents (Elt F) → (⟨S128x1, .f32⟩ : BufTy).Contents (Elt F) → (⟨S65536x1, .f32⟩ : BufTy).Contents (Elt F)),
    StableHlo.unary main_arg4 main_v11 (broadcastInDim S1x1 ![1] bcast_S1_S1x1_1 : (⟨S1, .f32⟩ : BufTy).Contents (Elt F) → (⟨S1x1, .f32⟩ : BufTy).Contents (Elt F)),
    StableHlo.unary main_v11 main_v12 (broadcastInDim S65536x1 ![0, 1] bcast_S1x1_S65536x1_0_1 : (⟨S1x1, .f32⟩ : BufTy).Contents (Elt F) → (⟨S65536x1, .f32⟩ : BufTy).Contents (Elt F)),
    StableHlo.binary main_v10 main_v12 main_v13 (addf : (⟨S65536x1, .f32⟩ : BufTy).Contents (Elt F) → (⟨S65536x1, .f32⟩ : BufTy).Contents (Elt F) → (⟨S65536x1, .f32⟩ : BufTy).Contents (Elt F)),
    StableHlo.unary main_v13 main_v14 (Host.tanh : (⟨S65536x1, .f32⟩ : BufTy).Contents (Elt F) → (⟨S65536x1, .f32⟩ : BufTy).Contents (Elt F)),
    StableHlo.unary main_v4 main_v15 (broadcastInDim S65536x128 ![0, 1] bcast_S65536x1_S65536x128_0_1 : (⟨S65536x1, .f32⟩ : BufTy).Contents (Elt F) → (⟨S65536x128, .f32⟩ : BufTy).Contents (Elt F)),
    StableHlo.binary main_v15 main_arg1 main_v16 (mulf : (⟨S65536x128, .f32⟩ : BufTy).Contents (Elt F) → (⟨S65536x128, .f32⟩ : BufTy).Contents (Elt F) → (⟨S65536x128, .f32⟩ : BufTy).Contents (Elt F)),
    StableHlo.unary main_v9 main_v17 (broadcastInDim S65536x128 ![0, 1] bcast_S65536x1_S65536x128_0_1 : (⟨S65536x1, .f32⟩ : BufTy).Contents (Elt F) → (⟨S65536x128, .f32⟩ : BufTy).Contents (Elt F)),
    StableHlo.binary main_v17 main_arg2 main_v18 (mulf : (⟨S65536x128, .f32⟩ : BufTy).Contents (Elt F) → (⟨S65536x128, .f32⟩ : BufTy).Contents (Elt F) → (⟨S65536x128, .f32⟩ : BufTy).Contents (Elt F)),
    StableHlo.binary main_v16 main_v18 main_v19 (addf : (⟨S65536x128, .f32⟩ : BufTy).Contents (Elt F) → (⟨S65536x128, .f32⟩ : BufTy).Contents (Elt F) → (⟨S65536x128, .f32⟩ : BufTy).Contents (Elt F)),
    StableHlo.unary main_v14 main_v20 (broadcastInDim S65536x128 ![0, 1] bcast_S65536x1_S65536x128_0_1 : (⟨S65536x1, .f32⟩ : BufTy).Contents (Elt F) → (⟨S65536x128, .f32⟩ : BufTy).Contents (Elt F)),
    StableHlo.binary main_v20 main_arg0 main_v21 (mulf : (⟨S65536x128, .f32⟩ : BufTy).Contents (Elt F) → (⟨S65536x128, .f32⟩ : BufTy).Contents (Elt F) → (⟨S65536x128, .f32⟩ : BufTy).Contents (Elt F)),
    StableHlo.binary main_v19 main_v21 main_v22 (addf : (⟨S65536x128, .f32⟩ : BufTy).Contents (Elt F) → (⟨S65536x128, .f32⟩ : BufTy).Contents (Elt F) → (⟨S65536x128, .f32⟩ : BufTy).Contents (Elt F)),
    StableHlo.nullary main_cst (constant S_ .f32 0x40400000#32),
    StableHlo.unary main_cst main_v23 (broadcastInDim S65536x128 ![] bcast_S_S65536x128 : (⟨S_, .f32⟩ : BufTy).Contents (Elt F) → (⟨S65536x128, .f32⟩ : BufTy).Contents (Elt F)),
    StableHlo.binary main_v22 main_v23 main_v24 (Host.divf : (⟨S65536x128, .f32⟩ : BufTy).Contents (Elt F) → (⟨S65536x128, .f32⟩ : BufTy).Contents (Elt F) → (⟨S65536x128, .f32⟩ : BufTy).Contents (Elt F)),
    StableHlo.reshape main_v4 main_v25 rfl shapeCasts_S65536x1_S65536,
    StableHlo.reshape main_v9 main_v26 rfl shapeCasts_S65536x1_S65536,
    StableHlo.reshape main_v14 main_v27 rfl shapeCasts_S65536x1_S65536,
    StableHlo.nullary main_cst_0 (constant S_ .f32 0xFF800000#32),
    StableHlo.binary main_arg1 main_cst_0 main_v28 ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_1 (constant S_ .f32 0xFF800000#32),
    StableHlo.unary main_cst_1 main_v29 (broadcastInDim S65536 ![] bcast_S_S65536 : (⟨S_, .f32⟩ : BufTy).Contents (Elt F) → (⟨S65536, .f32⟩ : BufTy).Contents (Elt F)),
    StableHlo.binary main_v29 main_v28 main_v30 (maximumf : (⟨S65536, .f32⟩ : BufTy).Contents (Elt F) → (⟨S65536, .f32⟩ : BufTy).Contents (Elt F) → (⟨S65536, .f32⟩ : BufTy).Contents (Elt F)),
    StableHlo.unary main_v30 main_v31 (broadcastInDim S65536x1 ![0] bcast_S65536_S65536x1_0 : (⟨S65536, .f32⟩ : BufTy).Contents (Elt F) → (⟨S65536x1, .f32⟩ : BufTy).Contents (Elt F)),
    StableHlo.unary main_v31 main_v32 (broadcastInDim S65536x128 ![0, 1] bcast_S65536x1_S65536x128_0_1 : (⟨S65536x1, .f32⟩ : BufTy).Contents (Elt F) → (⟨S65536x128, .f32⟩ : BufTy).Contents (Elt F)),
    StableHlo.binary main_arg1 main_v32 main_v33 (subf : (⟨S65536x128, .f32⟩ : BufTy).Contents (Elt F) → (⟨S65536x128, .f32⟩ : BufTy).Contents (Elt F) → (⟨S65536x128, .f32⟩ : BufTy).Contents (Elt F)),
    StableHlo.unary main_v33 main_v34 (Host.exp : (⟨S65536x128, .f32⟩ : BufTy).Contents (Elt F) → (⟨S65536x128, .f32⟩ : BufTy).Contents (Elt F)),
    StableHlo.nullary main_cst_2 (constant S_ .f32 0x00000000#32),
    StableHlo.binary main_v34 main_cst_2 main_v35 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v35 main_v36 (broadcastInDim S65536x1 ![0] bcast_S65536_S65536x1_0 : (⟨S65536, .f32⟩ : BufTy).Contents (Elt F) → (⟨S65536x1, .f32⟩ : BufTy).Contents (Elt F)),
    StableHlo.unary main_v36 main_v37 (broadcastInDim S65536x128 ![0, 1] bcast_S65536x1_S65536x128_0_1 : (⟨S65536x1, .f32⟩ : BufTy).Contents (Elt F) → (⟨S65536x128, .f32⟩ : BufTy).Contents (Elt F)),
    StableHlo.binary main_v34 main_v37 main_v38 (Host.divf : (⟨S65536x128, .f32⟩ : BufTy).Contents (Elt F) → (⟨S65536x128, .f32⟩ : BufTy).Contents (Elt F) → (⟨S65536x128, .f32⟩ : BufTy).Contents (Elt F)),
    StableHlo.nullary main_cst_3 (constant S_ .f32 0xFF800000#32),
    StableHlo.binary main_arg2 main_cst_3 main_v39 ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_4 (constant S_ .f32 0xFF800000#32),
    StableHlo.unary main_cst_4 main_v40 (broadcastInDim S65536 ![] bcast_S_S65536 : (⟨S_, .f32⟩ : BufTy).Contents (Elt F) → (⟨S65536, .f32⟩ : BufTy).Contents (Elt F)),
    StableHlo.binary main_v40 main_v39 main_v41 (maximumf : (⟨S65536, .f32⟩ : BufTy).Contents (Elt F) → (⟨S65536, .f32⟩ : BufTy).Contents (Elt F) → (⟨S65536, .f32⟩ : BufTy).Contents (Elt F)),
    StableHlo.unary main_v41 main_v42 (broadcastInDim S65536x1 ![0] bcast_S65536_S65536x1_0 : (⟨S65536, .f32⟩ : BufTy).Contents (Elt F) → (⟨S65536x1, .f32⟩ : BufTy).Contents (Elt F)),
    StableHlo.unary main_v42 main_v43 (broadcastInDim S65536x128 ![0, 1] bcast_S65536x1_S65536x128_0_1 : (⟨S65536x1, .f32⟩ : BufTy).Contents (Elt F) → (⟨S65536x128, .f32⟩ : BufTy).Contents (Elt F)),
    StableHlo.binary main_arg2 main_v43 main_v44 (subf : (⟨S65536x128, .f32⟩ : BufTy).Contents (Elt F) → (⟨S65536x128, .f32⟩ : BufTy).Contents (Elt F) → (⟨S65536x128, .f32⟩ : BufTy).Contents (Elt F)),
    StableHlo.unary main_v44 main_v45 (Host.exp : (⟨S65536x128, .f32⟩ : BufTy).Contents (Elt F) → (⟨S65536x128, .f32⟩ : BufTy).Contents (Elt F)),
    StableHlo.nullary main_cst_5 (constant S_ .f32 0x00000000#32),
    StableHlo.binary main_v45 main_cst_5 main_v46 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v46 main_v47 (broadcastInDim S65536x1 ![0] bcast_S65536_S65536x1_0 : (⟨S65536, .f32⟩ : BufTy).Contents (Elt F) → (⟨S65536x1, .f32⟩ : BufTy).Contents (Elt F)),
    StableHlo.unary main_v47 main_v48 (broadcastInDim S65536x128 ![0, 1] bcast_S65536x1_S65536x128_0_1 : (⟨S65536x1, .f32⟩ : BufTy).Contents (Elt F) → (⟨S65536x128, .f32⟩ : BufTy).Contents (Elt F)),
    StableHlo.binary main_v45 main_v48 main_v49 (Host.divf : (⟨S65536x128, .f32⟩ : BufTy).Contents (Elt F) → (⟨S65536x128, .f32⟩ : BufTy).Contents (Elt F) → (⟨S65536x128, .f32⟩ : BufTy).Contents (Elt F)),
    StableHlo.nullary main_cst_6 (constant S_ .f32 0xFF800000#32),
    StableHlo.binary main_arg0 main_cst_6 main_v50 ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_7 (constant S_ .f32 0xFF800000#32) ]

end Cert.ReferenceIdeal.RefRun

end
-- ==== Proof.LibHostLine.lean ====
/-
  General facts about straight lines of host operations, for reading a long line a stretch at a time.
  A property of every operation of two lines holds of every operation of their concatenation. An operation whose only
  written buffer lies outside a given list of references writes none of that list's buffers; and a buffer that no
  operation of a line writes keeps its contents through the line — stated for a whole list of such buffers at once,
  and closed under concatenation of lines.
-/
import Idealize.ShloMosaic.Lib.StableHlo.Run

namespace Idealize.ShloMosaic.StableHlo

variable {τ : Topo} {sig : RefSig} {Val : EltTy → Type}

/-- What holds of every element of two lists holds of every element of their concatenation. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The operation writes none of the buffers of the references listed in `A`. -/
def Avoids (A : List (Ref sig .tc)) (op : HloOp τ sig Val) : Prop :=
  ∀ a ∈ A, (Proc.devRef .tc a : DevRef τ sig) ∉ op.writes

/-- A single written buffer whose reference is not in the list is none of the list's buffers. -/
theorem avoids_single {A : List (Ref sig .tc)} {y : Ref sig .tc} (hy : y ∉ A) :
    ∀ a ∈ A, (Proc.devRef .tc a : DevRef τ sig) ∉ ({Proc.devRef .tc y} : Finset (DevRef τ sig)) := fun a ha h =>
  hy (Proc.devRef_injective _ (Finset.mem_singleton.mp h) ▸ ha)

/-- A buffer of a list that every operation of the line avoids keeps its contents through the line. -/
theorem after_of_avoids {A : List (Ref sig .tc)} {l : List (HloOp τ sig Val)} (h : l.Forall (Avoids A))
    {a : Ref sig .tc} (ha : a ∈ A) (V : Valuation τ sig Val) :
    after l V (Proc.devRef .tc a) = V (Proc.devRef .tc a) :=
  after_of_forall_not_mem l V fun op hop => List.forall_iff_forall_mem.mp h op hop a ha

end Idealize.ShloMosaic.StableHlo
-- ==== Proof.RefArgs.lean ====
/-
  The reference program's nineteen argument buffers, as one list of references: the buffers its operations read and
  never write.
-/
import proofs.«113614_j77704548319488_1_alg».proof.Proof.Gen.ReferenceIdeal
import proofs.«113614_j77704548319488_1_alg».proof.Proof.LibHostLine

namespace Cert.ReferenceIdeal.RefRun

open Cert.ReferenceIdeal Idealize.ShloMosaic

/-- The references of @main's nineteen arguments, in order. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

end Cert.ReferenceIdeal.RefRun
-- ==== Proof.RefRun0.lean ====
/-
  Window 0 of the reference program's @main (statements 1 … 60) is the straight line of its 60 listed
  operations; each of them touches TensorCore buffers only, none of them writes an argument buffer, and none only allocates.
-/
import proofs.«113614_j77704548319488_1_alg».proof.Proof.RefOps0
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (it makes no call) and the list's run is unrolled, a
    trailing return absorbed by the last step's continuation. -/
theorem main_part0_eq (c : Dev nD) : main_part0 (F := F) c = seq ops0 := rfl

/-- Every operation of the window reads and writes TensorCore references only: the list is taken apart head by head,
    and each head is one of the builders, whose buffers are the references it was given. -/
theorem ops0_sub : (ops0 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops0_avoid : (ops0 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops0_fresh : (ops0 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefOps1.lean ====
/-
  The operations of statements 61 … 120 of the reference program's @main (its window 1), in program
  order, as one list of 66: a statement that is an operation stands as printed; a call of @leaky_relu
  stands as the seven operations of that function's body — the zero, its broadcast, the comparison with it, the
  slope's conversion, its broadcast, the product, and the select of the @_where it calls — over the call's own
  buffers and its two operands (1 such call here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1 of @main as a list: its 66 operations in order, the calls' bodies in the calls' places. -/
abbrev ops1 : List (HloOp τ sig (Elt F)) :=
  [ StableHlo.unary main_cst_7 main_v51 (broadcastInDim S65536 ![] bcast_S_S65536 : (⟨S_, .f32⟩ : BufTy).Contents (Elt F) → (⟨S65536, .f32⟩ : BufTy).Contents (Elt F)),
    StableHlo.binary main_v51 main_v50 main_v52 (maximumf : (⟨S65536, .f32⟩ : BufTy).Contents (Elt F) → (⟨S65536, .f32⟩ : BufTy).Contents (Elt F) → (⟨S65536, .f32⟩ : BufTy).Contents (Elt F)),
    StableHlo.unary main_v52 main_v53 (broadcastInDim S65536x1 ![0] bcast_S65536_S65536x1_0 : (⟨S65536, .f32⟩ : BufTy).Contents (Elt F) → (⟨S65536x1, .f32⟩ : BufTy).Contents (Elt F)),
    StableHlo.unary main_v53 main_v54 (broadcastInDim S65536x128 ![0, 1] bcast_S65536x1_S65536x128_0_1 : (⟨S65536x1, .f32⟩ : BufTy).Contents (Elt F) → (⟨S65536x128, .f32⟩ : BufTy).Contents (Elt F)),
    StableHlo.binary main_arg0 main_v54 main_v55 (subf : (⟨S65536x128, .f32⟩ : BufTy).Contents (Elt F) → (⟨S65536x128, .f32⟩ : BufTy).Contents (Elt F) → (⟨S65536x128, .f32⟩ : BufTy).Contents (Elt F)),
    StableHlo.unary main_v55 main_v56 (Host.exp : (⟨S65536x128, .f32⟩ : BufTy).Contents (Elt F) → (⟨S65536x128, .f32⟩ : BufTy).Contents (Elt F)),
    StableHlo.nullary main_cst_8 (constant S_ .f32 0x00000000#32),
    StableHlo.binary main_v56 main_cst_8 main_v57 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v57 main_v58 (broadcastInDim S65536x1 ![0] bcast_S65536_S65536x1_0 : (⟨S65536, .f32⟩ : BufTy).Contents (Elt F) → (⟨S65536x1, .f32⟩ : BufTy).Contents (Elt F)),
    StableHlo.unary main_v58 main_v59 (broadcastInDim S65536x128 ![0, 1] bcast_S65536x1_S65536x128_0_1 : (⟨S65536x1, .f32⟩ : BufTy).Contents (Elt F) → (⟨S65536x128, .f32⟩ : BufTy).Contents (Elt F)),
    StableHlo.binary main_v56 main_v59 main_v60 (Host.divf : (⟨S65536x128, .f32⟩ : BufTy).Contents (Elt F) → (⟨S65536x128, .f32⟩ : BufTy).Contents (Elt F) → (⟨S65536x128, .f32⟩ : BufTy).Contents (Elt F)),
    StableHlo.binary main_v25 main_v26 main_v61 (addf : (⟨S65536, .f32⟩ : BufTy).Contents (Elt F) → (⟨S65536, .f32⟩ : BufTy).Contents (Elt F) → (⟨S65536, .f32⟩ : BufTy).Contents (Elt F)),
    StableHlo.binary main_v38 main_v49 main_v62 (mulf : (⟨S65536x128, .f32⟩ : BufTy).Contents (Elt F) → (⟨S65536x128, .f32⟩ : BufTy).Contents (Elt F) → (⟨S65536x128, .f32⟩ : BufTy).Contents (Elt F)),
    StableHlo.nullary main_cst_9 (constant S_ .f32 0x00000000#32),
    StableHlo.binary main_v62 main_cst_9 main_v63 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_10 (constant S_ .f32 0x3F000000#32),
    StableHlo.unary main_cst_10 main_v64 (broadcastInDim S65536 ![] bcast_S_S65536 : (⟨S_, .f32⟩ : BufTy).Contents (Elt F) → (⟨S65536, .f32⟩ : BufTy).Contents (Elt F)),
    StableHlo.binary main_v63 main_v64 main_v65 (addf : (⟨S65536, .f32⟩ : BufTy).Contents (Elt F) → (⟨S65536, .f32⟩ : BufTy).Contents (Elt F) → (⟨S65536, .f32⟩ : BufTy).Contents (Elt F)),
    StableHlo.binary main_v61 main_v65 main_v66 (Host.divf : (⟨S65536, .f32⟩ : BufTy).Contents (Elt F) → (⟨S65536, .f32⟩ : BufTy).Contents (Elt F) → (⟨S65536, .f32⟩ : BufTy).Contents (Elt F)),
    StableHlo.binary main_v25 main_v27 main_v67 (addf : (⟨S65536, .f32⟩ : BufTy).Contents (Elt F) → (⟨S65536, .f32⟩ : BufTy).Contents (Elt F) → (⟨S65536, .f32⟩ : BufTy).Contents (Elt F)),
    StableHlo.binary main_v38 main_v60 main_v68 (mulf : (⟨S65536x128, .f32⟩ : BufTy).Contents (Elt F) → (⟨S65536x128, .f32⟩ : BufTy).Contents (Elt F) → (⟨S65536x128, .f32⟩ : BufTy).Contents (Elt F)),
    StableHlo.nullary main_cst_11 (constant S_ .f32 0x00000000#32),
    StableHlo.binary main_v68 main_cst_11 main_v69 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_12 (constant S_ .f32 0x3F000000#32),
    StableHlo.unary main_cst_12 main_v70 (broadcastInDim S65536 ![] bcast_S_S65536 : (⟨S_, .f32⟩ : BufTy).Contents (Elt F) → (⟨S65536, .f32⟩ : BufTy).Contents (Elt F)),
    StableHlo.binary main_v69 main_v70 main_v71 (addf : (⟨S65536, .f32⟩ : BufTy).Contents (Elt F) → (⟨S65536, .f32⟩ : BufTy).Contents (Elt F) → (⟨S65536, .f32⟩ : BufTy).Contents (Elt F)),
    StableHlo.binary main_v67 main_v71 main_v72 (Host.divf : (⟨S65536, .f32⟩ : BufTy).Contents (Elt F) → (⟨S65536, .f32⟩ : BufTy).Contents (Elt F) → (⟨S65536, .f32⟩ : BufTy).Contents (Elt F)),
    StableHlo.binary main_v27 main_v26 main_v73 (addf : (⟨S65536, .f32⟩ : BufTy).Contents (Elt F) → (⟨S65536, .f32⟩ : BufTy).Contents (Elt F) → (⟨S65536, .f32⟩ : BufTy).Contents (Elt F)),
    StableHlo.binary main_v49 main_v60 main_v74 (mulf : (⟨S65536x128, .f32⟩ : BufTy).Contents (Elt F) → (⟨S65536x128, .f32⟩ : BufTy).Contents (Elt F) → (⟨S65536x128, .f32⟩ : BufTy).Contents (Elt F)),
    StableHlo.nullary main_cst_13 (constant S_ .f32 0x00000000#32),
    StableHlo.binary main_v74 main_cst_13 main_v75 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_14 (constant S_ .f32 0x3F000000#32),
    StableHlo.unary main_cst_14 main_v76 (broadcastInDim S65536 ![] bcast_S_S65536 : (⟨S_, .f32⟩ : BufTy).Contents (Elt F) → (⟨S65536, .f32⟩ : BufTy).Contents (Elt F)),
    StableHlo.binary main_v75 main_v76 main_v77 (addf : (⟨S65536, .f32⟩ : BufTy).Contents (Elt F) → (⟨S65536, .f32⟩ : BufTy).Contents (Elt F) → (⟨S65536, .f32⟩ : BufTy).Contents (Elt F)),
    StableHlo.binary main_v73 main_v77 main_v78 (Host.divf : (⟨S65536, .f32⟩ : BufTy).Contents (Elt F) → (⟨S65536, .f32⟩ : BufTy).Contents (Elt F) → (⟨S65536, .f32⟩ : BufTy).Contents (Elt F)),
    StableHlo.unary main_v66 main_v79 (broadcastInDim S65536x1 ![0] bcast_S65536_S65536x1_0 : (⟨S65536, .f32⟩ : BufTy).Contents (Elt F) → (⟨S65536x1, .f32⟩ : BufTy).Contents (Elt F)),
    StableHlo.unary main_v72 main_v80 (broadcastInDim S65536x1 ![0] bcast_S65536_S65536x1_0 : (⟨S65536, .f32⟩ : BufTy).Contents (Elt F) → (⟨S65536x1, .f32⟩ : BufTy).Contents (Elt F)),
    StableHlo.unary main_v78 main_v81 (broadcastInDim S65536x1 ![0] bcast_S65536_S65536x1_0 : (⟨S65536, .f32⟩ : BufTy).Contents (Elt F) → (⟨S65536x1, .f32⟩ : BufTy).Contents (Elt F)),
    StableHlo.nary ![main_v79, main_v80, main_v81] main_v82 (fun u => concatenate S65536x3 1 [⟨S65536x1, u 0⟩, ⟨S65536x1, u 1⟩, ⟨S65536x1, u 2⟩] concatenates_S65536x1_S65536x1_S65536x1_S65536x3_d1),
    StableHlo.nullary main_cst_15 (constant S_ .f32 0xFF800000#32),
    StableHlo.binary main_v82 main_cst_15 main_v83 ((fun x v => Host.reduce FloatOps.maximumf x v reducesTo_S65536x3_S65536_d1 h_S_) : (⟨S65536x3, .f32⟩ : BufTy).Contents (Elt F) → (⟨S_, .f32⟩ : BufTy).Contents (Elt F) → (⟨S65536, .f32⟩ : BufTy).Contents (Elt F)),
    StableHlo.nullary main_cst_16 (constant S_ .f32 0xFF800000#32),
    StableHlo.unary main_cst_16 main_v84 (broadcastInDim S65536 ![] bcast_S_S65536 : (⟨S_, .f32⟩ : BufTy).Contents (Elt F) → (⟨S65536, .f32⟩ : BufTy).Contents (Elt F)),
    StableHlo.binary main_v84 main_v83 main_v85 (maximumf : (⟨S65536, .f32⟩ : BufTy).Contents (Elt F) → (⟨S65536, .f32⟩ : BufTy).Contents (Elt F) → (⟨S65536, .f32⟩ : BufTy).Contents (Elt F)),
    StableHlo.unary main_v85 main_v86 (broadcastInDim S65536x1 ![0] bcast_S65536_S65536x1_0 : (⟨S65536, .f32⟩ : BufTy).Contents (Elt F) → (⟨S65536x1, .f32⟩ : BufTy).Contents (Elt F)),
    StableHlo.unary main_v86 main_v87 (broadcastInDim S65536x3 ![0, 1] bcast_S65536x1_S65536x3_0_1 : (⟨S65536x1, .f32⟩ : BufTy).Contents (Elt F) → (⟨S65536x3, .f32⟩ : BufTy).Contents (Elt F)),
    StableHlo.binary main_v82 main_v87 main_v88 (subf : (⟨S65536x3, .f32⟩ : BufTy).Contents (Elt F) → (⟨S65536x3, .f32⟩ : BufTy).Contents (Elt F) → (⟨S65536x3, .f32⟩ : BufTy).Contents (Elt F)),
    StableHlo.unary main_v88 main_v89 (Host.exp : (⟨S65536x3, .f32⟩ : BufTy).Contents (Elt F) → (⟨S65536x3, .f32⟩ : BufTy).Contents (Elt F)),
    StableHlo.nullary main_cst_17 (constant S_ .f32 0x00000000#32),
    StableHlo.binary main_v89 main_cst_17 main_v90 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)),
    StableHlo.unary main_v90 main_v91 (broadcastInDim S65536x1 ![0] bcast_S65536_S65536x1_0 : (⟨S65536, .f32⟩ : BufTy).Contents (Elt F) → (⟨S65536x1, .f32⟩ : BufTy).Contents (Elt F)),
    StableHlo.unary main_v91 main_v92 (broadcastInDim S65536x3 ![0, 1] bcast_S65536x1_S65536x3_0_1 : (⟨S65536x1, .f32⟩ : BufTy).Contents (Elt F) → (⟨S65536x3, .f32⟩ : BufTy).Contents (Elt F)),
    StableHlo.binary main_v89 main_v92 main_v93 (Host.divf : (⟨S65536x3, .f32⟩ : BufTy).Contents (Elt F) → (⟨S65536x3, .f32⟩ : BufTy).Contents (Elt F) → (⟨S65536x3, .f32⟩ : BufTy).Contents (Elt F)),
    StableHlo.binary main_v38 main_v49 main_v94 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v94 main_arg5 main_v95 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg6 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S65536x64 ![0, 1] bcast_S1x64_S65536x64_0_1 : (⟨S1x64, .f32⟩ : BufTy).Contents (Elt F) → (⟨S65536x64, .f32⟩ : BufTy).Contents (Elt F)),
    StableHlo.binary main_v95 main_v97 main_v98 (addf : (⟨S65536x64, .f32⟩ : BufTy).Contents (Elt F) → (⟨S65536x64, .f32⟩ : BufTy).Contents (Elt F) → (⟨S65536x64, .f32⟩ : BufTy).Contents (Elt F)),
    StableHlo.nullary main_cst_18 (constant S_ .f32 0x3E4CCCCD#32),
    StableHlo.TRef.nullary main_call0.cst (constant S_ .f32 0x00000000#32),
    StableHlo.TRef.unary main_call0.cst main_call0.v0 (broadcastInDim S65536x64 ![] bcast_S_S65536x64),
    StableHlo.TRef.binary (StableHlo.TRef.of (T := ⟨S65536x64, .f32⟩) main_v98) main_call0.v0 main_call0.v1 (cmpf .oge),
    StableHlo.TRef.unary (StableHlo.TRef.of (T := ⟨S_, .f32⟩) main_cst_18) main_call0.v2 id,
    StableHlo.TRef.unary main_call0.v2 main_call0.v3 (broadcastInDim S65536x64 ![] bcast_S_S65536x64),
    StableHlo.TRef.binary main_call0.v3 (StableHlo.TRef.of (T := ⟨S65536x64, .f32⟩) main_v98) main_call0.v4 mulf,
    StableHlo.TRef.ternary main_call0.v1 (StableHlo.TRef.of (T := ⟨S65536x64, .f32⟩) main_v98) main_call0.v4 main_call0.call0.v0 select ]

end Cert.ReferenceIdeal.RefRun

end
-- ==== Proof.RefRun1.lean ====
/-
  Window 1 of the reference program's @main (statements 61 … 120) is the straight line of its 66 listed
  operations; each of them touches TensorCore buffers only, none of them writes an argument buffer, and none only allocates.
-/
import proofs.«113614_j77704548319488_1_alg».proof.Proof.RefOps1
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (its one call of @leaky_relu unfolded to that function's body, and the @_where inside it to its select) and the list's run is unrolled, a
    trailing return absorbed by the last step's continuation. -/
theorem main_part1_eq (c : Dev nD) : main_part1 (F := F) c = seq ops1 := rfl

/-- Every operation of the window reads and writes TensorCore references only: the list is taken apart head by head,
    and each head is one of the builders, whose buffers are the references it was given. -/
theorem ops1_sub : (ops1 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops1_avoid : (ops1 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops1_fresh : (ops1 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefOps2.lean ====
/-
  The operations of statements 121 … 180 of the reference program's @main (its window 2), in program
  order, as one list of 72: a statement that is an operation stands as printed; a call of @leaky_relu
  stands as the seven operations of that function's body — the zero, its broadcast, the comparison with it, the
  slope's conversion, its broadcast, the product, and the select of the @_where it calls — over the call's own
  buffers and its two operands (2 such calls here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2 of @main as a list: its 72 operations in order, the calls' bodies in the calls' places. -/
abbrev ops2 : List (HloOp τ sig (Elt F)) :=
  [ StableHlo.binary main_v99 main_arg7 main_v100 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg8 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S65536x128 ![0, 1] bcast_S1x128_S65536x128_0_1 : (⟨S1x128, .f32⟩ : BufTy).Contents (Elt F) → (⟨S65536x128, .f32⟩ : BufTy).Contents (Elt F)),
    StableHlo.binary main_v100 main_v102 main_v103 (addf : (⟨S65536x128, .f32⟩ : BufTy).Contents (Elt F) → (⟨S65536x128, .f32⟩ : BufTy).Contents (Elt F) → (⟨S65536x128, .f32⟩ : BufTy).Contents (Elt F)),
    StableHlo.unary main_v103 main_v104 (Host.tanh : (⟨S65536x128, .f32⟩ : BufTy).Contents (Elt F) → (⟨S65536x128, .f32⟩ : BufTy).Contents (Elt F)),
    StableHlo.binary main_v38 main_v60 main_v105 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v105 main_arg5 main_v106 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg6 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S65536x64 ![0, 1] bcast_S1x64_S65536x64_0_1 : (⟨S1x64, .f32⟩ : BufTy).Contents (Elt F) → (⟨S65536x64, .f32⟩ : BufTy).Contents (Elt F)),
    StableHlo.binary main_v106 main_v108 main_v109 (addf : (⟨S65536x64, .f32⟩ : BufTy).Contents (Elt F) → (⟨S65536x64, .f32⟩ : BufTy).Contents (Elt F) → (⟨S65536x64, .f32⟩ : BufTy).Contents (Elt F)),
    StableHlo.nullary main_cst_19 (constant S_ .f32 0x3E4CCCCD#32),
    StableHlo.TRef.nullary main_call1.cst (constant S_ .f32 0x00000000#32),
    StableHlo.TRef.unary main_call1.cst main_call1.v0 (broadcastInDim S65536x64 ![] bcast_S_S65536x64),
    StableHlo.TRef.binary (StableHlo.TRef.of (T := ⟨S65536x64, .f32⟩) main_v109) main_call1.v0 main_call1.v1 (cmpf .oge),
    StableHlo.TRef.unary (StableHlo.TRef.of (T := ⟨S_, .f32⟩) main_cst_19) main_call1.v2 id,
    StableHlo.TRef.unary main_call1.v2 main_call1.v3 (broadcastInDim S65536x64 ![] bcast_S_S65536x64),
    StableHlo.TRef.binary main_call1.v3 (StableHlo.TRef.of (T := ⟨S65536x64, .f32⟩) main_v109) main_call1.v4 mulf,
    StableHlo.TRef.ternary main_call1.v1 (StableHlo.TRef.of (T := ⟨S65536x64, .f32⟩) main_v109) main_call1.v4 main_call1.call0.v0 select,
    StableHlo.binary main_v110 main_arg7 main_v111 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg8 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S65536x128 ![0, 1] bcast_S1x128_S65536x128_0_1 : (⟨S1x128, .f32⟩ : BufTy).Contents (Elt F) → (⟨S65536x128, .f32⟩ : BufTy).Contents (Elt F)),
    StableHlo.binary main_v111 main_v113 main_v114 (addf : (⟨S65536x128, .f32⟩ : BufTy).Contents (Elt F) → (⟨S65536x128, .f32⟩ : BufTy).Contents (Elt F) → (⟨S65536x128, .f32⟩ : BufTy).Contents (Elt F)),
    StableHlo.unary main_v114 main_v115 (Host.tanh : (⟨S65536x128, .f32⟩ : BufTy).Contents (Elt F) → (⟨S65536x128, .f32⟩ : BufTy).Contents (Elt F)),
    StableHlo.binary main_v49 main_v60 main_v116 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v116 main_arg5 main_v117 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg6 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S65536x64 ![0, 1] bcast_S1x64_S65536x64_0_1 : (⟨S1x64, .f32⟩ : BufTy).Contents (Elt F) → (⟨S65536x64, .f32⟩ : BufTy).Contents (Elt F)),
    StableHlo.binary main_v117 main_v119 main_v120 (addf : (⟨S65536x64, .f32⟩ : BufTy).Contents (Elt F) → (⟨S65536x64, .f32⟩ : BufTy).Contents (Elt F) → (⟨S65536x64, .f32⟩ : BufTy).Contents (Elt F)),
    StableHlo.nullary main_cst_20 (constant S_ .f32 0x3E4CCCCD#32),
    StableHlo.TRef.nullary main_call2.cst (constant S_ .f32 0x00000000#32),
    StableHlo.TRef.unary main_call2.cst main_call2.v0 (broadcastInDim S65536x64 ![] bcast_S_S65536x64),
    StableHlo.TRef.binary (StableHlo.TRef.of (T := ⟨S65536x64, .f32⟩) main_v120) main_call2.v0 main_call2.v1 (cmpf .oge),
    StableHlo.TRef.unary (StableHlo.TRef.of (T := ⟨S_, .f32⟩) main_cst_20) main_call2.v2 id,
    StableHlo.TRef.unary main_call2.v2 main_call2.v3 (broadcastInDim S65536x64 ![] bcast_S_S65536x64),
    StableHlo.TRef.binary main_call2.v3 (StableHlo.TRef.of (T := ⟨S65536x64, .f32⟩) main_v120) main_call2.v4 mulf,
    StableHlo.TRef.ternary main_call2.v1 (StableHlo.TRef.of (T := ⟨S65536x64, .f32⟩) main_v120) main_call2.v4 main_call2.call0.v0 select,
    StableHlo.binary main_v121 main_arg7 main_v122 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg8 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S65536x128 ![0, 1] bcast_S1x128_S65536x128_0_1 : (⟨S1x128, .f32⟩ : BufTy).Contents (Elt F) → (⟨S65536x128, .f32⟩ : BufTy).Contents (Elt F)),
    StableHlo.binary main_v122 main_v124 main_v125 (addf : (⟨S65536x128, .f32⟩ : BufTy).Contents (Elt F) → (⟨S65536x128, .f32⟩ : BufTy).Contents (Elt F) → (⟨S65536x128, .f32⟩ : BufTy).Contents (Elt F)),
    StableHlo.unary main_v125 main_v126 (Host.tanh : (⟨S65536x128, .f32⟩ : BufTy).Contents (Elt F) → (⟨S65536x128, .f32⟩ : BufTy).Contents (Elt F)),
    StableHlo.unary main_v93 main_v127 ((extractStridedSlice S65536x1 ![0, 0] · slices_S65536x3_S65536x1_0_0) : (⟨S65536x3, .f32⟩ : BufTy).Contents (Elt F) → (⟨S65536x1, .f32⟩ : BufTy).Contents (Elt F)),
    StableHlo.unary main_v127 main_v128 (broadcastInDim S65536x128 ![0, 1] bcast_S65536x1_S65536x128_0_1 : (⟨S65536x1, .f32⟩ : BufTy).Contents (Elt F) → (⟨S65536x128, .f32⟩ : BufTy).Contents (Elt F)),
    StableHlo.binary main_v128 main_v104 main_v129 (mulf : (⟨S65536x128, .f32⟩ : BufTy).Contents (Elt F) → (⟨S65536x128, .f32⟩ : BufTy).Contents (Elt F) → (⟨S65536x128, .f32⟩ : BufTy).Contents (Elt F)),
    StableHlo.unary main_v129 main_v130 (Host.tanh : (⟨S65536x128, .f32⟩ : BufTy).Contents (Elt F) → (⟨S65536x128, .f32⟩ : BufTy).Contents (Elt F)),
    StableHlo.unary main_v93 main_v131 ((extractStridedSlice S65536x1 ![0, 1] · slices_S65536x3_S65536x1_0_1) : (⟨S65536x3, .f32⟩ : BufTy).Contents (Elt F) → (⟨S65536x1, .f32⟩ : BufTy).Contents (Elt F)),
    StableHlo.unary main_v131 main_v132 (broadcastInDim S65536x128 ![0, 1] bcast_S65536x1_S65536x128_0_1 : (⟨S65536x1, .f32⟩ : BufTy).Contents (Elt F) → (⟨S65536x128, .f32⟩ : BufTy).Contents (Elt F)),
    StableHlo.binary main_v132 main_v115 main_v133 (mulf : (⟨S65536x128, .f32⟩ : BufTy).Contents (Elt F) → (⟨S65536x128, .f32⟩ : BufTy).Contents (Elt F) → (⟨S65536x128, .f32⟩ : BufTy).Contents (Elt F)),
    StableHlo.unary main_v133 main_v134 (Host.tanh : (⟨S65536x128, .f32⟩ : BufTy).Contents (Elt F) → (⟨S65536x128, .f32⟩ : BufTy).Contents (Elt F)),
    StableHlo.unary main_v93 main_v135 ((extractStridedSlice S65536x1 ![0, 2] · slices_S65536x3_S65536x1_0_2) : (⟨S65536x3, .f32⟩ : BufTy).Contents (Elt F) → (⟨S65536x1, .f32⟩ : BufTy).Contents (Elt F)),
    StableHlo.unary main_v135 main_v136 (broadcastInDim S65536x128 ![0, 1] bcast_S65536x1_S65536x128_0_1 : (⟨S65536x1, .f32⟩ : BufTy).Contents (Elt F) → (⟨S65536x128, .f32⟩ : BufTy).Contents (Elt F)),
    StableHlo.binary main_v136 main_v126 main_v137 (mulf : (⟨S65536x128, .f32⟩ : BufTy).Contents (Elt F) → (⟨S65536x128, .f32⟩ : BufTy).Contents (Elt F) → (⟨S65536x128, .f32⟩ : BufTy).Contents (Elt F)),
    StableHlo.unary main_v137 main_v138 (Host.tanh : (⟨S65536x128, .f32⟩ : BufTy).Contents (Elt F) → (⟨S65536x128, .f32⟩ : BufTy).Contents (Elt F)),
    StableHlo.binary main_v130 main_v134 main_v139 (addf : (⟨S65536x128, .f32⟩ : BufTy).Contents (Elt F) → (⟨S65536x128, .f32⟩ : BufTy).Contents (Elt F) → (⟨S65536x128, .f32⟩ : BufTy).Contents (Elt F)),
    StableHlo.binary main_v139 main_v138 main_v140 (addf : (⟨S65536x128, .f32⟩ : BufTy).Contents (Elt F) → (⟨S65536x128, .f32⟩ : BufTy).Contents (Elt F) → (⟨S65536x128, .f32⟩ : BufTy).Contents (Elt F)),
    StableHlo.nullary main_cst_21 (constant S_ .f32 0xFF800000#32),
    StableHlo.binary main_v104 main_cst_21 main_v141 ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_22 (constant S_ .f32 0xFF800000#32),
    StableHlo.unary main_cst_22 main_v142 (broadcastInDim S65536 ![] bcast_S_S65536 : (⟨S_, .f32⟩ : BufTy).Contents (Elt F) → (⟨S65536, .f32⟩ : BufTy).Contents (Elt F)),
    StableHlo.binary main_v142 main_v141 main_v143 (maximumf : (⟨S65536, .f32⟩ : BufTy).Contents (Elt F) → (⟨S65536, .f32⟩ : BufTy).Contents (Elt F) → (⟨S65536, .f32⟩ : BufTy).Contents (Elt F)),
    StableHlo.unary main_v143 main_v144 (broadcastInDim S65536x1 ![0] bcast_S65536_S65536x1_0 : (⟨S65536, .f32⟩ : BufTy).Contents (Elt F) → (⟨S65536x1, .f32⟩ : BufTy).Contents (Elt F)),
    StableHlo.unary main_v144 main_v145 (broadcastInDim S65536x128 ![0, 1] bcast_S65536x1_S65536x128_0_1 : (⟨S65536x1, .f32⟩ : BufTy).Contents (Elt F) → (⟨S65536x128, .f32⟩ : BufTy).Contents (Elt F)),
    StableHlo.binary main_v104 main_v145 main_v146 (subf : (⟨S65536x128, .f32⟩ : BufTy).Contents (Elt F) → (⟨S65536x128, .f32⟩ : BufTy).Contents (Elt F) → (⟨S65536x128, .f32⟩ : BufTy).Contents (Elt F)),
    StableHlo.unary main_v146 main_v147 (Host.exp : (⟨S65536x128, .f32⟩ : BufTy).Contents (Elt F) → (⟨S65536x128, .f32⟩ : BufTy).Contents (Elt F)),
    StableHlo.nullary main_cst_23 (constant S_ .f32 0x00000000#32),
    StableHlo.binary main_v147 main_cst_23 main_v148 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v148 main_v149 (broadcastInDim S65536x1 ![0] bcast_S65536_S65536x1_0 : (⟨S65536, .f32⟩ : BufTy).Contents (Elt F) → (⟨S65536x1, .f32⟩ : BufTy).Contents (Elt F)),
    StableHlo.unary main_v149 main_v150 (broadcastInDim S65536x128 ![0, 1] bcast_S65536x1_S65536x128_0_1 : (⟨S65536x1, .f32⟩ : BufTy).Contents (Elt F) → (⟨S65536x128, .f32⟩ : BufTy).Contents (Elt F)),
    StableHlo.binary main_v147 main_v150 main_v151 (Host.divf : (⟨S65536x128, .f32⟩ : BufTy).Contents (Elt F) → (⟨S65536x128, .f32⟩ : BufTy).Contents (Elt F) → (⟨S65536x128, .f32⟩ : BufTy).Contents (Elt F)),
    StableHlo.nullary main_cst_24 (constant S_ .f32 0xFF800000#32),
    StableHlo.binary main_v115 main_cst_24 main_v152 ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_25 (constant S_ .f32 0xFF800000#32) ]

end Cert.ReferenceIdeal.RefRun

end
-- ==== Proof.RefRun2.lean ====
/-
  Window 2 of the reference program's @main (statements 121 … 180) is the straight line of its 72 listed
  operations; each of them touches TensorCore buffers only, none of them writes an argument buffer, and none only allocates.
-/
import proofs.«113614_j77704548319488_1_alg».proof.Proof.RefOps2
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (its two calls of @leaky_relu unfolded to that function's body, and the @_where inside each to its select) and the list's run is unrolled, a
    trailing return absorbed by the last step's continuation. -/
theorem main_part2_eq (c : Dev nD) : main_part2 (F := F) c = seq ops2 := rfl

/-- Every operation of the window reads and writes TensorCore references only: the list is taken apart head by head,
    and each head is one of the builders, whose buffers are the references it was given. -/
theorem ops2_sub : (ops2 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops2_avoid : (ops2 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops2_fresh : (ops2 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefOps3.lean ====
/-
  The operations of statements 181 … 240 of the reference program's @main (its window 3), in program
  order, as one list of 60: a statement that is an operation stands as printed; a call of @leaky_relu
  stands as the seven operations of that function's body — the zero, its broadcast, the comparison with it, the
  slope's conversion, its broadcast, the product, and the select of the @_where it calls — over the call's own
  buffers and its two operands (0 such calls here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3 of @main as a list: its 60 operations in order, the calls' bodies in the calls' places. -/
abbrev ops3 : List (HloOp τ sig (Elt F)) :=
  [ StableHlo.unary main_cst_25 main_v153 (broadcastInDim S65536 ![] bcast_S_S65536 : (⟨S_, .f32⟩ : BufTy).Contents (Elt F) → (⟨S65536, .f32⟩ : BufTy).Contents (Elt F)),
    StableHlo.binary main_v153 main_v152 main_v154 (maximumf : (⟨S65536, .f32⟩ : BufTy).Contents (Elt F) → (⟨S65536, .f32⟩ : BufTy).Contents (Elt F) → (⟨S65536, .f32⟩ : BufTy).Contents (Elt F)),
    StableHlo.unary main_v154 main_v155 (broadcastInDim S65536x1 ![0] bcast_S65536_S65536x1_0 : (⟨S65536, .f32⟩ : BufTy).Contents (Elt F) → (⟨S65536x1, .f32⟩ : BufTy).Contents (Elt F)),
    StableHlo.unary main_v155 main_v156 (broadcastInDim S65536x128 ![0, 1] bcast_S65536x1_S65536x128_0_1 : (⟨S65536x1, .f32⟩ : BufTy).Contents (Elt F) → (⟨S65536x128, .f32⟩ : BufTy).Contents (Elt F)),
    StableHlo.binary main_v115 main_v156 main_v157 (subf : (⟨S65536x128, .f32⟩ : BufTy).Contents (Elt F) → (⟨S65536x128, .f32⟩ : BufTy).Contents (Elt F) → (⟨S65536x128, .f32⟩ : BufTy).Contents (Elt F)),
    StableHlo.unary main_v157 main_v158 (Host.exp : (⟨S65536x128, .f32⟩ : BufTy).Contents (Elt F) → (⟨S65536x128, .f32⟩ : BufTy).Contents (Elt F)),
    StableHlo.nullary main_cst_26 (constant S_ .f32 0x00000000#32),
    StableHlo.binary main_v158 main_cst_26 main_v159 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v159 main_v160 (broadcastInDim S65536x1 ![0] bcast_S65536_S65536x1_0 : (⟨S65536, .f32⟩ : BufTy).Contents (Elt F) → (⟨S65536x1, .f32⟩ : BufTy).Contents (Elt F)),
    StableHlo.unary main_v160 main_v161 (broadcastInDim S65536x128 ![0, 1] bcast_S65536x1_S65536x128_0_1 : (⟨S65536x1, .f32⟩ : BufTy).Contents (Elt F) → (⟨S65536x128, .f32⟩ : BufTy).Contents (Elt F)),
    StableHlo.binary main_v158 main_v161 main_v162 (Host.divf : (⟨S65536x128, .f32⟩ : BufTy).Contents (Elt F) → (⟨S65536x128, .f32⟩ : BufTy).Contents (Elt F) → (⟨S65536x128, .f32⟩ : BufTy).Contents (Elt F)),
    StableHlo.nullary main_cst_27 (constant S_ .f32 0xFF800000#32),
    StableHlo.binary main_v126 main_cst_27 main_v163 ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_28 (constant S_ .f32 0xFF800000#32),
    StableHlo.unary main_cst_28 main_v164 (broadcastInDim S65536 ![] bcast_S_S65536 : (⟨S_, .f32⟩ : BufTy).Contents (Elt F) → (⟨S65536, .f32⟩ : BufTy).Contents (Elt F)),
    StableHlo.binary main_v164 main_v163 main_v165 (maximumf : (⟨S65536, .f32⟩ : BufTy).Contents (Elt F) → (⟨S65536, .f32⟩ : BufTy).Contents (Elt F) → (⟨S65536, .f32⟩ : BufTy).Contents (Elt F)),
    StableHlo.unary main_v165 main_v166 (broadcastInDim S65536x1 ![0] bcast_S65536_S65536x1_0 : (⟨S65536, .f32⟩ : BufTy).Contents (Elt F) → (⟨S65536x1, .f32⟩ : BufTy).Contents (Elt F)),
    StableHlo.unary main_v166 main_v167 (broadcastInDim S65536x128 ![0, 1] bcast_S65536x1_S65536x128_0_1 : (⟨S65536x1, .f32⟩ : BufTy).Contents (Elt F) → (⟨S65536x128, .f32⟩ : BufTy).Contents (Elt F)),
    StableHlo.binary main_v126 main_v167 main_v168 (subf : (⟨S65536x128, .f32⟩ : BufTy).Contents (Elt F) → (⟨S65536x128, .f32⟩ : BufTy).Contents (Elt F) → (⟨S65536x128, .f32⟩ : BufTy).Contents (Elt F)),
    StableHlo.unary main_v168 main_v169 (Host.exp : (⟨S65536x128, .f32⟩ : BufTy).Contents (Elt F) → (⟨S65536x128, .f32⟩ : BufTy).Contents (Elt F)),
    StableHlo.nullary main_cst_29 (constant S_ .f32 0x00000000#32),
    StableHlo.binary main_v169 main_cst_29 main_v170 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v170 main_v171 (broadcastInDim S65536x1 ![0] bcast_S65536_S65536x1_0 : (⟨S65536, .f32⟩ : BufTy).Contents (Elt F) → (⟨S65536x1, .f32⟩ : BufTy).Contents (Elt F)),
    StableHlo.unary main_v171 main_v172 (broadcastInDim S65536x128 ![0, 1] bcast_S65536x1_S65536x128_0_1 : (⟨S65536x1, .f32⟩ : BufTy).Contents (Elt F) → (⟨S65536x128, .f32⟩ : BufTy).Contents (Elt F)),
    StableHlo.binary main_v169 main_v172 main_v173 (Host.divf : (⟨S65536x128, .f32⟩ : BufTy).Contents (Elt F) → (⟨S65536x128, .f32⟩ : BufTy).Contents (Elt F) → (⟨S65536x128, .f32⟩ : BufTy).Contents (Elt F)),
    StableHlo.binary main_v66 main_v78 main_v174 (addf : (⟨S65536, .f32⟩ : BufTy).Contents (Elt F) → (⟨S65536, .f32⟩ : BufTy).Contents (Elt F) → (⟨S65536, .f32⟩ : BufTy).Contents (Elt F)),
    StableHlo.binary main_v151 main_v173 main_v175 (mulf : (⟨S65536x128, .f32⟩ : BufTy).Contents (Elt F) → (⟨S65536x128, .f32⟩ : BufTy).Contents (Elt F) → (⟨S65536x128, .f32⟩ : BufTy).Contents (Elt F)),
    StableHlo.nullary main_cst_30 (constant S_ .f32 0x00000000#32),
    StableHlo.binary main_v175 main_cst_30 main_v176 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_31 (constant S_ .f32 0x3F000000#32),
    StableHlo.unary main_cst_31 main_v177 (broadcastInDim S65536 ![] bcast_S_S65536 : (⟨S_, .f32⟩ : BufTy).Contents (Elt F) → (⟨S65536, .f32⟩ : BufTy).Contents (Elt F)),
    StableHlo.binary main_v176 main_v177 main_v178 (addf : (⟨S65536, .f32⟩ : BufTy).Contents (Elt F) → (⟨S65536, .f32⟩ : BufTy).Contents (Elt F) → (⟨S65536, .f32⟩ : BufTy).Contents (Elt F)),
    StableHlo.binary main_v174 main_v178 main_v179 (Host.divf : (⟨S65536, .f32⟩ : BufTy).Contents (Elt F) → (⟨S65536, .f32⟩ : BufTy).Contents (Elt F) → (⟨S65536, .f32⟩ : BufTy).Contents (Elt F)),
    StableHlo.binary main_v66 main_v72 main_v180 (addf : (⟨S65536, .f32⟩ : BufTy).Contents (Elt F) → (⟨S65536, .f32⟩ : BufTy).Contents (Elt F) → (⟨S65536, .f32⟩ : BufTy).Contents (Elt F)),
    StableHlo.binary main_v151 main_v162 main_v181 (mulf : (⟨S65536x128, .f32⟩ : BufTy).Contents (Elt F) → (⟨S65536x128, .f32⟩ : BufTy).Contents (Elt F) → (⟨S65536x128, .f32⟩ : BufTy).Contents (Elt F)),
    StableHlo.nullary main_cst_32 (constant S_ .f32 0x00000000#32),
    StableHlo.binary main_v181 main_cst_32 main_v182 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_33 (constant S_ .f32 0x3F000000#32),
    StableHlo.unary main_cst_33 main_v183 (broadcastInDim S65536 ![] bcast_S_S65536 : (⟨S_, .f32⟩ : BufTy).Contents (Elt F) → (⟨S65536, .f32⟩ : BufTy).Contents (Elt F)),
    StableHlo.binary main_v182 main_v183 main_v184 (addf : (⟨S65536, .f32⟩ : BufTy).Contents (Elt F) → (⟨S65536, .f32⟩ : BufTy).Contents (Elt F) → (⟨S65536, .f32⟩ : BufTy).Contents (Elt F)),
    StableHlo.binary main_v180 main_v184 main_v185 (Host.divf : (⟨S65536, .f32⟩ : BufTy).Contents (Elt F) → (⟨S65536, .f32⟩ : BufTy).Contents (Elt F) → (⟨S65536, .f32⟩ : BufTy).Contents (Elt F)),
    StableHlo.binary main_v72 main_v78 main_v186 (addf : (⟨S65536, .f32⟩ : BufTy).Contents (Elt F) → (⟨S65536, .f32⟩ : BufTy).Contents (Elt F) → (⟨S65536, .f32⟩ : BufTy).Contents (Elt F)),
    StableHlo.binary main_v162 main_v173 main_v187 (mulf : (⟨S65536x128, .f32⟩ : BufTy).Contents (Elt F) → (⟨S65536x128, .f32⟩ : BufTy).Contents (Elt F) → (⟨S65536x128, .f32⟩ : BufTy).Contents (Elt F)),
    StableHlo.nullary main_cst_34 (constant S_ .f32 0x00000000#32),
    StableHlo.binary main_v187 main_cst_34 main_v188 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_35 (constant S_ .f32 0x3F000000#32),
    StableHlo.unary main_cst_35 main_v189 (broadcastInDim S65536 ![] bcast_S_S65536 : (⟨S_, .f32⟩ : BufTy).Contents (Elt F) → (⟨S65536, .f32⟩ : BufTy).Contents (Elt F)),
    StableHlo.binary main_v188 main_v189 main_v190 (addf : (⟨S65536, .f32⟩ : BufTy).Contents (Elt F) → (⟨S65536, .f32⟩ : BufTy).Contents (Elt F) → (⟨S65536, .f32⟩ : BufTy).Contents (Elt F)),
    StableHlo.binary main_v186 main_v190 main_v191 (Host.divf : (⟨S65536, .f32⟩ : BufTy).Contents (Elt F) → (⟨S65536, .f32⟩ : BufTy).Contents (Elt F) → (⟨S65536, .f32⟩ : BufTy).Contents (Elt F)),
    StableHlo.binary main_v66 main_v27 main_v192 (addf : (⟨S65536, .f32⟩ : BufTy).Contents (Elt F) → (⟨S65536, .f32⟩ : BufTy).Contents (Elt F) → (⟨S65536, .f32⟩ : BufTy).Contents (Elt F)),
    StableHlo.binary main_v151 main_v60 main_v193 (mulf : (⟨S65536x128, .f32⟩ : BufTy).Contents (Elt F) → (⟨S65536x128, .f32⟩ : BufTy).Contents (Elt F) → (⟨S65536x128, .f32⟩ : BufTy).Contents (Elt F)),
    StableHlo.nullary main_cst_36 (constant S_ .f32 0x00000000#32),
    StableHlo.binary main_v193 main_cst_36 main_v194 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_37 (constant S_ .f32 0x3F000000#32),
    StableHlo.unary main_cst_37 main_v195 (broadcastInDim S65536 ![] bcast_S_S65536 : (⟨S_, .f32⟩ : BufTy).Contents (Elt F) → (⟨S65536, .f32⟩ : BufTy).Contents (Elt F)),
    StableHlo.binary main_v194 main_v195 main_v196 (addf : (⟨S65536, .f32⟩ : BufTy).Contents (Elt F) → (⟨S65536, .f32⟩ : BufTy).Contents (Elt F) → (⟨S65536, .f32⟩ : BufTy).Contents (Elt F)),
    StableHlo.binary main_v192 main_v196 main_v197 (Host.divf : (⟨S65536, .f32⟩ : BufTy).Contents (Elt F) → (⟨S65536, .f32⟩ : BufTy).Contents (Elt F) → (⟨S65536, .f32⟩ : BufTy).Contents (Elt F)),
    StableHlo.binary main_v72 main_v26 main_v198 (addf : (⟨S65536, .f32⟩ : BufTy).Contents (Elt F) → (⟨S65536, .f32⟩ : BufTy).Contents (Elt F) → (⟨S65536, .f32⟩ : BufTy).Contents (Elt F)),
    StableHlo.binary main_v162 main_v49 main_v199 (mulf : (⟨S65536x128, .f32⟩ : BufTy).Contents (Elt F) → (⟨S65536x128, .f32⟩ : BufTy).Contents (Elt F) → (⟨S65536x128, .f32⟩ : BufTy).Contents (Elt F)),
    StableHlo.nullary main_cst_38 (constant S_ .f32 0x00000000#32) ]

end Cert.ReferenceIdeal.RefRun

end
-- ==== Proof.RefRun3.lean ====
/-
  Window 3 of the reference program's @main (statements 181 … 240) is the straight line of its 60 listed
  operations; each of them touches TensorCore buffers only, none of them writes an argument buffer, and none only allocates.
-/
import proofs.«113614_j77704548319488_1_alg».proof.Proof.RefOps3
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (it makes no call) and the list's run is unrolled, a
    trailing return absorbed by the last step's continuation. -/
theorem main_part3_eq (c : Dev nD) : main_part3 (F := F) c = seq ops3 := rfl

/-- Every operation of the window reads and writes TensorCore references only: the list is taken apart head by head,
    and each head is one of the builders, whose buffers are the references it was given. -/
theorem ops3_sub : (ops3 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops3_avoid : (ops3 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops3_fresh : (ops3 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefOps4.lean ====
/-
  The operations of statements 241 … 300 of the reference program's @main (its window 4), in program
  order, as one list of 72: a statement that is an operation stands as printed; a call of @leaky_relu
  stands as the seven operations of that function's body — the zero, its broadcast, the comparison with it, the
  slope's conversion, its broadcast, the product, and the select of the @_where it calls — over the call's own
  buffers and its two operands (2 such calls here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 4 of @main as a list: its 72 operations in order, the calls' bodies in the calls' places. -/
abbrev ops4 : List (HloOp τ sig (Elt F)) :=
  [ StableHlo.binary main_v199 main_cst_38 main_v200 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_39 (constant S_ .f32 0x3F000000#32),
    StableHlo.unary main_cst_39 main_v201 (broadcastInDim S65536 ![] bcast_S_S65536 : (⟨S_, .f32⟩ : BufTy).Contents (Elt F) → (⟨S65536, .f32⟩ : BufTy).Contents (Elt F)),
    StableHlo.binary main_v200 main_v201 main_v202 (addf : (⟨S65536, .f32⟩ : BufTy).Contents (Elt F) → (⟨S65536, .f32⟩ : BufTy).Contents (Elt F) → (⟨S65536, .f32⟩ : BufTy).Contents (Elt F)),
    StableHlo.binary main_v198 main_v202 main_v203 (Host.divf : (⟨S65536, .f32⟩ : BufTy).Contents (Elt F) → (⟨S65536, .f32⟩ : BufTy).Contents (Elt F) → (⟨S65536, .f32⟩ : BufTy).Contents (Elt F)),
    StableHlo.binary main_v25 main_v78 main_v204 (addf : (⟨S65536, .f32⟩ : BufTy).Contents (Elt F) → (⟨S65536, .f32⟩ : BufTy).Contents (Elt F) → (⟨S65536, .f32⟩ : BufTy).Contents (Elt F)),
    StableHlo.binary main_v173 main_v38 main_v205 (mulf : (⟨S65536x128, .f32⟩ : BufTy).Contents (Elt F) → (⟨S65536x128, .f32⟩ : BufTy).Contents (Elt F) → (⟨S65536x128, .f32⟩ : BufTy).Contents (Elt F)),
    StableHlo.nullary main_cst_40 (constant S_ .f32 0x00000000#32),
    StableHlo.binary main_v205 main_cst_40 main_v206 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.nullary main_cst_41 (constant S_ .f32 0x3F000000#32),
    StableHlo.unary main_cst_41 main_v207 (broadcastInDim S65536 ![] bcast_S_S65536 : (⟨S_, .f32⟩ : BufTy).Contents (Elt F) → (⟨S65536, .f32⟩ : BufTy).Contents (Elt F)),
    StableHlo.binary main_v206 main_v207 main_v208 (addf : (⟨S65536, .f32⟩ : BufTy).Contents (Elt F) → (⟨S65536, .f32⟩ : BufTy).Contents (Elt F) → (⟨S65536, .f32⟩ : BufTy).Contents (Elt F)),
    StableHlo.binary main_v204 main_v208 main_v209 (Host.divf : (⟨S65536, .f32⟩ : BufTy).Contents (Elt F) → (⟨S65536, .f32⟩ : BufTy).Contents (Elt F) → (⟨S65536, .f32⟩ : BufTy).Contents (Elt F)),
    StableHlo.unary main_v179 main_v210 (broadcastInDim S65536x1 ![0] bcast_S65536_S65536x1_0 : (⟨S65536, .f32⟩ : BufTy).Contents (Elt F) → (⟨S65536x1, .f32⟩ : BufTy).Contents (Elt F)),
    StableHlo.unary main_v185 main_v211 (broadcastInDim S65536x1 ![0] bcast_S65536_S65536x1_0 : (⟨S65536, .f32⟩ : BufTy).Contents (Elt F) → (⟨S65536x1, .f32⟩ : BufTy).Contents (Elt F)),
    StableHlo.unary main_v191 main_v212 (broadcastInDim S65536x1 ![0] bcast_S65536_S65536x1_0 : (⟨S65536, .f32⟩ : BufTy).Contents (Elt F) → (⟨S65536x1, .f32⟩ : BufTy).Contents (Elt F)),
    StableHlo.unary main_v197 main_v213 (broadcastInDim S65536x1 ![0] bcast_S65536_S65536x1_0 : (⟨S65536, .f32⟩ : BufTy).Contents (Elt F) → (⟨S65536x1, .f32⟩ : BufTy).Contents (Elt F)),
    StableHlo.unary main_v203 main_v214 (broadcastInDim S65536x1 ![0] bcast_S65536_S65536x1_0 : (⟨S65536, .f32⟩ : BufTy).Contents (Elt F) → (⟨S65536x1, .f32⟩ : BufTy).Contents (Elt F)),
    StableHlo.unary main_v209 main_v215 (broadcastInDim S65536x1 ![0] bcast_S65536_S65536x1_0 : (⟨S65536, .f32⟩ : BufTy).Contents (Elt F) → (⟨S65536x1, .f32⟩ : BufTy).Contents (Elt F)),
    StableHlo.nary ![main_v210, main_v211, main_v212, main_v213, main_v214, main_v215] main_v216 (fun u => concatenate S65536x6 1 [⟨S65536x1, u 0⟩, ⟨S65536x1, u 1⟩, ⟨S65536x1, u 2⟩, ⟨S65536x1, u 3⟩, ⟨S65536x1, u 4⟩, ⟨S65536x1, u 5⟩] concatenates_S65536x1_S65536x1_S65536x1_S65536x1_S65536x1_S65536x1_S65536x6_d1),
    StableHlo.nullary main_cst_42 (constant S_ .f32 0xFF800000#32),
    StableHlo.binary main_v216 main_cst_42 main_v217 ((fun x v => Host.reduce FloatOps.maximumf x v reducesTo_S65536x6_S65536_d1 h_S_) : (⟨S65536x6, .f32⟩ : BufTy).Contents (Elt F) → (⟨S_, .f32⟩ : BufTy).Contents (Elt F) → (⟨S65536, .f32⟩ : BufTy).Contents (Elt F)),
    StableHlo.nullary main_cst_43 (constant S_ .f32 0xFF800000#32),
    StableHlo.unary main_cst_43 main_v218 (broadcastInDim S65536 ![] bcast_S_S65536 : (⟨S_, .f32⟩ : BufTy).Contents (Elt F) → (⟨S65536, .f32⟩ : BufTy).Contents (Elt F)),
    StableHlo.binary main_v218 main_v217 main_v219 (maximumf : (⟨S65536, .f32⟩ : BufTy).Contents (Elt F) → (⟨S65536, .f32⟩ : BufTy).Contents (Elt F) → (⟨S65536, .f32⟩ : BufTy).Contents (Elt F)),
    StableHlo.unary main_v219 main_v220 (broadcastInDim S65536x1 ![0] bcast_S65536_S65536x1_0 : (⟨S65536, .f32⟩ : BufTy).Contents (Elt F) → (⟨S65536x1, .f32⟩ : BufTy).Contents (Elt F)),
    StableHlo.unary main_v220 main_v221 (broadcastInDim S65536x6 ![0, 1] bcast_S65536x1_S65536x6_0_1 : (⟨S65536x1, .f32⟩ : BufTy).Contents (Elt F) → (⟨S65536x6, .f32⟩ : BufTy).Contents (Elt F)),
    StableHlo.binary main_v216 main_v221 main_v222 (subf : (⟨S65536x6, .f32⟩ : BufTy).Contents (Elt F) → (⟨S65536x6, .f32⟩ : BufTy).Contents (Elt F) → (⟨S65536x6, .f32⟩ : BufTy).Contents (Elt F)),
    StableHlo.unary main_v222 main_v223 (Host.exp : (⟨S65536x6, .f32⟩ : BufTy).Contents (Elt F) → (⟨S65536x6, .f32⟩ : BufTy).Contents (Elt F)),
    StableHlo.nullary main_cst_44 (constant S_ .f32 0x00000000#32),
    StableHlo.binary main_v223 main_cst_44 main_v224 ((fun x v => Host.reduceAdd x v reducesTo_S65536x6_S65536_d1 h_S_) : (⟨S65536x6, .f32⟩ : BufTy).Contents (Elt F) → (⟨S_, .f32⟩ : BufTy).Contents (Elt F) → (⟨S65536, .f32⟩ : BufTy).Contents (Elt F)),
    StableHlo.unary main_v224 main_v225 (broadcastInDim S65536x1 ![0] bcast_S65536_S65536x1_0 : (⟨S65536, .f32⟩ : BufTy).Contents (Elt F) → (⟨S65536x1, .f32⟩ : BufTy).Contents (Elt F)),
    StableHlo.unary main_v225 main_v226 (broadcastInDim S65536x6 ![0, 1] bcast_S65536x1_S65536x6_0_1 : (⟨S65536x1, .f32⟩ : BufTy).Contents (Elt F) → (⟨S65536x6, .f32⟩ : BufTy).Contents (Elt F)),
    StableHlo.binary main_v223 main_v226 main_v227 (Host.divf : (⟨S65536x6, .f32⟩ : BufTy).Contents (Elt F) → (⟨S65536x6, .f32⟩ : BufTy).Contents (Elt F) → (⟨S65536x6, .f32⟩ : BufTy).Contents (Elt F)),
    StableHlo.unary main_v227 main_v228 ((extractStridedSlice S65536x1 ![0, 0] · slices_S65536x6_S65536x1_0_0) : (⟨S65536x6, .f32⟩ : BufTy).Contents (Elt F) → (⟨S65536x1, .f32⟩ : BufTy).Contents (Elt F)),
    StableHlo.binary main_v130 main_v138 main_v229 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v229 main_arg9 main_v230 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg10 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S65536x64 ![0, 1] bcast_S1x64_S65536x64_0_1 : (⟨S1x64, .f32⟩ : BufTy).Contents (Elt F) → (⟨S65536x64, .f32⟩ : BufTy).Contents (Elt F)),
    StableHlo.binary main_v230 main_v232 main_v233 (addf : (⟨S65536x64, .f32⟩ : BufTy).Contents (Elt F) → (⟨S65536x64, .f32⟩ : BufTy).Contents (Elt F) → (⟨S65536x64, .f32⟩ : BufTy).Contents (Elt F)),
    StableHlo.nullary main_cst_45 (constant S_ .f32 0x3E4CCCCD#32),
    StableHlo.TRef.nullary main_call3.cst (constant S_ .f32 0x00000000#32),
    StableHlo.TRef.unary main_call3.cst main_call3.v0 (broadcastInDim S65536x64 ![] bcast_S_S65536x64),
    StableHlo.TRef.binary (StableHlo.TRef.of (T := ⟨S65536x64, .f32⟩) main_v233) main_call3.v0 main_call3.v1 (cmpf .oge),
    StableHlo.TRef.unary (StableHlo.TRef.of (T := ⟨S_, .f32⟩) main_cst_45) main_call3.v2 id,
    StableHlo.TRef.unary main_call3.v2 main_call3.v3 (broadcastInDim S65536x64 ![] bcast_S_S65536x64),
    StableHlo.TRef.binary main_call3.v3 (StableHlo.TRef.of (T := ⟨S65536x64, .f32⟩) main_v233) main_call3.v4 mulf,
    StableHlo.TRef.ternary main_call3.v1 (StableHlo.TRef.of (T := ⟨S65536x64, .f32⟩) main_v233) main_call3.v4 main_call3.call0.v0 select,
    StableHlo.binary main_v234 main_arg11 main_v235 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg12 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S65536x128 ![0, 1] bcast_S1x128_S65536x128_0_1 : (⟨S1x128, .f32⟩ : BufTy).Contents (Elt F) → (⟨S65536x128, .f32⟩ : BufTy).Contents (Elt F)),
    StableHlo.binary main_v235 main_v237 main_v238 (addf : (⟨S65536x128, .f32⟩ : BufTy).Contents (Elt F) → (⟨S65536x128, .f32⟩ : BufTy).Contents (Elt F) → (⟨S65536x128, .f32⟩ : BufTy).Contents (Elt F)),
    StableHlo.unary main_v238 main_v239 (Host.tanh : (⟨S65536x128, .f32⟩ : BufTy).Contents (Elt F) → (⟨S65536x128, .f32⟩ : BufTy).Contents (Elt F)),
    StableHlo.unary main_v228 main_v240 (broadcastInDim S65536x128 ![0, 1] bcast_S65536x1_S65536x128_0_1 : (⟨S65536x1, .f32⟩ : BufTy).Contents (Elt F) → (⟨S65536x128, .f32⟩ : BufTy).Contents (Elt F)),
    StableHlo.binary main_v240 main_v239 main_v241 (mulf : (⟨S65536x128, .f32⟩ : BufTy).Contents (Elt F) → (⟨S65536x128, .f32⟩ : BufTy).Contents (Elt F) → (⟨S65536x128, .f32⟩ : BufTy).Contents (Elt F)),
    StableHlo.unary main_v241 main_v242 (Host.tanh : (⟨S65536x128, .f32⟩ : BufTy).Contents (Elt F) → (⟨S65536x128, .f32⟩ : BufTy).Contents (Elt F)),
    StableHlo.unary main_v227 main_v243 ((extractStridedSlice S65536x1 ![0, 1] · slices_S65536x6_S65536x1_0_1) : (⟨S65536x6, .f32⟩ : BufTy).Contents (Elt F) → (⟨S65536x1, .f32⟩ : BufTy).Contents (Elt F)),
    StableHlo.binary main_v130 main_v134 main_v244 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v244 main_arg9 main_v245 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg10 main_v246 (broadcastInDim S1x64 ![1] bcast_S64_S1x64_1 : (⟨S64, .f32⟩ : BufTy).Contents (Elt F) → (⟨S1x64, .f32⟩ : BufTy).Contents (Elt F)),
    StableHlo.unary main_v246 main_v247 (broadcastInDim S65536x64 ![0, 1] bcast_S1x64_S65536x64_0_1 : (⟨S1x64, .f32⟩ : BufTy).Contents (Elt F) → (⟨S65536x64, .f32⟩ : BufTy).Contents (Elt F)),
    StableHlo.binary main_v245 main_v247 main_v248 (addf : (⟨S65536x64, .f32⟩ : BufTy).Contents (Elt F) → (⟨S65536x64, .f32⟩ : BufTy).Contents (Elt F) → (⟨S65536x64, .f32⟩ : BufTy).Contents (Elt F)),
    StableHlo.nullary main_cst_46 (constant S_ .f32 0x3E4CCCCD#32),
    StableHlo.TRef.nullary main_call4.cst (constant S_ .f32 0x00000000#32),
    StableHlo.TRef.unary main_call4.cst main_call4.v0 (broadcastInDim S65536x64 ![] bcast_S_S65536x64),
    StableHlo.TRef.binary (StableHlo.TRef.of (T := ⟨S65536x64, .f32⟩) main_v248) main_call4.v0 main_call4.v1 (cmpf .oge),
    StableHlo.TRef.unary (StableHlo.TRef.of (T := ⟨S_, .f32⟩) main_cst_46) main_call4.v2 id,
    StableHlo.TRef.unary main_call4.v2 main_call4.v3 (broadcastInDim S65536x64 ![] bcast_S_S65536x64),
    StableHlo.TRef.binary main_call4.v3 (StableHlo.TRef.of (T := ⟨S65536x64, .f32⟩) main_v248) main_call4.v4 mulf,
    StableHlo.TRef.ternary main_call4.v1 (StableHlo.TRef.of (T := ⟨S65536x64, .f32⟩) main_v248) main_call4.v4 main_call4.call0.v0 select,
    StableHlo.binary main_v249 main_arg11 main_v250 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg12 main_v251 (broadcastInDim S1x128 ![1] bcast_S128_S1x128_1 : (⟨S128, .f32⟩ : BufTy).Contents (Elt F) → (⟨S1x128, .f32⟩ : BufTy).Contents (Elt F)) ]

end Cert.ReferenceIdeal.RefRun

end
-- ==== Proof.RefRun4.lean ====
/-
  Window 4 of the reference program's @main (statements 241 … 300) is the straight line of its 72 listed
  operations; each of them touches TensorCore buffers only, none of them writes an argument buffer, and none only allocates.
-/
import proofs.«113614_j77704548319488_1_alg».proof.Proof.RefOps4
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (its two calls of @leaky_relu unfolded to that function's body, and the @_where inside each to its select) and the list's run is unrolled, a
    trailing return absorbed by the last step's continuation. -/
theorem main_part4_eq (c : Dev nD) : main_part4 (F := F) c = seq ops4 := rfl

/-- Every operation of the window reads and writes TensorCore references only: the list is taken apart head by head,
    and each head is one of the builders, whose buffers are the references it was given. -/
theorem ops4_sub : (ops4 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops4_avoid : (ops4 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops4_fresh : (ops4 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefOps5.lean ====
/-
  The operations of statements 301 … 360 of the reference program's @main (its window 5), in program
  order, as one list of 78: a statement that is an operation stands as printed; a call of @leaky_relu
  stands as the seven operations of that function's body — the zero, its broadcast, the comparison with it, the
  slope's conversion, its broadcast, the product, and the select of the @_where it calls — over the call's own
  buffers and its two operands (3 such calls here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 5 of @main as a list: its 78 operations in order, the calls' bodies in the calls' places. -/
abbrev ops5 : List (HloOp τ sig (Elt F)) :=
  [ StableHlo.unary main_v251 main_v252 (broadcastInDim S65536x128 ![0, 1] bcast_S1x128_S65536x128_0_1 : (⟨S1x128, .f32⟩ : BufTy).Contents (Elt F) → (⟨S65536x128, .f32⟩ : BufTy).Contents (Elt F)),
    StableHlo.binary main_v250 main_v252 main_v253 (addf : (⟨S65536x128, .f32⟩ : BufTy).Contents (Elt F) → (⟨S65536x128, .f32⟩ : BufTy).Contents (Elt F) → (⟨S65536x128, .f32⟩ : BufTy).Contents (Elt F)),
    StableHlo.unary main_v253 main_v254 (Host.tanh : (⟨S65536x128, .f32⟩ : BufTy).Contents (Elt F) → (⟨S65536x128, .f32⟩ : BufTy).Contents (Elt F)),
    StableHlo.unary main_v243 main_v255 (broadcastInDim S65536x128 ![0, 1] bcast_S65536x1_S65536x128_0_1 : (⟨S65536x1, .f32⟩ : BufTy).Contents (Elt F) → (⟨S65536x128, .f32⟩ : BufTy).Contents (Elt F)),
    StableHlo.binary main_v255 main_v254 main_v256 (mulf : (⟨S65536x128, .f32⟩ : BufTy).Contents (Elt F) → (⟨S65536x128, .f32⟩ : BufTy).Contents (Elt F) → (⟨S65536x128, .f32⟩ : BufTy).Contents (Elt F)),
    StableHlo.unary main_v256 main_v257 (Host.tanh : (⟨S65536x128, .f32⟩ : BufTy).Contents (Elt F) → (⟨S65536x128, .f32⟩ : BufTy).Contents (Elt F)),
    StableHlo.binary main_v242 main_v257 main_v258 (addf : (⟨S65536x128, .f32⟩ : BufTy).Contents (Elt F) → (⟨S65536x128, .f32⟩ : BufTy).Contents (Elt F) → (⟨S65536x128, .f32⟩ : BufTy).Contents (Elt F)),
    StableHlo.unary main_v227 main_v259 ((extractStridedSlice S65536x1 ![0, 2] · slices_S65536x6_S65536x1_0_2) : (⟨S65536x6, .f32⟩ : BufTy).Contents (Elt F) → (⟨S65536x1, .f32⟩ : BufTy).Contents (Elt F)),
    StableHlo.binary main_v138 main_v134 main_v260 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v260 main_arg9 main_v261 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg10 main_v262 (broadcastInDim S1x64 ![1] bcast_S64_S1x64_1 : (⟨S64, .f32⟩ : BufTy).Contents (Elt F) → (⟨S1x64, .f32⟩ : BufTy).Contents (Elt F)),
    StableHlo.unary main_v262 main_v263 (broadcastInDim S65536x64 ![0, 1] bcast_S1x64_S65536x64_0_1 : (⟨S1x64, .f32⟩ : BufTy).Contents (Elt F) → (⟨S65536x64, .f32⟩ : BufTy).Contents (Elt F)),
    StableHlo.binary main_v261 main_v263 main_v264 (addf : (⟨S65536x64, .f32⟩ : BufTy).Contents (Elt F) → (⟨S65536x64, .f32⟩ : BufTy).Contents (Elt F) → (⟨S65536x64, .f32⟩ : BufTy).Contents (Elt F)),
    StableHlo.nullary main_cst_47 (constant S_ .f32 0x3E4CCCCD#32),
    StableHlo.TRef.nullary main_call5.cst (constant S_ .f32 0x00000000#32),
    StableHlo.TRef.unary main_call5.cst main_call5.v0 (broadcastInDim S65536x64 ![] bcast_S_S65536x64),
    StableHlo.TRef.binary (StableHlo.TRef.of (T := ⟨S65536x64, .f32⟩) main_v264) main_call5.v0 main_call5.v1 (cmpf .oge),
    StableHlo.TRef.unary (StableHlo.TRef.of (T := ⟨S_, .f32⟩) main_cst_47) main_call5.v2 id,
    StableHlo.TRef.unary main_call5.v2 main_call5.v3 (broadcastInDim S65536x64 ![] bcast_S_S65536x64),
    StableHlo.TRef.binary main_call5.v3 (StableHlo.TRef.of (T := ⟨S65536x64, .f32⟩) main_v264) main_call5.v4 mulf,
    StableHlo.TRef.ternary main_call5.v1 (StableHlo.TRef.of (T := ⟨S65536x64, .f32⟩) main_v264) main_call5.v4 main_call5.call0.v0 select,
    StableHlo.binary main_v265 main_arg11 main_v266 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg12 main_v267 (broadcastInDim S1x128 ![1] bcast_S128_S1x128_1 : (⟨S128, .f32⟩ : BufTy).Contents (Elt F) → (⟨S1x128, .f32⟩ : BufTy).Contents (Elt F)),
    StableHlo.unary main_v267 main_v268 (broadcastInDim S65536x128 ![0, 1] bcast_S1x128_S65536x128_0_1 : (⟨S1x128, .f32⟩ : BufTy).Contents (Elt F) → (⟨S65536x128, .f32⟩ : BufTy).Contents (Elt F)),
    StableHlo.binary main_v266 main_v268 main_v269 (addf : (⟨S65536x128, .f32⟩ : BufTy).Contents (Elt F) → (⟨S65536x128, .f32⟩ : BufTy).Contents (Elt F) → (⟨S65536x128, .f32⟩ : BufTy).Contents (Elt F)),
    StableHlo.unary main_v269 main_v270 (Host.tanh : (⟨S65536x128, .f32⟩ : BufTy).Contents (Elt F) → (⟨S65536x128, .f32⟩ : BufTy).Contents (Elt F)),
    StableHlo.unary main_v259 main_v271 (broadcastInDim S65536x128 ![0, 1] bcast_S65536x1_S65536x128_0_1 : (⟨S65536x1, .f32⟩ : BufTy).Contents (Elt F) → (⟨S65536x128, .f32⟩ : BufTy).Contents (Elt F)),
    StableHlo.binary main_v271 main_v270 main_v272 (mulf : (⟨S65536x128, .f32⟩ : BufTy).Contents (Elt F) → (⟨S65536x128, .f32⟩ : BufTy).Contents (Elt F) → (⟨S65536x128, .f32⟩ : BufTy).Contents (Elt F)),
    StableHlo.unary main_v272 main_v273 (Host.tanh : (⟨S65536x128, .f32⟩ : BufTy).Contents (Elt F) → (⟨S65536x128, .f32⟩ : BufTy).Contents (Elt F)),
    StableHlo.binary main_v258 main_v273 main_v274 (addf : (⟨S65536x128, .f32⟩ : BufTy).Contents (Elt F) → (⟨S65536x128, .f32⟩ : BufTy).Contents (Elt F) → (⟨S65536x128, .f32⟩ : BufTy).Contents (Elt F)),
    StableHlo.unary main_v227 main_v275 ((extractStridedSlice S65536x1 ![0, 3] · slices_S65536x6_S65536x1_0_3) : (⟨S65536x6, .f32⟩ : BufTy).Contents (Elt F) → (⟨S65536x1, .f32⟩ : BufTy).Contents (Elt F)),
    StableHlo.binary main_v130 main_v60 main_v276 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v276 main_arg9 main_v277 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg10 main_v278 (broadcastInDim S1x64 ![1] bcast_S64_S1x64_1 : (⟨S64, .f32⟩ : BufTy).Contents (Elt F) → (⟨S1x64, .f32⟩ : BufTy).Contents (Elt F)),
    StableHlo.unary main_v278 main_v279 (broadcastInDim S65536x64 ![0, 1] bcast_S1x64_S65536x64_0_1 : (⟨S1x64, .f32⟩ : BufTy).Contents (Elt F) → (⟨S65536x64, .f32⟩ : BufTy).Contents (Elt F)),
    StableHlo.binary main_v277 main_v279 main_v280 (addf : (⟨S65536x64, .f32⟩ : BufTy).Contents (Elt F) → (⟨S65536x64, .f32⟩ : BufTy).Contents (Elt F) → (⟨S65536x64, .f32⟩ : BufTy).Contents (Elt F)),
    StableHlo.nullary main_cst_48 (constant S_ .f32 0x3E4CCCCD#32),
    StableHlo.TRef.nullary main_call6.cst (constant S_ .f32 0x00000000#32),
    StableHlo.TRef.unary main_call6.cst main_call6.v0 (broadcastInDim S65536x64 ![] bcast_S_S65536x64),
    StableHlo.TRef.binary (StableHlo.TRef.of (T := ⟨S65536x64, .f32⟩) main_v280) main_call6.v0 main_call6.v1 (cmpf .oge),
    StableHlo.TRef.unary (StableHlo.TRef.of (T := ⟨S_, .f32⟩) main_cst_48) main_call6.v2 id,
    StableHlo.TRef.unary main_call6.v2 main_call6.v3 (broadcastInDim S65536x64 ![] bcast_S_S65536x64),
    StableHlo.TRef.binary main_call6.v3 (StableHlo.TRef.of (T := ⟨S65536x64, .f32⟩) main_v280) main_call6.v4 mulf,
    StableHlo.TRef.ternary main_call6.v1 (StableHlo.TRef.of (T := ⟨S65536x64, .f32⟩) main_v280) main_call6.v4 main_call6.call0.v0 select,
    StableHlo.binary main_v281 main_arg11 main_v282 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg12 main_v283 (broadcastInDim S1x128 ![1] bcast_S128_S1x128_1 : (⟨S128, .f32⟩ : BufTy).Contents (Elt F) → (⟨S1x128, .f32⟩ : BufTy).Contents (Elt F)),
    StableHlo.unary main_v283 main_v284 (broadcastInDim S65536x128 ![0, 1] bcast_S1x128_S65536x128_0_1 : (⟨S1x128, .f32⟩ : BufTy).Contents (Elt F) → (⟨S65536x128, .f32⟩ : BufTy).Contents (Elt F)),
    StableHlo.binary main_v282 main_v284 main_v285 (addf : (⟨S65536x128, .f32⟩ : BufTy).Contents (Elt F) → (⟨S65536x128, .f32⟩ : BufTy).Contents (Elt F) → (⟨S65536x128, .f32⟩ : BufTy).Contents (Elt F)),
    StableHlo.unary main_v285 main_v286 (Host.tanh : (⟨S65536x128, .f32⟩ : BufTy).Contents (Elt F) → (⟨S65536x128, .f32⟩ : BufTy).Contents (Elt F)),
    StableHlo.unary main_v275 main_v287 (broadcastInDim S65536x128 ![0, 1] bcast_S65536x1_S65536x128_0_1 : (⟨S65536x1, .f32⟩ : BufTy).Contents (Elt F) → (⟨S65536x128, .f32⟩ : BufTy).Contents (Elt F)),
    StableHlo.binary main_v287 main_v286 main_v288 (mulf : (⟨S65536x128, .f32⟩ : BufTy).Contents (Elt F) → (⟨S65536x128, .f32⟩ : BufTy).Contents (Elt F) → (⟨S65536x128, .f32⟩ : BufTy).Contents (Elt F)),
    StableHlo.unary main_v288 main_v289 (Host.tanh : (⟨S65536x128, .f32⟩ : BufTy).Contents (Elt F) → (⟨S65536x128, .f32⟩ : BufTy).Contents (Elt F)),
    StableHlo.binary main_v274 main_v289 main_v290 (addf : (⟨S65536x128, .f32⟩ : BufTy).Contents (Elt F) → (⟨S65536x128, .f32⟩ : BufTy).Contents (Elt F) → (⟨S65536x128, .f32⟩ : BufTy).Contents (Elt F)),
    StableHlo.unary main_v227 main_v291 ((extractStridedSlice S65536x1 ![0, 4] · slices_S65536x6_S65536x1_0_4) : (⟨S65536x6, .f32⟩ : BufTy).Contents (Elt F) → (⟨S65536x1, .f32⟩ : BufTy).Contents (Elt F)),
    StableHlo.binary main_v134 main_v49 main_v292 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.binary main_v292 main_arg9 main_v293 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg10 main_v294 (broadcastInDim S1x64 ![1] bcast_S64_S1x64_1 : (⟨S64, .f32⟩ : BufTy).Contents (Elt F) → (⟨S1x64, .f32⟩ : BufTy).Contents (Elt F)),
    StableHlo.unary main_v294 main_v295 (broadcastInDim S65536x64 ![0, 1] bcast_S1x64_S65536x64_0_1 : (⟨S1x64, .f32⟩ : BufTy).Contents (Elt F) → (⟨S65536x64, .f32⟩ : BufTy).Contents (Elt F)),
    StableHlo.binary main_v293 main_v295 main_v296 (addf : (⟨S65536x64, .f32⟩ : BufTy).Contents (Elt F) → (⟨S65536x64, .f32⟩ : BufTy).Contents (Elt F) → (⟨S65536x64, .f32⟩ : BufTy).Contents (Elt F)),
    StableHlo.nullary main_cst_49 (constant S_ .f32 0x3E4CCCCD#32),
    StableHlo.TRef.nullary main_call7.cst (constant S_ .f32 0x00000000#32),
    StableHlo.TRef.unary main_call7.cst main_call7.v0 (broadcastInDim S65536x64 ![] bcast_S_S65536x64),
    StableHlo.TRef.binary (StableHlo.TRef.of (T := ⟨S65536x64, .f32⟩) main_v296) main_call7.v0 main_call7.v1 (cmpf .oge),
    StableHlo.TRef.unary (StableHlo.TRef.of (T := ⟨S_, .f32⟩) main_cst_49) main_call7.v2 id,
    StableHlo.TRef.unary main_call7.v2 main_call7.v3 (broadcastInDim S65536x64 ![] bcast_S_S65536x64),
    StableHlo.TRef.binary main_call7.v3 (StableHlo.TRef.of (T := ⟨S65536x64, .f32⟩) main_v296) main_call7.v4 mulf,
    StableHlo.TRef.ternary main_call7.v1 (StableHlo.TRef.of (T := ⟨S65536x64, .f32⟩) main_v296) main_call7.v4 main_call7.call0.v0 select,
    StableHlo.binary main_v297 main_arg11 main_v298 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg12 main_v299 (broadcastInDim S1x128 ![1] bcast_S128_S1x128_1 : (⟨S128, .f32⟩ : BufTy).Contents (Elt F) → (⟨S1x128, .f32⟩ : BufTy).Contents (Elt F)),
    StableHlo.unary main_v299 main_v300 (broadcastInDim S65536x128 ![0, 1] bcast_S1x128_S65536x128_0_1 : (⟨S1x128, .f32⟩ : BufTy).Contents (Elt F) → (⟨S65536x128, .f32⟩ : BufTy).Contents (Elt F)),
    StableHlo.binary main_v298 main_v300 main_v301 (addf : (⟨S65536x128, .f32⟩ : BufTy).Contents (Elt F) → (⟨S65536x128, .f32⟩ : BufTy).Contents (Elt F) → (⟨S65536x128, .f32⟩ : BufTy).Contents (Elt F)),
    StableHlo.unary main_v301 main_v302 (Host.tanh : (⟨S65536x128, .f32⟩ : BufTy).Contents (Elt F) → (⟨S65536x128, .f32⟩ : BufTy).Contents (Elt F)),
    StableHlo.unary main_v291 main_v303 (broadcastInDim S65536x128 ![0, 1] bcast_S65536x1_S65536x128_0_1 : (⟨S65536x1, .f32⟩ : BufTy).Contents (Elt F) → (⟨S65536x128, .f32⟩ : BufTy).Contents (Elt F)),
    StableHlo.binary main_v303 main_v302 main_v304 (mulf : (⟨S65536x128, .f32⟩ : BufTy).Contents (Elt F) → (⟨S65536x128, .f32⟩ : BufTy).Contents (Elt F) → (⟨S65536x128, .f32⟩ : BufTy).Contents (Elt F)),
    StableHlo.unary main_v304 main_v305 (Host.tanh : (⟨S65536x128, .f32⟩ : BufTy).Contents (Elt F) → (⟨S65536x128, .f32⟩ : BufTy).Contents (Elt F)),
    StableHlo.binary main_v290 main_v305 main_v306 (addf : (⟨S65536x128, .f32⟩ : BufTy).Contents (Elt F) → (⟨S65536x128, .f32⟩ : BufTy).Contents (Elt F) → (⟨S65536x128, .f32⟩ : BufTy).Contents (Elt F)),
    StableHlo.unary main_v227 main_v307 ((extractStridedSlice S65536x1 ![0, 5] · slices_S65536x6_S65536x1_0_5) : (⟨S65536x6, .f32⟩ : BufTy).Contents (Elt F) → (⟨S65536x1, .f32⟩ : BufTy).Contents (Elt F)),
    StableHlo.binary main_v138 main_v38 main_v308 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) ]

end Cert.ReferenceIdeal.RefRun

end
-- ==== Proof.RefRun5.lean ====
/-
  Window 5 of the reference program's @main (statements 301 … 360) is the straight line of its 78 listed
  operations; each of them touches TensorCore buffers only, none of them writes an argument buffer, and none only allocates.
-/
import proofs.«113614_j77704548319488_1_alg».proof.Proof.RefOps5
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (its three calls of @leaky_relu unfolded to that function's body, and the @_where inside each to its select) and the list's run is unrolled, a
    trailing return absorbed by the last step's continuation. -/
theorem main_part5_eq (c : Dev nD) : main_part5 (F := F) c = seq ops5 := rfl

/-- Every operation of the window reads and writes TensorCore references only: the list is taken apart head by head,
    and each head is one of the builders, whose buffers are the references it was given. -/
theorem ops5_sub : (ops5 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops5_avoid : (ops5 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops5_fresh : (ops5 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefOps6.lean ====
/-
  The operations of statements 361 … 391 of the reference program's @main (its window 6), in program
  order, as one list of 37: a statement that is an operation stands as printed; a call of @leaky_relu
  stands as the seven operations of that function's body — the zero, its broadcast, the comparison with it, the
  slope's conversion, its broadcast, the product, and the select of the @_where it calls — over the call's own
  buffers and its two operands (1 such call here).
-/
import proofs.«113614_j77704548319488_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 6 of @main as a list: its 37 operations in order, the calls' bodies in the calls' places. -/
abbrev ops6 : List (HloOp τ sig (Elt F)) :=
  [ StableHlo.binary main_v308 main_arg9 main_v309 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg10 main_v310 (broadcastInDim S1x64 ![1] bcast_S64_S1x64_1 : (⟨S64, .f32⟩ : BufTy).Contents (Elt F) → (⟨S1x64, .f32⟩ : BufTy).Contents (Elt F)),
    StableHlo.unary main_v310 main_v311 (broadcastInDim S65536x64 ![0, 1] bcast_S1x64_S65536x64_0_1 : (⟨S1x64, .f32⟩ : BufTy).Contents (Elt F) → (⟨S65536x64, .f32⟩ : BufTy).Contents (Elt F)),
    StableHlo.binary main_v309 main_v311 main_v312 (addf : (⟨S65536x64, .f32⟩ : BufTy).Contents (Elt F) → (⟨S65536x64, .f32⟩ : BufTy).Contents (Elt F) → (⟨S65536x64, .f32⟩ : BufTy).Contents (Elt F)),
    StableHlo.nullary main_cst_50 (constant S_ .f32 0x3E4CCCCD#32),
    StableHlo.TRef.nullary main_call8.cst (constant S_ .f32 0x00000000#32),
    StableHlo.TRef.unary main_call8.cst main_call8.v0 (broadcastInDim S65536x64 ![] bcast_S_S65536x64),
    StableHlo.TRef.binary (StableHlo.TRef.of (T := ⟨S65536x64, .f32⟩) main_v312) main_call8.v0 main_call8.v1 (cmpf .oge),
    StableHlo.TRef.unary (StableHlo.TRef.of (T := ⟨S_, .f32⟩) main_cst_50) main_call8.v2 id,
    StableHlo.TRef.unary main_call8.v2 main_call8.v3 (broadcastInDim S65536x64 ![] bcast_S_S65536x64),
    StableHlo.TRef.binary main_call8.v3 (StableHlo.TRef.of (T := ⟨S65536x64, .f32⟩) main_v312) main_call8.v4 mulf,
    StableHlo.TRef.ternary main_call8.v1 (StableHlo.TRef.of (T := ⟨S65536x64, .f32⟩) main_v312) main_call8.v4 main_call8.call0.v0 select,
    StableHlo.binary main_v313 main_arg11 main_v314 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg12 main_v315 (broadcastInDim S1x128 ![1] bcast_S128_S1x128_1 : (⟨S128, .f32⟩ : BufTy).Contents (Elt F) → (⟨S1x128, .f32⟩ : BufTy).Contents (Elt F)),
    StableHlo.unary main_v315 main_v316 (broadcastInDim S65536x128 ![0, 1] bcast_S1x128_S65536x128_0_1 : (⟨S1x128, .f32⟩ : BufTy).Contents (Elt F) → (⟨S65536x128, .f32⟩ : BufTy).Contents (Elt F)),
    StableHlo.binary main_v314 main_v316 main_v317 (addf : (⟨S65536x128, .f32⟩ : BufTy).Contents (Elt F) → (⟨S65536x128, .f32⟩ : BufTy).Contents (Elt F) → (⟨S65536x128, .f32⟩ : BufTy).Contents (Elt F)),
    StableHlo.unary main_v317 main_v318 (Host.tanh : (⟨S65536x128, .f32⟩ : BufTy).Contents (Elt F) → (⟨S65536x128, .f32⟩ : BufTy).Contents (Elt F)),
    StableHlo.unary main_v307 main_v319 (broadcastInDim S65536x128 ![0, 1] bcast_S65536x1_S65536x128_0_1 : (⟨S65536x1, .f32⟩ : BufTy).Contents (Elt F) → (⟨S65536x128, .f32⟩ : BufTy).Contents (Elt F)),
    StableHlo.binary main_v319 main_v318 main_v320 (mulf : (⟨S65536x128, .f32⟩ : BufTy).Contents (Elt F) → (⟨S65536x128, .f32⟩ : BufTy).Contents (Elt F) → (⟨S65536x128, .f32⟩ : BufTy).Contents (Elt F)),
    StableHlo.unary main_v320 main_v321 (Host.tanh : (⟨S65536x128, .f32⟩ : BufTy).Contents (Elt F) → (⟨S65536x128, .f32⟩ : BufTy).Contents (Elt F)),
    StableHlo.binary main_v306 main_v321 main_v322 (addf : (⟨S65536x128, .f32⟩ : BufTy).Contents (Elt F) → (⟨S65536x128, .f32⟩ : BufTy).Contents (Elt F) → (⟨S65536x128, .f32⟩ : BufTy).Contents (Elt F)),
    StableHlo.nary ![main_v24, main_v140, main_v322] main_v323 (fun u => concatenate S65536x384 1 [⟨S65536x128, u 0⟩, ⟨S65536x128, u 1⟩, ⟨S65536x128, u 2⟩] concatenates_S65536x128_S65536x128_S65536x128_S65536x384_d1),
    StableHlo.binary main_v323 main_arg13 main_v324 ((fun l r => Host.dotGeneral dot_S65536x384_S384x64_S65536x64_1_0_0_1_n_n none l r) : (⟨S65536x384, .f32⟩ : BufTy).Contents (Elt F) → (⟨S384x64, .f32⟩ : BufTy).Contents (Elt F) → (⟨S65536x64, .f32⟩ : BufTy).Contents (Elt F)),
    StableHlo.unary main_arg14 main_v325 (broadcastInDim S1x64 ![1] bcast_S64_S1x64_1 : (⟨S64, .f32⟩ : BufTy).Contents (Elt F) → (⟨S1x64, .f32⟩ : BufTy).Contents (Elt F)),
    StableHlo.unary main_v325 main_v326 (broadcastInDim S65536x64 ![0, 1] bcast_S1x64_S65536x64_0_1 : (⟨S1x64, .f32⟩ : BufTy).Contents (Elt F) → (⟨S65536x64, .f32⟩ : BufTy).Contents (Elt F)),
    StableHlo.binary main_v324 main_v326 main_v327 (addf : (⟨S65536x64, .f32⟩ : BufTy).Contents (Elt F) → (⟨S65536x64, .f32⟩ : BufTy).Contents (Elt F) → (⟨S65536x64, .f32⟩ : BufTy).Contents (Elt F)),
    StableHlo.unary main_v327 main_v328 (Host.tanh : (⟨S65536x64, .f32⟩ : BufTy).Contents (Elt F) → (⟨S65536x64, .f32⟩ : BufTy).Contents (Elt F)),
    StableHlo.binary main_v328 main_arg15 main_v329 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg16 main_v330 (broadcastInDim S1x64 ![1] bcast_S64_S1x64_1 : (⟨S64, .f32⟩ : BufTy).Contents (Elt F) → (⟨S1x64, .f32⟩ : BufTy).Contents (Elt F)),
    StableHlo.unary main_v330 main_v331 (broadcastInDim S65536x64 ![0, 1] bcast_S1x64_S65536x64_0_1 : (⟨S1x64, .f32⟩ : BufTy).Contents (Elt F) → (⟨S65536x64, .f32⟩ : BufTy).Contents (Elt F)),
    StableHlo.binary main_v329 main_v331 main_v332 (addf : (⟨S65536x64, .f32⟩ : BufTy).Contents (Elt F) → (⟨S65536x64, .f32⟩ : BufTy).Contents (Elt F) → (⟨S65536x64, .f32⟩ : BufTy).Contents (Elt F)),
    StableHlo.unary main_v332 main_v333 (Host.tanh : (⟨S65536x64, .f32⟩ : BufTy).Contents (Elt F) → (⟨S65536x64, .f32⟩ : BufTy).Contents (Elt F)),
    StableHlo.binary main_v333 main_arg17 main_v334 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    StableHlo.unary main_arg18 main_v335 (broadcastInDim S1x128 ![1] bcast_S128_S1x128_1 : (⟨S128, .f32⟩ : BufTy).Contents (Elt F) → (⟨S1x128, .f32⟩ : BufTy).Contents (Elt F)),
    StableHlo.unary main_v335 main_v336 (broadcastInDim S65536x128 ![0, 1] bcast_S1x128_S65536x128_0_1 : (⟨S1x128, .f32⟩ : BufTy).Contents (Elt F) → (⟨S65536x128, .f32⟩ : BufTy).Contents (Elt F)),
    StableHlo.binary main_v334 main_v336 main_v337 (addf : (⟨S65536x128, .f32⟩ : BufTy).Contents (Elt F) → (⟨S65536x128, .f32⟩ : BufTy).Contents (Elt F) → (⟨S65536x128, .f32⟩ : BufTy).Contents (Elt F)),
    StableHlo.unary main_v337 main_v338 (Host.tanh : (⟨S65536x128, .f32⟩ : BufTy).Contents (Elt F) → (⟨S65536x128, .f32⟩ : BufTy).Contents (Elt F)) ]

end Cert.ReferenceIdeal.RefRun

end
-- ==== Proof.RefRun6.lean ====
/-
  Window 6 of the reference program's @main (statements 361 … 392) is the straight line of its 37 listed
  operations; each of them touches TensorCore buffers only, none of them writes an argument buffer, and none only allocates.
-/
import proofs.«113614_j77704548319488_1_alg».proof.Proof.RefOps6
import proofs.«113614_j77704548319488_1_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement: the comparison recurses once per statement of the window
set_option maxRecDepth 8192 in
/-- The window is its list run in order: both sides are the same chain of `hlo` steps once the window's definition
    is opened (its one call of @leaky_relu unfolded to that function's body, and the @_where inside it to its select) and the list's run is unrolled, a
    trailing return absorbed by the last step's continuation. -/
theorem main_part6_eq (c : Dev nD) : main_part6 (F := F) c = seq ops6 := rfl

/-- Every operation of the window reads and writes TensorCore references only: the list is taken apart head by head,
    and each head is one of the builders, whose buffers are the references it was given. -/
theorem ops6_sub : (ops6 : List (HloOp τ sig (Elt F))).Forall fun op => op.bufs ⊆ tcRefs τ sig := by
  repeat' (first
    | with_reducible exact nullary_bufs_sub ..
    | with_reducible exact unary_bufs_sub ..
    | with_reducible exact binary_bufs_sub ..
    | with_reducible exact ternary_bufs_sub ..
    | with_reducible exact reshape_bufs_sub ..
    | with_reducible exact nary_bufs_sub ..
    | refine (List.forall_cons _ _ _).mpr ⟨?_, ?_⟩
    | exact trivial)

/-- No operation of the window writes an argument: each builder writes the one buffer of its result reference, and
    that reference is not among the nineteen arguments' (decided reference by reference). -/
theorem ops6_avoid : (ops6 : List (HloOp τ sig (Elt F))).Forall (Avoids args) := by
  repeat' (first
    | refine (List.forall_cons _ _ _).mpr ⟨?_, ?_⟩
    | exact avoids_single (by decide)
    | exact trivial)

/-- Every operation of the window determines its result (none only allocates a buffer): each builder's set of
    freshly allocated buffers is empty by definition. -/
theorem ops6_fresh : (ops6 : List (HloOp τ sig (Elt F))).Forall fun op => op.fresh = ∅ := by
  repeat' (first
    | refine (List.forall_cons _ _ _).mpr ⟨?_, ?_⟩
    | exact rfl
    | exact trivial)

end Cert.ReferenceIdeal.RefRun

end
-- ==== Proof.RefRun.lean ====
/-
  The reference program's run, read off its operations. @main is cut into seven windows; each is the straight line of
  its listed operations (the calls of @leaky_relu unfolded in place), so @main is the straight line of the seven lists
  joined. A straight line of host operations on a signature that scopes nothing always terminates, and leaves every
  TensorCore buffer at the fold of the operations' results over the launch contents. No operation writes an argument
  buffer, so the nineteen arguments end as they started.
-/
import proofs.«113614_j77704548319488_1_alg».proof.Proof.RefRun0
import proofs.«113614_j77704548319488_1_alg».proof.Proof.RefRun1
import proofs.«113614_j77704548319488_1_alg».proof.Proof.RefRun2
import proofs.«113614_j77704548319488_1_alg».proof.Proof.RefRun3
import proofs.«113614_j77704548319488_1_alg».proof.Proof.RefRun4
import proofs.«113614_j77704548319488_1_alg».proof.Proof.RefRun5
import proofs.«113614_j77704548319488_1_alg».proof.Proof.RefRun6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 445 operations, in order: the seven windows' lists joined. -/
abbrev ops : List (HloOp τ sig (Elt F)) :=
  ops0 ++ ops1 ++ ops2 ++ ops3 ++ ops4 ++ ops5 ++ ops6

/-- @main is that straight line: it runs its seven windows in order, each window is its own list run in order, and
    lists run one after the other are their concatenation run as one (sequencing reassociated to match). -/
theorem main_eq (c : Dev nD) : main (F := F) c = seq ops := by
  simp only [ops, seq_append, bind_assoc, ← main_part0_eq c, ← main_part1_eq c, ← main_part2_eq c, ← main_part3_eq c,
    ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main reads and writes TensorCore references only: so for each window, hence for the join. -/
theorem ops_sub : (ops : List (HloOp τ sig (Elt F))).Forall fun op => op.bufs ⊆ tcRefs τ sig :=
  forall_append (forall_append (forall_append (forall_append (forall_append (forall_append
    ops0_sub ops1_sub) ops2_sub) ops3_sub) ops4_sub) ops5_sub) ops6_sub

/-- No operation of @main writes an argument: so for each window, hence for the join. -/
theorem ops_avoid : (ops : List (HloOp τ sig (Elt F))).Forall (Avoids args) :=
  forall_append (forall_append (forall_append (forall_append (forall_append (forall_append
    ops0_avoid ops1_avoid) ops2_avoid) ops3_avoid) ops4_avoid) ops5_avoid) ops6_avoid

/-- Every operation of @main determines its result: so for each window, hence for the join. -/
theorem ops_fresh : (ops : List (HloOp τ sig (Elt F))).Forall fun op => op.fresh = ∅ :=
  forall_append (forall_append (forall_append (forall_append (forall_append (forall_append
    ops0_fresh ops1_fresh) ops2_fresh) ops3_fresh) ops4_fresh) ops5_fresh) ops6_fresh

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

theorem arg0_kept (V : Valuation τ sig (Elt F)) :
    after ops V (main_arg0 : DevRef τ sig) = V (main_arg0 : DevRef τ sig) :=
  after_of_avoids ops_avoid (by decide) V

theorem arg1_kept (V : Valuation τ sig (Elt F)) :
    after ops V (main_arg1 : DevRef τ sig) = V (main_arg1 : DevRef τ sig) :=
  after_of_avoids ops_avoid (by decide) V

theorem arg2_kept (V : Valuation τ sig (Elt F)) :
    after ops V (main_arg2 : DevRef τ sig) = V (main_arg2 : DevRef τ sig) :=
  after_of_avoids ops_avoid (by decide) V

theorem arg3_kept (V : Valuation τ sig (Elt F)) :
    after ops V (main_arg3 : DevRef τ sig) = V (main_arg3 : DevRef τ sig) :=
  after_of_avoids ops_avoid (by decide) V

theorem arg4_kept (V : Valuation τ sig (Elt F)) :
    after ops V (main_arg4 : DevRef τ sig) = V (main_arg4 : DevRef τ sig) :=
  after_of_avoids ops_avoid (by decide) V

theorem arg5_kept (V : Valuation τ sig (Elt F)) :
    after ops V (main_arg5 : DevRef τ sig) = V (main_arg5 : DevRef τ sig) :=
  after_of_avoids ops_avoid (by decide) V

theorem arg6_kept (V : Valuation τ sig (Elt F)) :
    after ops V (main_arg6 : DevRef τ sig) = V (main_arg6 : DevRef τ sig) :=
  after_of_avoids ops_avoid (by decide) V

theorem arg7_kept (V : Valuation τ sig (Elt F)) :
    after ops V (main_arg7 : DevRef τ sig) = V (main_arg7 : DevRef τ sig) :=
  after_of_avoids ops_avoid (by decide) V

theorem arg8_kept (V : Valuation τ sig (Elt F)) :
    after ops V (main_arg8 : DevRef τ sig) = V (main_arg8 : DevRef τ sig) :=
  after_of_avoids ops_avoid (by decide) V

theorem arg9_kept (V : Valuation τ sig (Elt F)) :
    after ops V (main_arg9 : DevRef τ sig) = V (main_arg9 : DevRef τ sig) :=
  after_of_avoids ops_avoid (by decide) V

theorem arg10_kept (V : Valuation τ sig (Elt F)) :
    after ops V (main_arg10 : DevRef τ sig) = V (main_arg10 : DevRef τ sig) :=
  after_of_avoids ops_avoid (by decide) V

theorem arg11_kept (V : Valuation τ sig (Elt F)) :
    after ops V (main_arg11 : DevRef τ sig) = V (main_arg11 : DevRef τ sig) :=
  after_of_avoids ops_avoid (by decide) V

theorem arg12_kept (V : Valuation τ sig (Elt F)) :
    after ops V (main_arg12 : DevRef τ sig) = V (main_arg12 : DevRef τ sig) :=
  after_of_avoids ops_avoid (by decide) V

theorem arg13_kept (V : Valuation τ sig (Elt F)) :
    after ops V (main_arg13 : DevRef τ sig) = V (main_arg13 : DevRef τ sig) :=
  after_of_avoids ops_avoid (by decide) V

theorem arg14_kept (V : Valuation τ sig (Elt F)) :
    after ops V (main_arg14 : DevRef τ sig) = V (main_arg14 : DevRef τ sig) :=
  after_of_avoids ops_avoid (by decide) V

theorem arg15_kept (V : Valuation τ sig (Elt F)) :
    after ops V (main_arg15 : DevRef τ sig) = V (main_arg15 : DevRef τ sig) :=
  after_of_avoids ops_avoid (by decide) V

theorem arg16_kept (V : Valuation τ sig (Elt F)) :
    after ops V (main_arg16 : DevRef τ sig) = V (main_arg16 : DevRef τ sig) :=
  after_of_avoids ops_avoid (by decide) V

theorem arg17_kept (V : Valuation τ sig (Elt F)) :
    after ops V (main_arg17 : DevRef τ sig) = V (main_arg17 : DevRef τ sig) :=
  after_of_avoids ops_avoid (by decide) V

theorem arg18_kept (V : Valuation τ sig (Elt F)) :
    after ops V (main_arg18 : DevRef τ sig) = V (main_arg18 : DevRef τ sig) :=
  after_of_avoids ops_avoid (by decide) V

end Cert.ReferenceIdeal.RefRun

end
-- ==== Proof.Frames.lean ====
/-
  The three frame claims and the idealization claim.

  Both kernels' frames are their generated frame certificates. The reference is a straight line of host operations none
  of which writes an argument: every weakly fair execution runs the line to its end, and an argument's contents after
  the line are its contents before it. The idealization ledger is empty, so that claim is the true proposition.
-/
import proofs.«113614_j77704548319488_1_alg».proof.Defs
import proofs.«113614_j77704548319488_1_alg».proof.Proof.Gen.Kernel.Frame
import proofs.«113614_j77704548319488_1_alg».proof.Proof.Gen.KernelIdeal.Frame
import proofs.«113614_j77704548319488_1_alg».proof.Proof.RefRun
import proofs.«113614_j77704548319488_1_alg».proof.Proof.Gen.Pre_finite_inputs

noncomputable section

namespace Cert.Proof.Frames

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

open Cert.ReferenceIdeal Cert.ReferenceIdeal.RefRun in
theorem frame_ri : Cert.frame_ReferenceIdeal := fun m ρ _ =>
  (θ_run Cert.ReferenceIdeal.defs _ _).mono (fun _ h c =>
    ⟨(h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _),
     (h c main_arg15).trans (arg15_kept _),
     (h c main_arg16).trans (arg16_kept _),
     (h c main_arg17).trans (arg17_kept _),
     (h c main_arg18).trans (arg18_kept _)⟩)
    (run_main (F := Ideal) m ρ)

theorem preserves : Cert.preserves_Kernel_KernelIdeal := trivial

end Cert.Proof.Frames

end
-- ==== Proof.LibHostRows.lean ====
/-
  The reference's array operations read at an index, over arrays of extended reals of any two extents.

  A `broadcast_in_dim` of a column, of a row, of a vector to a column or to a row, and of a scalar; a transpose of a
  matrix; a sum and a maximum along a row and along a column; a product of two matrices: each read at an index with
  named coordinates is the operand at the index it names, the sum (the fold of the maximum) over the reduced
  coordinate, the sum of the products over the contracted coordinate.
-/
import Idealize.ShloMosaic.Lib.ValueIdx
import Idealize.ShloMosaic.Lib.Pipeline.Value
import Idealize.ShloMosaic.PureOps.Ideal.Laws
import Idealize.ShloMosaic.PureOps.Reduce

noncomputable section

namespace Cert.Lib.HostRows

open Idealize.ShloMosaic Idealize.ShloMosaic.ValueIdx
open scoped BigOperators

variable {α : Type} {n0 n1 : ℕ}

/-! ## Broadcasts -/

/-- An [n0, 1] column stretched along the rows of an [n0, n1] array reads its row's entry. -/
theorem bcast_col (h : (⟨2, ![n0, 1]⟩ : Shape).BroadcastsInDim ⟨2, ![n0, n1]⟩ (![0, 1] : Fin 2 → Fin 2))
    (N : (⟨2, ![n0, 1]⟩ : Shape).Idx → α) (a : Fin n0) (b : Fin n1) :
    broadcastInDim ⟨2, ![n0, n1]⟩ (![0, 1] : Fin 2 → Fin 2) h N (ix2 a b) = N (ix2 a 0) := by
  refine broadcastInDim_apply _ h N _ _ fun d => ?_
  fin_cases d
  · show (a : ℕ) = if n0 = 1 then 0 else (a : ℕ)
    split_ifs with h1
    · subst h1; exact Nat.lt_one_iff.mp a.isLt
    · rfl
  · rfl

/-- A [1, n1] row stretched along the columns of an [n0, n1] array reads its column's entry. -/
theorem bcast_row (h : (⟨2, ![1, n1]⟩ : Shape).BroadcastsInDim ⟨2, ![n0, n1]⟩ (![0, 1] : Fin 2 → Fin 2))
    (N : (⟨2, ![1, n1]⟩ : Shape).Idx → α) (a : Fin n0) (b : Fin n1) :
    broadcastInDim ⟨2, ![n0, n1]⟩ (![0, 1] : Fin 2 → Fin 2) h N (ix2 a b) = N (ix2 0 b) := by
  refine broadcastInDim_apply _ h N _ _ fun d => ?_
  fin_cases d
  · rfl
  · show (b : ℕ) = if n1 = 1 then 0 else (b : ℕ)
    split_ifs with h1
    · subst h1; exact Nat.lt_one_iff.mp b.isLt
    · rfl

/-- A vector of `n0` entries as an [n0, 1] column. -/
theorem bcast_vec_col (h : (⟨1, ![n0]⟩ : Shape).BroadcastsInDim ⟨2, ![n0, 1]⟩ (![0] : Fin 1 → Fin 2))
    (R : (⟨1, ![n0]⟩ : Shape).Idx → α) (a : Fin n0) (c : Fin 1) :
    broadcastInDim ⟨2, ![n0, 1]⟩ (![0] : Fin 1 → Fin 2) h R (ix2 a c) = R (ix1 a) := by
  refine broadcastInDim_apply _ h R _ _ fun d => ?_
  fin_cases d
  show (a : ℕ) = if n0 = 1 then 0 else (a : ℕ)
  split_ifs with h1
  · subst h1; exact Nat.lt_one_iff.mp a.isLt
  · rfl

/-- A vector of `n1` entries as a [1, n1] row. -/
theorem bcast_vec_row (h : (⟨1, ![n1]⟩ : Shape).BroadcastsInDim ⟨2, ![1, n1]⟩ (![1] : Fin 1 → Fin 2))
    (R : (⟨1, ![n1]⟩ : Shape).Idx → α) (c : Fin 1) (b : Fin n1) :
    broadcastInDim ⟨2, ![1, n1]⟩ (![1] : Fin 1 → Fin 2) h R (ix2 c b) = R (ix1 b) := by
  refine broadcastInDim_apply _ h R _ _ fun d => ?_
  fin_cases d
  show (b : ℕ) = if n1 = 1 then 0 else (b : ℕ)
  split_ifs with h1
  · subst h1; exact Nat.lt_one_iff.mp b.isLt
  · rfl

/-- A scalar stretched to a vector reads the scalar. -/
theorem bcast_scalar (h : (⟨0, ![]⟩ : Shape).BroadcastsInDim ⟨1, ![n0]⟩ (![] : Fin 0 → Fin 1))
    (c : (⟨0, ![]⟩ : Shape).Idx → α) (a : Fin n0) :
    broadcastInDim ⟨1, ![n0]⟩ (![] : Fin 0 → Fin 1) h c (ix1 a) = c ix0 :=
  broadcastInDim_apply _ h c _ _ fun d => d.elim0

/-! ## Transpose -/

/-- The transpose of an [n0, n1] array read at (b, a) is the array at (a, b). -/
theorem transpose_swap (h : (⟨2, ![n0, n1]⟩ : Shape).Transposes ([1, 0] : List (Fin 2)) ⟨2, ![n1, n0]⟩)
    (Q : (⟨2, ![n0, n1]⟩ : Shape).Idx → α) (a : Fin n0) (b : Fin n1) :
    transpose ⟨2, ![n1, n0]⟩ ([1, 0] : List (Fin 2)) Q h (ix2 b a) = Q (ix2 a b) := by
  refine transpose_apply _ Q h _ _ fun d => ?_
  fin_cases d <;> rfl

/-! ## Reductions -/

/-- The index over the vector index `a` with the coordinate `k` inserted on the second axis. -/
theorem lift_axis1 (h : (⟨2, ![n0, n1]⟩ : Shape).Reduces ([1] : List (Fin 2)) ⟨1, ![n0]⟩) (a : Fin n0) (k : Fin n1) :
    h.lift (ix1 a) k = ix2 a k := by
  funext c
  refine Fin.ext ?_
  fin_cases c <;> rfl

/-- The index over the vector index `b` with the coordinate `k` inserted on the first axis. -/
theorem lift_axis0 (h : (⟨2, ![n0, n1]⟩ : Shape).Reduces ([0] : List (Fin 2)) ⟨1, ![n1]⟩) (b : Fin n1) (k : Fin n0) :
    h.lift (ix1 b) k = ix2 k b := by
  funext c
  refine Fin.ext ?_
  fin_cases c <;> rfl

/-- The host's sum along each row: the initial value plus the sum of the row's entries. -/
theorem hostReduceAdd_rows (h' : (⟨2, ![n0, n1]⟩ : Shape).ReducesTo ([1] : List (Fin 2)) ⟨1, ![n0]⟩)
    (h : (⟨2, ![n0, n1]⟩ : Shape).Reduces ([1] : List (Fin 2)) ⟨1, ![n0]⟩)
    (X : (⟨2, ![n0, n1]⟩ : Shape).Idx → EReal) (init : EReal) (a : Fin n0) :
    Ideal.hostReduceAdd h' X init (ix1 a) = init + ∑ k : Fin n1, X (ix2 a k) := by
  rw [Ideal.hostReduceAdd_single h' h]
  exact congrArg (init + ·) (Finset.sum_congr rfl fun k _ => congrArg X (lift_axis1 h a k))

/-- The host's sum along each column: the initial value plus the sum of the column's entries. -/
theorem hostReduceAdd_cols (h' : (⟨2, ![n0, n1]⟩ : Shape).ReducesTo ([0] : List (Fin 2)) ⟨1, ![n1]⟩)
    (h : (⟨2, ![n0, n1]⟩ : Shape).Reduces ([0] : List (Fin 2)) ⟨1, ![n1]⟩)
    (X : (⟨2, ![n0, n1]⟩ : Shape).Idx → EReal) (init : EReal) (b : Fin n1) :
    Ideal.hostReduceAdd h' X init (ix1 b) = init + ∑ k : Fin n0, X (ix2 k b) := by
  rw [Ideal.hostReduceAdd_single h' h]
  exact congrArg (init + ·) (Finset.sum_congr rfl fun k _ => congrArg X (lift_axis0 h b k))

/-- The host's `reduce` with an add body along each row, as a program writes it: the scalar initial value's one entry
    plus the sum of the row's entries. -/
theorem hostReduceAdd_rows_apply {u : Shape} (h' : (⟨2, ![n0, n1]⟩ : Shape).ReducesTo ([1] : List (Fin 2)) ⟨1, ![n0]⟩)
    (hu : 0 < u.numel) (X : (⟨2, ![n0, n1]⟩ : Shape).Idx → EReal) (init : u.Idx → EReal) (a : Fin n0) :
    Host.reduceAdd (F := Ideal) (φ := .f32) X init h' hu (ix1 a)
      = init (Shape.Idx.first hu) + ∑ k : Fin n1, X (ix2 a k) :=
  hostReduceAdd_rows h' ⟨h'.1, Nat.one_pos, h'.2⟩ X _ a

/-- The same along each column. -/
theorem hostReduceAdd_cols_apply {u : Shape} (h' : (⟨2, ![n0, n1]⟩ : Shape).ReducesTo ([0] : List (Fin 2)) ⟨1, ![n1]⟩)
    (hu : 0 < u.numel) (X : (⟨2, ![n0, n1]⟩ : Shape).Idx → EReal) (init : u.Idx → EReal) (b : Fin n1) :
    Host.reduceAdd (F := Ideal) (φ := .f32) X init h' hu (ix1 b)
      = init (Shape.Idx.first hu) + ∑ k : Fin n0, X (ix2 k b) :=
  hostReduceAdd_cols h' ⟨h'.1, Nat.one_pos, h'.2⟩ X _ b

/-- The f32 zero constant, of any shape, is `0` at every index. -/
theorem constant_zero_apply {s : Shape} (i : s.Idx) : constant (F := Ideal) s .f32 0x00000000#32 i = 0 :=
  Ideal.ofBits_zero_f32

/-- The host's maximum along each row: the fold of the maximum from the initial value over the row's entries. -/
theorem hostReduceMax_rows {u : Shape} (h' : (⟨2, ![n0, n1]⟩ : Shape).ReducesTo ([1] : List (Fin 2)) ⟨1, ![n0]⟩)
    (h : (⟨2, ![n0, n1]⟩ : Shape).Reduces ([1] : List (Fin 2)) ⟨1, ![n0]⟩) (hu : 0 < u.numel)
    (X : (⟨2, ![n0, n1]⟩ : Shape).Idx → EReal) (init : u.Idx → EReal) (a : Fin n0) :
    Host.reduce (FloatOps.maximumf (F := Ideal) (φ := .f32)) X init h' hu (ix1 a)
      = (Finset.univ : Finset (Fin n1)).fold max (init (Shape.Idx.first hu)) fun k => X (ix2 a k) := by
  rw [Host.reduce_eq_fold_single (FloatOps.maximumf (F := Ideal) (φ := .f32)) X init h' h hu]
  refine Finset.fold_congr fun k _ => ?_
  exact congrArg X (lift_axis1 h a k)

/-- The host's maximum along each column. -/
theorem hostReduceMax_cols {u : Shape} (h' : (⟨2, ![n0, n1]⟩ : Shape).ReducesTo ([0] : List (Fin 2)) ⟨1, ![n1]⟩)
    (h : (⟨2, ![n0, n1]⟩ : Shape).Reduces ([0] : List (Fin 2)) ⟨1, ![n1]⟩) (hu : 0 < u.numel)
    (X : (⟨2, ![n0, n1]⟩ : Shape).Idx → EReal) (init : u.Idx → EReal) (b : Fin n1) :
    Host.reduce (FloatOps.maximumf (F := Ideal) (φ := .f32)) X init h' hu (ix1 b)
      = (Finset.univ : Finset (Fin n0)).fold max (init (Shape.Idx.first hu)) fun k => X (ix2 k b) := by
  rw [Host.reduce_eq_fold_single (FloatOps.maximumf (F := Ideal) (φ := .f32)) X init h' h hu]
  refine Finset.fold_congr fun k _ => ?_
  exact congrArg X (lift_axis0 h b k)

/-! ## A product with one contracted axis -/

/-- The host's product read at an index: the sum over the contracted coordinate of the products of the two operands'
    entries, whatever those are known to be (`hl`, `hr`) at the operand indices of that coordinate. -/
theorem dotGeneral_read {sl sr so : Shape} (d : DotDims sl sr so) (K : ℕ) (hrk : d.contr.rank = 1)
    (hs : d.contr.size ⟨0, by omega⟩ = K) (P : FVec Ideal sl .f32) (Q : FVec Ideal sr .f32) (j : so.Idx)
    (L R : Fin K → EReal)
    (hl : ∀ k, P (d.lhsIdx j ((contrEquiv1 d K hrk hs).symm k)) = L k)
    (hr : ∀ k, Q (d.rhsIdx j ((contrEquiv1 d K hrk hs).symm k)) = R k) :
    FloatOps.dotGeneral d none .single P Q j = ∑ k : Fin K, L k * R k := by
  rw [Ideal.dotGeneral_apply, ← Equiv.sum_comp (contrEquiv1 d K hrk hs).symm]
  exact Finset.sum_congr rfl fun k _ => by rw [hl, hr]

end Cert.Lib.HostRows

end
-- ==== Proof.Spec.lean ====
/-
  What the network computes on ONE row.

  A row consists of three feature vectors `l`, `a`, `v` of 128 extended reals. From them, with fixed weights:
  three attention scores (the hyperbolic tangent of a dot product with one weight vector plus a bias); the score-weighted
  mean of the three vectors; the three soft-maxes of the vectors; three pairwise ratios (a sum of two scores over a dot
  product of two soft-maxes plus one half) normalised by a soft-max over the three; three gated two-layer maps of pairs of
  soft-maxes (an affine map of the two vectors laid end to end, a leaky rectifier of slope one fifth, a second affine map,
  a hyperbolic tangent); their weighted hyperbolic tangents and the sum of those; the soft-maxes of the three gated maps;
  six further ratios normalised by a soft-max over the six; six more gated maps of pairs, weighted, passed through the
  hyperbolic tangent and added up; and at last three affine maps, each followed by a hyperbolic tangent, of the three
  128-vectors laid end to end. Every number is an exact extended real; nothing here mentions a tiling or an order of
  evaluation beyond the order in which sums of three and of six terms are bracketed.
-/
import Idealize.ShloMosaic.PureOps.Ideal
import Idealize.ShloMosaic.PureOps.Float

noncomputable section

namespace Cert.Spec

open Idealize.ShloMosaic
open scoped BigOperators

/-- Minus infinity, one half, three, one fifth and zero, as the binary words both programs spell them with. -/
abbrev ninf : EReal := Ideal.ofBits .f32 0xFF800000#32
abbrev half : EReal := Ideal.ofBits .f32 0x3F000000#32
abbrev three : EReal := Ideal.ofBits .f32 0x40400000#32
abbrev slope : EReal := Ideal.ofBits .f32 0x3E4CCCCD#32
abbrev zeroW : EReal := Ideal.ofBits .f32 0x00000000#32

/-- `n` vectors of length `K` laid end to end: entry `k` of the long vector is entry `k mod K` of piece `k / K`. -/
def cat (K n : ℕ) (f : Fin n → Fin K → EReal) (k : Fin (n * K)) : EReal :=
  f ⟨k.val / K, Nat.div_lt_of_lt_mul (lt_of_lt_of_eq k.isLt (Nat.mul_comm n K))⟩
    ⟨k.val % K, Nat.mod_lt _ (Nat.pos_of_ne_zero fun h => by subst h; exact absurd k.isLt (by simp))⟩

/-- The largest entry of a vector, never below minus infinity (taken twice, as both programs do). -/
def vmax {n : ℕ} (x : Fin n → EReal) : EReal := (Finset.univ : Finset (Fin n)).fold max ninf x
def rmax {n : ℕ} (x : Fin n → EReal) : EReal := max ninf (vmax x)

/-- The exponentials of a vector shifted by its largest entry, their sum, and the soft-max. -/
def sexp {n : ℕ} (x : Fin n → EReal) (j : Fin n) : EReal := Ideal.exp (x j - rmax x)
def ssum {n : ℕ} (x : Fin n → EReal) : EReal := ∑ k, sexp x k
def smax {n : ℕ} (x : Fin n → EReal) (j : Fin n) : EReal := Ideal.div (sexp x j) (ssum x)

/-- The dot product of two vectors. -/
def dotp {n : ℕ} (x y : Fin n → EReal) : EReal := ∑ k, x k * y k

/-- A vector times a matrix, entry `j`. -/
def mv {K N : ℕ} (x : Fin K → EReal) (w : Fin K → Fin N → EReal) (j : Fin N) : EReal := ∑ k, x k * w k j

/-- The leaky rectifier: the number itself when it is at least zero, one fifth of it otherwise. -/
def lrelu (h : EReal) : EReal := Scalar.select (Ideal.cmp .oge h zeroW) h (slope * h)

/-- A ratio: the sum of two scores over a dot product plus one half. -/
def ratio (s t d : EReal) : EReal := Ideal.div (s + t) (d + half)

/-- The weights: one attention vector and bias, two gated maps, three final layers. -/
structure Wts where
  attW : Fin 128 → EReal
  attB : EReal
  gW1 : Fin 256 → Fin 64 → EReal
  gB1 : Fin 64 → EReal
  gW2 : Fin 64 → Fin 128 → EReal
  gB2 : Fin 128 → EReal
  hW1 : Fin 256 → Fin 64 → EReal
  hB1 : Fin 64 → EReal
  hW2 : Fin 64 → Fin 128 → EReal
  hB2 : Fin 128 → EReal
  lW1 : Fin 384 → Fin 64 → EReal
  lB1 : Fin 64 → EReal
  lW2 : Fin 64 → Fin 64 → EReal
  lB2 : Fin 64 → EReal
  lW3 : Fin 64 → Fin 128 → EReal
  lB3 : Fin 128 → EReal

/-- One row's three feature vectors. -/
structure Row where
  l : Fin 128 → EReal
  a : Fin 128 → EReal
  v : Fin 128 → EReal

/-- Two 128-vectors laid end to end. -/
def cat2 (x y : Fin 128 → EReal) : Fin 256 → EReal := cat 128 2 fun n => if n.val = 0 then x else y

/-- The first layer of a gated map before its rectifier, the second layer before its bias, and the whole map. -/
def pre1 (w1 : Fin 256 → Fin 64 → EReal) (b1 : Fin 64 → EReal) (x y : Fin 128 → EReal) (k : Fin 64) : EReal :=
  mv (cat2 x y) w1 k + b1 k
def pre2 (w2 : Fin 64 → Fin 128 → EReal) (h : Fin 64 → EReal) (j : Fin 128) : EReal :=
  mv (fun k => lrelu (h k)) w2 j
def gate (w1 : Fin 256 → Fin 64 → EReal) (b1 : Fin 64 → EReal) (w2 : Fin 64 → Fin 128 → EReal) (b2 : Fin 128 → EReal)
    (x y : Fin 128 → EReal) (j : Fin 128) : EReal :=
  Ideal.tanh (pre2 w2 (pre1 w1 b1 x y) j + b2 j)

variable (W : Wts) (R : Row)

/-- The attention score of a vector. -/
def score (x : Fin 128 → EReal) : EReal := Ideal.tanh (dotp x W.attW + W.attB)
def sa : EReal := score W R.a
def sv : EReal := score W R.v
def sl : EReal := score W R.l

/-- The score-weighted mean of the three vectors. -/
def uni (j : Fin 128) : EReal := Ideal.div (sa W R * R.a j + sv W R * R.v j + sl W R * R.l j) three

/-- The three pairwise ratios and their soft-max. -/
def sav : EReal := ratio (sa W R) (sv W R) (dotp (smax R.a) (smax R.v))
def sal : EReal := ratio (sa W R) (sl W R) (dotp (smax R.a) (smax R.l))
def svl : EReal := ratio (sl W R) (sv W R) (dotp (smax R.v) (smax R.l))
def three1 : Fin 3 → EReal := cat 1 3 fun n _ => if n.val = 0 then sav W R else if n.val = 1 then sal W R else svl W R
def nrm : Fin 3 → EReal := smax (three1 W R)

/-- The three gated maps of pairs of soft-maxes. -/
def gav : Fin 128 → EReal := gate W.gW1 W.gB1 W.gW2 W.gB2 (smax R.a) (smax R.v)
def gal : Fin 128 → EReal := gate W.gW1 W.gB1 W.gW2 W.gB2 (smax R.a) (smax R.l)
def gvl : Fin 128 → EReal := gate W.gW1 W.gB1 W.gW2 W.gB2 (smax R.v) (smax R.l)

/-- Their weighted hyperbolic tangents, and the sum of the three. -/
def av (j : Fin 128) : EReal := Ideal.tanh (nrm W R 0 * gav W R j)
def al (j : Fin 128) : EReal := Ideal.tanh (nrm W R 1 * gal W R j)
def vl (j : Fin 128) : EReal := Ideal.tanh (nrm W R 2 * gvl W R j)
def bim (j : Fin 128) : EReal := av W R j + al W R j + vl W R j

/-- The six further ratios and their soft-max. -/
def q0 : EReal := ratio (sav W R) (svl W R) (dotp (smax (gav W R)) (smax (gvl W R)))
def q1 : EReal := ratio (sav W R) (sal W R) (dotp (smax (gav W R)) (smax (gal W R)))
def q2 : EReal := ratio (sal W R) (svl W R) (dotp (smax (gal W R)) (smax (gvl W R)))
def q3 : EReal := ratio (sav W R) (sl W R) (dotp (smax (gav W R)) (smax R.l))
def q4 : EReal := ratio (sal W R) (sv W R) (dotp (smax (gal W R)) (smax R.v))
def q5 : EReal := ratio (sa W R) (svl W R) (dotp (smax (gvl W R)) (smax R.a))
def six1 : Fin 6 → EReal := cat 1 6 fun n _ =>
  if n.val = 0 then q0 W R else if n.val = 1 then q1 W R else if n.val = 2 then q2 W R
  else if n.val = 3 then q3 W R else if n.val = 4 then q4 W R else q5 W R
def nrm2 : Fin 6 → EReal := smax (six1 W R)

/-- A weighted gated map of the second kind, and the six of them added up left to right. -/
def tri1 (c : Fin 6) (x y : Fin 128 → EReal) (j : Fin 128) : EReal :=
  Ideal.tanh (nrm2 W R c * gate W.hW1 W.hB1 W.hW2 W.hB2 x y j)
def tri (j : Fin 128) : EReal :=
  tri1 W R 0 (av W R) (vl W R) j + tri1 W R 1 (av W R) (al W R) j + tri1 W R 2 (vl W R) (al W R) j
    + tri1 W R 3 (av W R) (smax R.l) j + tri1 W R 4 (al W R) (smax R.v) j + tri1 W R 5 (vl W R) (smax R.a) j

/-- The three 128-vectors laid end to end, and the three final layers. -/
def fus : Fin 384 → EReal := cat 128 3 fun n => if n.val = 0 then uni W R else if n.val = 1 then bim W R else tri W R
def h1 (k : Fin 64) : EReal := Ideal.tanh (mv (fus W R) W.lW1 k + W.lB1 k)
def h2 (k : Fin 64) : EReal := Ideal.tanh (mv (h1 W R) W.lW2 k + W.lB2 k)
def out (j : Fin 128) : EReal := Ideal.tanh (mv (h2 W R) W.lW3 j + W.lB3 j)

end Cert.Spec

end
-- ==== Proof.RowOps.lean ====
/-
  The vector operations of a two-axis tile read at an entry with named coordinates, for tiles of any extents.

  A column stretched along the lanes reads its row's entry; a vector viewed as a column reads its entry; a sum and a
  maximum along the lanes at row `a` are the sum and the running maximum over the row's entries; a matrix product with a
  zero accumulator at `(p, q)` is the sum over the contracted coordinate of the products of row `p` and column `q`; tiles
  of one width joined along the lanes read, at lane `k`, lane `k mod K` of piece `k / K`.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import proofs.«113614_j77704548319488_1_alg».proof.Proof.LibHostRows
import proofs.«113614_j77704548319488_1_alg».proof.Proof.Spec

noncomputable section

namespace Cert.RowOps

open Idealize.ShloMosaic Idealize.ShloMosaic.ValueIdx Cert.Lib.HostRows
open scoped BigOperators

variable {α : Type} {n0 n1 : ℕ}

/-- An [n0, 1] column stretched along the lanes of an [n0, n1] tile reads its row's entry. -/
theorem bcastTo_col (h : (⟨2, ![n0, 1]⟩ : Shape).Broadcasts ⟨2, ![n0, n1]⟩)
    (N : (⟨2, ![n0, 1]⟩ : Shape).Idx → α) (a : Fin n0) (b : Fin n1) :
    broadcastTo ⟨2, ![n0, n1]⟩ N h (ix2 a b) = N (ix2 a 0) := by
  refine broadcastTo_apply N h _ _ fun d => ?_
  fin_cases d
  · show (a : ℕ) = if n0 = 1 then 0 else (a : ℕ)
    split_ifs with h1
    · subst h1; exact Nat.lt_one_iff.mp a.isLt
    · rfl
  · rfl

/-- A [1, n1] row stretched along the rows of an [n0, n1] tile reads its lane's entry. -/
theorem bcastTo_row (h : (⟨2, ![1, n1]⟩ : Shape).Broadcasts ⟨2, ![n0, n1]⟩)
    (N : (⟨2, ![1, n1]⟩ : Shape).Idx → α) (a : Fin n0) (b : Fin n1) :
    broadcastTo ⟨2, ![n0, n1]⟩ N h (ix2 a b) = N (ix2 0 b) := by
  refine broadcastTo_apply N h _ _ fun d => ?_
  fin_cases d
  · rfl
  · show (b : ℕ) = if n1 = 1 then 0 else (b : ℕ)
    split_ifs with h1
    · subst h1; exact Nat.lt_one_iff.mp b.isLt
    · rfl

/-- A sum along the lanes of an f32 tile from a zero accumulator: at row `a` the sum of the row's entries. (The
    accumulator's neutrality is stated as the program states it: the zero word equals itself.) -/
theorem redAdd_rows (src : FVec Ideal ⟨2, ![n0, n1]⟩ .f32)
    (h : (⟨2, ![n0, n1]⟩ : Shape).Reduces ([1] : List (Fin 2)) ⟨1, ![n0]⟩) (hφ : FKind.Formats .f32)
    (hacc : (0x00000000#32 : BitVec 32) = 0x00000000#32) (a : Fin n0) :
    multiReduction .add [1] ⟨1, ![n0]⟩ src 0x00000000#32 h hφ hacc (ix1 a) = ∑ k : Fin n1, src (ix2 a k) :=
  (Ideal.multiReduction_add_single src 0x00000000#32 h hφ hacc (ix1 a)).trans
    (Finset.sum_congr rfl fun k _ => congrArg src (lift_axis1 h a k))

/-- A maximum along the lanes of an f32 tile from minus infinity: at row `a` the running maximum, from minus infinity,
    over the row's entries. -/
theorem redMax_rows (src : FVec Ideal ⟨2, ![n0, n1]⟩ .f32)
    (h : (⟨2, ![n0, n1]⟩ : Shape).Reduces ([1] : List (Fin 2)) ⟨1, ![n0]⟩) (hφ : FKind.Formats .f32)
    (hacc : (0xFF800000#32 : BitVec 32) = 0xFF800000#32) (a : Fin n0) :
    multiReduction .maximumf [1] ⟨1, ![n0]⟩ src 0xFF800000#32 h hφ hacc (ix1 a)
      = (Finset.univ : Finset (Fin n1)).fold max (Ideal.ofBits .f32 0xFF800000#32) fun k => src (ix2 a k) :=
  (Ideal.multiReduction_maximumf_single src 0xFF800000#32 h hφ hacc (ix1 a)).trans
    (Finset.fold_congr fun k _ => congrArg src (lift_axis1 h a k))

/-! ## A product of two matrices -/

/-- The two operand indices of the plain product at output `(p, q)` and contracted coordinate `k`. -/
theorem plain_lhsIdx {M K N : ℕ} (p : Fin M) (q : Fin N) (k : Fin K) :
    (DotDims.plain M K N).lhsIdx (ix2 p q) ((contrEquiv1 (DotDims.plain M K N) K rfl rfl).symm k) = ix2 p k := by
  funext a
  refine Fin.ext ?_
  fin_cases a
  · rfl
  · exact ((DotDims.plain M K N).lhsIdx_val_of_single rfl (ix2 p q) _).trans
      (contrEquiv1_symm_val (DotDims.plain M K N) K rfl rfl k)

theorem plain_rhsIdx {M K N : ℕ} (p : Fin M) (q : Fin N) (k : Fin K) :
    (DotDims.plain M K N).rhsIdx (ix2 p q) ((contrEquiv1 (DotDims.plain M K N) K rfl rfl).symm k) = ix2 k q := by
  funext a
  refine Fin.ext ?_
  fin_cases a
  · exact ((DotDims.plain M K N).rhsIdx_val_of_single rfl (ix2 p q) _).trans
      (contrEquiv1_symm_val (DotDims.plain M K N) K rfl rfl k)
  · rfl

/-- The contraction of the plain product, as a sum over the contracted coordinate. -/
theorem plain_sum {M K N : ℕ} (P : (⟨2, ![M, K]⟩ : Shape).Idx → EReal) (Q : (⟨2, ![K, N]⟩ : Shape).Idx → EReal)
    (p : Fin M) (q : Fin N) :
    (∑ kk : (DotDims.plain M K N).contr.Idx,
        P ((DotDims.plain M K N).lhsIdx (ix2 p q) kk) * Q ((DotDims.plain M K N).rhsIdx (ix2 p q) kk))
      = ∑ k : Fin K, P (ix2 p k) * Q (ix2 k q) := by
  rw [← Equiv.sum_comp (contrEquiv1 (DotDims.plain M K N) K rfl rfl).symm]
  exact Finset.sum_congr rfl fun k _ => by rw [plain_lhsIdx, plain_rhsIdx]

/-- A tile's matrix product into a zero accumulator. -/
theorem matmul_plain {M K N : ℕ} {φ₁ φ₂ : FTy} (P : FVec Ideal ⟨2, ![M, K]⟩ φ₁) (Q : FVec Ideal ⟨2, ![K, N]⟩ φ₂)
    (p : Fin M) (q : Fin N) :
    FloatOps.matmul (DotDims.plain M K N) none P Q (constant ⟨2, ![M, N]⟩ .f32 0x00000000#32) (ix2 p q)
      = ∑ k : Fin K, P (ix2 p k) * Q (ix2 k q) := by
  rw [Ideal.matmul_constant_zero_apply]
  exact plain_sum P Q p q

/-- The host's matrix product. -/
theorem dot_plain {M K N : ℕ} {φ₁ φ₂ : FTy} (sched : HostSchedule) (P : FVec Ideal ⟨2, ![M, K]⟩ φ₁)
    (Q : FVec Ideal ⟨2, ![K, N]⟩ φ₂) (p : Fin M) (q : Fin N) :
    FloatOps.dotGeneral (DotDims.plain M K N) none sched P Q (ix2 p q) = ∑ k : Fin K, P (ix2 p k) * Q (ix2 k q) := by
  rw [Ideal.dotGeneral_apply]
  exact plain_sum P Q p q

/-! ## Tiles of one width joined along the lanes -/

/-- `n` tiles of `K` lanes joined along the lanes: lane `k` of the whole is lane `k mod K` of piece `k / K`. -/
theorem concat_lanes {K n : ℕ} (f : Fin n → ((⟨2, ![n0, K]⟩ : Shape).Idx → EReal))
    (h : Shape.Concatenates ((List.ofFn fun i : Fin n => (⟨⟨2, ![n0, K]⟩, f i⟩ : (s : Shape) × (s.Idx → EReal))).map (·.1))
      ⟨2, ![n0, n * K]⟩ 1)
    (a : Fin n0) (k : Fin (n * K)) :
    concatenate ⟨2, ![n0, n * K]⟩ 1 (List.ofFn fun i : Fin n => (⟨⟨2, ![n0, K]⟩, f i⟩ : (s : Shape) × (s.Idx → EReal))) h (ix2 a k)
      = Spec.cat K n (fun i q => f i (ix2 a q)) k := by
  have hK : 0 < K := Nat.pos_of_ne_zero fun h0 => by subst h0; exact absurd k.isLt (by simp)
  exact concatenate_ofFn_apply (t := ⟨2, ![n0, n * K]⟩) (s₁ := ⟨2, ![n0, K]⟩) (1 : Fin 2) f h rfl K rfl (ix2 a k)
    ⟨k.val / K, Nat.div_lt_of_lt_mul (lt_of_lt_of_eq k.isLt (Nat.mul_comm n K))⟩ rfl
    (ix2 a ⟨k.val % K, Nat.mod_lt _ hK⟩) rfl (fun b hb => by
      fin_cases b
      · rfl
      · exact absurd rfl hb)

/-- Two tiles of 128 lanes joined: the row's two vectors laid end to end. -/
theorem concat2 (X Y : (⟨2, ![n0, 128]⟩ : Shape).Idx → EReal)
    (h : Shape.Concatenates (([⟨⟨2, ![n0, 128]⟩, X⟩, ⟨⟨2, ![n0, 128]⟩, Y⟩] : List ((s : Shape) × (s.Idx → EReal))).map (·.1))
      ⟨2, ![n0, 256]⟩ 1) (a : Fin n0) (k : Fin 256) :
    concatenate ⟨2, ![n0, 256]⟩ 1 [⟨⟨2, ![n0, 128]⟩, X⟩, ⟨⟨2, ![n0, 128]⟩, Y⟩] h (ix2 a k)
      = Spec.cat2 (fun q => X (ix2 a q)) (fun q => Y (ix2 a q)) k := by
  refine (concat_lanes (n0 := n0) (K := 128) (n := 2) (fun i => if i.val = 0 then X else Y) h a k).trans ?_
  unfold Spec.cat2
  exact congrArg (fun f => Spec.cat 128 2 f k) (funext fun i => by split_ifs <;> rfl)

/-- Three tiles of 128 lanes joined. -/
theorem concat3 (X Y Z : (⟨2, ![n0, 128]⟩ : Shape).Idx → EReal)
    (h : Shape.Concatenates (([⟨⟨2, ![n0, 128]⟩, X⟩, ⟨⟨2, ![n0, 128]⟩, Y⟩, ⟨⟨2, ![n0, 128]⟩, Z⟩] : List ((s : Shape) × (s.Idx → EReal))).map (·.1))
      ⟨2, ![n0, 384]⟩ 1) (a : Fin n0) (k : Fin 384) :
    concatenate ⟨2, ![n0, 384]⟩ 1 [⟨⟨2, ![n0, 128]⟩, X⟩, ⟨⟨2, ![n0, 128]⟩, Y⟩, ⟨⟨2, ![n0, 128]⟩, Z⟩] h (ix2 a k)
      = Spec.cat 128 3 (fun n => if n.val = 0 then fun q => X (ix2 a q) else if n.val = 1 then fun q => Y (ix2 a q)
          else fun q => Z (ix2 a q)) k := by
  refine (concat_lanes (n0 := n0) (K := 128) (n := 3)
    (fun i => if i.val = 0 then X else if i.val = 1 then Y else Z) h a k).trans ?_
  exact congrArg (fun f => Spec.cat 128 3 f k) (funext fun i => by split_ifs <;> rfl)

/-- Three columns joined: the row's three numbers side by side. -/
theorem concat3c (X Y Z : (⟨2, ![n0, 1]⟩ : Shape).Idx → EReal)
    (h : Shape.Concatenates (([⟨⟨2, ![n0, 1]⟩, X⟩, ⟨⟨2, ![n0, 1]⟩, Y⟩, ⟨⟨2, ![n0, 1]⟩, Z⟩] : List ((s : Shape) × (s.Idx → EReal))).map (·.1))
      ⟨2, ![n0, 3]⟩ 1) (a : Fin n0) (k : Fin 3) :
    concatenate ⟨2, ![n0, 3]⟩ 1 [⟨⟨2, ![n0, 1]⟩, X⟩, ⟨⟨2, ![n0, 1]⟩, Y⟩, ⟨⟨2, ![n0, 1]⟩, Z⟩] h (ix2 a k)
      = Spec.cat 1 3 (fun n _ => if n.val = 0 then X (ix2 a 0) else if n.val = 1 then Y (ix2 a 0) else Z (ix2 a 0)) k := by
  refine (concat_lanes (n0 := n0) (K := 1) (n := 3)
    (fun i => if i.val = 0 then X else if i.val = 1 then Y else Z) h a k).trans ?_
  exact congrArg (fun f => Spec.cat 1 3 f k) (funext fun i => funext fun q => by
    rw [Subsingleton.elim q 0]; split_ifs <;> rfl)

/-- Six columns joined. -/
theorem concat6c (X0 X1 X2 X3 X4 X5 : (⟨2, ![n0, 1]⟩ : Shape).Idx → EReal)
    (h : Shape.Concatenates (([⟨⟨2, ![n0, 1]⟩, X0⟩, ⟨⟨2, ![n0, 1]⟩, X1⟩, ⟨⟨2, ![n0, 1]⟩, X2⟩, ⟨⟨2, ![n0, 1]⟩, X3⟩,
      ⟨⟨2, ![n0, 1]⟩, X4⟩, ⟨⟨2, ![n0, 1]⟩, X5⟩] : List ((s : Shape) × (s.Idx → EReal))).map (·.1)) ⟨2, ![n0, 6]⟩ 1)
    (a : Fin n0) (k : Fin 6) :
    concatenate ⟨2, ![n0, 6]⟩ 1 [⟨⟨2, ![n0, 1]⟩, X0⟩, ⟨⟨2, ![n0, 1]⟩, X1⟩, ⟨⟨2, ![n0, 1]⟩, X2⟩, ⟨⟨2, ![n0, 1]⟩, X3⟩,
      ⟨⟨2, ![n0, 1]⟩, X4⟩, ⟨⟨2, ![n0, 1]⟩, X5⟩] h (ix2 a k)
      = Spec.cat 1 6 (fun n _ => if n.val = 0 then X0 (ix2 a 0) else if n.val = 1 then X1 (ix2 a 0)
          else if n.val = 2 then X2 (ix2 a 0) else if n.val = 3 then X3 (ix2 a 0) else if n.val = 4 then X4 (ix2 a 0)
          else X5 (ix2 a 0)) k := by
  refine (concat_lanes (n0 := n0) (K := 1) (n := 6)
    (fun i => if i.val = 0 then X0 else if i.val = 1 then X1 else if i.val = 2 then X2 else if i.val = 3 then X3
      else if i.val = 4 then X4 else X5) h a k).trans ?_
  exact congrArg (fun f => Spec.cat 1 6 f k) (funext fun i => funext fun q => by
    rw [Subsingleton.elim q 0]; split_ifs <;> rfl)

end Cert.RowOps

end
-- ==== Proof.LibWholeStoreColumnCast.lean ====
/-
  Two small general facts about laid-out data, used by this certificate and independent of any program.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- A store through the whole of a buffer, made LAST, reads back as its payload — whatever the earlier stores `L` through
    the same view were and whatever the buffer held before (`f`), and however the zero offsets are spelt (`h`). The
    read-back form of `View.canon_cons_unit_zero`: it needs no cover argument and no detour through `View.canon`, so it
    applies directly to what a symbolic run leaves for a buffer whose last store was a whole-block store. -/
theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A length-`a` array cast to `[a, 1]` (a column) reads, at `(i, u)`, the operand at `i`, whatever the unit coordinate
    `u`: the companion of the library's `shapeCast_a_1a_apply` (the row form `[a] → [1, a]`). -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.KernelRowsA.lean ====
/-
  The first values the kernel's body computes on a tile, read at a row: the three attention scores, the score-weighted
  mean of the row's three vectors, and the soft-maxes of the three vectors are those of the row's specification.
-/
import proofs.«113614_j77704548319488_1_alg».proof.Proof.Gen.KernelIdeal.Skeleton
import proofs.«113614_j77704548319488_1_alg».proof.Proof.RowOps
import proofs.«113614_j77704548319488_1_alg».proof.Proof.LibWholeStoreColumnCast

noncomputable section

namespace Cert.KernelIdeal.Rows

open Cert.KernelIdeal Cert.KernelIdeal.Gen Idealize.ShloMosaic Idealize.ShloMosaic.ValueIdx Cert.RowOps Cert.Lib

/-- The pointwise transcendental operations at an entry. -/
theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- Every matrix product of the body is the plain one, rows by contracted axis times contracted axis by columns. -/
theorem dot_att : dot_S1024x128_S128x1_S1024x1_1_0_0_1_n_n = DotDims.plain 1024 128 1 := rfl
theorem dot_g1 : dot_S1024x256_S256x64_S1024x64_1_0_0_1_n_n = DotDims.plain 1024 256 64 := rfl
theorem dot_g2 : dot_S1024x64_S64x128_S1024x128_1_0_0_1_n_n = DotDims.plain 1024 64 128 := rfl
theorem dot_l1 : dot_S1024x384_S384x64_S1024x64_1_0_0_1_n_n = DotDims.plain 1024 384 64 := rfl
theorem dot_l2 : dot_S1024x64_S64x64_S1024x64_1_0_0_1_n_n = DotDims.plain 1024 64 64 := rfl

/-- A bias row re-cast to its own shape is itself. -/
theorem pay2_eq (v : Vec Ideal S1x1 .f32) : k0_pay2 v = v := by unfold k0_pay2; exact shapeCast_self _ _
theorem pay17_eq (v : Vec Ideal S1x64 .f32) : k0_pay17 v = v := by unfold k0_pay17; exact shapeCast_self _ _
theorem pay18_eq (v : Vec Ideal S1x128 .f32) : k0_pay18 v = v := by unfold k0_pay18; exact shapeCast_self _ _
theorem pay19_eq (v : Vec Ideal S1x64 .f32) : k0_pay19 v = v := by unfold k0_pay19; exact shapeCast_self _ _
theorem pay20_eq (v : Vec Ideal S1x128 .f32) : k0_pay20 v = v := by unfold k0_pay20; exact shapeCast_self _ _
theorem pay39_eq (v : Vec Ideal S1x64 .f32) : k0_pay39 v = v := by unfold k0_pay39; exact shapeCast_self _ _
theorem pay40_eq (v : Vec Ideal S1x64 .f32) : k0_pay40 v = v := by unfold k0_pay40; exact shapeCast_self _ _
theorem pay41_eq (v : Vec Ideal S1x128 .f32) : k0_pay41 v = v := by unfold k0_pay41; exact shapeCast_self _ _

/-- Read a tile expression at an entry: push the index through the pointwise and layout operations (and the facts
    given), opening every lane reduction met on the way, until nothing changes. -/
syntax "rows" "[" Lean.Parser.Tactic.simpLemma,* "]" : tactic
macro_rules
  | `(tactic| rows [$ls,*]) => `(tactic|
      repeat (first
        | rw [redAdd_rows]
        | rw [redMax_rows]
        | simp only [tanh_apply, exp_apply, addf_apply, subf_apply, mulf_apply, divf_apply, maximumf_apply, broadcast_apply,
            truncf_apply, select_apply, cmpf_apply, bcastTo_col, bcastTo_row, shapeCast_a_a1_apply, slice2_axis1_eq, matmul,
            dot_att, dot_g1, dot_g2, dot_l1, dot_l2, matmul_plain, concat2, concat3, concat3c, concat6c, pay2_eq, pay17_eq,
            pay18_eq, pay19_eq, pay20_eq, pay39_eq, pay40_eq, pay41_eq, $ls,*]))

/-- The nineteen blocks a grid point's body reads: the three feature blocks of 1024 rows, then the weights whole. -/
structure Tile where
  x0 : Vec Ideal S1024x128 .f32
  x1 : Vec Ideal S1024x128 .f32
  x2 : Vec Ideal S1024x128 .f32
  x3 : Vec Ideal S128x1 .f32
  x4 : Vec Ideal S1x1 .f32
  x5 : Vec Ideal S256x64 .f32
  x6 : Vec Ideal S1x64 .f32
  x7 : Vec Ideal S64x128 .f32
  x8 : Vec Ideal S1x128 .f32
  x9 : Vec Ideal S256x64 .f32
  x10 : Vec Ideal S1x64 .f32
  x11 : Vec Ideal S64x128 .f32
  x12 : Vec Ideal S1x128 .f32
  x13 : Vec Ideal S384x64 .f32
  x14 : Vec Ideal S1x64 .f32
  x15 : Vec Ideal S64x64 .f32
  x16 : Vec Ideal S1x64 .f32
  x17 : Vec Ideal S64x128 .f32
  x18 : Vec Ideal S1x128 .f32

/-- The weights as the tile's whole-array windows hold them. -/
def wts (X : Tile) : Spec.Wts where
  attW := fun k => X.x3 (ix2 k 0)
  attB := X.x4 (ix2 0 0)
  gW1 := fun k j => X.x5 (ix2 k j)
  gB1 := fun j => X.x6 (ix2 0 j)
  gW2 := fun k j => X.x7 (ix2 k j)
  gB2 := fun j => X.x8 (ix2 0 j)
  hW1 := fun k j => X.x9 (ix2 k j)
  hB1 := fun j => X.x10 (ix2 0 j)
  hW2 := fun k j => X.x11 (ix2 k j)
  hB2 := fun j => X.x12 (ix2 0 j)
  lW1 := fun k j => X.x13 (ix2 k j)
  lB1 := fun j => X.x14 (ix2 0 j)
  lW2 := fun k j => X.x15 (ix2 k j)
  lB2 := fun j => X.x16 (ix2 0 j)
  lW3 := fun k j => X.x17 (ix2 k j)
  lB3 := fun j => X.x18 (ix2 0 j)

/-- Row `p` of the tile's three feature blocks. -/
def row (X : Tile) (p : Fin 1024) : Spec.Row :=
  ⟨fun k => X.x0 (ix2 p k), fun k => X.x1 (ix2 p k), fun k => X.x2 (ix2 p k)⟩

variable (X : Tile)

local notation "𝐖" => wts X
local notation "𝐑" => row X
local notation "𝐊11" => k0_pay3 X.x1 X.x3 X.x4
local notation "𝐊17" => k0_pay4 X.x2 X.x3 X.x4
local notation "𝐊23" => k0_pay5 X.x0 X.x3 X.x4
local notation "𝐊33" => k0_pay6 X.x0 X.x1 X.x2 X.x3 X.x4
local notation "𝐊40" => k0_pay7 X.x1
local notation "𝐊41" => k0_pay8 X.x1
local notation "𝐊44" => k0_pay9 𝐊40 𝐊41
local notation "𝐊55" => k0_pay10 X.x2
local notation "𝐊66" => k0_pay11 X.x0
local notation "𝐊73" => k0_pay12 X.x2 𝐊11 𝐊17 𝐊40 𝐊41
local notation "𝐊80" => k0_pay13 X.x0 𝐊11 𝐊23 𝐊40 𝐊41
local notation "𝐊87" => k0_pay14 X.x0 X.x2 𝐊17 𝐊23
local notation "𝐊88" => k0_pay15 X.x0 X.x2 𝐊11 𝐊17 𝐊23 𝐊40 𝐊41
local notation "𝐊99" => k0_pay16 𝐊88
local notation "𝐊102" => k0_pay17 X.x6
local notation "𝐊105" => k0_pay18 X.x8
local notation "𝐊108" => k0_pay19 X.x10
local notation "𝐊111" => k0_pay20 X.x12
local notation "𝐊125" => k0_pay21 𝐊44 𝐊55 X.x5 X.x6 X.x7
local notation "𝐊126" => k0_pay22 X.x8
local notation "𝐊128" => k0_pay23 𝐊125 𝐊126
local notation "𝐊145" => k0_pay24 𝐊44 𝐊66 X.x5 𝐊102 X.x7 𝐊105
local notation "𝐊162" => k0_pay25 𝐊55 𝐊66 X.x5 𝐊102 X.x7 𝐊105
local notation "𝐊166" => k0_pay26 𝐊99 𝐊125 𝐊126
local notation "𝐊170" => k0_pay27 𝐊44 𝐊66 𝐊99 X.x5 𝐊102 X.x7 𝐊105
local notation "𝐊174" => k0_pay28 𝐊55 𝐊66 𝐊99 X.x5 𝐊102 X.x7 𝐊105
local notation "𝐊176" => k0_pay29 𝐊44 𝐊55 𝐊66 𝐊99 X.x5 𝐊102 X.x7 𝐊105 𝐊125 𝐊126
local notation "𝐊177" => k0_pay30 𝐊125 𝐊126
local notation "𝐊187" => k0_pay31 𝐊128 𝐊177
local notation "𝐊198" => k0_pay32 𝐊145
local notation "𝐊209" => k0_pay33 𝐊162
local notation "𝐊216" => k0_pay34 𝐊73 𝐊87 𝐊128 𝐊162 𝐊177
local notation "𝐊223" => k0_pay35 𝐊73 𝐊80 𝐊128 𝐊145 𝐊177
local notation "𝐊224" => k0_pay36 𝐊80 𝐊87
local notation "𝐊225" => k0_pay37 𝐊145 𝐊162
local notation "𝐊263" => k0_pay38 𝐊11 𝐊17 𝐊23 𝐊44 𝐊55 𝐊66 𝐊73 𝐊80 𝐊87 𝐊187 𝐊198 𝐊209 𝐊216 𝐊223 𝐊224 𝐊225
local notation "𝐊266" => k0_pay39 X.x14
local notation "𝐊269" => k0_pay40 X.x16
local notation "𝐊272" => k0_pay41 X.x18
local notation "𝐊293" => k0_pay42 X.x9 𝐊108 X.x11 𝐊111 𝐊166 𝐊174 𝐊263
local notation "𝐊314" => k0_pay43 X.x9 𝐊108 X.x11 𝐊111 𝐊166 𝐊170 𝐊263
local notation "𝐊335" => k0_pay44 X.x9 𝐊108 X.x11 𝐊111 𝐊170 𝐊174 𝐊263
local notation "𝐊356" => k0_pay45 𝐊66 X.x9 𝐊108 X.x11 𝐊111 𝐊166 𝐊263
local notation "𝐊357" => k0_pay46 𝐊263
local notation "𝐊363" => k0_pay47 𝐊55 X.x9 𝐊108 𝐊170
local notation "𝐊416" => k0_pay48 𝐊33 𝐊44 X.x9 𝐊108 X.x11 𝐊111 𝐊174 𝐊176 𝐊263 X.x13 𝐊266 X.x15 𝐊269 𝐊293 𝐊314 𝐊335 𝐊356 𝐊357 𝐊363 (Scalar.ofBits FTy.f32 0x3E4CCCCD#32) (Scalar.ofBits FTy.f32 0x00000000#32)

/-- The three attention scores of row `p`. -/
theorem score_a (p : Fin 1024) : 𝐊11 (ix2 p 0) = Spec.sa 𝐖 (𝐑 p) := by
  unfold k0_pay3
  rows []
  rfl
theorem score_v (p : Fin 1024) : 𝐊17 (ix2 p 0) = Spec.sv 𝐖 (𝐑 p) := by
  unfold k0_pay4
  rows []
  rfl
theorem score_l (p : Fin 1024) : 𝐊23 (ix2 p 0) = Spec.sl 𝐖 (𝐑 p) := by
  unfold k0_pay5
  rows []
  rfl

/-- The score-weighted mean. -/
theorem uni_eq (p : Fin 1024) (q : Fin 128) : 𝐊33 (ix2 p q) = Spec.uni 𝐖 (𝐑 p) q := by
  unfold k0_pay6
  rows [score_a, score_v, score_l]
  rfl

/-- The shifted exponentials of `a`, their sum, and the three soft-maxes. -/
theorem sexp_a (p : Fin 1024) (q : Fin 128) : 𝐊40 (ix2 p q) = Spec.sexp (𝐑 p).a q := by
  unfold k0_pay7
  rows []
  rfl
theorem ssum_a (p : Fin 1024) : 𝐊41 (ix1 p) = Spec.ssum (𝐑 p).a := by
  unfold k0_pay8
  rows [sexp_a]
  rfl
theorem smax_a (p : Fin 1024) (q : Fin 128) : 𝐊44 (ix2 p q) = Spec.smax (𝐑 p).a q := by
  unfold k0_pay9
  rows [sexp_a, ssum_a]
  rfl
theorem smax_v (p : Fin 1024) (q : Fin 128) : 𝐊55 (ix2 p q) = Spec.smax (𝐑 p).v q := by
  unfold k0_pay10
  rows []
  rfl
theorem smax_l (p : Fin 1024) (q : Fin 128) : 𝐊66 (ix2 p q) = Spec.smax (𝐑 p).l q := by
  unfold k0_pay11
  rows []
  rfl

end Cert.KernelIdeal.Rows

end
-- ==== Proof.KernelRowsB.lean ====
/-
  The middle values of the kernel's body on a tile, read at a row: the three pairwise ratios and their soft-max, the
  three gated maps of pairs of soft-maxes, their weighted hyperbolic tangents and the sum of the three are those of the
  row's specification.
-/
import proofs.«113614_j77704548319488_1_alg».proof.Proof.KernelRowsA

noncomputable section

namespace Cert.KernelIdeal.Rows

open Cert.KernelIdeal Cert.KernelIdeal.Gen Idealize.ShloMosaic Idealize.ShloMosaic.ValueIdx Cert.RowOps Cert.Lib

variable (X : Tile)

local notation "𝐖" => wts X
local notation "𝐑" => row X
local notation "𝐊11" => k0_pay3 X.x1 X.x3 X.x4
local notation "𝐊17" => k0_pay4 X.x2 X.x3 X.x4
local notation "𝐊23" => k0_pay5 X.x0 X.x3 X.x4
local notation "𝐊33" => k0_pay6 X.x0 X.x1 X.x2 X.x3 X.x4
local notation "𝐊40" => k0_pay7 X.x1
local notation "𝐊41" => k0_pay8 X.x1
local notation "𝐊44" => k0_pay9 𝐊40 𝐊41
local notation "𝐊55" => k0_pay10 X.x2
local notation "𝐊66" => k0_pay11 X.x0
local notation "𝐊73" => k0_pay12 X.x2 𝐊11 𝐊17 𝐊40 𝐊41
local notation "𝐊80" => k0_pay13 X.x0 𝐊11 𝐊23 𝐊40 𝐊41
local notation "𝐊87" => k0_pay14 X.x0 X.x2 𝐊17 𝐊23
local notation "𝐊88" => k0_pay15 X.x0 X.x2 𝐊11 𝐊17 𝐊23 𝐊40 𝐊41
local notation "𝐊99" => k0_pay16 𝐊88
local notation "𝐊102" => X.x6
local notation "𝐊105" => X.x8
local notation "𝐊108" => X.x10
local notation "𝐊111" => X.x12
local notation "𝐊125" => k0_pay21 𝐊44 𝐊55 X.x5 X.x6 X.x7
local notation "𝐊126" => k0_pay22 X.x8
local notation "𝐊128" => k0_pay23 𝐊125 𝐊126
local notation "𝐊145" => k0_pay24 𝐊44 𝐊66 X.x5 𝐊102 X.x7 𝐊105
local notation "𝐊162" => k0_pay25 𝐊55 𝐊66 X.x5 𝐊102 X.x7 𝐊105
local notation "𝐊166" => k0_pay26 𝐊99 𝐊125 𝐊126
local notation "𝐊170" => k0_pay27 𝐊44 𝐊66 𝐊99 X.x5 𝐊102 X.x7 𝐊105
local notation "𝐊174" => k0_pay28 𝐊55 𝐊66 𝐊99 X.x5 𝐊102 X.x7 𝐊105
local notation "𝐊176" => k0_pay29 𝐊44 𝐊55 𝐊66 𝐊99 X.x5 𝐊102 X.x7 𝐊105 𝐊125 𝐊126
local notation "𝐊177" => k0_pay30 𝐊125 𝐊126
local notation "𝐊187" => k0_pay31 𝐊128 𝐊177
local notation "𝐊198" => k0_pay32 𝐊145
local notation "𝐊209" => k0_pay33 𝐊162
local notation "𝐊216" => k0_pay34 𝐊73 𝐊87 𝐊128 𝐊162 𝐊177
local notation "𝐊223" => k0_pay35 𝐊73 𝐊80 𝐊128 𝐊145 𝐊177
local notation "𝐊224" => k0_pay36 𝐊80 𝐊87
local notation "𝐊225" => k0_pay37 𝐊145 𝐊162
local notation "𝐊263" => k0_pay38 𝐊11 𝐊17 𝐊23 𝐊44 𝐊55 𝐊66 𝐊73 𝐊80 𝐊87 𝐊187 𝐊198 𝐊209 𝐊216 𝐊223 𝐊224 𝐊225
local notation "𝐊266" => X.x14
local notation "𝐊269" => X.x16
local notation "𝐊272" => X.x18
local notation "𝐊293" => k0_pay42 X.x9 𝐊108 X.x11 𝐊111 𝐊166 𝐊174 𝐊263
local notation "𝐊314" => k0_pay43 X.x9 𝐊108 X.x11 𝐊111 𝐊166 𝐊170 𝐊263
local notation "𝐊335" => k0_pay44 X.x9 𝐊108 X.x11 𝐊111 𝐊170 𝐊174 𝐊263
local notation "𝐊356" => k0_pay45 𝐊66 X.x9 𝐊108 X.x11 𝐊111 𝐊166 𝐊263
local notation "𝐊357" => k0_pay46 𝐊263
local notation "𝐊363" => k0_pay47 𝐊55 X.x9 𝐊108 𝐊170
local notation "𝐊416" => k0_pay48 𝐊33 𝐊44 X.x9 𝐊108 X.x11 𝐊111 𝐊174 𝐊176 𝐊263 X.x13 𝐊266 X.x15 𝐊269 𝐊293 𝐊314 𝐊335 𝐊356 𝐊357 𝐊363 (Scalar.ofBits FTy.f32 0x3E4CCCCD#32) (Scalar.ofBits FTy.f32 0x00000000#32)

/-- The three pairwise ratios. -/
theorem rat_av (p : Fin 1024) : 𝐊73 (ix2 p 0) = Spec.sav 𝐖 (𝐑 p) := by
  unfold k0_pay12
  rows [smax_a, smax_v, score_a, score_v]
  rfl
theorem rat_al (p : Fin 1024) : 𝐊80 (ix2 p 0) = Spec.sal 𝐖 (𝐑 p) := by
  unfold k0_pay13
  rows [smax_a, smax_l, score_a, score_l]
  rfl
theorem rat_vl (p : Fin 1024) : 𝐊87 (ix2 p 0) = Spec.svl 𝐖 (𝐑 p) := by
  unfold k0_pay14
  rows [smax_v, smax_l, score_v, score_l]
  rfl

/-- The three side by side, and their soft-max. -/
theorem three_eq (p : Fin 1024) (c : Fin 3) : 𝐊88 (ix2 p c) = Spec.three1 𝐖 (𝐑 p) c := by
  unfold k0_pay15
  rows [rat_av, rat_al, rat_vl]
  rfl
theorem nrm_eq (p : Fin 1024) (c : Fin 3) : 𝐊99 (ix2 p c) = Spec.nrm 𝐖 (𝐑 p) c := by
  unfold k0_pay16
  rows [three_eq]
  rfl

/-- The first gated map: its second layer before the bias, the bias row, and the whole. -/
theorem gav_pre (p : Fin 1024) (j : Fin 128) :
    𝐊125 (ix2 p j) = Spec.pre2 (𝐖).gW2 (Spec.pre1 (𝐖).gW1 (𝐖).gB1 (Spec.smax (𝐑 p).a) (Spec.smax (𝐑 p).v)) j := by
  unfold k0_pay21
  rows [smax_a, smax_v]
  rfl
theorem gav_bias (p : Fin 1024) (j : Fin 128) : 𝐊126 (ix2 p j) = (𝐖).gB2 j := by
  unfold k0_pay22
  rows []
  rfl
theorem gav_eq (p : Fin 1024) (j : Fin 128) : 𝐊128 (ix2 p j) = Spec.gav 𝐖 (𝐑 p) j := by
  unfold k0_pay23
  rows [gav_pre, gav_bias]
  rfl
theorem gal_eq (p : Fin 1024) (j : Fin 128) : 𝐊145 (ix2 p j) = Spec.gal 𝐖 (𝐑 p) j := by
  unfold k0_pay24
  rows [smax_a, smax_l]
  rfl
theorem gvl_eq (p : Fin 1024) (j : Fin 128) : 𝐊162 (ix2 p j) = Spec.gvl 𝐖 (𝐑 p) j := by
  unfold k0_pay25
  rows [smax_v, smax_l]
  rfl

/-- Their weighted hyperbolic tangents and the sum of the three. -/
theorem av_eq (p : Fin 1024) (j : Fin 128) : 𝐊166 (ix2 p j) = Spec.av 𝐖 (𝐑 p) j := by
  unfold k0_pay26
  rows [nrm_eq, gav_eq]
  rfl
theorem al_eq (p : Fin 1024) (j : Fin 128) : 𝐊170 (ix2 p j) = Spec.al 𝐖 (𝐑 p) j := by
  unfold k0_pay27
  rows [nrm_eq, gal_eq]
  rfl
theorem vl_eq (p : Fin 1024) (j : Fin 128) : 𝐊174 (ix2 p j) = Spec.vl 𝐖 (𝐑 p) j := by
  unfold k0_pay28
  rows [nrm_eq, gvl_eq]
  rfl
theorem bim_eq (p : Fin 1024) (j : Fin 128) : 𝐊176 (ix2 p j) = Spec.bim 𝐖 (𝐑 p) j := by
  unfold k0_pay29
  rows [av_eq, al_eq, vl_eq]
  rfl

end Cert.KernelIdeal.Rows

end
-- ==== Proof.KernelRowsC.lean ====
/-
  The next values of the kernel's body on a tile, read at a row: the soft-maxes of the three gated maps, the six further
  ratios and their soft-max are those of the row's specification.
-/
import proofs.«113614_j77704548319488_1_alg».proof.Proof.KernelRowsB

noncomputable section

namespace Cert.KernelIdeal.Rows

open Cert.KernelIdeal Cert.KernelIdeal.Gen Idealize.ShloMosaic Idealize.ShloMosaic.ValueIdx Cert.RowOps Cert.Lib

variable (X : Tile)

local notation "𝐖" => wts X
local notation "𝐑" => row X
local notation "𝐊11" => k0_pay3 X.x1 X.x3 X.x4
local notation "𝐊17" => k0_pay4 X.x2 X.x3 X.x4
local notation "𝐊23" => k0_pay5 X.x0 X.x3 X.x4
local notation "𝐊33" => k0_pay6 X.x0 X.x1 X.x2 X.x3 X.x4
local notation "𝐊40" => k0_pay7 X.x1
local notation "𝐊41" => k0_pay8 X.x1
local notation "𝐊44" => k0_pay9 𝐊40 𝐊41
local notation "𝐊55" => k0_pay10 X.x2
local notation "𝐊66" => k0_pay11 X.x0
local notation "𝐊73" => k0_pay12 X.x2 𝐊11 𝐊17 𝐊40 𝐊41
local notation "𝐊80" => k0_pay13 X.x0 𝐊11 𝐊23 𝐊40 𝐊41
local notation "𝐊87" => k0_pay14 X.x0 X.x2 𝐊17 𝐊23
local notation "𝐊88" => k0_pay15 X.x0 X.x2 𝐊11 𝐊17 𝐊23 𝐊40 𝐊41
local notation "𝐊99" => k0_pay16 𝐊88
local notation "𝐊102" => X.x6
local notation "𝐊105" => X.x8
local notation "𝐊108" => X.x10
local notation "𝐊111" => X.x12
local notation "𝐊125" => k0_pay21 𝐊44 𝐊55 X.x5 X.x6 X.x7
local notation "𝐊126" => k0_pay22 X.x8
local notation "𝐊128" => k0_pay23 𝐊125 𝐊126
local notation "𝐊145" => k0_pay24 𝐊44 𝐊66 X.x5 𝐊102 X.x7 𝐊105
local notation "𝐊162" => k0_pay25 𝐊55 𝐊66 X.x5 𝐊102 X.x7 𝐊105
local notation "𝐊166" => k0_pay26 𝐊99 𝐊125 𝐊126
local notation "𝐊170" => k0_pay27 𝐊44 𝐊66 𝐊99 X.x5 𝐊102 X.x7 𝐊105
local notation "𝐊174" => k0_pay28 𝐊55 𝐊66 𝐊99 X.x5 𝐊102 X.x7 𝐊105
local notation "𝐊176" => k0_pay29 𝐊44 𝐊55 𝐊66 𝐊99 X.x5 𝐊102 X.x7 𝐊105 𝐊125 𝐊126
local notation "𝐊177" => k0_pay30 𝐊125 𝐊126
local notation "𝐊187" => k0_pay31 𝐊128 𝐊177
local notation "𝐊198" => k0_pay32 𝐊145
local notation "𝐊209" => k0_pay33 𝐊162
local notation "𝐊216" => k0_pay34 𝐊73 𝐊87 𝐊128 𝐊162 𝐊177
local notation "𝐊223" => k0_pay35 𝐊73 𝐊80 𝐊128 𝐊145 𝐊177
local notation "𝐊224" => k0_pay36 𝐊80 𝐊87
local notation "𝐊225" => k0_pay37 𝐊145 𝐊162
local notation "𝐊263" => k0_pay38 𝐊11 𝐊17 𝐊23 𝐊44 𝐊55 𝐊66 𝐊73 𝐊80 𝐊87 𝐊187 𝐊198 𝐊209 𝐊216 𝐊223 𝐊224 𝐊225
local notation "𝐊266" => X.x14
local notation "𝐊269" => X.x16
local notation "𝐊272" => X.x18
local notation "𝐊293" => k0_pay42 X.x9 𝐊108 X.x11 𝐊111 𝐊166 𝐊174 𝐊263
local notation "𝐊314" => k0_pay43 X.x9 𝐊108 X.x11 𝐊111 𝐊166 𝐊170 𝐊263
local notation "𝐊335" => k0_pay44 X.x9 𝐊108 X.x11 𝐊111 𝐊170 𝐊174 𝐊263
local notation "𝐊356" => k0_pay45 𝐊66 X.x9 𝐊108 X.x11 𝐊111 𝐊166 𝐊263
local notation "𝐊357" => k0_pay46 𝐊263
local notation "𝐊363" => k0_pay47 𝐊55 X.x9 𝐊108 𝐊170
local notation "𝐊416" => k0_pay48 𝐊33 𝐊44 X.x9 𝐊108 X.x11 𝐊111 𝐊174 𝐊176 𝐊263 X.x13 𝐊266 X.x15 𝐊269 𝐊293 𝐊314 𝐊335 𝐊356 𝐊357 𝐊363 (Scalar.ofBits FTy.f32 0x3E4CCCCD#32) (Scalar.ofBits FTy.f32 0x00000000#32)

/-- The largest entry of the first gated map, and the soft-maxes of the three. -/
theorem gmax_eq (p : Fin 1024) : 𝐊177 (ix1 p) = Spec.vmax (Spec.gav 𝐖 (𝐑 p)) := by
  unfold k0_pay30
  rows [gav_eq]
  rfl
theorem sm_gav (p : Fin 1024) (q : Fin 128) : 𝐊187 (ix2 p q) = Spec.smax (Spec.gav 𝐖 (𝐑 p)) q := by
  unfold k0_pay31
  rows [gav_eq, gmax_eq]
  rfl
theorem sm_gal (p : Fin 1024) (q : Fin 128) : 𝐊198 (ix2 p q) = Spec.smax (Spec.gal 𝐖 (𝐑 p)) q := by
  unfold k0_pay32
  rows [gal_eq]
  rfl
theorem sm_gvl (p : Fin 1024) (q : Fin 128) : 𝐊209 (ix2 p q) = Spec.smax (Spec.gvl 𝐖 (𝐑 p)) q := by
  unfold k0_pay33
  rows [gvl_eq]
  rfl

/-- The first two of the six ratios, a sum of two earlier ratios, and a product of two soft-maxes. -/
theorem q0_eq (p : Fin 1024) : 𝐊216 (ix2 p 0) = Spec.q0 𝐖 (𝐑 p) := by
  unfold k0_pay34
  rows [sm_gav, sm_gvl, rat_av, rat_vl]
  rfl
theorem q1_eq (p : Fin 1024) : 𝐊223 (ix2 p 0) = Spec.q1 𝐖 (𝐑 p) := by
  unfold k0_pay35
  rows [sm_gav, sm_gal, rat_av, rat_al]
  rfl
theorem s224_eq (p : Fin 1024) : 𝐊224 (ix2 p 0) = Spec.sal 𝐖 (𝐑 p) + Spec.svl 𝐖 (𝐑 p) := by
  unfold k0_pay36
  rows [rat_al, rat_vl]
theorem p225_eq (p : Fin 1024) (q : Fin 128) :
    𝐊225 (ix2 p q) = Spec.smax (Spec.gal 𝐖 (𝐑 p)) q * Spec.smax (Spec.gvl 𝐖 (𝐑 p)) q := by
  unfold k0_pay37
  rows [sm_gal, sm_gvl]

/-- The six ratios side by side, and their soft-max. -/
theorem nrm2_eq (p : Fin 1024) (c : Fin 6) : 𝐊263 (ix2 p c) = Spec.nrm2 𝐖 (𝐑 p) c := by
  unfold k0_pay38
  rows [q0_eq, q1_eq, s224_eq, p225_eq, sm_gav, sm_gal, sm_gvl, smax_a, smax_v, smax_l, rat_av, rat_al, rat_vl, score_a,
    score_v, score_l]
  rfl

end Cert.KernelIdeal.Rows

end
-- ==== Proof.KernelRowsD.lean ====
/-
  The last values of the kernel's body on a tile, read at a row: the six weighted gated maps of the second kind and
  their sum, the three vectors laid end to end, and the three final layers are those of the row's specification; so the
  block the body stores holds, at row `p`, the specification's result for that row.
-/
import proofs.«113614_j77704548319488_1_alg».proof.Proof.KernelRowsC

noncomputable section

namespace Cert.KernelIdeal.Rows

open Cert.KernelIdeal Cert.KernelIdeal.Gen Idealize.ShloMosaic Idealize.ShloMosaic.ValueIdx Cert.RowOps Cert.Lib

variable (X : Tile)

local notation "𝐖" => wts X
local notation "𝐑" => row X
local notation "𝐊11" => k0_pay3 X.x1 X.x3 X.x4
local notation "𝐊17" => k0_pay4 X.x2 X.x3 X.x4
local notation "𝐊23" => k0_pay5 X.x0 X.x3 X.x4
local notation "𝐊33" => k0_pay6 X.x0 X.x1 X.x2 X.x3 X.x4
local notation "𝐊40" => k0_pay7 X.x1
local notation "𝐊41" => k0_pay8 X.x1
local notation "𝐊44" => k0_pay9 𝐊40 𝐊41
local notation "𝐊55" => k0_pay10 X.x2
local notation "𝐊66" => k0_pay11 X.x0
local notation "𝐊73" => k0_pay12 X.x2 𝐊11 𝐊17 𝐊40 𝐊41
local notation "𝐊80" => k0_pay13 X.x0 𝐊11 𝐊23 𝐊40 𝐊41
local notation "𝐊87" => k0_pay14 X.x0 X.x2 𝐊17 𝐊23
local notation "𝐊88" => k0_pay15 X.x0 X.x2 𝐊11 𝐊17 𝐊23 𝐊40 𝐊41
local notation "𝐊99" => k0_pay16 𝐊88
local notation "𝐊102" => X.x6
local notation "𝐊105" => X.x8
local notation "𝐊108" => X.x10
local notation "𝐊111" => X.x12
local notation "𝐊125" => k0_pay21 𝐊44 𝐊55 X.x5 X.x6 X.x7
local notation "𝐊126" => k0_pay22 X.x8
local notation "𝐊128" => k0_pay23 𝐊125 𝐊126
local notation "𝐊145" => k0_pay24 𝐊44 𝐊66 X.x5 𝐊102 X.x7 𝐊105
local notation "𝐊162" => k0_pay25 𝐊55 𝐊66 X.x5 𝐊102 X.x7 𝐊105
local notation "𝐊166" => k0_pay26 𝐊99 𝐊125 𝐊126
local notation "𝐊170" => k0_pay27 𝐊44 𝐊66 𝐊99 X.x5 𝐊102 X.x7 𝐊105
local notation "𝐊174" => k0_pay28 𝐊55 𝐊66 𝐊99 X.x5 𝐊102 X.x7 𝐊105
local notation "𝐊176" => k0_pay29 𝐊44 𝐊55 𝐊66 𝐊99 X.x5 𝐊102 X.x7 𝐊105 𝐊125 𝐊126
local notation "𝐊177" => k0_pay30 𝐊125 𝐊126
local notation "𝐊187" => k0_pay31 𝐊128 𝐊177
local notation "𝐊198" => k0_pay32 𝐊145
local notation "𝐊209" => k0_pay33 𝐊162
local notation "𝐊216" => k0_pay34 𝐊73 𝐊87 𝐊128 𝐊162 𝐊177
local notation "𝐊223" => k0_pay35 𝐊73 𝐊80 𝐊128 𝐊145 𝐊177
local notation "𝐊224" => k0_pay36 𝐊80 𝐊87
local notation "𝐊225" => k0_pay37 𝐊145 𝐊162
local notation "𝐊263" => k0_pay38 𝐊11 𝐊17 𝐊23 𝐊44 𝐊55 𝐊66 𝐊73 𝐊80 𝐊87 𝐊187 𝐊198 𝐊209 𝐊216 𝐊223 𝐊224 𝐊225
local notation "𝐊266" => X.x14
local notation "𝐊269" => X.x16
local notation "𝐊272" => X.x18
local notation "𝐊293" => k0_pay42 X.x9 𝐊108 X.x11 𝐊111 𝐊166 𝐊174 𝐊263
local notation "𝐊314" => k0_pay43 X.x9 𝐊108 X.x11 𝐊111 𝐊166 𝐊170 𝐊263
local notation "𝐊335" => k0_pay44 X.x9 𝐊108 X.x11 𝐊111 𝐊170 𝐊174 𝐊263
local notation "𝐊356" => k0_pay45 𝐊66 X.x9 𝐊108 X.x11 𝐊111 𝐊166 𝐊263
local notation "𝐊357" => k0_pay46 𝐊263
local notation "𝐊363" => k0_pay47 𝐊55 X.x9 𝐊108 𝐊170
local notation "𝐊416" => k0_pay48 𝐊33 𝐊44 X.x9 𝐊108 X.x11 𝐊111 𝐊174 𝐊176 𝐊263 X.x13 𝐊266 X.x15 𝐊269 𝐊293 𝐊314 𝐊335 𝐊356 𝐊357 𝐊363 (Scalar.ofBits FTy.f32 0x3E4CCCCD#32) (Scalar.ofBits FTy.f32 0x00000000#32)

/-- Four of the six weighted gated maps, the fifth's weight, and the fifth's first layer before its rectifier. -/
theorem t0_eq (p : Fin 1024) (j : Fin 128) : 𝐊293 (ix2 p j) = Spec.tri1 𝐖 (𝐑 p) 0 (Spec.av 𝐖 (𝐑 p)) (Spec.vl 𝐖 (𝐑 p)) j := by
  unfold k0_pay42
  rows [nrm2_eq, av_eq, vl_eq]
  rfl
theorem t1_eq (p : Fin 1024) (j : Fin 128) : 𝐊314 (ix2 p j) = Spec.tri1 𝐖 (𝐑 p) 1 (Spec.av 𝐖 (𝐑 p)) (Spec.al 𝐖 (𝐑 p)) j := by
  unfold k0_pay43
  rows [nrm2_eq, av_eq, al_eq]
  rfl
theorem t2_eq (p : Fin 1024) (j : Fin 128) : 𝐊335 (ix2 p j) = Spec.tri1 𝐖 (𝐑 p) 2 (Spec.vl 𝐖 (𝐑 p)) (Spec.al 𝐖 (𝐑 p)) j := by
  unfold k0_pay44
  rows [nrm2_eq, vl_eq, al_eq]
  rfl
theorem t3_eq (p : Fin 1024) (j : Fin 128) :
    𝐊356 (ix2 p j) = Spec.tri1 𝐖 (𝐑 p) 3 (Spec.av 𝐖 (𝐑 p)) (Spec.smax (𝐑 p).l) j := by
  unfold k0_pay45
  rows [nrm2_eq, av_eq, smax_l]
  rfl
theorem n4_eq (p : Fin 1024) : 𝐊357 (ix2 p 0) = Spec.nrm2 𝐖 (𝐑 p) 4 := by
  unfold k0_pay46
  rows [nrm2_eq]
  rfl
theorem h363_eq (p : Fin 1024) (k : Fin 64) :
    𝐊363 (ix2 p k) = Spec.pre1 (𝐖).hW1 (𝐖).hB1 (Spec.al 𝐖 (𝐑 p)) (Spec.smax (𝐑 p).v) k := by
  unfold k0_pay47
  rows [al_eq, smax_v]
  rfl

/-- The second of the three final layers. -/
theorem h2_eq (p : Fin 1024) (k : Fin 64) : 𝐊416 (ix2 p k) = Spec.h2 𝐖 (𝐑 p) k := by
  unfold k0_pay48
  rows [uni_eq, bim_eq, t0_eq, t1_eq, t2_eq, t3_eq, n4_eq, h363_eq, nrm2_eq, vl_eq, smax_a]
  rfl

/-- The stored value. -/
theorem out_eq (p : Fin 1024) (j : Fin 128) : k0_pay1 X.x17 𝐊272 𝐊416 (ix2 p j) = Spec.out 𝐖 (𝐑 p) j := by
  unfold k0_pay1
  rows [h2_eq]
  rfl

end Cert.KernelIdeal.Rows

end
-- ==== Proof.Arrays.lean ====
/-
  The whole result array as one function of the nineteen argument arrays.

  Row `r` of the result is the specification's function of row `r` of the three feature arrays and of the weights, which
  are read off their arrays entry by entry (the attention vector is a column, the biases are plain vectors).
-/
import Idealize.ShloMosaic.Lib.ValueIdx
import proofs.«113614_j77704548319488_1_alg».proof.Proof.Spec

noncomputable section

namespace Cert.Arrays

open Idealize.ShloMosaic Idealize.ShloMosaic.ValueIdx

/-- The weights read off their arrays. -/
def wtsOf (A3 : (⟨2, ![128, 1]⟩ : Shape).Idx → EReal) (A4 : (⟨1, ![1]⟩ : Shape).Idx → EReal)
    (A5 : (⟨2, ![256, 64]⟩ : Shape).Idx → EReal) (A6 : (⟨1, ![64]⟩ : Shape).Idx → EReal)
    (A7 : (⟨2, ![64, 128]⟩ : Shape).Idx → EReal) (A8 : (⟨1, ![128]⟩ : Shape).Idx → EReal)
    (A9 : (⟨2, ![256, 64]⟩ : Shape).Idx → EReal) (A10 : (⟨1, ![64]⟩ : Shape).Idx → EReal)
    (A11 : (⟨2, ![64, 128]⟩ : Shape).Idx → EReal) (A12 : (⟨1, ![128]⟩ : Shape).Idx → EReal)
    (A13 : (⟨2, ![384, 64]⟩ : Shape).Idx → EReal) (A14 : (⟨1, ![64]⟩ : Shape).Idx → EReal)
    (A15 : (⟨2, ![64, 64]⟩ : Shape).Idx → EReal) (A16 : (⟨1, ![64]⟩ : Shape).Idx → EReal)
    (A17 : (⟨2, ![64, 128]⟩ : Shape).Idx → EReal) (A18 : (⟨1, ![128]⟩ : Shape).Idx → EReal) : Spec.Wts where
  attW := fun k => A3 (ix2 k 0)
  attB := A4 (ix1 0)
  gW1 := fun k j => A5 (ix2 k j)
  gB1 := fun j => A6 (ix1 j)
  gW2 := fun k j => A7 (ix2 k j)
  gB2 := fun j => A8 (ix1 j)
  hW1 := fun k j => A9 (ix2 k j)
  hB1 := fun j => A10 (ix1 j)
  hW2 := fun k j => A11 (ix2 k j)
  hB2 := fun j => A12 (ix1 j)
  lW1 := fun k j => A13 (ix2 k j)
  lB1 := fun j => A14 (ix1 j)
  lW2 := fun k j => A15 (ix2 k j)
  lB2 := fun j => A16 (ix1 j)
  lW3 := fun k j => A17 (ix2 k j)
  lB3 := fun j => A18 (ix1 j)

/-- Row `r` of the three feature arrays `l`, `a`, `v` (in the order the programs take them). -/
def rowOf (A0 A1 A2 : (⟨2, ![65536, 128]⟩ : Shape).Idx → EReal) (r : Fin 65536) : Spec.Row :=
  ⟨fun k => A0 (ix2 r k), fun k => A1 (ix2 r k), fun k => A2 (ix2 r k)⟩

/-- The result array. -/
def G (A0 A1 A2 : (⟨2, ![65536, 128]⟩ : Shape).Idx → EReal) (A3 : (⟨2, ![128, 1]⟩ : Shape).Idx → EReal)
    (A4 : (⟨1, ![1]⟩ : Shape).Idx → EReal) (A5 : (⟨2, ![256, 64]⟩ : Shape).Idx → EReal) (A6 : (⟨1, ![64]⟩ : Shape).Idx → EReal)
    (A7 : (⟨2, ![64, 128]⟩ : Shape).Idx → EReal) (A8 : (⟨1, ![128]⟩ : Shape).Idx → EReal)
    (A9 : (⟨2, ![256, 64]⟩ : Shape).Idx → EReal) (A10 : (⟨1, ![64]⟩ : Shape).Idx → EReal)
    (A11 : (⟨2, ![64, 128]⟩ : Shape).Idx → EReal) (A12 : (⟨1, ![128]⟩ : Shape).Idx → EReal)
    (A13 : (⟨2, ![384, 64]⟩ : Shape).Idx → EReal) (A14 : (⟨1, ![64]⟩ : Shape).Idx → EReal)
    (A15 : (⟨2, ![64, 64]⟩ : Shape).Idx → EReal) (A16 : (⟨1, ![64]⟩ : Shape).Idx → EReal)
    (A17 : (⟨2, ![64, 128]⟩ : Shape).Idx → EReal) (A18 : (⟨1, ![128]⟩ : Shape).Idx → EReal) :
    (⟨2, ![65536, 128]⟩ : Shape).Idx → EReal :=
  fun i => Spec.out (wtsOf A3 A4 A5 A6 A7 A8 A9 A10 A11 A12 A13 A14 A15 A16 A17 A18) (rowOf A0 A1 A2 (i 0)) (i 1)

end Cert.Arrays

end
-- ==== Proof.KernelArray.lean ====
/-
  From blocks to the array.

  At grid point `t` the body reads rows `1024 t … 1024 t + 1023` of the three feature arrays and the weights whole (the
  biases through a re-cast of a vector to a one-row matrix), so by the row facts the block it writes back is rows
  `1024 t …` of the array `G` of the argument arrays; the sixty-four blocks cover the result array, which therefore ends
  equal to `G`.
-/
import proofs.«113614_j77704548319488_1_alg».proof.Proof.Gen.KernelIdeal.Value
import proofs.«113614_j77704548319488_1_alg».proof.Proof.KernelRowsD
import proofs.«113614_j77704548319488_1_alg».proof.Proof.Arrays
import Idealize.ShloMosaic.Lib.Pipeline.Value
import Idealize.ShloMosaic.Lib.ValueLayout
import Idealize.ShloMosaic.Lib.Tactic
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.KernelIdeal.Rows

variable (m : (ℓ : Loc nD τ sig) → Buf (Elt Ideal) ℓ) (ρ : Dev nD → PrngReg)

theorem hz : (![0, 0] : Fin 2 → Nat) = fun _ => 0 := funext fun a => by fin_cases a <;> rfl

/-- The nineteen argument arrays as launched. -/
abbrev A0 (c : Dev nD) : S65536x128.Idx → EReal := m ((c : Thread nD τ).loc main_arg0)
abbrev A1 (c : Dev nD) : S65536x128.Idx → EReal := m ((c : Thread nD τ).loc main_arg1)
abbrev A2 (c : Dev nD) : S65536x128.Idx → EReal := m ((c : Thread nD τ).loc main_arg2)
abbrev A3 (c : Dev nD) : S128x1.Idx → EReal := m ((c : Thread nD τ).loc main_arg3)
abbrev A4 (c : Dev nD) : S1.Idx → EReal := m ((c : Thread nD τ).loc main_arg4)
abbrev A5 (c : Dev nD) : S256x64.Idx → EReal := m ((c : Thread nD τ).loc main_arg5)
abbrev A6 (c : Dev nD) : S64.Idx → EReal := m ((c : Thread nD τ).loc main_arg6)
abbrev A7 (c : Dev nD) : S64x128.Idx → EReal := m ((c : Thread nD τ).loc main_arg7)
abbrev A8 (c : Dev nD) : S128.Idx → EReal := m ((c : Thread nD τ).loc main_arg8)
abbrev A9 (c : Dev nD) : S256x64.Idx → EReal := m ((c : Thread nD τ).loc main_arg9)
abbrev A10 (c : Dev nD) : S64.Idx → EReal := m ((c : Thread nD τ).loc main_arg10)
abbrev A11 (c : Dev nD) : S64x128.Idx → EReal := m ((c : Thread nD τ).loc main_arg11)
abbrev A12 (c : Dev nD) : S128.Idx → EReal := m ((c : Thread nD τ).loc main_arg12)
abbrev A13 (c : Dev nD) : S384x64.Idx → EReal := m ((c : Thread nD τ).loc main_arg13)
abbrev A14 (c : Dev nD) : S64.Idx → EReal := m ((c : Thread nD τ).loc main_arg14)
abbrev A15 (c : Dev nD) : S64x64.Idx → EReal := m ((c : Thread nD τ).loc main_arg15)
abbrev A16 (c : Dev nD) : S64.Idx → EReal := m ((c : Thread nD τ).loc main_arg16)
abbrev A17 (c : Dev nD) : S64x128.Idx → EReal := m ((c : Thread nD τ).loc main_arg17)
abbrev A18 (c : Dev nD) : S128.Idx → EReal := m ((c : Thread nD τ).loc main_arg18)

theorem lt64 (t : Fin cfg0.N) : t.val < 64 := lt_of_lt_of_eq t.isLt (show cfg0.N = 64 from N_0)

/-- The index maps over the grid: the feature windows and the output move one block of rows per point; every weight
    window stays on its whole array. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_19.index t (0 : Fin 2) = t.val ∧ win0_19.index t (1 : Fin 2) = 0 :=
  (by decide +kernel : ∀ t : Fin grid0.N, _)
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0 :=
  (by decide +kernel : ∀ t : Fin grid0.N, _)

/-- A feature block at point `t` is rows `1024 t …` of its array. -/
theorem blk0 (c : Dev nD) (t : Fin cfg0.N) (p : Fin 1024) (k : Fin 128) :
    (iblk m c 0 t : Vec Ideal S1024x128 .f32) (ix2 p k)
      = A0 m c (ix2 ⟨1024 * t.val + p.val, by have := lt64 t; have := p.isLt; omega⟩ k) := by
  have hi := idx_rows t
  unfold iblk
  rw [View.read_apply]
  show V m c main_arg0 _ = _
  rw [V_main_arg0]
  refine congrArg (A0 m c) (funext fun a => Fin.ext ?_)
  match a with
  | ⟨0, _⟩ => show win0_0.index t (0 : Fin 2) * 1024 + 1 * p.val = 1024 * t.val + p.val; rw [hi.1]; omega
  | ⟨1, _⟩ => show win0_0.index t (1 : Fin 2) * 128 + 1 * k.val = k.val; rw [hi.2.1]; omega
theorem blk1 (c : Dev nD) (t : Fin cfg0.N) (p : Fin 1024) (k : Fin 128) :
    (iblk m c 1 t : Vec Ideal S1024x128 .f32) (ix2 p k)
      = A1 m c (ix2 ⟨1024 * t.val + p.val, by have := lt64 t; have := p.isLt; omega⟩ k) := by
  have hi := idx_rows t
  unfold iblk
  rw [View.read_apply]
  show V m c main_arg1 _ = _
  rw [V_main_arg1]
  refine congrArg (A1 m c) (funext fun a => Fin.ext ?_)
  match a with
  | ⟨0, _⟩ => show win0_1.index t (0 : Fin 2) * 1024 + 1 * p.val = 1024 * t.val + p.val; rw [hi.2.2.1]; omega
  | ⟨1, _⟩ => show win0_1.index t (1 : Fin 2) * 128 + 1 * k.val = k.val; rw [hi.2.2.2.1]; omega
theorem blk2 (c : Dev nD) (t : Fin cfg0.N) (p : Fin 1024) (k : Fin 128) :
    (iblk m c 2 t : Vec Ideal S1024x128 .f32) (ix2 p k)
      = A2 m c (ix2 ⟨1024 * t.val + p.val, by have := lt64 t; have := p.isLt; omega⟩ k) := by
  have hi := idx_rows t
  unfold iblk
  rw [View.read_apply]
  show V m c main_arg2 _ = _
  rw [V_main_arg2]
  refine congrArg (A2 m c) (funext fun a => Fin.ext ?_)
  match a with
  | ⟨0, _⟩ => show win0_2.index t (0 : Fin 2) * 1024 + 1 * p.val = 1024 * t.val + p.val; rw [hi.2.2.2.2.1]; omega
  | ⟨1, _⟩ => show win0_2.index t (1 : Fin 2) * 128 + 1 * k.val = k.val; rw [hi.2.2.2.2.2.1]; omega

/-- A weight block is its whole array. -/
theorem blk3 (c : Dev nD) (t : Fin cfg0.N) (y : S128x1.Idx) : (iblk m c 3 t : Vec Ideal S128x1 .f32) y = A3 m c y := by
  have hi := idx_whole t
  unfold iblk
  rw [View.read_apply]
  show V m c main_arg3 _ = _
  rw [V_main_arg3]
  refine congrArg (A3 m c) (funext fun a => Fin.ext ?_)
  match a with
  | ⟨0, _⟩ => show win0_3.index t (0 : Fin 2) * 128 + 1 * (y 0).val = (y 0).val; rw [hi.1]; omega
  | ⟨1, _⟩ => show win0_3.index t (1 : Fin 2) * 1 + 1 * (y 1).val = (y 1).val; rw [hi.2.1]; omega
theorem blk5 (c : Dev nD) (t : Fin cfg0.N) (y : S256x64.Idx) : (iblk m c 5 t : Vec Ideal S256x64 .f32) y = A5 m c y := by
  have hi := idx_whole t
  unfold iblk
  rw [View.read_apply]
  show V m c main_arg5 _ = _
  rw [V_main_arg5]
  refine congrArg (A5 m c) (funext fun a => Fin.ext ?_)
  match a with
  | ⟨0, _⟩ => show win0_5.index t (0 : Fin 2) * 256 + 1 * (y 0).val = (y 0).val; rw [hi.2.2.2.2.1]; omega
  | ⟨1, _⟩ => show win0_5.index t (1 : Fin 2) * 64 + 1 * (y 1).val = (y 1).val; rw [hi.2.2.2.2.2.1]; omega
theorem blk7 (c : Dev nD) (t : Fin cfg0.N) (y : S64x128.Idx) : (iblk m c 7 t : Vec Ideal S64x128 .f32) y = A7 m c y := by
  have hi := idx_whole t
  unfold iblk
  rw [View.read_apply]
  show V m c main_arg7 _ = _
  rw [V_main_arg7]
  refine congrArg (A7 m c) (funext fun a => Fin.ext ?_)
  match a with
  | ⟨0, _⟩ => show win0_7.index t (0 : Fin 2) * 64 + 1 * (y 0).val = (y 0).val; rw [hi.2.2.2.2.2.2.2.2.1]; omega
  | ⟨1, _⟩ => show win0_7.index t (1 : Fin 2) * 128 + 1 * (y 1).val = (y 1).val; rw [hi.2.2.2.2.2.2.2.2.2.1]; omega
theorem blk9 (c : Dev nD) (t : Fin cfg0.N) (y : S256x64.Idx) : (iblk m c 9 t : Vec Ideal S256x64 .f32) y = A9 m c y := by
  have hi := idx_whole t
  unfold iblk
  rw [View.read_apply]
  show V m c main_arg9 _ = _
  rw [V_main_arg9]
  refine congrArg (A9 m c) (funext fun a => Fin.ext ?_)
  match a with
  | ⟨0, _⟩ => show win0_9.index t (0 : Fin 2) * 256 + 1 * (y 0).val = (y 0).val; rw [hi.2.2.2.2.2.2.2.2.2.2.2.2.1]; omega
  | ⟨1, _⟩ => show win0_9.index t (1 : Fin 2) * 64 + 1 * (y 1).val = (y 1).val; rw [hi.2.2.2.2.2.2.2.2.2.2.2.2.2.1]; omega
theorem blk11 (c : Dev nD) (t : Fin cfg0.N) (y : S64x128.Idx) : (iblk m c 11 t : Vec Ideal S64x128 .f32) y = A11 m c y := by
  have hi := idx_whole t
  unfold iblk
  rw [View.read_apply]
  show V m c main_arg11 _ = _
  rw [V_main_arg11]
  refine congrArg (A11 m c) (funext fun a => Fin.ext ?_)
  match a with
  | ⟨0, _⟩ => show win0_11.index t (0 : Fin 2) * 64 + 1 * (y 0).val = (y 0).val; rw [hi.2.2.2.2.2.2.2.2.2.2.2.2.2.2.2.2.1]; omega
  | ⟨1, _⟩ => show win0_11.index t (1 : Fin 2) * 128 + 1 * (y 1).val = (y 1).val; rw [hi.2.2.2.2.2.2.2.2.2.2.2.2.2.2.2.2.2.1]; omega
theorem blk13 (c : Dev nD) (t : Fin cfg0.N) (y : S384x64.Idx) : (iblk m c 13 t : Vec Ideal S384x64 .f32) y = A13 m c y := by
  have hi := idx_whole t
  unfold iblk
  rw [View.read_apply]
  show V m c main_arg13 _ = _
  rw [V_main_arg13]
  refine congrArg (A13 m c) (funext fun a => Fin.ext ?_)
  match a with
  | ⟨0, _⟩ => show win0_13.index t (0 : Fin 2) * 384 + 1 * (y 0).val = (y 0).val; rw [hi.2.2.2.2.2.2.2.2.2.2.2.2.2.2.2.2.2.2.2.2.1]; omega
  | ⟨1, _⟩ => show win0_13.index t (1 : Fin 2) * 64 + 1 * (y 1).val = (y 1).val; rw [hi.2.2.2.2.2.2.2.2.2.2.2.2.2.2.2.2.2.2.2.2.2.1]; omega
theorem blk15 (c : Dev nD) (t : Fin cfg0.N) (y : S64x64.Idx) : (iblk m c 15 t : Vec Ideal S64x64 .f32) y = A15 m c y := by
  have hi := idx_whole t
  unfold iblk
  rw [View.read_apply]
  show V m c main_arg15 _ = _
  rw [V_main_arg15]
  refine congrArg (A15 m c) (funext fun a => Fin.ext ?_)
  match a with
  | ⟨0, _⟩ => show win0_15.index t (0 : Fin 2) * 64 + 1 * (y 0).val = (y 0).val; rw [hi.2.2.2.2.2.2.2.2.2.2.2.2.2.2.2.2.2.2.2.2.2.2.2.2.1]; omega
  | ⟨1, _⟩ => show win0_15.index t (1 : Fin 2) * 64 + 1 * (y 1).val = (y 1).val; rw [hi.2.2.2.2.2.2.2.2.2.2.2.2.2.2.2.2.2.2.2.2.2.2.2.2.2.1]; omega
theorem blk17 (c : Dev nD) (t : Fin cfg0.N) (y : S64x128.Idx) : (iblk m c 17 t : Vec Ideal S64x128 .f32) y = A17 m c y := by
  have hi := idx_whole t
  unfold iblk
  rw [View.read_apply]
  show V m c main_arg17 _ = _
  rw [V_main_arg17]
  refine congrArg (A17 m c) (funext fun a => Fin.ext ?_)
  match a with
  | ⟨0, _⟩ => show win0_17.index t (0 : Fin 2) * 64 + 1 * (y 0).val = (y 0).val; rw [hi.2.2.2.2.2.2.2.2.2.2.2.2.2.2.2.2.2.2.2.2.2.2.2.2.2.2.2.2.1]; omega
  | ⟨1, _⟩ => show win0_17.index t (1 : Fin 2) * 128 + 1 * (y 1).val = (y 1).val; rw [hi.2.2.2.2.2.2.2.2.2.2.2.2.2.2.2.2.2.2.2.2.2.2.2.2.2.2.2.2.2.1]; omega

/-- A bias block is its vector viewed as a one-row matrix: the host re-casts it before the launch. -/
theorem V_v0 (c : Dev nD) : (V m c main_v0 : S1x1.Idx → EReal) = shapeCast S1x1 (A4 m c) shapeCasts_S1_S1x1 := by
  dsimp only [Gen.V, Gen.hostOps0]; after_results; rfl
theorem blk4 (c : Dev nD) (t : Fin cfg0.N) (j : Fin 1) : (iblk m c 4 t : Vec Ideal S1x1 .f32) (ix2 0 j) = A4 m c (ix1 j) := by
  have hi := idx_whole t
  unfold iblk
  rw [View.read_apply]
  show V m c main_v0 _ = _
  rw [V_v0]
  refine (congrArg (shapeCast S1x1 (A4 m c) shapeCasts_S1_S1x1) (funext fun a => Fin.ext ?_)).trans
    (shapeCast_a_1a_apply (A4 m c) shapeCasts_S1_S1x1 (0 : Fin 1) j)
  match a with
  | ⟨0, _⟩ => show win0_4.index t (0 : Fin 2) * 1 + 1 * 0 = 0; rw [hi.2.2.1]
  | ⟨1, _⟩ => show win0_4.index t (1 : Fin 2) * 1 + 1 * j.val = j.val; rw [hi.2.2.2.1]; omega
theorem V_v1 (c : Dev nD) : (V m c main_v1 : S1x64.Idx → EReal) = shapeCast S1x64 (A6 m c) shapeCasts_S64_S1x64 := by
  dsimp only [Gen.V, Gen.hostOps0]; after_results; rfl
theorem blk6 (c : Dev nD) (t : Fin cfg0.N) (j : Fin 64) : (iblk m c 6 t : Vec Ideal S1x64 .f32) (ix2 0 j) = A6 m c (ix1 j) := by
  have hi := idx_whole t
  unfold iblk
  rw [View.read_apply]
  show V m c main_v1 _ = _
  rw [V_v1]
  refine (congrArg (shapeCast S1x64 (A6 m c) shapeCasts_S64_S1x64) (funext fun a => Fin.ext ?_)).trans
    (shapeCast_a_1a_apply (A6 m c) shapeCasts_S64_S1x64 (0 : Fin 1) j)
  match a with
  | ⟨0, _⟩ => show win0_6.index t (0 : Fin 2) * 1 + 1 * 0 = 0; rw [hi.2.2.2.2.2.2.1]
  | ⟨1, _⟩ => show win0_6.index t (1 : Fin 2) * 64 + 1 * j.val = j.val; rw [hi.2.2.2.2.2.2.2.1]; omega
theorem V_v2 (c : Dev nD) : (V m c main_v2 : S1x128.Idx → EReal) = shapeCast S1x128 (A8 m c) shapeCasts_S128_S1x128 := by
  dsimp only [Gen.V, Gen.hostOps0]; after_results; rfl
theorem blk8 (c : Dev nD) (t : Fin cfg0.N) (j : Fin 128) : (iblk m c 8 t : Vec Ideal S1x128 .f32) (ix2 0 j) = A8 m c (ix1 j) := by
  have hi := idx_whole t
  unfold iblk
  rw [View.read_apply]
  show V m c main_v2 _ = _
  rw [V_v2]
  refine (congrArg (shapeCast S1x128 (A8 m c) shapeCasts_S128_S1x128) (funext fun a => Fin.ext ?_)).trans
    (shapeCast_a_1a_apply (A8 m c) shapeCasts_S128_S1x128 (0 : Fin 1) j)
  match a with
  | ⟨0, _⟩ => show win0_8.index t (0 : Fin 2) * 1 + 1 * 0 = 0; rw [hi.2.2.2.2.2.2.2.2.2.2.1]
  | ⟨1, _⟩ => show win0_8.index t (1 : Fin 2) * 128 + 1 * j.val = j.val; rw [hi.2.2.2.2.2.2.2.2.2.2.2.1]; omega
theorem V_v3 (c : Dev nD) : (V m c main_v3 : S1x64.Idx → EReal) = shapeCast S1x64 (A10 m c) shapeCasts_S64_S1x64 := by
  dsimp only [Gen.V, Gen.hostOps0]; after_results; rfl
theorem blk10 (c : Dev nD) (t : Fin cfg0.N) (j : Fin 64) : (iblk m c 10 t : Vec Ideal S1x64 .f32) (ix2 0 j) = A10 m c (ix1 j) := by
  have hi := idx_whole t
  unfold iblk
  rw [View.read_apply]
  show V m c main_v3 _ = _
  rw [V_v3]
  refine (congrArg (shapeCast S1x64 (A10 m c) shapeCasts_S64_S1x64) (funext fun a => Fin.ext ?_)).trans
    (shapeCast_a_1a_apply (A10 m c) shapeCasts_S64_S1x64 (0 : Fin 1) j)
  match a with
  | ⟨0, _⟩ => show win0_10.index t (0 : Fin 2) * 1 + 1 * 0 = 0; rw [hi.2.2.2.2.2.2.2.2.2.2.2.2.2.2.1]
  | ⟨1, _⟩ => show win0_10.index t (1 : Fin 2) * 64 + 1 * j.val = j.val; rw [hi.2.2.2.2.2.2.2.2.2.2.2.2.2.2.2.1]; omega
theorem V_v4 (c : Dev nD) : (V m c main_v4 : S1x128.Idx → EReal) = shapeCast S1x128 (A12 m c) shapeCasts_S128_S1x128 := by
  dsimp only [Gen.V, Gen.hostOps0]; after_results; rfl
theorem blk12 (c : Dev nD) (t : Fin cfg0.N) (j : Fin 128) : (iblk m c 12 t : Vec Ideal S1x128 .f32) (ix2 0 j) = A12 m c (ix1 j) := by
  have hi := idx_whole t
  unfold iblk
  rw [View.read_apply]
  show V m c main_v4 _ = _
  rw [V_v4]
  refine (congrArg (shapeCast S1x128 (A12 m c) shapeCasts_S128_S1x128) (funext fun a => Fin.ext ?_)).trans
    (shapeCast_a_1a_apply (A12 m c) shapeCasts_S128_S1x128 (0 : Fin 1) j)
  match a with
  | ⟨0, _⟩ => show win0_12.index t (0 : Fin 2) * 1 + 1 * 0 = 0; rw [hi.2.2.2.2.2.2.2.2.2.2.2.2.2.2.2.2.2.2.1]
  | ⟨1, _⟩ => show win0_12.index t (1 : Fin 2) * 128 + 1 * j.val = j.val; rw [hi.2.2.2.2.2.2.2.2.2.2.2.2.2.2.2.2.2.2.2.1]; omega
theorem V_v5 (c : Dev nD) : (V m c main_v5 : S1x64.Idx → EReal) = shapeCast S1x64 (A14 m c) shapeCasts_S64_S1x64 := by
  dsimp only [Gen.V, Gen.hostOps0]; after_results; rfl
theorem blk14 (c : Dev nD) (t : Fin cfg0.N) (j : Fin 64) : (iblk m c 14 t : Vec Ideal S1x64 .f32) (ix2 0 j) = A14 m c (ix1 j) := by
  have hi := idx_whole t
  unfold iblk
  rw [View.read_apply]
  show V m c main_v5 _ = _
  rw [V_v5]
  refine (congrArg (shapeCast S1x64 (A14 m c) shapeCasts_S64_S1x64) (funext fun a => Fin.ext ?_)).trans
    (shapeCast_a_1a_apply (A14 m c) shapeCasts_S64_S1x64 (0 : Fin 1) j)
  match a with
  | ⟨0, _⟩ => show win0_14.index t (0 : Fin 2) * 1 + 1 * 0 = 0; rw [hi.2.2.2.2.2.2.2.2.2.2.2.2.2.2.2.2.2.2.2.2.2.2.1]
  | ⟨1, _⟩ => show win0_14.index t (1 : Fin 2) * 64 + 1 * j.val = j.val; rw [hi.2.2.2.2.2.2.2.2.2.2.2.2.2.2.2.2.2.2.2.2.2.2.2.1]; omega
theorem V_v6 (c : Dev nD) : (V m c main_v6 : S1x64.Idx → EReal) = shapeCast S1x64 (A16 m c) shapeCasts_S64_S1x64 := by
  dsimp only [Gen.V, Gen.hostOps0]; after_results; rfl
theorem blk16 (c : Dev nD) (t : Fin cfg0.N) (j : Fin 64) : (iblk m c 16 t : Vec Ideal S1x64 .f32) (ix2 0 j) = A16 m c (ix1 j) := by
  have hi := idx_whole t
  unfold iblk
  rw [View.read_apply]
  show V m c main_v6 _ = _
  rw [V_v6]
  refine (congrArg (shapeCast S1x64 (A16 m c) shapeCasts_S64_S1x64) (funext fun a => Fin.ext ?_)).trans
    (shapeCast_a_1a_apply (A16 m c) shapeCasts_S64_S1x64 (0 : Fin 1) j)
  match a with
  | ⟨0, _⟩ => show win0_16.index t (0 : Fin 2) * 1 + 1 * 0 = 0; rw [hi.2.2.2.2.2.2.2.2.2.2.2.2.2.2.2.2.2.2.2.2.2.2.2.2.2.2.1]
  | ⟨1, _⟩ => show win0_16.index t (1 : Fin 2) * 64 + 1 * j.val = j.val; rw [hi.2.2.2.2.2.2.2.2.2.2.2.2.2.2.2.2.2.2.2.2.2.2.2.2.2.2.2.1]; omega
theorem V_v7 (c : Dev nD) : (V m c main_v7 : S1x128.Idx → EReal) = shapeCast S1x128 (A18 m c) shapeCasts_S128_S1x128 := by
  dsimp only [Gen.V, Gen.hostOps0]; after_results; rfl
theorem blk18 (c : Dev nD) (t : Fin cfg0.N) (j : Fin 128) : (iblk m c 18 t : Vec Ideal S1x128 .f32) (ix2 0 j) = A18 m c (ix1 j) := by
  have hi := idx_whole t
  unfold iblk
  rw [View.read_apply]
  show V m c main_v7 _ = _
  rw [V_v7]
  refine (congrArg (shapeCast S1x128 (A18 m c) shapeCasts_S128_S1x128) (funext fun a => Fin.ext ?_)).trans
    (shapeCast_a_1a_apply (A18 m c) shapeCasts_S128_S1x128 (0 : Fin 1) j)
  match a with
  | ⟨0, _⟩ => show win0_18.index t (0 : Fin 2) * 1 + 1 * 0 = 0; rw [hi.2.2.2.2.2.2.2.2.2.2.2.2.2.2.2.2.2.2.2.2.2.2.2.2.2.2.2.2.2.2.1]
  | ⟨1, _⟩ => show win0_18.index t (1 : Fin 2) * 128 + 1 * j.val = j.val; rw [hi.2.2.2.2.2.2.2.2.2.2.2.2.2.2.2.2.2.2.2.2.2.2.2.2.2.2.2.2.2.2.2]; omega

/-- The tile at point `t`. -/
def tile (c : Dev nD) (t : Fin cfg0.N) : Tile :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

theorem wts_tile (c : Dev nD) (t : Fin cfg0.N) :
    wts (tile m c t) = Cert.Arrays.wtsOf (A3 m c) (A4 m c) (A5 m c) (A6 m c) (A7 m c) (A8 m c) (A9 m c) (A10 m c) (A11 m c) (A12 m c) (A13 m c) (A14 m c) (A15 m c) (A16 m c) (A17 m c) (A18 m c) := by
  unfold wts Cert.Arrays.wtsOf tile
  simp only [blk3 m c t, blk5 m c t, blk7 m c t, blk9 m c t, blk11 m c t, blk13 m c t, blk15 m c t, blk17 m c t, blk4 m c t, blk6 m c t, blk8 m c t, blk10 m c t, blk12 m c t, blk14 m c t, blk16 m c t, blk18 m c t]

theorem row_tile (c : Dev nD) (t : Fin cfg0.N) (p : Fin 1024) :
    row (tile m c t) p = Cert.Arrays.rowOf (A0 m c) (A1 m c) (A2 m c)
      ⟨1024 * t.val + p.val, by have := lt64 t; have := p.isLt; omega⟩ := by
  unfold row Cert.Arrays.rowOf tile
  simp only [blk0 m c t, blk1 m c t, blk2 m c t]

/-- The block the body leaves in the output's staging buffer, read at row `p`: the specification's result for that row. -/
theorem out_row (X : Tile) (p : Fin 1024) (q : Fin 128) :
    out0_19 X.x0 X.x1 X.x2 X.x3 X.x4 X.x5 X.x6 X.x7 X.x8 X.x9 X.x10 X.x11 X.x12 X.x13 X.x14 X.x15 X.x16 X.x17 X.x18 (ix2 p q)
      = Spec.out (wts X) (row X p) q := by
  unfold out0_19
  rw [View.canon_unit_zero hz]
  simp only [View.ld_unit_zero (S := S1024x128) hz, View.ld_unit_zero (S := S128x1) hz, View.ld_unit_zero (S := S1x1) hz,
    View.ld_unit_zero (S := S256x64) hz, View.ld_unit_zero (S := S1x64) hz, View.ld_unit_zero (S := S64x128) hz,
    View.ld_unit_zero (S := S1x128) hz, View.ld_unit_zero (S := S384x64) hz, View.ld_unit_zero (S := S64x64) hz,
    pay17_eq, pay18_eq, pay19_eq, pay20_eq, pay39_eq, pay40_eq, pay41_eq]
  exact out_eq X p q

/-- WHAT POINT `t` WRITES BACK is block `t` of `G` of the argument arrays. -/
theorem flushed_eq (c : Dev nD) (t : Fin cfg0.N) :
    (dats m 0 c).flushed 19 t = ((cfg0.win 19).blk t).view.read (Elt Ideal) (Cert.Arrays.G (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c)) := by
  have hi := idx_rows t
  rw [Value.flushed19]
  funext j
  obtain ⟨p, q, rfl⟩ : ∃ (p : Fin 1024) (q : Fin 128), j = ix2 p q := ⟨j 0, j 1, eq_ix2 j⟩
  refine (out_row (tile m c t) p q).trans ?_
  rw [wts_tile, row_tile, View.read_apply]
  unfold Cert.Arrays.G
  have e0 : (((cfg0.win 19).blk t).view.emb (ix2 p q)) 0
      = (⟨1024 * t.val + p.val, by have := lt64 t; have := p.isLt; omega⟩ : Fin 65536) :=
    Fin.ext (by show win0_19.index t (0 : Fin 2) * 1024 + 1 * p.val = 1024 * t.val + p.val; rw [hi.2.2.2.2.2.2.1]; omega)
  have e1 : (((cfg0.win 19).blk t).view.emb (ix2 p q)) 1 = q :=
    Fin.ext (by show win0_19.index t (1 : Fin 2) * 128 + 1 * q.val = q.val; rw [hi.2.2.2.2.2.2.2]; omega)
  rw [e0, e1]
  first | rfl | exact (cast_eq _ _).symm

/-- Every index of the result array lies in the block of the point `row / 1024`. -/
theorem cover (i : S65536x128.Idx) :
    ∃ t : Fin cfg0.N, (cfg0.win 19).flush t = true ∧ i ∈ ((cfg0.win 19).blk t).view.set := by
  have h0 : (i 0 : Nat) < 65536 := (i 0).isLt
  have h1 : (i 1 : Nat) < 128 := (i 1).isLt
  have hlt : (i 0 : Nat) / 1024 < cfg0.N := by rw [show cfg0.N = 64 from N_0]; omega
  have hi := idx_rows ⟨(i 0 : Nat) / 1024, hlt⟩
  refine ⟨⟨(i 0 : Nat) / 1024, hlt⟩, flush0_19 _, ?_⟩
  show i ∈ ((View.whole main_v8).slice (win0_19.rect ⟨(i 0 : Nat) / 1024, hlt⟩)).set
  rw [View.set_slice_whole, Rect.mem_set_unit]
  intro a
  match a with
  | ⟨0, _⟩ =>
    show win0_19.index ⟨(i 0 : Nat) / 1024, hlt⟩ (0 : Fin 2) * 1024 ≤ (i 0 : Nat)
      ∧ (i 0 : Nat) < win0_19.index ⟨(i 0 : Nat) / 1024, hlt⟩ (0 : Fin 2) * 1024 + 1024
    rw [hi.2.2.2.2.2.2.1]
    show (i 0 : Nat) / 1024 * 1024 ≤ (i 0 : Nat) ∧ (i 0 : Nat) < (i 0 : Nat) / 1024 * 1024 + 1024
    omega
  | ⟨1, _⟩ =>
    show win0_19.index ⟨(i 0 : Nat) / 1024, hlt⟩ (1 : Fin 2) * 128 ≤ (i 1 : Nat)
      ∧ (i 1 : Nat) < win0_19.index ⟨(i 0 : Nat) / 1024, hlt⟩ (1 : Fin 2) * 128 + 128
    rw [hi.2.2.2.2.2.2.2]
    omega

/-- THE ARRAY after the run is `G` of the argument arrays. -/
theorem final (c : Dev nD) : (dats m 0 c).arrAt 19 cfg0.N = Cert.Arrays.G (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) :=
  (dats m 0 c).arrAt_eq_of_cover 19 _ (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v8) = Cert.Arrays.G (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Value.run_blocks m ρ)

end Cert.KernelIdeal.Hand

end
-- ==== Proof.LibHostSettle.lean ====
/-
  A general fact about straight lines of host operations in which every buffer is written once, after everything it
  is computed from. Number the device's buffers by their index. Suppose the k-th operation of a line writes exactly
  the buffers of index n + k, and its result there depends only on the contents of buffers of smaller index. Then the
  contents after the whole line are a fixed point of every operation of the line: running any one of them again changes
  nothing. Read at an operation's result buffer this is the equation "the result buffer holds the operation's function
  of its operands' final contents", with the same final contents on both sides — the line read as a system of equations.
-/
import Idealize.ShloMosaic.Lib.StableHlo.Run

namespace Idealize.ShloMosaic.StableHlo

variable {τ : Topo} {sig : RefSig} {Val : EltTy → Type}

/-- The operation writes only buffers of index `n`, and what it leaves there is decided by the buffers of smaller index. -/
structure Step (n : ℕ) (op : HloOp τ sig Val) : Prop where
  wr : ∀ b ∈ op.writes, b.idx.val = n
  rd : ∀ F G : Valuation τ sig Val, (∀ b : DevRef τ sig, b.idx.val < n → F b = G b) →
    ∀ b ∈ op.writes, op.result F b = op.result G b

/-- The line's operations write the buffers of index `n`, `n + 1`, … in turn, each from buffers of smaller index. -/
def InOrder : ℕ → List (HloOp τ sig Val) → Prop
  | _, [] => True
  | n, op :: l => Step n op ∧ InOrder (n + 1) l

theorem InOrder.nil (n : ℕ) : InOrder n ([] : List (HloOp τ sig Val)) := trivial

theorem InOrder.cons {n : ℕ} {op : HloOp τ sig Val} {l : List (HloOp τ sig Val)} (h : Step n op) (hl : InOrder (n + 1) l) :
    InOrder n (op :: l) := ⟨h, hl⟩

/-- Two such lines, the second starting where the first stops, make one. -/
theorem InOrder.append : ∀ {n m : ℕ} {l₁ l₂ : List (HloOp τ sig Val)}, InOrder n l₁ → n + l₁.length = m → InOrder m l₂ →
    InOrder n (l₁ ++ l₂)
  | n, m, [], l₂, _, hm, h₂ => by
    have : n = m := by simpa using hm
    subst this; exact h₂
  | n, m, op :: l, l₂, h₁, hm, h₂ =>
    ⟨h₁.1, InOrder.append h₁.2 (by simp only [List.length_cons] at hm; omega) h₂⟩

/-- Every buffer such a line writes has index at least the line's first. -/
theorem InOrder.le_of_mem_writes : ∀ {n : ℕ} {l : List (HloOp τ sig Val)}, InOrder n l →
    ∀ op ∈ l, ∀ b ∈ op.writes, n ≤ b.idx.val
  | _, [], _, _, h, _, _ => nomatch h
  | n, op :: l, h, o, ho, b, hb => by
    rcases List.mem_cons.mp ho with rfl | ho'
    · exact (h.1.wr b hb).ge
    · exact (Nat.le_succ n).trans (InOrder.le_of_mem_writes h.2 o ho' b hb)

/-- A buffer of index below the line's first keeps its contents through the line. -/
theorem InOrder.after_of_lt {n : ℕ} {l : List (HloOp τ sig Val)} (h : InOrder n l) (V : Valuation τ sig Val)
    {b : DevRef τ sig} (hb : b.idx.val < n) : after l V b = V b :=
  after_of_forall_not_mem l V fun op hop hw => absurd (h.le_of_mem_writes op hop b hw) (Nat.not_le.mpr hb)

/-- The contents after the line are a fixed point of each of its operations. -/
theorem InOrder.settled : ∀ {n : ℕ} {l : List (HloOp τ sig Val)}, InOrder n l → ∀ (V : Valuation τ sig Val),
    ∀ op ∈ l, op.result (after l V) = after l V
  | _, [], _, _, _, h => nomatch h
  | n, op :: l, h, V, o, ho => by
    rcases List.mem_cons.mp ho with rfl | ho'
    · funext b
      by_cases hb : b ∈ o.writes
      · have hn : b.idx.val = n := h.1.wr b hb
        have hWb : after (o :: l) V b = o.result V b := by
          rw [after_cons]; exact h.2.after_of_lt _ (by omega)
        rw [hWb]
        refine h.1.rd _ _ (fun c hc => ?_) b hb
        rw [after_cons, h.2.after_of_lt _ (by omega)]
        exact o.result_of_not_mem V fun hcw => by have := h.1.wr c hcw; omega
      · exact o.result_of_not_mem _ hb
    · exact InOrder.settled h.2 (op.result V) o ho'

/-! ### The builders are steps -/

section Builders

variable {x a b c y : Ref sig .tc} {n : ℕ}

private theorem idx_of_mem_single {d : DevRef τ sig} (hd : d ∈ ({Proc.devRef .tc y} : Finset (DevRef τ sig))) (hy : y.idx.val = n) :
    d.idx.val = n := by
  rw [Finset.mem_singleton.mp hd]; exact hy

theorem nullary_step (v : y.ty.Contents Val) (hy') (hy : y.idx.val = n) : Step n (nullary (τ := τ) y v hy') where
  wr d hd := idx_of_mem_single hd hy
  rd F G _ d hd := by
    obtain rfl := Finset.mem_singleton.mp hd
    exact (nullary_result y v hy' F).trans (nullary_result y v hy' G).symm

theorem unary_step (f : x.ty.Contents Val → y.ty.Contents Val) (hx' hy') (hx : x.idx.val < n) (hy : y.idx.val = n) :
    Step n (unary (τ := τ) x y f hx' hy') where
  wr d hd := idx_of_mem_single hd hy
  rd F G h d hd := by
    obtain rfl := Finset.mem_singleton.mp hd
    rw [unary_result x y f hx' hy' F, unary_result x y f hx' hy' G, h (Proc.devRef .tc x) hx]

theorem binary_step (f : a.ty.Contents Val → b.ty.Contents Val → y.ty.Contents Val) (ha' hb' hy')
    (ha : a.idx.val < n) (hb : b.idx.val < n) (hy : y.idx.val = n) : Step n (binary (τ := τ) a b y f ha' hb' hy') where
  wr d hd := idx_of_mem_single hd hy
  rd F G h d hd := by
    obtain rfl := Finset.mem_singleton.mp hd
    rw [binary_result a b y f ha' hb' hy' F, binary_result a b y f ha' hb' hy' G, h (Proc.devRef .tc a) ha,
      h (Proc.devRef .tc b) hb]

theorem ternary_step (f : c.ty.Contents Val → a.ty.Contents Val → b.ty.Contents Val → y.ty.Contents Val) (hc' ha' hb' hy')
    (hc : c.idx.val < n) (ha : a.idx.val < n) (hb : b.idx.val < n) (hy : y.idx.val = n) :
    Step n (ternary (τ := τ) c a b y f hc' ha' hb' hy') where
  wr d hd := idx_of_mem_single hd hy
  rd F G h d hd := by
    obtain rfl := Finset.mem_singleton.mp hd
    rw [ternary_result c a b y f hc' ha' hb' hy' F, ternary_result c a b y f hc' ha' hb' hy' G, h (Proc.devRef .tc c) hc,
      h (Proc.devRef .tc a) ha, h (Proc.devRef .tc b) hb]

theorem reshape_step (he hn hx' hy') (hx : x.idx.val < n) (hy : y.idx.val = n) :
    Step n (reshape (τ := τ) (Val := Val) x y he hn hx' hy') where
  wr d hd := idx_of_mem_single hd hy
  rd F G h d hd := by
    obtain rfl := Finset.mem_singleton.mp hd
    rw [reshape_result x y he hn hx' hy' F, reshape_result x y he hn hx' hy' G, h (Proc.devRef .tc x) hx]

theorem nary_step {k : ℕ} (xs : Fin k → Ref sig .tc) (f : ((i : Fin k) → (xs i).ty.Contents Val) → y.ty.Contents Val) (hxs' hy')
    (hxs : ∀ i, (xs i).idx.val < n) (hy : y.idx.val = n) : Step n (nary (τ := τ) xs y f hxs' hy') where
  wr d hd := idx_of_mem_single hd hy
  rd F G h d hd := by
    obtain rfl := Finset.mem_singleton.mp hd
    rw [nary_result xs y f hxs' hy' F, nary_result xs y f hxs' hy' G]
    exact congrArg f (funext fun i => h (Proc.devRef .tc (xs i)) (hxs i))

/-! ### The equation each builder's fixed point is -/

variable {W : Valuation τ sig Val}

theorem nullary_fix {v : y.ty.Contents Val} {hy'} (h : (nullary (τ := τ) y v hy').result W = W) :
    W (Proc.devRef .tc y) = v := (congrFun h _).symm.trans (nullary_result y v hy' W)

theorem unary_fix {f : x.ty.Contents Val → y.ty.Contents Val} {hx' hy'} (h : (unary (τ := τ) x y f hx' hy').result W = W) :
    W (Proc.devRef .tc y) = f (W (Proc.devRef .tc x)) := (congrFun h _).symm.trans (unary_result x y f hx' hy' W)

theorem binary_fix {f : a.ty.Contents Val → b.ty.Contents Val → y.ty.Contents Val} {ha' hb' hy'}
    (h : (binary (τ := τ) a b y f ha' hb' hy').result W = W) :
    W (Proc.devRef .tc y) = f (W (Proc.devRef .tc a)) (W (Proc.devRef .tc b)) :=
  (congrFun h _).symm.trans (binary_result a b y f ha' hb' hy' W)

theorem ternary_fix {f : c.ty.Contents Val → a.ty.Contents Val → b.ty.Contents Val → y.ty.Contents Val} {hc' ha' hb' hy'}
    (h : (ternary (τ := τ) c a b y f hc' ha' hb' hy').result W = W) :
    W (Proc.devRef .tc y) = f (W (Proc.devRef .tc c)) (W (Proc.devRef .tc a)) (W (Proc.devRef .tc b)) :=
  (congrFun h _).symm.trans (ternary_result c a b y f hc' ha' hb' hy' W)

theorem reshape_fix {he hn hx' hy'} (h : (reshape (τ := τ) (Val := Val) x y he hn hx' hy').result W = W) :
    W (Proc.devRef .tc y) = fun i => he ▸ shapeCast y.ty.shape (W (Proc.devRef .tc x)) hn i :=
  (congrFun h _).symm.trans (reshape_result x y he hn hx' hy' W)

theorem nary_fix {k : ℕ} {xs : Fin k → Ref sig .tc} {f : ((i : Fin k) → (xs i).ty.Contents Val) → y.ty.Contents Val} {hxs' hy'}
    (h : (nary (τ := τ) xs y f hxs' hy').result W = W) :
    W (Proc.devRef .tc y) = f (fun i => W (Proc.devRef .tc (xs i))) :=
  (congrFun h _).symm.trans (nary_result xs y f hxs' hy' W)

end Builders

end Idealize.ShloMosaic.StableHlo
-- ==== Proof.RefEqOrd0.lean ====
/-
  Window 0 of the reference program writes the buffers of index 19 … 78 in turn, one per operation, each
  from buffers of smaller index: the window is in order, starting at 19.
-/
import proofs.«113614_j77704548319488_1_alg».proof.Proof.RefOps0
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops0_inOrder : InOrder 19 (ops0 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqOrd1.lean ====
/-
  Window 1 of the reference program writes the buffers of index 79 … 144 in turn, one per operation, each
  from buffers of smaller index: the window is in order, starting at 79.
-/
import proofs.«113614_j77704548319488_1_alg».proof.Proof.RefOps1
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops1_inOrder : InOrder 79 (ops1 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqOrd2.lean ====
/-
  Window 2 of the reference program writes the buffers of index 145 … 216 in turn, one per operation, each
  from buffers of smaller index: the window is in order, starting at 145.
-/
import proofs.«113614_j77704548319488_1_alg».proof.Proof.RefOps2
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops2_inOrder : InOrder 145 (ops2 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqOrd3.lean ====
/-
  Window 3 of the reference program writes the buffers of index 217 … 276 in turn, one per operation, each
  from buffers of smaller index: the window is in order, starting at 217.
-/
import proofs.«113614_j77704548319488_1_alg».proof.Proof.RefOps3
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops3_inOrder : InOrder 217 (ops3 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqOrd4.lean ====
/-
  Window 4 of the reference program writes the buffers of index 277 … 348 in turn, one per operation, each
  from buffers of smaller index: the window is in order, starting at 277.
-/
import proofs.«113614_j77704548319488_1_alg».proof.Proof.RefOps4
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops4_inOrder : InOrder 277 (ops4 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqOrd5.lean ====
/-
  Window 5 of the reference program writes the buffers of index 349 … 426 in turn, one per operation, each
  from buffers of smaller index: the window is in order, starting at 349.
-/
import proofs.«113614_j77704548319488_1_alg».proof.Proof.RefOps5
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops5_inOrder : InOrder 349 (ops5 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqOrd6.lean ====
/-
  Window 6 of the reference program writes the buffers of index 427 … 463 in turn, one per operation, each
  from buffers of smaller index: the window is in order, starting at 427.
-/
import proofs.«113614_j77704548319488_1_alg».proof.Proof.RefOps6
import proofs.«113614_j77704548319488_1_alg».proof.Proof.LibHostSettle

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list is taken apart head by head; each head is one of the builders, a step at the current index because its
    result reference has that index and its operand references have smaller ones (decided on the literal references). -/
theorem ops6_inOrder : InOrder 427 (ops6 : List (HloOp τ sig (Elt F))) := by
  repeat' (first
    | exact InOrder.nil _
    | refine InOrder.cons ?_ ?_
    | (with_reducible refine nullary_step _ _ ?_) <;> decide
    | (with_reducible refine unary_step _ _ _ ?_ ?_) <;> decide
    | (with_reducible refine binary_step _ _ _ _ ?_ ?_ ?_) <;> decide
    | (with_reducible refine ternary_step _ _ _ _ _ ?_ ?_ ?_ ?_) <;> decide
    | (with_reducible refine reshape_step _ _ _ _ ?_ ?_) <;> decide
    | (with_reducible refine nary_step _ _ _ _ ?_ ?_) <;> decide)

end Cert.ReferenceIdeal.RefRun

end
-- ==== Proof.RefEqW.lean ====
/-
  The final contents of the reference program as a system of equations. @main's 445 operations write the buffers of
  index 19, 20, … in turn, each from buffers of smaller index (the nineteen arguments are the buffers 0 … 18). So the
  contents W V after the whole program, from contents V, are a fixed point of every one of its operations, window by
  window; and the arguments' buffers hold at the end what they held at the start.
-/
import proofs.«113614_j77704548319488_1_alg».proof.Proof.RefRun
import proofs.«113614_j77704548319488_1_alg».proof.Proof.RefEqOrd0
import proofs.«113614_j77704548319488_1_alg».proof.Proof.RefEqOrd1
import proofs.«113614_j77704548319488_1_alg».proof.Proof.RefEqOrd2
import proofs.«113614_j77704548319488_1_alg».proof.Proof.RefEqOrd3
import proofs.«113614_j77704548319488_1_alg».proof.Proof.RefEqOrd4
import proofs.«113614_j77704548319488_1_alg».proof.Proof.RefEqOrd5
import proofs.«113614_j77704548319488_1_alg».proof.Proof.RefEqOrd6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations are in order, starting at buffer 19: so is each window from where the last one stops. -/
theorem ops_inOrder : InOrder 19 (ops : List (HloOp τ sig (Elt F))) :=
  InOrder.append (InOrder.append (InOrder.append (InOrder.append (InOrder.append (InOrder.append (ops0_inOrder) rfl ops1_inOrder) rfl ops2_inOrder) rfl ops3_inOrder) rfl ops4_inOrder) rfl ops5_inOrder) rfl ops6_inOrder

/-- The contents after the whole of @main, from contents `V`. -/
def W (V : Valuation τ sig (Elt F)) : Valuation τ sig (Elt F) := after ops V

theorem W_eq_after (V : Valuation τ sig (Elt F)) : W V = after ops V := rfl

/-- Running any operation of @main again on the final contents changes nothing. -/
theorem W_settled (V : Valuation τ sig (Elt F)) : ∀ op ∈ (ops : List (HloOp τ sig (Elt F))), op.result (W V) = W V :=
  ops_inOrder.settled V

theorem settled0 (V : Valuation τ sig (Elt F)) : ∀ op ∈ (ops0 : List (HloOp τ sig (Elt F))), op.result (W V) = W V :=
  fun op h => W_settled V op (List.mem_append_left _ (List.mem_append_left _ (List.mem_append_left _ (List.mem_append_left _ (List.mem_append_left _ (List.mem_append_left _ (h)))))))

theorem settled1 (V : Valuation τ sig (Elt F)) : ∀ op ∈ (ops1 : List (HloOp τ sig (Elt F))), op.result (W V) = W V :=
  fun op h => W_settled V op (List.mem_append_left _ (List.mem_append_left _ (List.mem_append_left _ (List.mem_append_left _ (List.mem_append_left _ (List.mem_append_right _ h))))))

theorem settled2 (V : Valuation τ sig (Elt F)) : ∀ op ∈ (ops2 : List (HloOp τ sig (Elt F))), op.result (W V) = W V :=
  fun op h => W_settled V op (List.mem_append_left _ (List.mem_append_left _ (List.mem_append_left _ (List.mem_append_left _ (List.mem_append_right _ h)))))

theorem settled3 (V : Valuation τ sig (Elt F)) : ∀ op ∈ (ops3 : List (HloOp τ sig (Elt F))), op.result (W V) = W V :=
  fun op h => W_settled V op (List.mem_append_left _ (List.mem_append_left _ (List.mem_append_left _ (List.mem_append_right _ h))))

theorem settled4 (V : Valuation τ sig (Elt F)) : ∀ op ∈ (ops4 : List (HloOp τ sig (Elt F))), op.result (W V) = W V :=
  fun op h => W_settled V op (List.mem_append_left _ (List.mem_append_left _ (List.mem_append_right _ h)))

theorem settled5 (V : Valuation τ sig (Elt F)) : ∀ op ∈ (ops5 : List (HloOp τ sig (Elt F))), op.result (W V) = W V :=
  fun op h => W_settled V op (List.mem_append_left _ (List.mem_append_right _ h))

theorem settled6 (V : Valuation τ sig (Elt F)) : ∀ op ∈ (ops6 : List (HloOp τ sig (Elt F))), op.result (W V) = W V :=
  fun op h => W_settled V op (List.mem_append_right _ h)

theorem W_arg0 (V : Valuation τ sig (Elt F)) : W V main_arg0 = V main_arg0 := arg0_kept V
theorem W_arg1 (V : Valuation τ sig (Elt F)) : W V main_arg1 = V main_arg1 := arg1_kept V
theorem W_arg2 (V : Valuation τ sig (Elt F)) : W V main_arg2 = V main_arg2 := arg2_kept V
theorem W_arg3 (V : Valuation τ sig (Elt F)) : W V main_arg3 = V main_arg3 := arg3_kept V
theorem W_arg4 (V : Valuation τ sig (Elt F)) : W V main_arg4 = V main_arg4 := arg4_kept V
theorem W_arg5 (V : Valuation τ sig (Elt F)) : W V main_arg5 = V main_arg5 := arg5_kept V
theorem W_arg6 (V : Valuation τ sig (Elt F)) : W V main_arg6 = V main_arg6 := arg6_kept V
theorem W_arg7 (V : Valuation τ sig (Elt F)) : W V main_arg7 = V main_arg7 := arg7_kept V
theorem W_arg8 (V : Valuation τ sig (Elt F)) : W V main_arg8 = V main_arg8 := arg8_kept V
theorem W_arg9 (V : Valuation τ sig (Elt F)) : W V main_arg9 = V main_arg9 := arg9_kept V
theorem W_arg10 (V : Valuation τ sig (Elt F)) : W V main_arg10 = V main_arg10 := arg10_kept V
theorem W_arg11 (V : Valuation τ sig (Elt F)) : W V main_arg11 = V main_arg11 := arg11_kept V
theorem W_arg12 (V : Valuation τ sig (Elt F)) : W V main_arg12 = V main_arg12 := arg12_kept V
theorem W_arg13 (V : Valuation τ sig (Elt F)) : W V main_arg13 = V main_arg13 := arg13_kept V
theorem W_arg14 (V : Valuation τ sig (Elt F)) : W V main_arg14 = V main_arg14 := arg14_kept V
theorem W_arg15 (V : Valuation τ sig (Elt F)) : W V main_arg15 = V main_arg15 := arg15_kept V
theorem W_arg16 (V : Valuation τ sig (Elt F)) : W V main_arg16 = V main_arg16 := arg16_kept V
theorem W_arg17 (V : Valuation τ sig (Elt F)) : W V main_arg17 = V main_arg17 := arg17_kept V
theorem W_arg18 (V : Valuation τ sig (Elt F)) : W V main_arg18 = V main_arg18 := arg18_kept V

-- from here on the final contents are read through the equations only, never by running the program again
attribute [irreducible] W

end Cert.ReferenceIdeal.RefRun

end
-- ==== Proof.RefEqs0.lean ====
/-
  Window 0 of the reference program read as equations. With W V the contents after the whole of @main from
  contents V, each operation of the window says that its result buffer holds its function of its operands'
  contents — all at the same final contents W V, because W V is a fixed point of every operation of @main. One
  statement per operation of the window, 60 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v0 (V : Valuation τ sig (Elt F)) : W V main_v0 = ((fun l r => Host.dotGeneral dot_S65536x128_S128x1_S65536x1_1_0_0_1_n_n none l r) : (⟨S65536x128, .f32⟩ : BufTy).Contents (Elt F) → (⟨S128x1, .f32⟩ : BufTy).Contents (Elt F) → (⟨S65536x1, .f32⟩ : BufTy).Contents (Elt F)) (W V main_arg1) (W V main_arg3) :=
  binary_fix (settled0 V _ (.head _))

theorem eq_main_v1 (V : Valuation τ sig (Elt F)) : W V main_v1 = (broadcastInDim S1x1 ![1] bcast_S1_S1x1_1 : (⟨S1, .f32⟩ : BufTy).Contents (Elt F) → (⟨S1x1, .f32⟩ : BufTy).Contents (Elt F)) (W V main_arg4) :=
  unary_fix (settled0 V _ (.tail _ (.head _)))

theorem eq_main_v2 (V : Valuation τ sig (Elt F)) : W V main_v2 = (broadcastInDim S65536x1 ![0, 1] bcast_S1x1_S65536x1_0_1 : (⟨S1x1, .f32⟩ : BufTy).Contents (Elt F) → (⟨S65536x1, .f32⟩ : BufTy).Contents (Elt F)) (W V main_v1) :=
  unary_fix (settled0 V _ (.tail _ (.tail _ (.head _))))

theorem eq_main_v3 (V : Valuation τ sig (Elt F)) : W V main_v3 = (addf : (⟨S65536x1, .f32⟩ : BufTy).Contents (Elt F) → (⟨S65536x1, .f32⟩ : BufTy).Contents (Elt F) → (⟨S65536x1, .f32⟩ : BufTy).Contents (Elt F)) (W V main_v0) (W V main_v2) :=
  binary_fix (settled0 V _ (.tail _ (.tail _ (.tail _ (.head _)))))

theorem eq_main_v4 (V : Valuation τ sig (Elt F)) : W V main_v4 = (Host.tanh : (⟨S65536x1, .f32⟩ : BufTy).Contents (Elt F) → (⟨S65536x1, .f32⟩ : BufTy).Contents (Elt F)) (W V main_v3) :=
  unary_fix (settled0 V _ (.tail _ (.tail _ (.tail _ (.tail _ (.head _))))))

theorem eq_main_v5 (V : Valuation τ sig (Elt F)) : W V main_v5 = ((fun l r => Host.dotGeneral dot_S65536x128_S128x1_S65536x1_1_0_0_1_n_n none l r) : (⟨S65536x128, .f32⟩ : BufTy).Contents (Elt F) → (⟨S128x1, .f32⟩ : BufTy).Contents (Elt F) → (⟨S65536x1, .f32⟩ : BufTy).Contents (Elt F)) (W V main_arg2) (W V main_arg3) :=
  binary_fix (settled0 V _ (.tail _ (.tail _ (.tail _ (.tail _ (.tail _ (.head _)))))))

theorem eq_main_v6 (V : Valuation τ sig (Elt F)) : W V main_v6 = (broadcastInDim S1x1 ![1] bcast_S1_S1x1_1 : (⟨S1, .f32⟩ : BufTy).Contents (Elt F) → (⟨S1x1, .f32⟩ : BufTy).Contents (Elt F)) (W V main_arg4) :=
  unary_fix (settled0 V _ (.tail _ (.tail _ (.tail _ (.tail _ (.tail _ (.tail _ (.head _))))))))

theorem eq_main_v7 (V : Valuation τ sig (Elt F)) : W V main_v7 = (broadcastInDim S65536x1 ![0, 1] bcast_S1x1_S65536x1_0_1 : (⟨S1x1, .f32⟩ : BufTy).Contents (Elt F) → (⟨S65536x1, .f32⟩ : BufTy).Contents (Elt F)) (W V main_v6) :=
  unary_fix (settled0 V _ (.tail _ (.tail _ (.tail _ (.tail _ (.tail _ (.tail _ (.tail _ (.head _)))))))))

theorem eq_main_v8 (V : Valuation τ sig (Elt F)) : W V main_v8 = (addf : (⟨S65536x1, .f32⟩ : BufTy).Contents (Elt F) → (⟨S65536x1, .f32⟩ : BufTy).Contents (Elt F) → (⟨S65536x1, .f32⟩ : BufTy).Contents (Elt F)) (W V main_v5) (W V main_v7) :=
  binary_fix (settled0 V _ (.tail _ (.tail _ (.tail _ (.tail _ (.tail _ (.tail _ (.tail _ (.tail _ (.head _))))))))))

theorem eq_main_v9 (V : Valuation τ sig (Elt F)) : W V main_v9 = (Host.tanh : (⟨S65536x1, .f32⟩ : BufTy).Contents (Elt F) → (⟨S65536x1, .f32⟩ : BufTy).Contents (Elt F)) (W V main_v8) :=
  unary_fix (settled0 V _ (.tail _ (.tail _ (.tail _ (.tail _ (.tail _ (.tail _ (.tail _ (.tail _ (.tail _ (.head _)))))))))))

theorem eq_main_v10 (V : Valuation τ sig (Elt F)) : W V main_v10 = ((fun l r => Host.dotGeneral dot_S65536x128_S128x1_S65536x1_1_0_0_1_n_n none l r) : (⟨S65536x128, .f32⟩ : BufTy).Contents (Elt F) → (⟨S128x1, .f32⟩ : BufTy).Contents (Elt F) → (⟨S65536x1, .f32⟩ : BufTy).Contents (Elt F)) (W V main_arg0) (W V main_arg3) :=
  binary_fix (settled0 V _ (.tail _ (.tail _ (.tail _ (.tail _ (.tail _ (.tail _ (.tail _ (.tail _ (.tail _ (.tail _ (.head _))))))))))))

theorem eq_main_v11 (V : Valuation τ sig (Elt F)) : W V main_v11 = (broadcastInDim S1x1 ![1] bcast_S1_S1x1_1 : (⟨S1, .f32⟩ : BufTy).Contents (Elt F) → (⟨S1x1, .f32⟩ : BufTy).Contents (Elt F)) (W V main_arg4) :=
  unary_fix (settled0 V _ (.tail _ (.tail _ (.tail _ (.tail _ (.tail _ (.tail _ (.tail _ (.tail _ (.tail _ (.tail _ (.tail _ (.head _)))))))))))))

theorem eq_main_v12 (V : Valuation τ sig (Elt F)) : W V main_v12 = (broadcastInDim S65536x1 ![0, 1] bcast_S1x1_S65536x1_0_1 : (⟨S1x1, .f32⟩ : BufTy).Contents (Elt F) → (⟨S65536x1, .f32⟩ : BufTy).Contents (Elt F)) (W V main_v11) :=
  unary_fix (settled0 V _ (.tail _ (.tail _ (.tail _ (.tail _ (.tail _ (.tail _ (.tail _ (.tail _ (.tail _ (.tail _ (.tail _ (.tail _ (.head _))))))))))))))

theorem eq_main_v13 (V : Valuation τ sig (Elt F)) : W V main_v13 = (addf : (⟨S65536x1, .f32⟩ : BufTy).Contents (Elt F) → (⟨S65536x1, .f32⟩ : BufTy).Contents (Elt F) → (⟨S65536x1, .f32⟩ : BufTy).Contents (Elt F)) (W V main_v10) (W V main_v12) :=
  binary_fix (settled0 V _ (.tail _ (.tail _ (.tail _ (.tail _ (.tail _ (.tail _ (.tail _ (.tail _ (.tail _ (.tail _ (.tail _ (.tail _ (.tail _ (.head _)))))))))))))))

theorem eq_main_v14 (V : Valuation τ sig (Elt F)) : W V main_v14 = (Host.tanh : (⟨S65536x1, .f32⟩ : BufTy).Contents (Elt F) → (⟨S65536x1, .f32⟩ : BufTy).Contents (Elt F)) (W V main_v13) :=
  unary_fix (settled0 V _ (.tail _ (.tail _ (.tail _ (.tail _ (.tail _ (.tail _ (.tail _ (.tail _ (.tail _ (.tail _ (.tail _ (.tail _ (.tail _ (.tail _ (.head _))))))))))))))))

theorem eq_main_v15 (V : Valuation τ sig (Elt F)) : W V main_v15 = (broadcastInDim S65536x128 ![0, 1] bcast_S65536x1_S65536x128_0_1 : (⟨S65536x1, .f32⟩ : BufTy).Contents (Elt F) → (⟨S65536x128, .f32⟩ : BufTy).Contents (Elt F)) (W V main_v4) :=
  unary_fix (settled0 V _ (.tail _ (.tail _ (.tail _ (.tail _ (.tail _ (.tail _ (.tail _ (.tail _ (.tail _ (.tail _ (.tail _ (.tail _ (.tail _ (.tail _ (.tail _ (.head _)))))))))))))))))

theorem eq_main_v16 (V : Valuation τ sig (Elt F)) : W V main_v16 = (mulf : (⟨S65536x128, .f32⟩ : BufTy).Contents (Elt F) → (⟨S65536x128, .f32⟩ : BufTy).Contents (Elt F) → (⟨S65536x128, .f32⟩ : BufTy).Contents (Elt F)) (W V main_v15) (W V main_arg1) :=
  binary_fix (settled0 V _ (.tail _ (.tail _ (.tail _ (.tail _ (.tail _ (.tail _ (.tail _ (.tail _ (.tail _ (.tail _ (.tail _ (.tail _ (.tail _ (.tail _ (.tail _ (.tail _ (.head _))))))))))))))))))

theorem eq_main_v17 (V : Valuation τ sig (Elt F)) : W V main_v17 = (broadcastInDim S65536x128 ![0, 1] bcast_S65536x1_S65536x128_0_1 : (⟨S65536x1, .f32⟩ : BufTy).Contents (Elt F) → (⟨S65536x128, .f32⟩ : BufTy).Contents (Elt F)) (W V main_v9) :=
  unary_fix (settled0 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_v18 (V : Valuation τ sig (Elt F)) : W V main_v18 = (mulf : (⟨S65536x128, .f32⟩ : BufTy).Contents (Elt F) → (⟨S65536x128, .f32⟩ : BufTy).Contents (Elt F) → (⟨S65536x128, .f32⟩ : BufTy).Contents (Elt F)) (W V main_v17) (W V main_arg2) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_v19 (V : Valuation τ sig (Elt F)) : W V main_v19 = (addf : (⟨S65536x128, .f32⟩ : BufTy).Contents (Elt F) → (⟨S65536x128, .f32⟩ : BufTy).Contents (Elt F) → (⟨S65536x128, .f32⟩ : BufTy).Contents (Elt F)) (W V main_v16) (W V main_v18) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_v20 (V : Valuation τ sig (Elt F)) : W V main_v20 = (broadcastInDim S65536x128 ![0, 1] bcast_S65536x1_S65536x128_0_1 : (⟨S65536x1, .f32⟩ : BufTy).Contents (Elt F) → (⟨S65536x128, .f32⟩ : BufTy).Contents (Elt F)) (W V main_v14) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_v21 (V : Valuation τ sig (Elt F)) : W V main_v21 = (mulf : (⟨S65536x128, .f32⟩ : BufTy).Contents (Elt F) → (⟨S65536x128, .f32⟩ : BufTy).Contents (Elt F) → (⟨S65536x128, .f32⟩ : BufTy).Contents (Elt F)) (W V main_v20) (W V main_arg0) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_v22 (V : Valuation τ sig (Elt F)) : W V main_v22 = (addf : (⟨S65536x128, .f32⟩ : BufTy).Contents (Elt F) → (⟨S65536x128, .f32⟩ : BufTy).Contents (Elt F) → (⟨S65536x128, .f32⟩ : BufTy).Contents (Elt F)) (W V main_v19) (W V main_v21) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_cst (V : Valuation τ sig (Elt F)) : W V main_cst = (constant S_ .f32 0x40400000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v23 (V : Valuation τ sig (Elt F)) : W V main_v23 = (broadcastInDim S65536x128 ![] bcast_S_S65536x128 : (⟨S_, .f32⟩ : BufTy).Contents (Elt F) → (⟨S65536x128, .f32⟩ : BufTy).Contents (Elt F)) (W V main_cst) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v24 (V : Valuation τ sig (Elt F)) : W V main_v24 = (Host.divf : (⟨S65536x128, .f32⟩ : BufTy).Contents (Elt F) → (⟨S65536x128, .f32⟩ : BufTy).Contents (Elt F) → (⟨S65536x128, .f32⟩ : BufTy).Contents (Elt F)) (W V main_v22) (W V main_v23) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v25 (V : Valuation τ sig (Elt F)) : W V main_v25 = shapeCast S65536 (W V main_v4) shapeCasts_S65536x1_S65536 :=
  reshape_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_v26 (V : Valuation τ sig (Elt F)) : W V main_v26 = shapeCast S65536 (W V main_v9) shapeCasts_S65536x1_S65536 :=
  reshape_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_v27 (V : Valuation τ sig (Elt F)) : W V main_v27 = shapeCast S65536 (W V main_v14) shapeCasts_S65536x1_S65536 :=
  reshape_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_cst_0 (V : Valuation τ sig (Elt F)) : W V main_cst_0 = (constant S_ .f32 0xFF800000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_v28 (V : Valuation τ sig (Elt F)) : W V main_v28 = ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_arg1) (W V main_cst_0) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_cst_1 (V : Valuation τ sig (Elt F)) : W V main_cst_1 = (constant S_ .f32 0xFF800000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_v29 (V : Valuation τ sig (Elt F)) : W V main_v29 = (broadcastInDim S65536 ![] bcast_S_S65536 : (⟨S_, .f32⟩ : BufTy).Contents (Elt F) → (⟨S65536, .f32⟩ : BufTy).Contents (Elt F)) (W V main_cst_1) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_v30 (V : Valuation τ sig (Elt F)) : W V main_v30 = (maximumf : (⟨S65536, .f32⟩ : BufTy).Contents (Elt F) → (⟨S65536, .f32⟩ : BufTy).Contents (Elt F) → (⟨S65536, .f32⟩ : BufTy).Contents (Elt F)) (W V main_v29) (W V main_v28) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_v31 (V : Valuation τ sig (Elt F)) : W V main_v31 = (broadcastInDim S65536x1 ![0] bcast_S65536_S65536x1_0 : (⟨S65536, .f32⟩ : BufTy).Contents (Elt F) → (⟨S65536x1, .f32⟩ : BufTy).Contents (Elt F)) (W V main_v30) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_v32 (V : Valuation τ sig (Elt F)) : W V main_v32 = (broadcastInDim S65536x128 ![0, 1] bcast_S65536x1_S65536x128_0_1 : (⟨S65536x1, .f32⟩ : BufTy).Contents (Elt F) → (⟨S65536x128, .f32⟩ : BufTy).Contents (Elt F)) (W V main_v31) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_v33 (V : Valuation τ sig (Elt F)) : W V main_v33 = (subf : (⟨S65536x128, .f32⟩ : BufTy).Contents (Elt F) → (⟨S65536x128, .f32⟩ : BufTy).Contents (Elt F) → (⟨S65536x128, .f32⟩ : BufTy).Contents (Elt F)) (W V main_arg1) (W V main_v32) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

theorem eq_main_v34 (V : Valuation τ sig (Elt F)) : W V main_v34 = (Host.exp : (⟨S65536x128, .f32⟩ : BufTy).Contents (Elt F) → (⟨S65536x128, .f32⟩ : BufTy).Contents (Elt F)) (W V main_v33) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))

theorem eq_main_cst_2 (V : Valuation τ sig (Elt F)) : W V main_cst_2 = (constant S_ .f32 0x00000000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

theorem eq_main_v35 (V : Valuation τ sig (Elt F)) : W V main_v35 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v34) (W V main_cst_2) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

theorem eq_main_v36 (V : Valuation τ sig (Elt F)) : W V main_v36 = (broadcastInDim S65536x1 ![0] bcast_S65536_S65536x1_0 : (⟨S65536, .f32⟩ : BufTy).Contents (Elt F) → (⟨S65536x1, .f32⟩ : BufTy).Contents (Elt F)) (W V main_v35) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))

theorem eq_main_v37 (V : Valuation τ sig (Elt F)) : W V main_v37 = (broadcastInDim S65536x128 ![0, 1] bcast_S65536x1_S65536x128_0_1 : (⟨S65536x1, .f32⟩ : BufTy).Contents (Elt F) → (⟨S65536x128, .f32⟩ : BufTy).Contents (Elt F)) (W V main_v36) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))

theorem eq_main_v38 (V : Valuation τ sig (Elt F)) : W V main_v38 = (Host.divf : (⟨S65536x128, .f32⟩ : BufTy).Contents (Elt F) → (⟨S65536x128, .f32⟩ : BufTy).Contents (Elt F) → (⟨S65536x128, .f32⟩ : BufTy).Contents (Elt F)) (W V main_v34) (W V main_v37) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))

theorem eq_main_cst_3 (V : Valuation τ sig (Elt F)) : W V main_cst_3 = (constant S_ .f32 0xFF800000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))

theorem eq_main_v39 (V : Valuation τ sig (Elt F)) : W V main_v39 = ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_arg2) (W V main_cst_3) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))

theorem eq_main_cst_4 (V : Valuation τ sig (Elt F)) : W V main_cst_4 = (constant S_ .f32 0xFF800000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))

theorem eq_main_v40 (V : Valuation τ sig (Elt F)) : W V main_v40 = (broadcastInDim S65536 ![] bcast_S_S65536 : (⟨S_, .f32⟩ : BufTy).Contents (Elt F) → (⟨S65536, .f32⟩ : BufTy).Contents (Elt F)) (W V main_cst_4) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))

theorem eq_main_v41 (V : Valuation τ sig (Elt F)) : W V main_v41 = (maximumf : (⟨S65536, .f32⟩ : BufTy).Contents (Elt F) → (⟨S65536, .f32⟩ : BufTy).Contents (Elt F) → (⟨S65536, .f32⟩ : BufTy).Contents (Elt F)) (W V main_v40) (W V main_v39) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))

theorem eq_main_v42 (V : Valuation τ sig (Elt F)) : W V main_v42 = (broadcastInDim S65536x1 ![0] bcast_S65536_S65536x1_0 : (⟨S65536, .f32⟩ : BufTy).Contents (Elt F) → (⟨S65536x1, .f32⟩ : BufTy).Contents (Elt F)) (W V main_v41) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))

theorem eq_main_v43 (V : Valuation τ sig (Elt F)) : W V main_v43 = (broadcastInDim S65536x128 ![0, 1] bcast_S65536x1_S65536x128_0_1 : (⟨S65536x1, .f32⟩ : BufTy).Contents (Elt F) → (⟨S65536x128, .f32⟩ : BufTy).Contents (Elt F)) (W V main_v42) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))

theorem eq_main_v44 (V : Valuation τ sig (Elt F)) : W V main_v44 = (subf : (⟨S65536x128, .f32⟩ : BufTy).Contents (Elt F) → (⟨S65536x128, .f32⟩ : BufTy).Contents (Elt F) → (⟨S65536x128, .f32⟩ : BufTy).Contents (Elt F)) (W V main_arg2) (W V main_v43) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))

theorem eq_main_v45 (V : Valuation τ sig (Elt F)) : W V main_v45 = (Host.exp : (⟨S65536x128, .f32⟩ : BufTy).Contents (Elt F) → (⟨S65536x128, .f32⟩ : BufTy).Contents (Elt F)) (W V main_v44) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))

theorem eq_main_cst_5 (V : Valuation τ sig (Elt F)) : W V main_cst_5 = (constant S_ .f32 0x00000000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))

theorem eq_main_v46 (V : Valuation τ sig (Elt F)) : W V main_v46 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v45) (W V main_cst_5) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))

theorem eq_main_v47 (V : Valuation τ sig (Elt F)) : W V main_v47 = (broadcastInDim S65536x1 ![0] bcast_S65536_S65536x1_0 : (⟨S65536, .f32⟩ : BufTy).Contents (Elt F) → (⟨S65536x1, .f32⟩ : BufTy).Contents (Elt F)) (W V main_v46) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))

theorem eq_main_v48 (V : Valuation τ sig (Elt F)) : W V main_v48 = (broadcastInDim S65536x128 ![0, 1] bcast_S65536x1_S65536x128_0_1 : (⟨S65536x1, .f32⟩ : BufTy).Contents (Elt F) → (⟨S65536x128, .f32⟩ : BufTy).Contents (Elt F)) (W V main_v47) :=
  unary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))

theorem eq_main_v49 (V : Valuation τ sig (Elt F)) : W V main_v49 = (Host.divf : (⟨S65536x128, .f32⟩ : BufTy).Contents (Elt F) → (⟨S65536x128, .f32⟩ : BufTy).Contents (Elt F) → (⟨S65536x128, .f32⟩ : BufTy).Contents (Elt F)) (W V main_v45) (W V main_v48) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))

theorem eq_main_cst_6 (V : Valuation τ sig (Elt F)) : W V main_cst_6 = (constant S_ .f32 0xFF800000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))

theorem eq_main_v50 (V : Valuation τ sig (Elt F)) : W V main_v50 = ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_arg0) (W V main_cst_6) :=
  binary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))

theorem eq_main_cst_7 (V : Valuation τ sig (Elt F)) : W V main_cst_7 = (constant S_ .f32 0xFF800000#32) :=
  nullary_fix (settled0 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))

end Cert.ReferenceIdeal.RefRun

end
-- ==== Proof.RefEqs1.lean ====
/-
  Window 1 of the reference program read as equations. With W V the contents after the whole of @main from
  contents V, each operation of the window says that its result buffer holds its function of its operands'
  contents — all at the same final contents W V, because W V is a fixed point of every operation of @main. One
  statement per operation of the window, 66 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v51 (V : Valuation τ sig (Elt F)) : W V main_v51 = (broadcastInDim S65536 ![] bcast_S_S65536 : (⟨S_, .f32⟩ : BufTy).Contents (Elt F) → (⟨S65536, .f32⟩ : BufTy).Contents (Elt F)) (W V main_cst_7) :=
  unary_fix (settled1 V _ (.head _))

theorem eq_main_v52 (V : Valuation τ sig (Elt F)) : W V main_v52 = (maximumf : (⟨S65536, .f32⟩ : BufTy).Contents (Elt F) → (⟨S65536, .f32⟩ : BufTy).Contents (Elt F) → (⟨S65536, .f32⟩ : BufTy).Contents (Elt F)) (W V main_v51) (W V main_v50) :=
  binary_fix (settled1 V _ (.tail _ (.head _)))

theorem eq_main_v53 (V : Valuation τ sig (Elt F)) : W V main_v53 = (broadcastInDim S65536x1 ![0] bcast_S65536_S65536x1_0 : (⟨S65536, .f32⟩ : BufTy).Contents (Elt F) → (⟨S65536x1, .f32⟩ : BufTy).Contents (Elt F)) (W V main_v52) :=
  unary_fix (settled1 V _ (.tail _ (.tail _ (.head _))))

theorem eq_main_v54 (V : Valuation τ sig (Elt F)) : W V main_v54 = (broadcastInDim S65536x128 ![0, 1] bcast_S65536x1_S65536x128_0_1 : (⟨S65536x1, .f32⟩ : BufTy).Contents (Elt F) → (⟨S65536x128, .f32⟩ : BufTy).Contents (Elt F)) (W V main_v53) :=
  unary_fix (settled1 V _ (.tail _ (.tail _ (.tail _ (.head _)))))

theorem eq_main_v55 (V : Valuation τ sig (Elt F)) : W V main_v55 = (subf : (⟨S65536x128, .f32⟩ : BufTy).Contents (Elt F) → (⟨S65536x128, .f32⟩ : BufTy).Contents (Elt F) → (⟨S65536x128, .f32⟩ : BufTy).Contents (Elt F)) (W V main_arg0) (W V main_v54) :=
  binary_fix (settled1 V _ (.tail _ (.tail _ (.tail _ (.tail _ (.head _))))))

theorem eq_main_v56 (V : Valuation τ sig (Elt F)) : W V main_v56 = (Host.exp : (⟨S65536x128, .f32⟩ : BufTy).Contents (Elt F) → (⟨S65536x128, .f32⟩ : BufTy).Contents (Elt F)) (W V main_v55) :=
  unary_fix (settled1 V _ (.tail _ (.tail _ (.tail _ (.tail _ (.tail _ (.head _)))))))

theorem eq_main_cst_8 (V : Valuation τ sig (Elt F)) : W V main_cst_8 = (constant S_ .f32 0x00000000#32) :=
  nullary_fix (settled1 V _ (.tail _ (.tail _ (.tail _ (.tail _ (.tail _ (.tail _ (.head _))))))))

theorem eq_main_v57 (V : Valuation τ sig (Elt F)) : W V main_v57 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v56) (W V main_cst_8) :=
  binary_fix (settled1 V _ (.tail _ (.tail _ (.tail _ (.tail _ (.tail _ (.tail _ (.tail _ (.head _)))))))))

theorem eq_main_v58 (V : Valuation τ sig (Elt F)) : W V main_v58 = (broadcastInDim S65536x1 ![0] bcast_S65536_S65536x1_0 : (⟨S65536, .f32⟩ : BufTy).Contents (Elt F) → (⟨S65536x1, .f32⟩ : BufTy).Contents (Elt F)) (W V main_v57) :=
  unary_fix (settled1 V _ (.tail _ (.tail _ (.tail _ (.tail _ (.tail _ (.tail _ (.tail _ (.tail _ (.head _))))))))))

theorem eq_main_v59 (V : Valuation τ sig (Elt F)) : W V main_v59 = (broadcastInDim S65536x128 ![0, 1] bcast_S65536x1_S65536x128_0_1 : (⟨S65536x1, .f32⟩ : BufTy).Contents (Elt F) → (⟨S65536x128, .f32⟩ : BufTy).Contents (Elt F)) (W V main_v58) :=
  unary_fix (settled1 V _ (.tail _ (.tail _ (.tail _ (.tail _ (.tail _ (.tail _ (.tail _ (.tail _ (.tail _ (.head _)))))))))))

theorem eq_main_v60 (V : Valuation τ sig (Elt F)) : W V main_v60 = (Host.divf : (⟨S65536x128, .f32⟩ : BufTy).Contents (Elt F) → (⟨S65536x128, .f32⟩ : BufTy).Contents (Elt F) → (⟨S65536x128, .f32⟩ : BufTy).Contents (Elt F)) (W V main_v56) (W V main_v59) :=
  binary_fix (settled1 V _ (.tail _ (.tail _ (.tail _ (.tail _ (.tail _ (.tail _ (.tail _ (.tail _ (.tail _ (.tail _ (.head _))))))))))))

theorem eq_main_v61 (V : Valuation τ sig (Elt F)) : W V main_v61 = (addf : (⟨S65536, .f32⟩ : BufTy).Contents (Elt F) → (⟨S65536, .f32⟩ : BufTy).Contents (Elt F) → (⟨S65536, .f32⟩ : BufTy).Contents (Elt F)) (W V main_v25) (W V main_v26) :=
  binary_fix (settled1 V _ (.tail _ (.tail _ (.tail _ (.tail _ (.tail _ (.tail _ (.tail _ (.tail _ (.tail _ (.tail _ (.tail _ (.head _)))))))))))))

theorem eq_main_v62 (V : Valuation τ sig (Elt F)) : W V main_v62 = (mulf : (⟨S65536x128, .f32⟩ : BufTy).Contents (Elt F) → (⟨S65536x128, .f32⟩ : BufTy).Contents (Elt F) → (⟨S65536x128, .f32⟩ : BufTy).Contents (Elt F)) (W V main_v38) (W V main_v49) :=
  binary_fix (settled1 V _ (.tail _ (.tail _ (.tail _ (.tail _ (.tail _ (.tail _ (.tail _ (.tail _ (.tail _ (.tail _ (.tail _ (.tail _ (.head _))))))))))))))

theorem eq_main_cst_9 (V : Valuation τ sig (Elt F)) : W V main_cst_9 = (constant S_ .f32 0x00000000#32) :=
  nullary_fix (settled1 V _ (.tail _ (.tail _ (.tail _ (.tail _ (.tail _ (.tail _ (.tail _ (.tail _ (.tail _ (.tail _ (.tail _ (.tail _ (.tail _ (.head _)))))))))))))))

theorem eq_main_v63 (V : Valuation τ sig (Elt F)) : W V main_v63 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v62) (W V main_cst_9) :=
  binary_fix (settled1 V _ (.tail _ (.tail _ (.tail _ (.tail _ (.tail _ (.tail _ (.tail _ (.tail _ (.tail _ (.tail _ (.tail _ (.tail _ (.tail _ (.tail _ (.head _))))))))))))))))

theorem eq_main_cst_10 (V : Valuation τ sig (Elt F)) : W V main_cst_10 = (constant S_ .f32 0x3F000000#32) :=
  nullary_fix (settled1 V _ (.tail _ (.tail _ (.tail _ (.tail _ (.tail _ (.tail _ (.tail _ (.tail _ (.tail _ (.tail _ (.tail _ (.tail _ (.tail _ (.tail _ (.tail _ (.head _)))))))))))))))))

theorem eq_main_v64 (V : Valuation τ sig (Elt F)) : W V main_v64 = (broadcastInDim S65536 ![] bcast_S_S65536 : (⟨S_, .f32⟩ : BufTy).Contents (Elt F) → (⟨S65536, .f32⟩ : BufTy).Contents (Elt F)) (W V main_cst_10) :=
  unary_fix (settled1 V _ (.tail _ (.tail _ (.tail _ (.tail _ (.tail _ (.tail _ (.tail _ (.tail _ (.tail _ (.tail _ (.tail _ (.tail _ (.tail _ (.tail _ (.tail _ (.tail _ (.head _))))))))))))))))))

theorem eq_main_v65 (V : Valuation τ sig (Elt F)) : W V main_v65 = (addf : (⟨S65536, .f32⟩ : BufTy).Contents (Elt F) → (⟨S65536, .f32⟩ : BufTy).Contents (Elt F) → (⟨S65536, .f32⟩ : BufTy).Contents (Elt F)) (W V main_v63) (W V main_v64) :=
  binary_fix (settled1 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_v66 (V : Valuation τ sig (Elt F)) : W V main_v66 = (Host.divf : (⟨S65536, .f32⟩ : BufTy).Contents (Elt F) → (⟨S65536, .f32⟩ : BufTy).Contents (Elt F) → (⟨S65536, .f32⟩ : BufTy).Contents (Elt F)) (W V main_v61) (W V main_v65) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_v67 (V : Valuation τ sig (Elt F)) : W V main_v67 = (addf : (⟨S65536, .f32⟩ : BufTy).Contents (Elt F) → (⟨S65536, .f32⟩ : BufTy).Contents (Elt F) → (⟨S65536, .f32⟩ : BufTy).Contents (Elt F)) (W V main_v25) (W V main_v27) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_v68 (V : Valuation τ sig (Elt F)) : W V main_v68 = (mulf : (⟨S65536x128, .f32⟩ : BufTy).Contents (Elt F) → (⟨S65536x128, .f32⟩ : BufTy).Contents (Elt F) → (⟨S65536x128, .f32⟩ : BufTy).Contents (Elt F)) (W V main_v38) (W V main_v60) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_cst_11 (V : Valuation τ sig (Elt F)) : W V main_cst_11 = (constant S_ .f32 0x00000000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_v69 (V : Valuation τ sig (Elt F)) : W V main_v69 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v68) (W V main_cst_11) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_cst_12 (V : Valuation τ sig (Elt F)) : W V main_cst_12 = (constant S_ .f32 0x3F000000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v70 (V : Valuation τ sig (Elt F)) : W V main_v70 = (broadcastInDim S65536 ![] bcast_S_S65536 : (⟨S_, .f32⟩ : BufTy).Contents (Elt F) → (⟨S65536, .f32⟩ : BufTy).Contents (Elt F)) (W V main_cst_12) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v71 (V : Valuation τ sig (Elt F)) : W V main_v71 = (addf : (⟨S65536, .f32⟩ : BufTy).Contents (Elt F) → (⟨S65536, .f32⟩ : BufTy).Contents (Elt F) → (⟨S65536, .f32⟩ : BufTy).Contents (Elt F)) (W V main_v69) (W V main_v70) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v72 (V : Valuation τ sig (Elt F)) : W V main_v72 = (Host.divf : (⟨S65536, .f32⟩ : BufTy).Contents (Elt F) → (⟨S65536, .f32⟩ : BufTy).Contents (Elt F) → (⟨S65536, .f32⟩ : BufTy).Contents (Elt F)) (W V main_v67) (W V main_v71) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_v73 (V : Valuation τ sig (Elt F)) : W V main_v73 = (addf : (⟨S65536, .f32⟩ : BufTy).Contents (Elt F) → (⟨S65536, .f32⟩ : BufTy).Contents (Elt F) → (⟨S65536, .f32⟩ : BufTy).Contents (Elt F)) (W V main_v27) (W V main_v26) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_v74 (V : Valuation τ sig (Elt F)) : W V main_v74 = (mulf : (⟨S65536x128, .f32⟩ : BufTy).Contents (Elt F) → (⟨S65536x128, .f32⟩ : BufTy).Contents (Elt F) → (⟨S65536x128, .f32⟩ : BufTy).Contents (Elt F)) (W V main_v49) (W V main_v60) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_cst_13 (V : Valuation τ sig (Elt F)) : W V main_cst_13 = (constant S_ .f32 0x00000000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_v75 (V : Valuation τ sig (Elt F)) : W V main_v75 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v74) (W V main_cst_13) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_cst_14 (V : Valuation τ sig (Elt F)) : W V main_cst_14 = (constant S_ .f32 0x3F000000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_v76 (V : Valuation τ sig (Elt F)) : W V main_v76 = (broadcastInDim S65536 ![] bcast_S_S65536 : (⟨S_, .f32⟩ : BufTy).Contents (Elt F) → (⟨S65536, .f32⟩ : BufTy).Contents (Elt F)) (W V main_cst_14) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_v77 (V : Valuation τ sig (Elt F)) : W V main_v77 = (addf : (⟨S65536, .f32⟩ : BufTy).Contents (Elt F) → (⟨S65536, .f32⟩ : BufTy).Contents (Elt F) → (⟨S65536, .f32⟩ : BufTy).Contents (Elt F)) (W V main_v75) (W V main_v76) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_v78 (V : Valuation τ sig (Elt F)) : W V main_v78 = (Host.divf : (⟨S65536, .f32⟩ : BufTy).Contents (Elt F) → (⟨S65536, .f32⟩ : BufTy).Contents (Elt F) → (⟨S65536, .f32⟩ : BufTy).Contents (Elt F)) (W V main_v73) (W V main_v77) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_v79 (V : Valuation τ sig (Elt F)) : W V main_v79 = (broadcastInDim S65536x1 ![0] bcast_S65536_S65536x1_0 : (⟨S65536, .f32⟩ : BufTy).Contents (Elt F) → (⟨S65536x1, .f32⟩ : BufTy).Contents (Elt F)) (W V main_v66) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_v80 (V : Valuation τ sig (Elt F)) : W V main_v80 = (broadcastInDim S65536x1 ![0] bcast_S65536_S65536x1_0 : (⟨S65536, .f32⟩ : BufTy).Contents (Elt F) → (⟨S65536x1, .f32⟩ : BufTy).Contents (Elt F)) (W V main_v72) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

theorem eq_main_v81 (V : Valuation τ sig (Elt F)) : W V main_v81 = (broadcastInDim S65536x1 ![0] bcast_S65536_S65536x1_0 : (⟨S65536, .f32⟩ : BufTy).Contents (Elt F) → (⟨S65536x1, .f32⟩ : BufTy).Contents (Elt F)) (W V main_v78) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))

theorem eq_main_v82 (V : Valuation τ sig (Elt F)) : W V main_v82 = (fun u => concatenate S65536x3 1 [⟨S65536x1, u 0⟩, ⟨S65536x1, u 1⟩, ⟨S65536x1, u 2⟩] concatenates_S65536x1_S65536x1_S65536x1_S65536x3_d1) (fun i => W V (![main_v79, main_v80, main_v81] i)) :=
  nary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

theorem eq_main_cst_15 (V : Valuation τ sig (Elt F)) : W V main_cst_15 = (constant S_ .f32 0xFF800000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

theorem eq_main_v83 (V : Valuation τ sig (Elt F)) : W V main_v83 = ((fun x v => Host.reduce FloatOps.maximumf x v reducesTo_S65536x3_S65536_d1 h_S_) : (⟨S65536x3, .f32⟩ : BufTy).Contents (Elt F) → (⟨S_, .f32⟩ : BufTy).Contents (Elt F) → (⟨S65536, .f32⟩ : BufTy).Contents (Elt F)) (W V main_v82) (W V main_cst_15) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))

theorem eq_main_cst_16 (V : Valuation τ sig (Elt F)) : W V main_cst_16 = (constant S_ .f32 0xFF800000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))

theorem eq_main_v84 (V : Valuation τ sig (Elt F)) : W V main_v84 = (broadcastInDim S65536 ![] bcast_S_S65536 : (⟨S_, .f32⟩ : BufTy).Contents (Elt F) → (⟨S65536, .f32⟩ : BufTy).Contents (Elt F)) (W V main_cst_16) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))

theorem eq_main_v85 (V : Valuation τ sig (Elt F)) : W V main_v85 = (maximumf : (⟨S65536, .f32⟩ : BufTy).Contents (Elt F) → (⟨S65536, .f32⟩ : BufTy).Contents (Elt F) → (⟨S65536, .f32⟩ : BufTy).Contents (Elt F)) (W V main_v84) (W V main_v83) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))

theorem eq_main_v86 (V : Valuation τ sig (Elt F)) : W V main_v86 = (broadcastInDim S65536x1 ![0] bcast_S65536_S65536x1_0 : (⟨S65536, .f32⟩ : BufTy).Contents (Elt F) → (⟨S65536x1, .f32⟩ : BufTy).Contents (Elt F)) (W V main_v85) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))

theorem eq_main_v87 (V : Valuation τ sig (Elt F)) : W V main_v87 = (broadcastInDim S65536x3 ![0, 1] bcast_S65536x1_S65536x3_0_1 : (⟨S65536x1, .f32⟩ : BufTy).Contents (Elt F) → (⟨S65536x3, .f32⟩ : BufTy).Contents (Elt F)) (W V main_v86) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))

theorem eq_main_v88 (V : Valuation τ sig (Elt F)) : W V main_v88 = (subf : (⟨S65536x3, .f32⟩ : BufTy).Contents (Elt F) → (⟨S65536x3, .f32⟩ : BufTy).Contents (Elt F) → (⟨S65536x3, .f32⟩ : BufTy).Contents (Elt F)) (W V main_v82) (W V main_v87) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))

theorem eq_main_v89 (V : Valuation τ sig (Elt F)) : W V main_v89 = (Host.exp : (⟨S65536x3, .f32⟩ : BufTy).Contents (Elt F) → (⟨S65536x3, .f32⟩ : BufTy).Contents (Elt F)) (W V main_v88) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))

theorem eq_main_cst_17 (V : Valuation τ sig (Elt F)) : W V main_cst_17 = (constant S_ .f32 0x00000000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))

theorem eq_main_v90 (V : Valuation τ sig (Elt F)) : W V main_v90 = ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)) (W V main_v89) (W V main_cst_17) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))

theorem eq_main_v91 (V : Valuation τ sig (Elt F)) : W V main_v91 = (broadcastInDim S65536x1 ![0] bcast_S65536_S65536x1_0 : (⟨S65536, .f32⟩ : BufTy).Contents (Elt F) → (⟨S65536x1, .f32⟩ : BufTy).Contents (Elt F)) (W V main_v90) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))

theorem eq_main_v92 (V : Valuation τ sig (Elt F)) : W V main_v92 = (broadcastInDim S65536x3 ![0, 1] bcast_S65536x1_S65536x3_0_1 : (⟨S65536x1, .f32⟩ : BufTy).Contents (Elt F) → (⟨S65536x3, .f32⟩ : BufTy).Contents (Elt F)) (W V main_v91) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))

theorem eq_main_v93 (V : Valuation τ sig (Elt F)) : W V main_v93 = (Host.divf : (⟨S65536x3, .f32⟩ : BufTy).Contents (Elt F) → (⟨S65536x3, .f32⟩ : BufTy).Contents (Elt F) → (⟨S65536x3, .f32⟩ : BufTy).Contents (Elt F)) (W V main_v89) (W V main_v92) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))

theorem eq_main_v94 (V : Valuation τ sig (Elt F)) : W V main_v94 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v38) (W V main_v49) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))

theorem eq_main_v95 (V : Valuation τ sig (Elt F)) : W V main_v95 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v94) (W V main_arg5) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))

theorem eq_main_v96 (V : Valuation τ sig (Elt F)) : W V main_v96 = (broadcastInDim S1x64 ![1] bcast_S64_S1x64_1 : (⟨S64, .f32⟩ : BufTy).Contents (Elt F) → (⟨S1x64, .f32⟩ : BufTy).Contents (Elt F)) (W V main_arg6) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))

theorem eq_main_v97 (V : Valuation τ sig (Elt F)) : W V main_v97 = (broadcastInDim S65536x64 ![0, 1] bcast_S1x64_S65536x64_0_1 : (⟨S1x64, .f32⟩ : BufTy).Contents (Elt F) → (⟨S65536x64, .f32⟩ : BufTy).Contents (Elt F)) (W V main_v96) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))

theorem eq_main_v98 (V : Valuation τ sig (Elt F)) : W V main_v98 = (addf : (⟨S65536x64, .f32⟩ : BufTy).Contents (Elt F) → (⟨S65536x64, .f32⟩ : BufTy).Contents (Elt F) → (⟨S65536x64, .f32⟩ : BufTy).Contents (Elt F)) (W V main_v95) (W V main_v97) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))

theorem eq_main_cst_18 (V : Valuation τ sig (Elt F)) : W V main_cst_18 = (constant S_ .f32 0x3E4CCCCD#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))

theorem eq_main_call0_cst (V : Valuation τ sig (Elt F)) : W V main_call0_cst = (constant S_ .f32 0x00000000#32) :=
  nullary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))

theorem eq_main_call0_v0 (V : Valuation τ sig (Elt F)) : W V main_call0_v0 = (broadcastInDim S65536x64 ![] bcast_S_S65536x64) (W V main_call0_cst) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))

theorem eq_main_call0_v1 (V : Valuation τ sig (Elt F)) : W V main_call0_v1 = (cmpf .oge) (W V main_v98) (W V main_call0_v0) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))

theorem eq_main_call0_v2 (V : Valuation τ sig (Elt F)) : W V main_call0_v2 = id (W V main_cst_18) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))

theorem eq_main_call0_v3 (V : Valuation τ sig (Elt F)) : W V main_call0_v3 = (broadcastInDim S65536x64 ![] bcast_S_S65536x64) (W V main_call0_v2) :=
  unary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))

theorem eq_main_call0_v4 (V : Valuation τ sig (Elt F)) : W V main_call0_v4 = mulf (W V main_call0_v3) (W V main_v98) :=
  binary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))

theorem eq_main_v99 (V : Valuation τ sig (Elt F)) : W V main_v99 = select (W V main_call0_v1) (W V main_v98) (W V main_call0_v4) :=
  ternary_fix (settled1 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))

end Cert.ReferenceIdeal.RefRun

end
-- ==== Proof.RefValueLib.lean ====
/-
  Array-level patterns of the reference program read at an index, over arrays of extended reals of any extents.
  A column array cast to a vector reads the column's entry. The soft-max along the rows as the program spells it — the
  row maximum taken against minus infinity twice, the exponentials of the shifted entries, their sum from a zero
  initial value, the quotient — reads, at row `a` and entry `q`, the soft-max of the row's entries at `q`.
-/
import proofs.«113614_j77704548319488_1_alg».proof.Proof.RowOps
import proofs.«113614_j77704548319488_1_alg».proof.Proof.Spec
import Idealize.ShloMosaic.Lib.IdealHost

noncomputable section

namespace Cert.ReferenceIdeal.RefValue

open Idealize.ShloMosaic Idealize.ShloMosaic.ValueIdx Cert.Lib.HostRows Cert.RowOps
open scoped BigOperators

variable {α : Type} {n0 n1 : ℕ}

theorem hostTanh_apply {s : Shape} {φ : FTy} (x : FVec Ideal s φ) (i : s.Idx) : Host.tanh x i = Ideal.tanh (x i) := rfl
theorem hostExp_apply {s : Shape} {φ : FTy} (x : FVec Ideal s φ) (i : s.Idx) : Host.exp x i = Ideal.exp (x i) := rfl

/-- An `[a, 1]` column cast to an `[a]` vector reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

section Softmax

variable (hr : (⟨2, ![n0, n1]⟩ : Shape).ReducesTo ([1] : List (Fin 2)) ⟨1, ![n0]⟩) (h0 : 0 < (⟨0, ![]⟩ : Shape).numel)
  (hs : (⟨0, ![]⟩ : Shape).BroadcastsInDim ⟨1, ![n0]⟩ (![] : Fin 0 → Fin 1))
  (hc : (⟨1, ![n0]⟩ : Shape).BroadcastsInDim ⟨2, ![n0, 1]⟩ (![0] : Fin 1 → Fin 2))
  (hb : (⟨2, ![n0, 1]⟩ : Shape).BroadcastsInDim ⟨2, ![n0, n1]⟩ (![0, 1] : Fin 2 → Fin 2))
  (X : FVec Ideal ⟨2, ![n0, n1]⟩ .f32)

/-- The row maxima as the program computes them: minus infinity, stretched, against the rows' folded maxima. -/
abbrev rowMaxV : FVec Ideal ⟨1, ![n0]⟩ .f32 :=
  maximumf (broadcastInDim ⟨1, ![n0]⟩ (![] : Fin 0 → Fin 1) hs (constant ⟨0, ![]⟩ .f32 0xFF800000#32))
    (Host.reduce FloatOps.maximumf X (constant ⟨0, ![]⟩ .f32 0xFF800000#32) hr h0)

/-- The exponentials of the entries shifted by their row's maximum. -/
abbrev expShift : FVec Ideal ⟨2, ![n0, n1]⟩ .f32 :=
  Host.exp (subf X (broadcastInDim ⟨2, ![n0, n1]⟩ (![0, 1] : Fin 2 → Fin 2) hb
    (broadcastInDim ⟨2, ![n0, 1]⟩ (![0] : Fin 1 → Fin 2) hc (rowMaxV hr h0 hs X))))

theorem rowMaxV_apply (a : Fin n0) : rowMaxV hr h0 hs X (ix1 a) = Spec.rmax fun k => X (ix2 a k) := by
  show max _ _ = _
  rw [bcast_scalar, hostReduceMax_rows hr ⟨hr.1, Nat.one_pos, hr.2⟩ h0]
  rfl

theorem expShift_apply (a : Fin n0) (q : Fin n1) :
    expShift hr h0 hs hc hb X (ix2 a q) = Spec.sexp (fun k => X (ix2 a k)) q := by
  show Ideal.exp (X (ix2 a q) - _) = _
  rw [bcast_col, bcast_vec_col, rowMaxV_apply]
  rfl

/-- The program's soft-max along the rows is the soft-max of each row. -/
theorem softmax_rows (a : Fin n0) (q : Fin n1) :
    Host.divf (expShift hr h0 hs hc hb X)
      (broadcastInDim ⟨2, ![n0, n1]⟩ (![0, 1] : Fin 2 → Fin 2) hb
        (broadcastInDim ⟨2, ![n0, 1]⟩ (![0] : Fin 1 → Fin 2) hc
          (Host.reduceAdd (expShift hr h0 hs hc hb X) (constant ⟨0, ![]⟩ .f32 0x00000000#32) hr h0))) (ix2 a q)
      = Spec.smax (fun k => X (ix2 a k)) q := by
  rw [hostDivf_apply, bcast_col, bcast_vec_col, hostReduceAdd_rows_apply, constant_zero_apply, zero_add, expShift_apply]
  unfold Spec.smax Spec.ssum
  exact congrArg (Ideal.div _) (Finset.sum_congr rfl fun k _ => expShift_apply hr h0 hs hc hb X a k)

end Softmax

end Cert.ReferenceIdeal.RefValue

end
-- ==== Proof.RefValue1.lean ====
/-
  The reference program's values, first stage: the three attention scores (as column entries and as vector entries),
  the score-weighted mean of the row's three vectors, and the soft-maxes of the three vectors.
-/
import proofs.«113614_j77704548319488_1_alg».proof.Proof.RefEqs0
import proofs.«113614_j77704548319488_1_alg».proof.Proof.RefEqs1
import proofs.«113614_j77704548319488_1_alg».proof.Proof.RefValueLib
import proofs.«113614_j77704548319488_1_alg».proof.Proof.Arrays

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Lib.HostRows Cert.RowOps
open scoped BigOperators

variable (V : Valuation τ sig (Elt Ideal))

/-- The weights, read off the argument buffers' final contents. -/
abbrev Wt : Spec.Wts :=
  Cert.Arrays.wtsOf (W V main_arg3) (W V main_arg4) (W V main_arg5) (W V main_arg6) (W V main_arg7) (W V main_arg8)
    (W V main_arg9) (W V main_arg10) (W V main_arg11) (W V main_arg12) (W V main_arg13) (W V main_arg14) (W V main_arg15)
    (W V main_arg16) (W V main_arg17) (W V main_arg18)

/-- Row `r` of the three feature arrays, read off the argument buffers' final contents. -/
abbrev J (r : Fin 65536) : Spec.Row := Cert.Arrays.rowOf (W V main_arg0) (W V main_arg1) (W V main_arg2) r

theorem bias_col_2 (r : Fin 65536) : W V main_v2 (ix2 r 0) = W V main_arg4 (ix1 0) := by
  rw [eq_main_v2]
  refine (bcast_row _ _ r 0).trans ?_
  rw [eq_main_v1]
  exact bcast_vec_row _ _ 0 0

/-- The score of the row's vector `a`, as a column entry. -/
theorem v4_val (r : Fin 65536) : W V main_v4 (ix2 r 0) = Spec.sa (Wt V) (J V r) := by
  rw [eq_main_v4]
  refine (hostTanh_apply _ _).trans ?_
  rw [eq_main_v3]
  refine (congrArg Ideal.tanh (addf_apply _ _ _)).trans ?_
  rw [bias_col_2, eq_main_v0]
  refine (congrArg (fun t => Ideal.tanh (t + _)) (dot_plain _ _ _ r 0)).trans ?_
  rfl

/-- The same score in the vector of scores. -/
theorem v25_val (r : Fin 65536) : W V main_v25 (ix1 r) = Spec.sa (Wt V) (J V r) := by
  rw [eq_main_v25]
  exact (shapeCast_a1_a_apply _ _ r).trans (v4_val V r)

theorem bias_col_7 (r : Fin 65536) : W V main_v7 (ix2 r 0) = W V main_arg4 (ix1 0) := by
  rw [eq_main_v7]
  refine (bcast_row _ _ r 0).trans ?_
  rw [eq_main_v6]
  exact bcast_vec_row _ _ 0 0

/-- The score of the row's vector `v`, as a column entry. -/
theorem v9_val (r : Fin 65536) : W V main_v9 (ix2 r 0) = Spec.sv (Wt V) (J V r) := by
  rw [eq_main_v9]
  refine (hostTanh_apply _ _).trans ?_
  rw [eq_main_v8]
  refine (congrArg Ideal.tanh (addf_apply _ _ _)).trans ?_
  rw [bias_col_7, eq_main_v5]
  refine (congrArg (fun t => Ideal.tanh (t + _)) (dot_plain _ _ _ r 0)).trans ?_
  rfl

/-- The same score in the vector of scores. -/
theorem v26_val (r : Fin 65536) : W V main_v26 (ix1 r) = Spec.sv (Wt V) (J V r) := by
  rw [eq_main_v26]
  exact (shapeCast_a1_a_apply _ _ r).trans (v9_val V r)

theorem bias_col_12 (r : Fin 65536) : W V main_v12 (ix2 r 0) = W V main_arg4 (ix1 0) := by
  rw [eq_main_v12]
  refine (bcast_row _ _ r 0).trans ?_
  rw [eq_main_v11]
  exact bcast_vec_row _ _ 0 0

/-- The score of the row's vector `l`, as a column entry. -/
theorem v14_val (r : Fin 65536) : W V main_v14 (ix2 r 0) = Spec.sl (Wt V) (J V r) := by
  rw [eq_main_v14]
  refine (hostTanh_apply _ _).trans ?_
  rw [eq_main_v13]
  refine (congrArg Ideal.tanh (addf_apply _ _ _)).trans ?_
  rw [bias_col_12, eq_main_v10]
  refine (congrArg (fun t => Ideal.tanh (t + _)) (dot_plain _ _ _ r 0)).trans ?_
  rfl

/-- The same score in the vector of scores. -/
theorem v27_val (r : Fin 65536) : W V main_v27 (ix1 r) = Spec.sl (Wt V) (J V r) := by
  rw [eq_main_v27]
  exact (shapeCast_a1_a_apply _ _ r).trans (v14_val V r)

/-- The score-weighted mean of the row's three vectors. -/
theorem v24_val (r : Fin 65536) (q : Fin 128) : W V main_v24 (ix2 r q) = Spec.uni (Wt V) (J V r) q := by
  rw [eq_main_v24, eq_main_v23, eq_main_cst, eq_main_v22, eq_main_v21, eq_main_v20, eq_main_v19, eq_main_v18, eq_main_v17,
    eq_main_v16, eq_main_v15]
  rw [hostDivf_apply, broadcastInDim_scalar_apply, addf_apply, addf_apply, mulf_apply, mulf_apply, mulf_apply,
    bcast_col, bcast_col, bcast_col, v4_val, v9_val, v14_val]
  rfl

/-- The soft-max of the row's vector `a`. -/
theorem v38_val (r : Fin 65536) (q : Fin 128) : W V main_v38 (ix2 r q) = Spec.smax (J V r).a q := by
  rw [eq_main_v38, eq_main_v37, eq_main_v36, eq_main_v35, eq_main_v34, eq_main_v33, eq_main_v32, eq_main_v31, eq_main_v30, eq_main_v29, eq_main_v28, eq_main_cst_0, eq_main_cst_1, eq_main_cst_2]
  exact softmax_rows _ _ _ _ _ (W V main_arg1) r q

/-- The soft-max of the row's vector `v`. -/
theorem v49_val (r : Fin 65536) (q : Fin 128) : W V main_v49 (ix2 r q) = Spec.smax (J V r).v q := by
  rw [eq_main_v49, eq_main_v48, eq_main_v47, eq_main_v46, eq_main_v45, eq_main_v44, eq_main_v43, eq_main_v42, eq_main_v41, eq_main_v40, eq_main_v39, eq_main_cst_3, eq_main_cst_4, eq_main_cst_5]
  exact softmax_rows _ _ _ _ _ (W V main_arg2) r q

/-- The soft-max of the row's vector `l`. -/
theorem v60_val (r : Fin 65536) (q : Fin 128) : W V main_v60 (ix2 r q) = Spec.smax (J V r).l q := by
  rw [eq_main_v60, eq_main_v59, eq_main_v58, eq_main_v57, eq_main_v56, eq_main_v55, eq_main_v54, eq_main_v53, eq_main_v52, eq_main_v51, eq_main_v50, eq_main_cst_6, eq_main_cst_7, eq_main_cst_8]
  exact softmax_rows _ _ _ _ _ (W V main_arg0) r q

end Cert.ReferenceIdeal.RefValue

end
-- ==== Proof.RefEqs2.lean ====
/-
  Window 2 of the reference program read as equations. With W V the contents after the whole of @main from
  contents V, each operation of the window says that its result buffer holds its function of its operands'
  contents — all at the same final contents W V, because W V is a fixed point of every operation of @main. One
  statement per operation of the window, 72 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v100 (V : Valuation τ sig (Elt F)) : W V main_v100 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v99) (W V main_arg7) :=
  binary_fix (settled2 V _ (.head _))

theorem eq_main_v101 (V : Valuation τ sig (Elt F)) : W V main_v101 = (broadcastInDim S1x128 ![1] bcast_S128_S1x128_1 : (⟨S128, .f32⟩ : BufTy).Contents (Elt F) → (⟨S1x128, .f32⟩ : BufTy).Contents (Elt F)) (W V main_arg8) :=
  unary_fix (settled2 V _ (.tail _ (.head _)))

theorem eq_main_v102 (V : Valuation τ sig (Elt F)) : W V main_v102 = (broadcastInDim S65536x128 ![0, 1] bcast_S1x128_S65536x128_0_1 : (⟨S1x128, .f32⟩ : BufTy).Contents (Elt F) → (⟨S65536x128, .f32⟩ : BufTy).Contents (Elt F)) (W V main_v101) :=
  unary_fix (settled2 V _ (.tail _ (.tail _ (.head _))))

theorem eq_main_v103 (V : Valuation τ sig (Elt F)) : W V main_v103 = (addf : (⟨S65536x128, .f32⟩ : BufTy).Contents (Elt F) → (⟨S65536x128, .f32⟩ : BufTy).Contents (Elt F) → (⟨S65536x128, .f32⟩ : BufTy).Contents (Elt F)) (W V main_v100) (W V main_v102) :=
  binary_fix (settled2 V _ (.tail _ (.tail _ (.tail _ (.head _)))))

theorem eq_main_v104 (V : Valuation τ sig (Elt F)) : W V main_v104 = (Host.tanh : (⟨S65536x128, .f32⟩ : BufTy).Contents (Elt F) → (⟨S65536x128, .f32⟩ : BufTy).Contents (Elt F)) (W V main_v103) :=
  unary_fix (settled2 V _ (.tail _ (.tail _ (.tail _ (.tail _ (.head _))))))

theorem eq_main_v105 (V : Valuation τ sig (Elt F)) : W V main_v105 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v38) (W V main_v60) :=
  binary_fix (settled2 V _ (.tail _ (.tail _ (.tail _ (.tail _ (.tail _ (.head _)))))))

theorem eq_main_v106 (V : Valuation τ sig (Elt F)) : W V main_v106 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v105) (W V main_arg5) :=
  binary_fix (settled2 V _ (.tail _ (.tail _ (.tail _ (.tail _ (.tail _ (.tail _ (.head _))))))))

theorem eq_main_v107 (V : Valuation τ sig (Elt F)) : W V main_v107 = (broadcastInDim S1x64 ![1] bcast_S64_S1x64_1 : (⟨S64, .f32⟩ : BufTy).Contents (Elt F) → (⟨S1x64, .f32⟩ : BufTy).Contents (Elt F)) (W V main_arg6) :=
  unary_fix (settled2 V _ (.tail _ (.tail _ (.tail _ (.tail _ (.tail _ (.tail _ (.tail _ (.head _)))))))))

theorem eq_main_v108 (V : Valuation τ sig (Elt F)) : W V main_v108 = (broadcastInDim S65536x64 ![0, 1] bcast_S1x64_S65536x64_0_1 : (⟨S1x64, .f32⟩ : BufTy).Contents (Elt F) → (⟨S65536x64, .f32⟩ : BufTy).Contents (Elt F)) (W V main_v107) :=
  unary_fix (settled2 V _ (.tail _ (.tail _ (.tail _ (.tail _ (.tail _ (.tail _ (.tail _ (.tail _ (.head _))))))))))

theorem eq_main_v109 (V : Valuation τ sig (Elt F)) : W V main_v109 = (addf : (⟨S65536x64, .f32⟩ : BufTy).Contents (Elt F) → (⟨S65536x64, .f32⟩ : BufTy).Contents (Elt F) → (⟨S65536x64, .f32⟩ : BufTy).Contents (Elt F)) (W V main_v106) (W V main_v108) :=
  binary_fix (settled2 V _ (.tail _ (.tail _ (.tail _ (.tail _ (.tail _ (.tail _ (.tail _ (.tail _ (.tail _ (.head _)))))))))))

theorem eq_main_cst_19 (V : Valuation τ sig (Elt F)) : W V main_cst_19 = (constant S_ .f32 0x3E4CCCCD#32) :=
  nullary_fix (settled2 V _ (.tail _ (.tail _ (.tail _ (.tail _ (.tail _ (.tail _ (.tail _ (.tail _ (.tail _ (.tail _ (.head _))))))))))))

theorem eq_main_call1_cst (V : Valuation τ sig (Elt F)) : W V main_call1_cst = (constant S_ .f32 0x00000000#32) :=
  nullary_fix (settled2 V _ (.tail _ (.tail _ (.tail _ (.tail _ (.tail _ (.tail _ (.tail _ (.tail _ (.tail _ (.tail _ (.tail _ (.head _)))))))))))))

theorem eq_main_call1_v0 (V : Valuation τ sig (Elt F)) : W V main_call1_v0 = (broadcastInDim S65536x64 ![] bcast_S_S65536x64) (W V main_call1_cst) :=
  unary_fix (settled2 V _ (.tail _ (.tail _ (.tail _ (.tail _ (.tail _ (.tail _ (.tail _ (.tail _ (.tail _ (.tail _ (.tail _ (.tail _ (.head _))))))))))))))

theorem eq_main_call1_v1 (V : Valuation τ sig (Elt F)) : W V main_call1_v1 = (cmpf .oge) (W V main_v109) (W V main_call1_v0) :=
  binary_fix (settled2 V _ (.tail _ (.tail _ (.tail _ (.tail _ (.tail _ (.tail _ (.tail _ (.tail _ (.tail _ (.tail _ (.tail _ (.tail _ (.tail _ (.head _)))))))))))))))

theorem eq_main_call1_v2 (V : Valuation τ sig (Elt F)) : W V main_call1_v2 = id (W V main_cst_19) :=
  unary_fix (settled2 V _ (.tail _ (.tail _ (.tail _ (.tail _ (.tail _ (.tail _ (.tail _ (.tail _ (.tail _ (.tail _ (.tail _ (.tail _ (.tail _ (.tail _ (.head _))))))))))))))))

theorem eq_main_call1_v3 (V : Valuation τ sig (Elt F)) : W V main_call1_v3 = (broadcastInDim S65536x64 ![] bcast_S_S65536x64) (W V main_call1_v2) :=
  unary_fix (settled2 V _ (.tail _ (.tail _ (.tail _ (.tail _ (.tail _ (.tail _ (.tail _ (.tail _ (.tail _ (.tail _ (.tail _ (.tail _ (.tail _ (.tail _ (.tail _ (.head _)))))))))))))))))

theorem eq_main_call1_v4 (V : Valuation τ sig (Elt F)) : W V main_call1_v4 = mulf (W V main_call1_v3) (W V main_v109) :=
  binary_fix (settled2 V _ (.tail _ (.tail _ (.tail _ (.tail _ (.tail _ (.tail _ (.tail _ (.tail _ (.tail _ (.tail _ (.tail _ (.tail _ (.tail _ (.tail _ (.tail _ (.tail _ (.head _))))))))))))))))))

theorem eq_main_v110 (V : Valuation τ sig (Elt F)) : W V main_v110 = select (W V main_call1_v1) (W V main_v109) (W V main_call1_v4) :=
  ternary_fix (settled2 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_v111 (V : Valuation τ sig (Elt F)) : W V main_v111 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v110) (W V main_arg7) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_v112 (V : Valuation τ sig (Elt F)) : W V main_v112 = (broadcastInDim S1x128 ![1] bcast_S128_S1x128_1 : (⟨S128, .f32⟩ : BufTy).Contents (Elt F) → (⟨S1x128, .f32⟩ : BufTy).Contents (Elt F)) (W V main_arg8) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_v113 (V : Valuation τ sig (Elt F)) : W V main_v113 = (broadcastInDim S65536x128 ![0, 1] bcast_S1x128_S65536x128_0_1 : (⟨S1x128, .f32⟩ : BufTy).Contents (Elt F) → (⟨S65536x128, .f32⟩ : BufTy).Contents (Elt F)) (W V main_v112) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_v114 (V : Valuation τ sig (Elt F)) : W V main_v114 = (addf : (⟨S65536x128, .f32⟩ : BufTy).Contents (Elt F) → (⟨S65536x128, .f32⟩ : BufTy).Contents (Elt F) → (⟨S65536x128, .f32⟩ : BufTy).Contents (Elt F)) (W V main_v111) (W V main_v113) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_v115 (V : Valuation τ sig (Elt F)) : W V main_v115 = (Host.tanh : (⟨S65536x128, .f32⟩ : BufTy).Contents (Elt F) → (⟨S65536x128, .f32⟩ : BufTy).Contents (Elt F)) (W V main_v114) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_v116 (V : Valuation τ sig (Elt F)) : W V main_v116 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v49) (W V main_v60) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v117 (V : Valuation τ sig (Elt F)) : W V main_v117 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v116) (W V main_arg5) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v118 (V : Valuation τ sig (Elt F)) : W V main_v118 = (broadcastInDim S1x64 ![1] bcast_S64_S1x64_1 : (⟨S64, .f32⟩ : BufTy).Contents (Elt F) → (⟨S1x64, .f32⟩ : BufTy).Contents (Elt F)) (W V main_arg6) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v119 (V : Valuation τ sig (Elt F)) : W V main_v119 = (broadcastInDim S65536x64 ![0, 1] bcast_S1x64_S65536x64_0_1 : (⟨S1x64, .f32⟩ : BufTy).Contents (Elt F) → (⟨S65536x64, .f32⟩ : BufTy).Contents (Elt F)) (W V main_v118) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_v120 (V : Valuation τ sig (Elt F)) : W V main_v120 = (addf : (⟨S65536x64, .f32⟩ : BufTy).Contents (Elt F) → (⟨S65536x64, .f32⟩ : BufTy).Contents (Elt F) → (⟨S65536x64, .f32⟩ : BufTy).Contents (Elt F)) (W V main_v117) (W V main_v119) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_cst_20 (V : Valuation τ sig (Elt F)) : W V main_cst_20 = (constant S_ .f32 0x3E4CCCCD#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_call2_cst (V : Valuation τ sig (Elt F)) : W V main_call2_cst = (constant S_ .f32 0x00000000#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_call2_v0 (V : Valuation τ sig (Elt F)) : W V main_call2_v0 = (broadcastInDim S65536x64 ![] bcast_S_S65536x64) (W V main_call2_cst) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_call2_v1 (V : Valuation τ sig (Elt F)) : W V main_call2_v1 = (cmpf .oge) (W V main_v120) (W V main_call2_v0) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_call2_v2 (V : Valuation τ sig (Elt F)) : W V main_call2_v2 = id (W V main_cst_20) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_call2_v3 (V : Valuation τ sig (Elt F)) : W V main_call2_v3 = (broadcastInDim S65536x64 ![] bcast_S_S65536x64) (W V main_call2_v2) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_call2_v4 (V : Valuation τ sig (Elt F)) : W V main_call2_v4 = mulf (W V main_call2_v3) (W V main_v120) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_v121 (V : Valuation τ sig (Elt F)) : W V main_v121 = select (W V main_call2_v1) (W V main_v120) (W V main_call2_v4) :=
  ternary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_v122 (V : Valuation τ sig (Elt F)) : W V main_v122 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v121) (W V main_arg7) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

theorem eq_main_v123 (V : Valuation τ sig (Elt F)) : W V main_v123 = (broadcastInDim S1x128 ![1] bcast_S128_S1x128_1 : (⟨S128, .f32⟩ : BufTy).Contents (Elt F) → (⟨S1x128, .f32⟩ : BufTy).Contents (Elt F)) (W V main_arg8) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))

theorem eq_main_v124 (V : Valuation τ sig (Elt F)) : W V main_v124 = (broadcastInDim S65536x128 ![0, 1] bcast_S1x128_S65536x128_0_1 : (⟨S1x128, .f32⟩ : BufTy).Contents (Elt F) → (⟨S65536x128, .f32⟩ : BufTy).Contents (Elt F)) (W V main_v123) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

theorem eq_main_v125 (V : Valuation τ sig (Elt F)) : W V main_v125 = (addf : (⟨S65536x128, .f32⟩ : BufTy).Contents (Elt F) → (⟨S65536x128, .f32⟩ : BufTy).Contents (Elt F) → (⟨S65536x128, .f32⟩ : BufTy).Contents (Elt F)) (W V main_v122) (W V main_v124) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

theorem eq_main_v126 (V : Valuation τ sig (Elt F)) : W V main_v126 = (Host.tanh : (⟨S65536x128, .f32⟩ : BufTy).Contents (Elt F) → (⟨S65536x128, .f32⟩ : BufTy).Contents (Elt F)) (W V main_v125) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))

theorem eq_main_v127 (V : Valuation τ sig (Elt F)) : W V main_v127 = ((extractStridedSlice S65536x1 ![0, 0] · slices_S65536x3_S65536x1_0_0) : (⟨S65536x3, .f32⟩ : BufTy).Contents (Elt F) → (⟨S65536x1, .f32⟩ : BufTy).Contents (Elt F)) (W V main_v93) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))

theorem eq_main_v128 (V : Valuation τ sig (Elt F)) : W V main_v128 = (broadcastInDim S65536x128 ![0, 1] bcast_S65536x1_S65536x128_0_1 : (⟨S65536x1, .f32⟩ : BufTy).Contents (Elt F) → (⟨S65536x128, .f32⟩ : BufTy).Contents (Elt F)) (W V main_v127) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))

theorem eq_main_v129 (V : Valuation τ sig (Elt F)) : W V main_v129 = (mulf : (⟨S65536x128, .f32⟩ : BufTy).Contents (Elt F) → (⟨S65536x128, .f32⟩ : BufTy).Contents (Elt F) → (⟨S65536x128, .f32⟩ : BufTy).Contents (Elt F)) (W V main_v128) (W V main_v104) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))

theorem eq_main_v130 (V : Valuation τ sig (Elt F)) : W V main_v130 = (Host.tanh : (⟨S65536x128, .f32⟩ : BufTy).Contents (Elt F) → (⟨S65536x128, .f32⟩ : BufTy).Contents (Elt F)) (W V main_v129) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))

theorem eq_main_v131 (V : Valuation τ sig (Elt F)) : W V main_v131 = ((extractStridedSlice S65536x1 ![0, 1] · slices_S65536x3_S65536x1_0_1) : (⟨S65536x3, .f32⟩ : BufTy).Contents (Elt F) → (⟨S65536x1, .f32⟩ : BufTy).Contents (Elt F)) (W V main_v93) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))

theorem eq_main_v132 (V : Valuation τ sig (Elt F)) : W V main_v132 = (broadcastInDim S65536x128 ![0, 1] bcast_S65536x1_S65536x128_0_1 : (⟨S65536x1, .f32⟩ : BufTy).Contents (Elt F) → (⟨S65536x128, .f32⟩ : BufTy).Contents (Elt F)) (W V main_v131) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))

theorem eq_main_v133 (V : Valuation τ sig (Elt F)) : W V main_v133 = (mulf : (⟨S65536x128, .f32⟩ : BufTy).Contents (Elt F) → (⟨S65536x128, .f32⟩ : BufTy).Contents (Elt F) → (⟨S65536x128, .f32⟩ : BufTy).Contents (Elt F)) (W V main_v132) (W V main_v115) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))

theorem eq_main_v134 (V : Valuation τ sig (Elt F)) : W V main_v134 = (Host.tanh : (⟨S65536x128, .f32⟩ : BufTy).Contents (Elt F) → (⟨S65536x128, .f32⟩ : BufTy).Contents (Elt F)) (W V main_v133) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))

theorem eq_main_v135 (V : Valuation τ sig (Elt F)) : W V main_v135 = ((extractStridedSlice S65536x1 ![0, 2] · slices_S65536x3_S65536x1_0_2) : (⟨S65536x3, .f32⟩ : BufTy).Contents (Elt F) → (⟨S65536x1, .f32⟩ : BufTy).Contents (Elt F)) (W V main_v93) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))

theorem eq_main_v136 (V : Valuation τ sig (Elt F)) : W V main_v136 = (broadcastInDim S65536x128 ![0, 1] bcast_S65536x1_S65536x128_0_1 : (⟨S65536x1, .f32⟩ : BufTy).Contents (Elt F) → (⟨S65536x128, .f32⟩ : BufTy).Contents (Elt F)) (W V main_v135) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))

theorem eq_main_v137 (V : Valuation τ sig (Elt F)) : W V main_v137 = (mulf : (⟨S65536x128, .f32⟩ : BufTy).Contents (Elt F) → (⟨S65536x128, .f32⟩ : BufTy).Contents (Elt F) → (⟨S65536x128, .f32⟩ : BufTy).Contents (Elt F)) (W V main_v136) (W V main_v126) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))

theorem eq_main_v138 (V : Valuation τ sig (Elt F)) : W V main_v138 = (Host.tanh : (⟨S65536x128, .f32⟩ : BufTy).Contents (Elt F) → (⟨S65536x128, .f32⟩ : BufTy).Contents (Elt F)) (W V main_v137) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))

theorem eq_main_v139 (V : Valuation τ sig (Elt F)) : W V main_v139 = (addf : (⟨S65536x128, .f32⟩ : BufTy).Contents (Elt F) → (⟨S65536x128, .f32⟩ : BufTy).Contents (Elt F) → (⟨S65536x128, .f32⟩ : BufTy).Contents (Elt F)) (W V main_v130) (W V main_v134) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))

theorem eq_main_v140 (V : Valuation τ sig (Elt F)) : W V main_v140 = (addf : (⟨S65536x128, .f32⟩ : BufTy).Contents (Elt F) → (⟨S65536x128, .f32⟩ : BufTy).Contents (Elt F) → (⟨S65536x128, .f32⟩ : BufTy).Contents (Elt F)) (W V main_v139) (W V main_v138) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))

theorem eq_main_cst_21 (V : Valuation τ sig (Elt F)) : W V main_cst_21 = (constant S_ .f32 0xFF800000#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))

theorem eq_main_v141 (V : Valuation τ sig (Elt F)) : W V main_v141 = ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v104) (W V main_cst_21) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))

theorem eq_main_cst_22 (V : Valuation τ sig (Elt F)) : W V main_cst_22 = (constant S_ .f32 0xFF800000#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))

theorem eq_main_v142 (V : Valuation τ sig (Elt F)) : W V main_v142 = (broadcastInDim S65536 ![] bcast_S_S65536 : (⟨S_, .f32⟩ : BufTy).Contents (Elt F) → (⟨S65536, .f32⟩ : BufTy).Contents (Elt F)) (W V main_cst_22) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))

theorem eq_main_v143 (V : Valuation τ sig (Elt F)) : W V main_v143 = (maximumf : (⟨S65536, .f32⟩ : BufTy).Contents (Elt F) → (⟨S65536, .f32⟩ : BufTy).Contents (Elt F) → (⟨S65536, .f32⟩ : BufTy).Contents (Elt F)) (W V main_v142) (W V main_v141) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))

theorem eq_main_v144 (V : Valuation τ sig (Elt F)) : W V main_v144 = (broadcastInDim S65536x1 ![0] bcast_S65536_S65536x1_0 : (⟨S65536, .f32⟩ : BufTy).Contents (Elt F) → (⟨S65536x1, .f32⟩ : BufTy).Contents (Elt F)) (W V main_v143) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))

theorem eq_main_v145 (V : Valuation τ sig (Elt F)) : W V main_v145 = (broadcastInDim S65536x128 ![0, 1] bcast_S65536x1_S65536x128_0_1 : (⟨S65536x1, .f32⟩ : BufTy).Contents (Elt F) → (⟨S65536x128, .f32⟩ : BufTy).Contents (Elt F)) (W V main_v144) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))

theorem eq_main_v146 (V : Valuation τ sig (Elt F)) : W V main_v146 = (subf : (⟨S65536x128, .f32⟩ : BufTy).Contents (Elt F) → (⟨S65536x128, .f32⟩ : BufTy).Contents (Elt F) → (⟨S65536x128, .f32⟩ : BufTy).Contents (Elt F)) (W V main_v104) (W V main_v145) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))

theorem eq_main_v147 (V : Valuation τ sig (Elt F)) : W V main_v147 = (Host.exp : (⟨S65536x128, .f32⟩ : BufTy).Contents (Elt F) → (⟨S65536x128, .f32⟩ : BufTy).Contents (Elt F)) (W V main_v146) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))

theorem eq_main_cst_23 (V : Valuation τ sig (Elt F)) : W V main_cst_23 = (constant S_ .f32 0x00000000#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))

theorem eq_main_v148 (V : Valuation τ sig (Elt F)) : W V main_v148 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v147) (W V main_cst_23) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))

theorem eq_main_v149 (V : Valuation τ sig (Elt F)) : W V main_v149 = (broadcastInDim S65536x1 ![0] bcast_S65536_S65536x1_0 : (⟨S65536, .f32⟩ : BufTy).Contents (Elt F) → (⟨S65536x1, .f32⟩ : BufTy).Contents (Elt F)) (W V main_v148) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))

theorem eq_main_v150 (V : Valuation τ sig (Elt F)) : W V main_v150 = (broadcastInDim S65536x128 ![0, 1] bcast_S65536x1_S65536x128_0_1 : (⟨S65536x1, .f32⟩ : BufTy).Contents (Elt F) → (⟨S65536x128, .f32⟩ : BufTy).Contents (Elt F)) (W V main_v149) :=
  unary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))

theorem eq_main_v151 (V : Valuation τ sig (Elt F)) : W V main_v151 = (Host.divf : (⟨S65536x128, .f32⟩ : BufTy).Contents (Elt F) → (⟨S65536x128, .f32⟩ : BufTy).Contents (Elt F) → (⟨S65536x128, .f32⟩ : BufTy).Contents (Elt F)) (W V main_v147) (W V main_v150) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))

theorem eq_main_cst_24 (V : Valuation τ sig (Elt F)) : W V main_cst_24 = (constant S_ .f32 0xFF800000#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))

theorem eq_main_v152 (V : Valuation τ sig (Elt F)) : W V main_v152 = ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v115) (W V main_cst_24) :=
  binary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))

theorem eq_main_cst_25 (V : Valuation τ sig (Elt F)) : W V main_cst_25 = (constant S_ .f32 0xFF800000#32) :=
  nullary_fix (settled2 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))))

end Cert.ReferenceIdeal.RefRun

end
-- ==== Proof.RefValueLib2.lean ====
/-
  More array-level patterns of the reference program read at an index. The ratio of a sum of two score vectors to a
  row-wise dot product plus one half; and the gated two-layer map of two arrays of 128-vectors laid end to end: an
  affine map to 64 entries, the leaky rectifier spelt with a comparison against zero and a select, a second affine map to
  128 entries, a hyperbolic tangent.
-/
import proofs.«113614_j77704548319488_1_alg».proof.Proof.RefValueLib

noncomputable section

namespace Cert.ReferenceIdeal.RefValue

open Idealize.ShloMosaic Idealize.ShloMosaic.ValueIdx Cert.Lib.HostRows Cert.RowOps
open scoped BigOperators

variable {n0 n1 : ℕ}

/-- The ratio of the sum of two vectors to the rows' dot products plus one half. -/
theorem ratio_rows (hr : (⟨2, ![n0, n1]⟩ : Shape).ReducesTo ([1] : List (Fin 2)) ⟨1, ![n0]⟩) (h0 : 0 < (⟨0, ![]⟩ : Shape).numel)
    (hs : (⟨0, ![]⟩ : Shape).BroadcastsInDim ⟨1, ![n0]⟩ (![] : Fin 0 → Fin 1))
    (S T : FVec Ideal ⟨1, ![n0]⟩ .f32) (P Q : FVec Ideal ⟨2, ![n0, n1]⟩ .f32) (a : Fin n0) :
    Host.divf (addf S T)
      (addf (Host.reduceAdd (mulf P Q) (constant ⟨0, ![]⟩ .f32 0x00000000#32) hr h0)
        (broadcastInDim ⟨1, ![n0]⟩ (![] : Fin 0 → Fin 1) hs (constant ⟨0, ![]⟩ .f32 0x3F000000#32))) (ix1 a)
      = Spec.ratio (S (ix1 a)) (T (ix1 a)) (∑ k, P (ix2 a k) * Q (ix2 a k)) := by
  rw [hostDivf_apply, addf_apply, addf_apply, hostReduceAdd_rows_apply, constant_zero_apply, zero_add, bcast_scalar]
  rfl

/-- The host's plain matrix product, read at an entry. -/
theorem host_dot_plain {M K N : ℕ} (P : FVec Ideal ⟨2, ![M, K]⟩ .f32) (Q : FVec Ideal ⟨2, ![K, N]⟩ .f32) (p : Fin M) (q : Fin N) :
    Host.dotGeneral (DotDims.plain M K N) none P Q (ix2 p q) = ∑ k : Fin K, P (ix2 p k) * Q (ix2 k q) :=
  dot_plain _ P Q p q

section Gate

variable (hcat : Shape.Concatenates [(⟨2, ![n0, 128]⟩ : Shape), ⟨2, ![n0, 128]⟩] ⟨2, ![n0, 256]⟩ 1)
  (hv1 : (⟨1, ![64]⟩ : Shape).BroadcastsInDim ⟨2, ![1, 64]⟩ (![1] : Fin 1 → Fin 2))
  (hb1 : (⟨2, ![1, 64]⟩ : Shape).BroadcastsInDim ⟨2, ![n0, 64]⟩ (![0, 1] : Fin 2 → Fin 2))
  (hz : (⟨0, ![]⟩ : Shape).BroadcastsInDim ⟨2, ![n0, 64]⟩ (![] : Fin 0 → Fin 2))
  (hv2 : (⟨1, ![128]⟩ : Shape).BroadcastsInDim ⟨2, ![1, 128]⟩ (![1] : Fin 1 → Fin 2))
  (hb2 : (⟨2, ![1, 128]⟩ : Shape).BroadcastsInDim ⟨2, ![n0, 128]⟩ (![0, 1] : Fin 2 → Fin 2))
  (X Y : FVec Ideal ⟨2, ![n0, 128]⟩ .f32) (W1 : FVec Ideal ⟨2, ![256, 64]⟩ .f32) (B1 : FVec Ideal ⟨1, ![64]⟩ .f32)
  (W2 : FVec Ideal ⟨2, ![64, 128]⟩ .f32) (B2 : FVec Ideal ⟨1, ![128]⟩ .f32)

/-- The first layer before its rectifier. -/
abbrev gatePre : FVec Ideal ⟨2, ![n0, 64]⟩ .f32 :=
  addf (Host.dotGeneral (DotDims.plain n0 256 64) none
      (concatenate ⟨2, ![n0, 256]⟩ 1 [⟨⟨2, ![n0, 128]⟩, X⟩, ⟨⟨2, ![n0, 128]⟩, Y⟩] hcat) W1)
    (broadcastInDim ⟨2, ![n0, 64]⟩ (![0, 1] : Fin 2 → Fin 2) hb1 (broadcastInDim ⟨2, ![1, 64]⟩ (![1] : Fin 1 → Fin 2) hv1 B1))

/-- The leaky rectifier of the first layer, as the called function spells it. -/
abbrev gateRelu : FVec Ideal ⟨2, ![n0, 64]⟩ .f32 :=
  select (cmpf .oge (gatePre hcat hv1 hb1 X Y W1 B1)
      (broadcastInDim ⟨2, ![n0, 64]⟩ (![] : Fin 0 → Fin 2) hz (constant ⟨0, ![]⟩ .f32 0x00000000#32)))
    (gatePre hcat hv1 hb1 X Y W1 B1)
    (mulf (broadcastInDim ⟨2, ![n0, 64]⟩ (![] : Fin 0 → Fin 2) hz (id (constant ⟨0, ![]⟩ .f32 0x3E4CCCCD#32)))
      (gatePre hcat hv1 hb1 X Y W1 B1))

theorem gatePre_apply (a : Fin n0) (k : Fin 64) :
    gatePre hcat hv1 hb1 X Y W1 B1 (ix2 a k)
      = Spec.pre1 (fun i j => W1 (ix2 i j)) (fun j => B1 (ix1 j)) (fun q => X (ix2 a q)) (fun q => Y (ix2 a q)) k := by
  show _ + _ = _
  rw [bcast_row, bcast_vec_row, host_dot_plain]
  unfold Spec.pre1 Spec.mv
  exact congrArg (· + B1 (ix1 k)) (Finset.sum_congr rfl fun i _ => by rw [concat2])

theorem gateRelu_apply (a : Fin n0) (k : Fin 64) :
    gateRelu hcat hv1 hb1 hz X Y W1 B1 (ix2 a k)
      = Spec.lrelu (Spec.pre1 (fun i j => W1 (ix2 i j)) (fun j => B1 (ix1 j)) (fun q => X (ix2 a q)) (fun q => Y (ix2 a q)) k) := by
  unfold gateRelu
  rw [select_apply, cmpf_apply, mulf_apply, broadcastInDim_scalar_apply, broadcastInDim_scalar_apply, gatePre_apply]
  rfl

/-- The gated two-layer map, row by row. -/
theorem gate_rows (a : Fin n0) (j : Fin 128) :
    Host.tanh (addf (Host.dotGeneral (DotDims.plain n0 64 128) none (gateRelu hcat hv1 hb1 hz X Y W1 B1) W2)
      (broadcastInDim ⟨2, ![n0, 128]⟩ (![0, 1] : Fin 2 → Fin 2) hb2
        (broadcastInDim ⟨2, ![1, 128]⟩ (![1] : Fin 1 → Fin 2) hv2 B2))) (ix2 a j)
      = Spec.gate (fun i j => W1 (ix2 i j)) (fun j => B1 (ix1 j)) (fun i j => W2 (ix2 i j)) (fun j => B2 (ix1 j))
          (fun q => X (ix2 a q)) (fun q => Y (ix2 a q)) j := by
  rw [hostTanh_apply, addf_apply, bcast_row, bcast_vec_row, host_dot_plain]
  unfold Spec.gate Spec.pre2 Spec.mv
  exact congrArg (fun t => Ideal.tanh (t + B2 (ix1 j))) (Finset.sum_congr rfl fun i _ => by rw [gateRelu_apply])

end Gate

end Cert.ReferenceIdeal.RefValue

end
-- ==== Proof.RefValue2.lean ====
/-
  The reference program's values, second stage: the three pairwise ratios and their soft-max, the three gated maps of
  pairs of soft-maxes (each through one call of the leaky rectifier), their weighted hyperbolic tangents, and the sum.
-/
import proofs.«113614_j77704548319488_1_alg».proof.Proof.RefValue1
import proofs.«113614_j77704548319488_1_alg».proof.Proof.RefEqs2
import proofs.«113614_j77704548319488_1_alg».proof.Proof.RefValueLib2
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Lib.HostRows Cert.RowOps
open scoped BigOperators

variable (V : Valuation τ sig (Elt Ideal))

/-- The ratio of the scores of `a` and `v` to the dot product of their soft-maxes plus one half. -/
theorem v66_val (r : Fin 65536) : W V main_v66 (ix1 r) = Spec.sav (Wt V) (J V r) := by
  rw [eq_main_v66, eq_main_v65, eq_main_v64, eq_main_cst_10, eq_main_v63, eq_main_cst_9, eq_main_v62,
    eq_main_v61]
  refine (ratio_rows _ _ _ (W V main_v25) (W V main_v26) (W V main_v38) (W V main_v49) r).trans ?_
  rw [v25_val V, v26_val V]
  simp only [v38_val V, v49_val V]
  rfl

/-- The same for `a` and `l`. -/
theorem v72_val (r : Fin 65536) : W V main_v72 (ix1 r) = Spec.sal (Wt V) (J V r) := by
  rw [eq_main_v72, eq_main_v71, eq_main_v70, eq_main_cst_12, eq_main_v69, eq_main_cst_11, eq_main_v68,
    eq_main_v67]
  refine (ratio_rows _ _ _ (W V main_v25) (W V main_v27) (W V main_v38) (W V main_v60) r).trans ?_
  rw [v25_val V, v27_val V]
  simp only [v38_val V, v60_val V]
  rfl

/-- The same for `v` and `l`. -/
theorem v78_val (r : Fin 65536) : W V main_v78 (ix1 r) = Spec.svl (Wt V) (J V r) := by
  rw [eq_main_v78, eq_main_v77, eq_main_v76, eq_main_cst_14, eq_main_v75, eq_main_cst_13, eq_main_v74,
    eq_main_v73]
  refine (ratio_rows _ _ _ (W V main_v27) (W V main_v26) (W V main_v49) (W V main_v60) r).trans ?_
  rw [v27_val V, v26_val V]
  simp only [v49_val V, v60_val V]
  rfl

/-- The three ratios side by side. -/
theorem v82_val (r : Fin 65536) (k : Fin 3) : W V main_v82 (ix2 r k) = Spec.three1 (Wt V) (J V r) k := by
  have h79 : W V main_v79 (ix2 r 0) = Spec.sav (Wt V) (J V r) := by
    rw [eq_main_v79]; exact (bcast_vec_col _ _ r 0).trans (v66_val V r)
  have h80 : W V main_v80 (ix2 r 0) = Spec.sal (Wt V) (J V r) := by
    rw [eq_main_v80]; exact (bcast_vec_col _ _ r 0).trans (v72_val V r)
  have h81 : W V main_v81 (ix2 r 0) = Spec.svl (Wt V) (J V r) := by
    rw [eq_main_v81]; exact (bcast_vec_col _ _ r 0).trans (v78_val V r)
  rw [eq_main_v82]
  refine (concat3c (W V main_v79) (W V main_v80) (W V main_v81) _ r k).trans ?_
  rw [h79, h80, h81]
  rfl

/-- Their soft-max. -/
theorem v93_val (r : Fin 65536) (c : Fin 3) : W V main_v93 (ix2 r c) = Spec.nrm (Wt V) (J V r) c := by
  rw [eq_main_v93, eq_main_v92, eq_main_v91, eq_main_v90, eq_main_v89, eq_main_v88, eq_main_v87, eq_main_v86, eq_main_v85, eq_main_v84, eq_main_v83, eq_main_cst_15, eq_main_cst_16, eq_main_cst_17]
  refine (softmax_rows _ _ _ _ _ (W V main_v82) r c).trans ?_
  exact congrArg (fun f => Spec.smax f c) (funext fun k => v82_val V r k)

/-- The gated map of the soft-maxes of `a` and `v`. -/
theorem v104_val (r : Fin 65536) (q : Fin 128) : W V main_v104 (ix2 r q) = Spec.gav (Wt V) (J V r) q := by
  rw [eq_main_v104, eq_main_v103, eq_main_v102, eq_main_v101, eq_main_v100, eq_main_v99, eq_main_call0_v4, eq_main_call0_v3,
    eq_main_call0_v2, eq_main_cst_18, eq_main_call0_v1, eq_main_call0_v0, eq_main_call0_cst, eq_main_v98, eq_main_v97, eq_main_v96,
    eq_main_v95, eq_main_v94]
  refine (gate_rows _ _ _ _ _ _ (W V main_v38) (W V main_v49) (W V main_arg5) (W V main_arg6) (W V main_arg7) (W V main_arg8)
    r q).trans ?_
  simp only [v38_val V, v49_val V]
  rfl

/-- The gated map of the soft-maxes of `a` and `l`. -/
theorem v115_val (r : Fin 65536) (q : Fin 128) : W V main_v115 (ix2 r q) = Spec.gal (Wt V) (J V r) q := by
  rw [eq_main_v115, eq_main_v114, eq_main_v113, eq_main_v112, eq_main_v111, eq_main_v110, eq_main_call1_v4, eq_main_call1_v3,
    eq_main_call1_v2, eq_main_cst_19, eq_main_call1_v1, eq_main_call1_v0, eq_main_call1_cst, eq_main_v109, eq_main_v108, eq_main_v107,
    eq_main_v106, eq_main_v105]
  refine (gate_rows _ _ _ _ _ _ (W V main_v38) (W V main_v60) (W V main_arg5) (W V main_arg6) (W V main_arg7) (W V main_arg8)
    r q).trans ?_
  simp only [v38_val V, v60_val V]
  rfl

/-- The gated map of the soft-maxes of `v` and `l`. -/
theorem v126_val (r : Fin 65536) (q : Fin 128) : W V main_v126 (ix2 r q) = Spec.gvl (Wt V) (J V r) q := by
  rw [eq_main_v126, eq_main_v125, eq_main_v124, eq_main_v123, eq_main_v122, eq_main_v121, eq_main_call2_v4, eq_main_call2_v3,
    eq_main_call2_v2, eq_main_cst_20, eq_main_call2_v1, eq_main_call2_v0, eq_main_call2_cst, eq_main_v120, eq_main_v119, eq_main_v118,
    eq_main_v117, eq_main_v116]
  refine (gate_rows _ _ _ _ _ _ (W V main_v49) (W V main_v60) (W V main_arg5) (W V main_arg6) (W V main_arg7) (W V main_arg8)
    r q).trans ?_
  simp only [v49_val V, v60_val V]
  rfl

/-- The first gated map weighted by the first normalised ratio, through the hyperbolic tangent. -/
theorem v130_val (r : Fin 65536) (q : Fin 128) : W V main_v130 (ix2 r q) = Spec.av (Wt V) (J V r) q := by
  have hc : W V main_v127 (ix2 r 0) = Spec.nrm (Wt V) (J V r) 0 := by
    rw [eq_main_v127]
    exact (slice2_axis1_apply 0 _ _ r 0 (0 : Fin 3) rfl).trans (v93_val V r 0)
  rw [eq_main_v130, eq_main_v129, eq_main_v128]
  rw [hostTanh_apply, mulf_apply, bcast_col, hc, v104_val V]
  rfl

/-- The second, weighted by the second. -/
theorem v134_val (r : Fin 65536) (q : Fin 128) : W V main_v134 (ix2 r q) = Spec.al (Wt V) (J V r) q := by
  have hc : W V main_v131 (ix2 r 0) = Spec.nrm (Wt V) (J V r) 1 := by
    rw [eq_main_v131]
    exact (slice2_axis1_apply 1 _ _ r 0 (1 : Fin 3) rfl).trans (v93_val V r 1)
  rw [eq_main_v134, eq_main_v133, eq_main_v132]
  rw [hostTanh_apply, mulf_apply, bcast_col, hc, v115_val V]
  rfl

/-- The third, weighted by the third. -/
theorem v138_val (r : Fin 65536) (q : Fin 128) : W V main_v138 (ix2 r q) = Spec.vl (Wt V) (J V r) q := by
  have hc : W V main_v135 (ix2 r 0) = Spec.nrm (Wt V) (J V r) 2 := by
    rw [eq_main_v135]
    exact (slice2_axis1_apply 2 _ _ r 0 (2 : Fin 3) rfl).trans (v93_val V r 2)
  rw [eq_main_v138, eq_main_v137, eq_main_v136]
  rw [hostTanh_apply, mulf_apply, bcast_col, hc, v126_val V]
  rfl

/-- The sum of the three. -/
theorem v140_val (r : Fin 65536) (q : Fin 128) : W V main_v140 (ix2 r q) = Spec.bim (Wt V) (J V r) q := by
  rw [eq_main_v140, eq_main_v139, addf_apply, addf_apply, v130_val V, v134_val V, v138_val V]
  rfl

end Cert.ReferenceIdeal.RefValue

end
-- ==== Proof.RefBackDefs.lean ====
/-
  The meeting point of the two halves of the reference's value: what the first half of the reference's operations
  leaves, read at a row, as the row's specification names it.
-/
import proofs.«113614_j77704548319488_1_alg».proof.Proof.RefEqW
import proofs.«113614_j77704548319488_1_alg».proof.Proof.Arrays

noncomputable section

namespace Cert.ReferenceIdeal.RefBack

open Cert.ReferenceIdeal Cert.ReferenceIdeal.RefRun Idealize.ShloMosaic Idealize.ShloMosaic.TcCoe Idealize.ShloMosaic.StableHlo
  Idealize.ShloMosaic.ValueIdx

variable (V : Valuation τ sig (Elt Ideal))

/-- The weights and row `r`, read off the final contents of the argument buffers. -/
def Wt : Spec.Wts :=
  Cert.Arrays.wtsOf (W V main_arg3) (W V main_arg4) (W V main_arg5) (W V main_arg6) (W V main_arg7) (W V main_arg8)
    (W V main_arg9) (W V main_arg10) (W V main_arg11) (W V main_arg12) (W V main_arg13) (W V main_arg14) (W V main_arg15)
    (W V main_arg16) (W V main_arg17) (W V main_arg18)
def J (r : Fin 65536) : Spec.Row := Cert.Arrays.rowOf (W V main_arg0) (W V main_arg1) (W V main_arg2) r

/-- The first half's values at row `r`. -/
structure Front : Prop where
  sa : ∀ r : Fin 65536, W V main_v25 (ix1 r) = Spec.sa (Wt V) (J V r)
  sv : ∀ r : Fin 65536, W V main_v26 (ix1 r) = Spec.sv (Wt V) (J V r)
  sl : ∀ r : Fin 65536, W V main_v27 (ix1 r) = Spec.sl (Wt V) (J V r)
  uni : ∀ (r : Fin 65536) (q : Fin 128), W V main_v24 (ix2 r q) = Spec.uni (Wt V) (J V r) q
  asm : ∀ (r : Fin 65536) (q : Fin 128), W V main_v38 (ix2 r q) = Spec.smax (J V r).a q
  vsm : ∀ (r : Fin 65536) (q : Fin 128), W V main_v49 (ix2 r q) = Spec.smax (J V r).v q
  lsm : ∀ (r : Fin 65536) (q : Fin 128), W V main_v60 (ix2 r q) = Spec.smax (J V r).l q
  sav : ∀ r : Fin 65536, W V main_v66 (ix1 r) = Spec.sav (Wt V) (J V r)
  sal : ∀ r : Fin 65536, W V main_v72 (ix1 r) = Spec.sal (Wt V) (J V r)
  svl : ∀ r : Fin 65536, W V main_v78 (ix1 r) = Spec.svl (Wt V) (J V r)
  gav : ∀ (r : Fin 65536) (q : Fin 128), W V main_v104 (ix2 r q) = Spec.gav (Wt V) (J V r) q
  gal : ∀ (r : Fin 65536) (q : Fin 128), W V main_v115 (ix2 r q) = Spec.gal (Wt V) (J V r) q
  gvl : ∀ (r : Fin 65536) (q : Fin 128), W V main_v126 (ix2 r q) = Spec.gvl (Wt V) (J V r) q
  av : ∀ (r : Fin 65536) (q : Fin 128), W V main_v130 (ix2 r q) = Spec.av (Wt V) (J V r) q
  al : ∀ (r : Fin 65536) (q : Fin 128), W V main_v134 (ix2 r q) = Spec.al (Wt V) (J V r) q
  vl : ∀ (r : Fin 65536) (q : Fin 128), W V main_v138 (ix2 r q) = Spec.vl (Wt V) (J V r) q
  bim : ∀ (r : Fin 65536) (q : Fin 128), W V main_v140 (ix2 r q) = Spec.bim (Wt V) (J V r) q

end Cert.ReferenceIdeal.RefBack

end
-- ==== Proof.RefValue3.lean ====
/-
  The first half of the reference program's values, gathered: at every row, the scores, the weighted mean, the
  soft-maxes, the ratios, the gated maps, their weighted hyperbolic tangents and the sum of those are what the row's
  specification names them. The weights and the row are the same terms of the argument buffers' final contents on both
  sides, so each field is the corresponding stage fact.
-/
import proofs.«113614_j77704548319488_1_alg».proof.Proof.RefValue2
import proofs.«113614_j77704548319488_1_alg».proof.Proof.RefBackDefs

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Lib.HostRows Cert.RowOps
open scoped BigOperators

variable (V : Valuation τ sig (Elt Ideal))

theorem front : RefBack.Front V where
  sa := v25_val V
  sv := v26_val V
  sl := v27_val V
  uni := v24_val V
  asm := v38_val V
  vsm := v49_val V
  lsm := v60_val V
  sav := v66_val V
  sal := v72_val V
  svl := v78_val V
  gav := v104_val V
  gal := v115_val V
  gvl := v126_val V
  av := v130_val V
  al := v134_val V
  vl := v138_val V
  bim := v140_val V

end Cert.ReferenceIdeal.RefValue

end
-- ==== Proof.RefEqs3.lean ====
/-
  Window 3 of the reference program read as equations. With W V the contents after the whole of @main from
  contents V, each operation of the window says that its result buffer holds its function of its operands'
  contents — all at the same final contents W V, because W V is a fixed point of every operation of @main. One
  statement per operation of the window, 60 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v153 (V : Valuation τ sig (Elt F)) : W V main_v153 = (broadcastInDim S65536 ![] bcast_S_S65536 : (⟨S_, .f32⟩ : BufTy).Contents (Elt F) → (⟨S65536, .f32⟩ : BufTy).Contents (Elt F)) (W V main_cst_25) :=
  unary_fix (settled3 V _ (.head _))

theorem eq_main_v154 (V : Valuation τ sig (Elt F)) : W V main_v154 = (maximumf : (⟨S65536, .f32⟩ : BufTy).Contents (Elt F) → (⟨S65536, .f32⟩ : BufTy).Contents (Elt F) → (⟨S65536, .f32⟩ : BufTy).Contents (Elt F)) (W V main_v153) (W V main_v152) :=
  binary_fix (settled3 V _ (.tail _ (.head _)))

theorem eq_main_v155 (V : Valuation τ sig (Elt F)) : W V main_v155 = (broadcastInDim S65536x1 ![0] bcast_S65536_S65536x1_0 : (⟨S65536, .f32⟩ : BufTy).Contents (Elt F) → (⟨S65536x1, .f32⟩ : BufTy).Contents (Elt F)) (W V main_v154) :=
  unary_fix (settled3 V _ (.tail _ (.tail _ (.head _))))

theorem eq_main_v156 (V : Valuation τ sig (Elt F)) : W V main_v156 = (broadcastInDim S65536x128 ![0, 1] bcast_S65536x1_S65536x128_0_1 : (⟨S65536x1, .f32⟩ : BufTy).Contents (Elt F) → (⟨S65536x128, .f32⟩ : BufTy).Contents (Elt F)) (W V main_v155) :=
  unary_fix (settled3 V _ (.tail _ (.tail _ (.tail _ (.head _)))))

theorem eq_main_v157 (V : Valuation τ sig (Elt F)) : W V main_v157 = (subf : (⟨S65536x128, .f32⟩ : BufTy).Contents (Elt F) → (⟨S65536x128, .f32⟩ : BufTy).Contents (Elt F) → (⟨S65536x128, .f32⟩ : BufTy).Contents (Elt F)) (W V main_v115) (W V main_v156) :=
  binary_fix (settled3 V _ (.tail _ (.tail _ (.tail _ (.tail _ (.head _))))))

theorem eq_main_v158 (V : Valuation τ sig (Elt F)) : W V main_v158 = (Host.exp : (⟨S65536x128, .f32⟩ : BufTy).Contents (Elt F) → (⟨S65536x128, .f32⟩ : BufTy).Contents (Elt F)) (W V main_v157) :=
  unary_fix (settled3 V _ (.tail _ (.tail _ (.tail _ (.tail _ (.tail _ (.head _)))))))

theorem eq_main_cst_26 (V : Valuation τ sig (Elt F)) : W V main_cst_26 = (constant S_ .f32 0x00000000#32) :=
  nullary_fix (settled3 V _ (.tail _ (.tail _ (.tail _ (.tail _ (.tail _ (.tail _ (.head _))))))))

theorem eq_main_v159 (V : Valuation τ sig (Elt F)) : W V main_v159 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v158) (W V main_cst_26) :=
  binary_fix (settled3 V _ (.tail _ (.tail _ (.tail _ (.tail _ (.tail _ (.tail _ (.tail _ (.head _)))))))))

theorem eq_main_v160 (V : Valuation τ sig (Elt F)) : W V main_v160 = (broadcastInDim S65536x1 ![0] bcast_S65536_S65536x1_0 : (⟨S65536, .f32⟩ : BufTy).Contents (Elt F) → (⟨S65536x1, .f32⟩ : BufTy).Contents (Elt F)) (W V main_v159) :=
  unary_fix (settled3 V _ (.tail _ (.tail _ (.tail _ (.tail _ (.tail _ (.tail _ (.tail _ (.tail _ (.head _))))))))))

theorem eq_main_v161 (V : Valuation τ sig (Elt F)) : W V main_v161 = (broadcastInDim S65536x128 ![0, 1] bcast_S65536x1_S65536x128_0_1 : (⟨S65536x1, .f32⟩ : BufTy).Contents (Elt F) → (⟨S65536x128, .f32⟩ : BufTy).Contents (Elt F)) (W V main_v160) :=
  unary_fix (settled3 V _ (.tail _ (.tail _ (.tail _ (.tail _ (.tail _ (.tail _ (.tail _ (.tail _ (.tail _ (.head _)))))))))))

theorem eq_main_v162 (V : Valuation τ sig (Elt F)) : W V main_v162 = (Host.divf : (⟨S65536x128, .f32⟩ : BufTy).Contents (Elt F) → (⟨S65536x128, .f32⟩ : BufTy).Contents (Elt F) → (⟨S65536x128, .f32⟩ : BufTy).Contents (Elt F)) (W V main_v158) (W V main_v161) :=
  binary_fix (settled3 V _ (.tail _ (.tail _ (.tail _ (.tail _ (.tail _ (.tail _ (.tail _ (.tail _ (.tail _ (.tail _ (.head _))))))))))))

theorem eq_main_cst_27 (V : Valuation τ sig (Elt F)) : W V main_cst_27 = (constant S_ .f32 0xFF800000#32) :=
  nullary_fix (settled3 V _ (.tail _ (.tail _ (.tail _ (.tail _ (.tail _ (.tail _ (.tail _ (.tail _ (.tail _ (.tail _ (.tail _ (.head _)))))))))))))

theorem eq_main_v163 (V : Valuation τ sig (Elt F)) : W V main_v163 = ((fun x v => Host.reduce FloatOps.maximumf x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v126) (W V main_cst_27) :=
  binary_fix (settled3 V _ (.tail _ (.tail _ (.tail _ (.tail _ (.tail _ (.tail _ (.tail _ (.tail _ (.tail _ (.tail _ (.tail _ (.tail _ (.head _))))))))))))))

theorem eq_main_cst_28 (V : Valuation τ sig (Elt F)) : W V main_cst_28 = (constant S_ .f32 0xFF800000#32) :=
  nullary_fix (settled3 V _ (.tail _ (.tail _ (.tail _ (.tail _ (.tail _ (.tail _ (.tail _ (.tail _ (.tail _ (.tail _ (.tail _ (.tail _ (.tail _ (.head _)))))))))))))))

theorem eq_main_v164 (V : Valuation τ sig (Elt F)) : W V main_v164 = (broadcastInDim S65536 ![] bcast_S_S65536 : (⟨S_, .f32⟩ : BufTy).Contents (Elt F) → (⟨S65536, .f32⟩ : BufTy).Contents (Elt F)) (W V main_cst_28) :=
  unary_fix (settled3 V _ (.tail _ (.tail _ (.tail _ (.tail _ (.tail _ (.tail _ (.tail _ (.tail _ (.tail _ (.tail _ (.tail _ (.tail _ (.tail _ (.tail _ (.head _))))))))))))))))

theorem eq_main_v165 (V : Valuation τ sig (Elt F)) : W V main_v165 = (maximumf : (⟨S65536, .f32⟩ : BufTy).Contents (Elt F) → (⟨S65536, .f32⟩ : BufTy).Contents (Elt F) → (⟨S65536, .f32⟩ : BufTy).Contents (Elt F)) (W V main_v164) (W V main_v163) :=
  binary_fix (settled3 V _ (.tail _ (.tail _ (.tail _ (.tail _ (.tail _ (.tail _ (.tail _ (.tail _ (.tail _ (.tail _ (.tail _ (.tail _ (.tail _ (.tail _ (.tail _ (.head _)))))))))))))))))

theorem eq_main_v166 (V : Valuation τ sig (Elt F)) : W V main_v166 = (broadcastInDim S65536x1 ![0] bcast_S65536_S65536x1_0 : (⟨S65536, .f32⟩ : BufTy).Contents (Elt F) → (⟨S65536x1, .f32⟩ : BufTy).Contents (Elt F)) (W V main_v165) :=
  unary_fix (settled3 V _ (.tail _ (.tail _ (.tail _ (.tail _ (.tail _ (.tail _ (.tail _ (.tail _ (.tail _ (.tail _ (.tail _ (.tail _ (.tail _ (.tail _ (.tail _ (.tail _ (.head _))))))))))))))))))

theorem eq_main_v167 (V : Valuation τ sig (Elt F)) : W V main_v167 = (broadcastInDim S65536x128 ![0, 1] bcast_S65536x1_S65536x128_0_1 : (⟨S65536x1, .f32⟩ : BufTy).Contents (Elt F) → (⟨S65536x128, .f32⟩ : BufTy).Contents (Elt F)) (W V main_v166) :=
  unary_fix (settled3 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_v168 (V : Valuation τ sig (Elt F)) : W V main_v168 = (subf : (⟨S65536x128, .f32⟩ : BufTy).Contents (Elt F) → (⟨S65536x128, .f32⟩ : BufTy).Contents (Elt F) → (⟨S65536x128, .f32⟩ : BufTy).Contents (Elt F)) (W V main_v126) (W V main_v167) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_v169 (V : Valuation τ sig (Elt F)) : W V main_v169 = (Host.exp : (⟨S65536x128, .f32⟩ : BufTy).Contents (Elt F) → (⟨S65536x128, .f32⟩ : BufTy).Contents (Elt F)) (W V main_v168) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_cst_29 (V : Valuation τ sig (Elt F)) : W V main_cst_29 = (constant S_ .f32 0x00000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_v170 (V : Valuation τ sig (Elt F)) : W V main_v170 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v169) (W V main_cst_29) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_v171 (V : Valuation τ sig (Elt F)) : W V main_v171 = (broadcastInDim S65536x1 ![0] bcast_S65536_S65536x1_0 : (⟨S65536, .f32⟩ : BufTy).Contents (Elt F) → (⟨S65536x1, .f32⟩ : BufTy).Contents (Elt F)) (W V main_v170) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_v172 (V : Valuation τ sig (Elt F)) : W V main_v172 = (broadcastInDim S65536x128 ![0, 1] bcast_S65536x1_S65536x128_0_1 : (⟨S65536x1, .f32⟩ : BufTy).Contents (Elt F) → (⟨S65536x128, .f32⟩ : BufTy).Contents (Elt F)) (W V main_v171) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v173 (V : Valuation τ sig (Elt F)) : W V main_v173 = (Host.divf : (⟨S65536x128, .f32⟩ : BufTy).Contents (Elt F) → (⟨S65536x128, .f32⟩ : BufTy).Contents (Elt F) → (⟨S65536x128, .f32⟩ : BufTy).Contents (Elt F)) (W V main_v169) (W V main_v172) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v174 (V : Valuation τ sig (Elt F)) : W V main_v174 = (addf : (⟨S65536, .f32⟩ : BufTy).Contents (Elt F) → (⟨S65536, .f32⟩ : BufTy).Contents (Elt F) → (⟨S65536, .f32⟩ : BufTy).Contents (Elt F)) (W V main_v66) (W V main_v78) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v175 (V : Valuation τ sig (Elt F)) : W V main_v175 = (mulf : (⟨S65536x128, .f32⟩ : BufTy).Contents (Elt F) → (⟨S65536x128, .f32⟩ : BufTy).Contents (Elt F) → (⟨S65536x128, .f32⟩ : BufTy).Contents (Elt F)) (W V main_v151) (W V main_v173) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_cst_30 (V : Valuation τ sig (Elt F)) : W V main_cst_30 = (constant S_ .f32 0x00000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_v176 (V : Valuation τ sig (Elt F)) : W V main_v176 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v175) (W V main_cst_30) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_cst_31 (V : Valuation τ sig (Elt F)) : W V main_cst_31 = (constant S_ .f32 0x3F000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_v177 (V : Valuation τ sig (Elt F)) : W V main_v177 = (broadcastInDim S65536 ![] bcast_S_S65536 : (⟨S_, .f32⟩ : BufTy).Contents (Elt F) → (⟨S65536, .f32⟩ : BufTy).Contents (Elt F)) (W V main_cst_31) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_v178 (V : Valuation τ sig (Elt F)) : W V main_v178 = (addf : (⟨S65536, .f32⟩ : BufTy).Contents (Elt F) → (⟨S65536, .f32⟩ : BufTy).Contents (Elt F) → (⟨S65536, .f32⟩ : BufTy).Contents (Elt F)) (W V main_v176) (W V main_v177) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_v179 (V : Valuation τ sig (Elt F)) : W V main_v179 = (Host.divf : (⟨S65536, .f32⟩ : BufTy).Contents (Elt F) → (⟨S65536, .f32⟩ : BufTy).Contents (Elt F) → (⟨S65536, .f32⟩ : BufTy).Contents (Elt F)) (W V main_v174) (W V main_v178) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_v180 (V : Valuation τ sig (Elt F)) : W V main_v180 = (addf : (⟨S65536, .f32⟩ : BufTy).Contents (Elt F) → (⟨S65536, .f32⟩ : BufTy).Contents (Elt F) → (⟨S65536, .f32⟩ : BufTy).Contents (Elt F)) (W V main_v66) (W V main_v72) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_v181 (V : Valuation τ sig (Elt F)) : W V main_v181 = (mulf : (⟨S65536x128, .f32⟩ : BufTy).Contents (Elt F) → (⟨S65536x128, .f32⟩ : BufTy).Contents (Elt F) → (⟨S65536x128, .f32⟩ : BufTy).Contents (Elt F)) (W V main_v151) (W V main_v162) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_cst_32 (V : Valuation τ sig (Elt F)) : W V main_cst_32 = (constant S_ .f32 0x00000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_v182 (V : Valuation τ sig (Elt F)) : W V main_v182 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v181) (W V main_cst_32) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

theorem eq_main_cst_33 (V : Valuation τ sig (Elt F)) : W V main_cst_33 = (constant S_ .f32 0x3F000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))

theorem eq_main_v183 (V : Valuation τ sig (Elt F)) : W V main_v183 = (broadcastInDim S65536 ![] bcast_S_S65536 : (⟨S_, .f32⟩ : BufTy).Contents (Elt F) → (⟨S65536, .f32⟩ : BufTy).Contents (Elt F)) (W V main_cst_33) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

theorem eq_main_v184 (V : Valuation τ sig (Elt F)) : W V main_v184 = (addf : (⟨S65536, .f32⟩ : BufTy).Contents (Elt F) → (⟨S65536, .f32⟩ : BufTy).Contents (Elt F) → (⟨S65536, .f32⟩ : BufTy).Contents (Elt F)) (W V main_v182) (W V main_v183) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

theorem eq_main_v185 (V : Valuation τ sig (Elt F)) : W V main_v185 = (Host.divf : (⟨S65536, .f32⟩ : BufTy).Contents (Elt F) → (⟨S65536, .f32⟩ : BufTy).Contents (Elt F) → (⟨S65536, .f32⟩ : BufTy).Contents (Elt F)) (W V main_v180) (W V main_v184) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))

theorem eq_main_v186 (V : Valuation τ sig (Elt F)) : W V main_v186 = (addf : (⟨S65536, .f32⟩ : BufTy).Contents (Elt F) → (⟨S65536, .f32⟩ : BufTy).Contents (Elt F) → (⟨S65536, .f32⟩ : BufTy).Contents (Elt F)) (W V main_v72) (W V main_v78) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))

theorem eq_main_v187 (V : Valuation τ sig (Elt F)) : W V main_v187 = (mulf : (⟨S65536x128, .f32⟩ : BufTy).Contents (Elt F) → (⟨S65536x128, .f32⟩ : BufTy).Contents (Elt F) → (⟨S65536x128, .f32⟩ : BufTy).Contents (Elt F)) (W V main_v162) (W V main_v173) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))

theorem eq_main_cst_34 (V : Valuation τ sig (Elt F)) : W V main_cst_34 = (constant S_ .f32 0x00000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))

theorem eq_main_v188 (V : Valuation τ sig (Elt F)) : W V main_v188 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v187) (W V main_cst_34) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))

theorem eq_main_cst_35 (V : Valuation τ sig (Elt F)) : W V main_cst_35 = (constant S_ .f32 0x3F000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))

theorem eq_main_v189 (V : Valuation τ sig (Elt F)) : W V main_v189 = (broadcastInDim S65536 ![] bcast_S_S65536 : (⟨S_, .f32⟩ : BufTy).Contents (Elt F) → (⟨S65536, .f32⟩ : BufTy).Contents (Elt F)) (W V main_cst_35) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))

theorem eq_main_v190 (V : Valuation τ sig (Elt F)) : W V main_v190 = (addf : (⟨S65536, .f32⟩ : BufTy).Contents (Elt F) → (⟨S65536, .f32⟩ : BufTy).Contents (Elt F) → (⟨S65536, .f32⟩ : BufTy).Contents (Elt F)) (W V main_v188) (W V main_v189) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))

theorem eq_main_v191 (V : Valuation τ sig (Elt F)) : W V main_v191 = (Host.divf : (⟨S65536, .f32⟩ : BufTy).Contents (Elt F) → (⟨S65536, .f32⟩ : BufTy).Contents (Elt F) → (⟨S65536, .f32⟩ : BufTy).Contents (Elt F)) (W V main_v186) (W V main_v190) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))

theorem eq_main_v192 (V : Valuation τ sig (Elt F)) : W V main_v192 = (addf : (⟨S65536, .f32⟩ : BufTy).Contents (Elt F) → (⟨S65536, .f32⟩ : BufTy).Contents (Elt F) → (⟨S65536, .f32⟩ : BufTy).Contents (Elt F)) (W V main_v66) (W V main_v27) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))

theorem eq_main_v193 (V : Valuation τ sig (Elt F)) : W V main_v193 = (mulf : (⟨S65536x128, .f32⟩ : BufTy).Contents (Elt F) → (⟨S65536x128, .f32⟩ : BufTy).Contents (Elt F) → (⟨S65536x128, .f32⟩ : BufTy).Contents (Elt F)) (W V main_v151) (W V main_v60) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))

theorem eq_main_cst_36 (V : Valuation τ sig (Elt F)) : W V main_cst_36 = (constant S_ .f32 0x00000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))

theorem eq_main_v194 (V : Valuation τ sig (Elt F)) : W V main_v194 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v193) (W V main_cst_36) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))

theorem eq_main_cst_37 (V : Valuation τ sig (Elt F)) : W V main_cst_37 = (constant S_ .f32 0x3F000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))

theorem eq_main_v195 (V : Valuation τ sig (Elt F)) : W V main_v195 = (broadcastInDim S65536 ![] bcast_S_S65536 : (⟨S_, .f32⟩ : BufTy).Contents (Elt F) → (⟨S65536, .f32⟩ : BufTy).Contents (Elt F)) (W V main_cst_37) :=
  unary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))

theorem eq_main_v196 (V : Valuation τ sig (Elt F)) : W V main_v196 = (addf : (⟨S65536, .f32⟩ : BufTy).Contents (Elt F) → (⟨S65536, .f32⟩ : BufTy).Contents (Elt F) → (⟨S65536, .f32⟩ : BufTy).Contents (Elt F)) (W V main_v194) (W V main_v195) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))

theorem eq_main_v197 (V : Valuation τ sig (Elt F)) : W V main_v197 = (Host.divf : (⟨S65536, .f32⟩ : BufTy).Contents (Elt F) → (⟨S65536, .f32⟩ : BufTy).Contents (Elt F) → (⟨S65536, .f32⟩ : BufTy).Contents (Elt F)) (W V main_v192) (W V main_v196) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))

theorem eq_main_v198 (V : Valuation τ sig (Elt F)) : W V main_v198 = (addf : (⟨S65536, .f32⟩ : BufTy).Contents (Elt F) → (⟨S65536, .f32⟩ : BufTy).Contents (Elt F) → (⟨S65536, .f32⟩ : BufTy).Contents (Elt F)) (W V main_v72) (W V main_v26) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))

theorem eq_main_v199 (V : Valuation τ sig (Elt F)) : W V main_v199 = (mulf : (⟨S65536x128, .f32⟩ : BufTy).Contents (Elt F) → (⟨S65536x128, .f32⟩ : BufTy).Contents (Elt F) → (⟨S65536x128, .f32⟩ : BufTy).Contents (Elt F)) (W V main_v162) (W V main_v49) :=
  binary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))

theorem eq_main_cst_38 (V : Valuation τ sig (Elt F)) : W V main_cst_38 = (constant S_ .f32 0x00000000#32) :=
  nullary_fix (settled3 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))

end Cert.ReferenceIdeal.RefRun

end
-- ==== Proof.RefEqs4.lean ====
/-
  Window 4 of the reference program read as equations. With W V the contents after the whole of @main from
  contents V, each operation of the window says that its result buffer holds its function of its operands'
  contents — all at the same final contents W V, because W V is a fixed point of every operation of @main. One
  statement per operation of the window, 72 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v200 (V : Valuation τ sig (Elt F)) : W V main_v200 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v199) (W V main_cst_38) :=
  binary_fix (settled4 V _ (.head _))

theorem eq_main_cst_39 (V : Valuation τ sig (Elt F)) : W V main_cst_39 = (constant S_ .f32 0x3F000000#32) :=
  nullary_fix (settled4 V _ (.tail _ (.head _)))

theorem eq_main_v201 (V : Valuation τ sig (Elt F)) : W V main_v201 = (broadcastInDim S65536 ![] bcast_S_S65536 : (⟨S_, .f32⟩ : BufTy).Contents (Elt F) → (⟨S65536, .f32⟩ : BufTy).Contents (Elt F)) (W V main_cst_39) :=
  unary_fix (settled4 V _ (.tail _ (.tail _ (.head _))))

theorem eq_main_v202 (V : Valuation τ sig (Elt F)) : W V main_v202 = (addf : (⟨S65536, .f32⟩ : BufTy).Contents (Elt F) → (⟨S65536, .f32⟩ : BufTy).Contents (Elt F) → (⟨S65536, .f32⟩ : BufTy).Contents (Elt F)) (W V main_v200) (W V main_v201) :=
  binary_fix (settled4 V _ (.tail _ (.tail _ (.tail _ (.head _)))))

theorem eq_main_v203 (V : Valuation τ sig (Elt F)) : W V main_v203 = (Host.divf : (⟨S65536, .f32⟩ : BufTy).Contents (Elt F) → (⟨S65536, .f32⟩ : BufTy).Contents (Elt F) → (⟨S65536, .f32⟩ : BufTy).Contents (Elt F)) (W V main_v198) (W V main_v202) :=
  binary_fix (settled4 V _ (.tail _ (.tail _ (.tail _ (.tail _ (.head _))))))

theorem eq_main_v204 (V : Valuation τ sig (Elt F)) : W V main_v204 = (addf : (⟨S65536, .f32⟩ : BufTy).Contents (Elt F) → (⟨S65536, .f32⟩ : BufTy).Contents (Elt F) → (⟨S65536, .f32⟩ : BufTy).Contents (Elt F)) (W V main_v25) (W V main_v78) :=
  binary_fix (settled4 V _ (.tail _ (.tail _ (.tail _ (.tail _ (.tail _ (.head _)))))))

theorem eq_main_v205 (V : Valuation τ sig (Elt F)) : W V main_v205 = (mulf : (⟨S65536x128, .f32⟩ : BufTy).Contents (Elt F) → (⟨S65536x128, .f32⟩ : BufTy).Contents (Elt F) → (⟨S65536x128, .f32⟩ : BufTy).Contents (Elt F)) (W V main_v173) (W V main_v38) :=
  binary_fix (settled4 V _ (.tail _ (.tail _ (.tail _ (.tail _ (.tail _ (.tail _ (.head _))))))))

theorem eq_main_cst_40 (V : Valuation τ sig (Elt F)) : W V main_cst_40 = (constant S_ .f32 0x00000000#32) :=
  nullary_fix (settled4 V _ (.tail _ (.tail _ (.tail _ (.tail _ (.tail _ (.tail _ (.tail _ (.head _)))))))))

theorem eq_main_v206 (V : Valuation τ sig (Elt F)) : W V main_v206 = ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)) (W V main_v205) (W V main_cst_40) :=
  binary_fix (settled4 V _ (.tail _ (.tail _ (.tail _ (.tail _ (.tail _ (.tail _ (.tail _ (.tail _ (.head _))))))))))

theorem eq_main_cst_41 (V : Valuation τ sig (Elt F)) : W V main_cst_41 = (constant S_ .f32 0x3F000000#32) :=
  nullary_fix (settled4 V _ (.tail _ (.tail _ (.tail _ (.tail _ (.tail _ (.tail _ (.tail _ (.tail _ (.tail _ (.head _)))))))))))

theorem eq_main_v207 (V : Valuation τ sig (Elt F)) : W V main_v207 = (broadcastInDim S65536 ![] bcast_S_S65536 : (⟨S_, .f32⟩ : BufTy).Contents (Elt F) → (⟨S65536, .f32⟩ : BufTy).Contents (Elt F)) (W V main_cst_41) :=
  unary_fix (settled4 V _ (.tail _ (.tail _ (.tail _ (.tail _ (.tail _ (.tail _ (.tail _ (.tail _ (.tail _ (.tail _ (.head _))))))))))))

theorem eq_main_v208 (V : Valuation τ sig (Elt F)) : W V main_v208 = (addf : (⟨S65536, .f32⟩ : BufTy).Contents (Elt F) → (⟨S65536, .f32⟩ : BufTy).Contents (Elt F) → (⟨S65536, .f32⟩ : BufTy).Contents (Elt F)) (W V main_v206) (W V main_v207) :=
  binary_fix (settled4 V _ (.tail _ (.tail _ (.tail _ (.tail _ (.tail _ (.tail _ (.tail _ (.tail _ (.tail _ (.tail _ (.tail _ (.head _)))))))))))))

theorem eq_main_v209 (V : Valuation τ sig (Elt F)) : W V main_v209 = (Host.divf : (⟨S65536, .f32⟩ : BufTy).Contents (Elt F) → (⟨S65536, .f32⟩ : BufTy).Contents (Elt F) → (⟨S65536, .f32⟩ : BufTy).Contents (Elt F)) (W V main_v204) (W V main_v208) :=
  binary_fix (settled4 V _ (.tail _ (.tail _ (.tail _ (.tail _ (.tail _ (.tail _ (.tail _ (.tail _ (.tail _ (.tail _ (.tail _ (.tail _ (.head _))))))))))))))

theorem eq_main_v210 (V : Valuation τ sig (Elt F)) : W V main_v210 = (broadcastInDim S65536x1 ![0] bcast_S65536_S65536x1_0 : (⟨S65536, .f32⟩ : BufTy).Contents (Elt F) → (⟨S65536x1, .f32⟩ : BufTy).Contents (Elt F)) (W V main_v179) :=
  unary_fix (settled4 V _ (.tail _ (.tail _ (.tail _ (.tail _ (.tail _ (.tail _ (.tail _ (.tail _ (.tail _ (.tail _ (.tail _ (.tail _ (.tail _ (.head _)))))))))))))))

theorem eq_main_v211 (V : Valuation τ sig (Elt F)) : W V main_v211 = (broadcastInDim S65536x1 ![0] bcast_S65536_S65536x1_0 : (⟨S65536, .f32⟩ : BufTy).Contents (Elt F) → (⟨S65536x1, .f32⟩ : BufTy).Contents (Elt F)) (W V main_v185) :=
  unary_fix (settled4 V _ (.tail _ (.tail _ (.tail _ (.tail _ (.tail _ (.tail _ (.tail _ (.tail _ (.tail _ (.tail _ (.tail _ (.tail _ (.tail _ (.tail _ (.head _))))))))))))))))

theorem eq_main_v212 (V : Valuation τ sig (Elt F)) : W V main_v212 = (broadcastInDim S65536x1 ![0] bcast_S65536_S65536x1_0 : (⟨S65536, .f32⟩ : BufTy).Contents (Elt F) → (⟨S65536x1, .f32⟩ : BufTy).Contents (Elt F)) (W V main_v191) :=
  unary_fix (settled4 V _ (.tail _ (.tail _ (.tail _ (.tail _ (.tail _ (.tail _ (.tail _ (.tail _ (.tail _ (.tail _ (.tail _ (.tail _ (.tail _ (.tail _ (.tail _ (.head _)))))))))))))))))

theorem eq_main_v213 (V : Valuation τ sig (Elt F)) : W V main_v213 = (broadcastInDim S65536x1 ![0] bcast_S65536_S65536x1_0 : (⟨S65536, .f32⟩ : BufTy).Contents (Elt F) → (⟨S65536x1, .f32⟩ : BufTy).Contents (Elt F)) (W V main_v197) :=
  unary_fix (settled4 V _ (.tail _ (.tail _ (.tail _ (.tail _ (.tail _ (.tail _ (.tail _ (.tail _ (.tail _ (.tail _ (.tail _ (.tail _ (.tail _ (.tail _ (.tail _ (.tail _ (.head _))))))))))))))))))

theorem eq_main_v214 (V : Valuation τ sig (Elt F)) : W V main_v214 = (broadcastInDim S65536x1 ![0] bcast_S65536_S65536x1_0 : (⟨S65536, .f32⟩ : BufTy).Contents (Elt F) → (⟨S65536x1, .f32⟩ : BufTy).Contents (Elt F)) (W V main_v203) :=
  unary_fix (settled4 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_v215 (V : Valuation τ sig (Elt F)) : W V main_v215 = (broadcastInDim S65536x1 ![0] bcast_S65536_S65536x1_0 : (⟨S65536, .f32⟩ : BufTy).Contents (Elt F) → (⟨S65536x1, .f32⟩ : BufTy).Contents (Elt F)) (W V main_v209) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_v216 (V : Valuation τ sig (Elt F)) : W V main_v216 = (fun u => concatenate S65536x6 1 [⟨S65536x1, u 0⟩, ⟨S65536x1, u 1⟩, ⟨S65536x1, u 2⟩, ⟨S65536x1, u 3⟩, ⟨S65536x1, u 4⟩, ⟨S65536x1, u 5⟩] concatenates_S65536x1_S65536x1_S65536x1_S65536x1_S65536x1_S65536x1_S65536x6_d1) (fun i => W V (![main_v210, main_v211, main_v212, main_v213, main_v214, main_v215] i)) :=
  nary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_cst_42 (V : Valuation τ sig (Elt F)) : W V main_cst_42 = (constant S_ .f32 0xFF800000#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_v217 (V : Valuation τ sig (Elt F)) : W V main_v217 = ((fun x v => Host.reduce FloatOps.maximumf x v reducesTo_S65536x6_S65536_d1 h_S_) : (⟨S65536x6, .f32⟩ : BufTy).Contents (Elt F) → (⟨S_, .f32⟩ : BufTy).Contents (Elt F) → (⟨S65536, .f32⟩ : BufTy).Contents (Elt F)) (W V main_v216) (W V main_cst_42) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_cst_43 (V : Valuation τ sig (Elt F)) : W V main_cst_43 = (constant S_ .f32 0xFF800000#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_v218 (V : Valuation τ sig (Elt F)) : W V main_v218 = (broadcastInDim S65536 ![] bcast_S_S65536 : (⟨S_, .f32⟩ : BufTy).Contents (Elt F) → (⟨S65536, .f32⟩ : BufTy).Contents (Elt F)) (W V main_cst_43) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v219 (V : Valuation τ sig (Elt F)) : W V main_v219 = (maximumf : (⟨S65536, .f32⟩ : BufTy).Contents (Elt F) → (⟨S65536, .f32⟩ : BufTy).Contents (Elt F) → (⟨S65536, .f32⟩ : BufTy).Contents (Elt F)) (W V main_v218) (W V main_v217) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v220 (V : Valuation τ sig (Elt F)) : W V main_v220 = (broadcastInDim S65536x1 ![0] bcast_S65536_S65536x1_0 : (⟨S65536, .f32⟩ : BufTy).Contents (Elt F) → (⟨S65536x1, .f32⟩ : BufTy).Contents (Elt F)) (W V main_v219) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v221 (V : Valuation τ sig (Elt F)) : W V main_v221 = (broadcastInDim S65536x6 ![0, 1] bcast_S65536x1_S65536x6_0_1 : (⟨S65536x1, .f32⟩ : BufTy).Contents (Elt F) → (⟨S65536x6, .f32⟩ : BufTy).Contents (Elt F)) (W V main_v220) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_v222 (V : Valuation τ sig (Elt F)) : W V main_v222 = (subf : (⟨S65536x6, .f32⟩ : BufTy).Contents (Elt F) → (⟨S65536x6, .f32⟩ : BufTy).Contents (Elt F) → (⟨S65536x6, .f32⟩ : BufTy).Contents (Elt F)) (W V main_v216) (W V main_v221) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_v223 (V : Valuation τ sig (Elt F)) : W V main_v223 = (Host.exp : (⟨S65536x6, .f32⟩ : BufTy).Contents (Elt F) → (⟨S65536x6, .f32⟩ : BufTy).Contents (Elt F)) (W V main_v222) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_cst_44 (V : Valuation τ sig (Elt F)) : W V main_cst_44 = (constant S_ .f32 0x00000000#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_v224 (V : Valuation τ sig (Elt F)) : W V main_v224 = ((fun x v => Host.reduceAdd x v reducesTo_S65536x6_S65536_d1 h_S_) : (⟨S65536x6, .f32⟩ : BufTy).Contents (Elt F) → (⟨S_, .f32⟩ : BufTy).Contents (Elt F) → (⟨S65536, .f32⟩ : BufTy).Contents (Elt F)) (W V main_v223) (W V main_cst_44) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_v225 (V : Valuation τ sig (Elt F)) : W V main_v225 = (broadcastInDim S65536x1 ![0] bcast_S65536_S65536x1_0 : (⟨S65536, .f32⟩ : BufTy).Contents (Elt F) → (⟨S65536x1, .f32⟩ : BufTy).Contents (Elt F)) (W V main_v224) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_v226 (V : Valuation τ sig (Elt F)) : W V main_v226 = (broadcastInDim S65536x6 ![0, 1] bcast_S65536x1_S65536x6_0_1 : (⟨S65536x1, .f32⟩ : BufTy).Contents (Elt F) → (⟨S65536x6, .f32⟩ : BufTy).Contents (Elt F)) (W V main_v225) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_v227 (V : Valuation τ sig (Elt F)) : W V main_v227 = (Host.divf : (⟨S65536x6, .f32⟩ : BufTy).Contents (Elt F) → (⟨S65536x6, .f32⟩ : BufTy).Contents (Elt F) → (⟨S65536x6, .f32⟩ : BufTy).Contents (Elt F)) (W V main_v223) (W V main_v226) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_v228 (V : Valuation τ sig (Elt F)) : W V main_v228 = ((extractStridedSlice S65536x1 ![0, 0] · slices_S65536x6_S65536x1_0_0) : (⟨S65536x6, .f32⟩ : BufTy).Contents (Elt F) → (⟨S65536x1, .f32⟩ : BufTy).Contents (Elt F)) (W V main_v227) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_v229 (V : Valuation τ sig (Elt F)) : W V main_v229 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v130) (W V main_v138) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_v230 (V : Valuation τ sig (Elt F)) : W V main_v230 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v229) (W V main_arg9) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

theorem eq_main_v231 (V : Valuation τ sig (Elt F)) : W V main_v231 = (broadcastInDim S1x64 ![1] bcast_S64_S1x64_1 : (⟨S64, .f32⟩ : BufTy).Contents (Elt F) → (⟨S1x64, .f32⟩ : BufTy).Contents (Elt F)) (W V main_arg10) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))

theorem eq_main_v232 (V : Valuation τ sig (Elt F)) : W V main_v232 = (broadcastInDim S65536x64 ![0, 1] bcast_S1x64_S65536x64_0_1 : (⟨S1x64, .f32⟩ : BufTy).Contents (Elt F) → (⟨S65536x64, .f32⟩ : BufTy).Contents (Elt F)) (W V main_v231) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

theorem eq_main_v233 (V : Valuation τ sig (Elt F)) : W V main_v233 = (addf : (⟨S65536x64, .f32⟩ : BufTy).Contents (Elt F) → (⟨S65536x64, .f32⟩ : BufTy).Contents (Elt F) → (⟨S65536x64, .f32⟩ : BufTy).Contents (Elt F)) (W V main_v230) (W V main_v232) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

theorem eq_main_cst_45 (V : Valuation τ sig (Elt F)) : W V main_cst_45 = (constant S_ .f32 0x3E4CCCCD#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))

theorem eq_main_call3_cst (V : Valuation τ sig (Elt F)) : W V main_call3_cst = (constant S_ .f32 0x00000000#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))

theorem eq_main_call3_v0 (V : Valuation τ sig (Elt F)) : W V main_call3_v0 = (broadcastInDim S65536x64 ![] bcast_S_S65536x64) (W V main_call3_cst) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))

theorem eq_main_call3_v1 (V : Valuation τ sig (Elt F)) : W V main_call3_v1 = (cmpf .oge) (W V main_v233) (W V main_call3_v0) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))

theorem eq_main_call3_v2 (V : Valuation τ sig (Elt F)) : W V main_call3_v2 = id (W V main_cst_45) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))

theorem eq_main_call3_v3 (V : Valuation τ sig (Elt F)) : W V main_call3_v3 = (broadcastInDim S65536x64 ![] bcast_S_S65536x64) (W V main_call3_v2) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))

theorem eq_main_call3_v4 (V : Valuation τ sig (Elt F)) : W V main_call3_v4 = mulf (W V main_call3_v3) (W V main_v233) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))

theorem eq_main_v234 (V : Valuation τ sig (Elt F)) : W V main_v234 = select (W V main_call3_v1) (W V main_v233) (W V main_call3_v4) :=
  ternary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))

theorem eq_main_v235 (V : Valuation τ sig (Elt F)) : W V main_v235 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v234) (W V main_arg11) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))

theorem eq_main_v236 (V : Valuation τ sig (Elt F)) : W V main_v236 = (broadcastInDim S1x128 ![1] bcast_S128_S1x128_1 : (⟨S128, .f32⟩ : BufTy).Contents (Elt F) → (⟨S1x128, .f32⟩ : BufTy).Contents (Elt F)) (W V main_arg12) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))

theorem eq_main_v237 (V : Valuation τ sig (Elt F)) : W V main_v237 = (broadcastInDim S65536x128 ![0, 1] bcast_S1x128_S65536x128_0_1 : (⟨S1x128, .f32⟩ : BufTy).Contents (Elt F) → (⟨S65536x128, .f32⟩ : BufTy).Contents (Elt F)) (W V main_v236) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))

theorem eq_main_v238 (V : Valuation τ sig (Elt F)) : W V main_v238 = (addf : (⟨S65536x128, .f32⟩ : BufTy).Contents (Elt F) → (⟨S65536x128, .f32⟩ : BufTy).Contents (Elt F) → (⟨S65536x128, .f32⟩ : BufTy).Contents (Elt F)) (W V main_v235) (W V main_v237) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))

theorem eq_main_v239 (V : Valuation τ sig (Elt F)) : W V main_v239 = (Host.tanh : (⟨S65536x128, .f32⟩ : BufTy).Contents (Elt F) → (⟨S65536x128, .f32⟩ : BufTy).Contents (Elt F)) (W V main_v238) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))

theorem eq_main_v240 (V : Valuation τ sig (Elt F)) : W V main_v240 = (broadcastInDim S65536x128 ![0, 1] bcast_S65536x1_S65536x128_0_1 : (⟨S65536x1, .f32⟩ : BufTy).Contents (Elt F) → (⟨S65536x128, .f32⟩ : BufTy).Contents (Elt F)) (W V main_v228) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))

theorem eq_main_v241 (V : Valuation τ sig (Elt F)) : W V main_v241 = (mulf : (⟨S65536x128, .f32⟩ : BufTy).Contents (Elt F) → (⟨S65536x128, .f32⟩ : BufTy).Contents (Elt F) → (⟨S65536x128, .f32⟩ : BufTy).Contents (Elt F)) (W V main_v240) (W V main_v239) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))

theorem eq_main_v242 (V : Valuation τ sig (Elt F)) : W V main_v242 = (Host.tanh : (⟨S65536x128, .f32⟩ : BufTy).Contents (Elt F) → (⟨S65536x128, .f32⟩ : BufTy).Contents (Elt F)) (W V main_v241) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))

theorem eq_main_v243 (V : Valuation τ sig (Elt F)) : W V main_v243 = ((extractStridedSlice S65536x1 ![0, 1] · slices_S65536x6_S65536x1_0_1) : (⟨S65536x6, .f32⟩ : BufTy).Contents (Elt F) → (⟨S65536x1, .f32⟩ : BufTy).Contents (Elt F)) (W V main_v227) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))

theorem eq_main_v244 (V : Valuation τ sig (Elt F)) : W V main_v244 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v130) (W V main_v134) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))

theorem eq_main_v245 (V : Valuation τ sig (Elt F)) : W V main_v245 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v244) (W V main_arg9) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))

theorem eq_main_v246 (V : Valuation τ sig (Elt F)) : W V main_v246 = (broadcastInDim S1x64 ![1] bcast_S64_S1x64_1 : (⟨S64, .f32⟩ : BufTy).Contents (Elt F) → (⟨S1x64, .f32⟩ : BufTy).Contents (Elt F)) (W V main_arg10) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))

theorem eq_main_v247 (V : Valuation τ sig (Elt F)) : W V main_v247 = (broadcastInDim S65536x64 ![0, 1] bcast_S1x64_S65536x64_0_1 : (⟨S1x64, .f32⟩ : BufTy).Contents (Elt F) → (⟨S65536x64, .f32⟩ : BufTy).Contents (Elt F)) (W V main_v246) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))

theorem eq_main_v248 (V : Valuation τ sig (Elt F)) : W V main_v248 = (addf : (⟨S65536x64, .f32⟩ : BufTy).Contents (Elt F) → (⟨S65536x64, .f32⟩ : BufTy).Contents (Elt F) → (⟨S65536x64, .f32⟩ : BufTy).Contents (Elt F)) (W V main_v245) (W V main_v247) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))

theorem eq_main_cst_46 (V : Valuation τ sig (Elt F)) : W V main_cst_46 = (constant S_ .f32 0x3E4CCCCD#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))

theorem eq_main_call4_cst (V : Valuation τ sig (Elt F)) : W V main_call4_cst = (constant S_ .f32 0x00000000#32) :=
  nullary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))

theorem eq_main_call4_v0 (V : Valuation τ sig (Elt F)) : W V main_call4_v0 = (broadcastInDim S65536x64 ![] bcast_S_S65536x64) (W V main_call4_cst) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))

theorem eq_main_call4_v1 (V : Valuation τ sig (Elt F)) : W V main_call4_v1 = (cmpf .oge) (W V main_v248) (W V main_call4_v0) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))

theorem eq_main_call4_v2 (V : Valuation τ sig (Elt F)) : W V main_call4_v2 = id (W V main_cst_46) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))

theorem eq_main_call4_v3 (V : Valuation τ sig (Elt F)) : W V main_call4_v3 = (broadcastInDim S65536x64 ![] bcast_S_S65536x64) (W V main_call4_v2) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))

theorem eq_main_call4_v4 (V : Valuation τ sig (Elt F)) : W V main_call4_v4 = mulf (W V main_call4_v3) (W V main_v248) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))

theorem eq_main_v249 (V : Valuation τ sig (Elt F)) : W V main_v249 = select (W V main_call4_v1) (W V main_v248) (W V main_call4_v4) :=
  ternary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))

theorem eq_main_v250 (V : Valuation τ sig (Elt F)) : W V main_v250 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v249) (W V main_arg11) :=
  binary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))

theorem eq_main_v251 (V : Valuation τ sig (Elt F)) : W V main_v251 = (broadcastInDim S1x128 ![1] bcast_S128_S1x128_1 : (⟨S128, .f32⟩ : BufTy).Contents (Elt F) → (⟨S1x128, .f32⟩ : BufTy).Contents (Elt F)) (W V main_arg12) :=
  unary_fix (settled4 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))))

end Cert.ReferenceIdeal.RefRun

end
-- ==== Proof.RefEqs5.lean ====
/-
  Window 5 of the reference program read as equations. With W V the contents after the whole of @main from
  contents V, each operation of the window says that its result buffer holds its function of its operands'
  contents — all at the same final contents W V, because W V is a fixed point of every operation of @main. One
  statement per operation of the window, 78 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v252 (V : Valuation τ sig (Elt F)) : W V main_v252 = (broadcastInDim S65536x128 ![0, 1] bcast_S1x128_S65536x128_0_1 : (⟨S1x128, .f32⟩ : BufTy).Contents (Elt F) → (⟨S65536x128, .f32⟩ : BufTy).Contents (Elt F)) (W V main_v251) :=
  unary_fix (settled5 V _ (.head _))

theorem eq_main_v253 (V : Valuation τ sig (Elt F)) : W V main_v253 = (addf : (⟨S65536x128, .f32⟩ : BufTy).Contents (Elt F) → (⟨S65536x128, .f32⟩ : BufTy).Contents (Elt F) → (⟨S65536x128, .f32⟩ : BufTy).Contents (Elt F)) (W V main_v250) (W V main_v252) :=
  binary_fix (settled5 V _ (.tail _ (.head _)))

theorem eq_main_v254 (V : Valuation τ sig (Elt F)) : W V main_v254 = (Host.tanh : (⟨S65536x128, .f32⟩ : BufTy).Contents (Elt F) → (⟨S65536x128, .f32⟩ : BufTy).Contents (Elt F)) (W V main_v253) :=
  unary_fix (settled5 V _ (.tail _ (.tail _ (.head _))))

theorem eq_main_v255 (V : Valuation τ sig (Elt F)) : W V main_v255 = (broadcastInDim S65536x128 ![0, 1] bcast_S65536x1_S65536x128_0_1 : (⟨S65536x1, .f32⟩ : BufTy).Contents (Elt F) → (⟨S65536x128, .f32⟩ : BufTy).Contents (Elt F)) (W V main_v243) :=
  unary_fix (settled5 V _ (.tail _ (.tail _ (.tail _ (.head _)))))

theorem eq_main_v256 (V : Valuation τ sig (Elt F)) : W V main_v256 = (mulf : (⟨S65536x128, .f32⟩ : BufTy).Contents (Elt F) → (⟨S65536x128, .f32⟩ : BufTy).Contents (Elt F) → (⟨S65536x128, .f32⟩ : BufTy).Contents (Elt F)) (W V main_v255) (W V main_v254) :=
  binary_fix (settled5 V _ (.tail _ (.tail _ (.tail _ (.tail _ (.head _))))))

theorem eq_main_v257 (V : Valuation τ sig (Elt F)) : W V main_v257 = (Host.tanh : (⟨S65536x128, .f32⟩ : BufTy).Contents (Elt F) → (⟨S65536x128, .f32⟩ : BufTy).Contents (Elt F)) (W V main_v256) :=
  unary_fix (settled5 V _ (.tail _ (.tail _ (.tail _ (.tail _ (.tail _ (.head _)))))))

theorem eq_main_v258 (V : Valuation τ sig (Elt F)) : W V main_v258 = (addf : (⟨S65536x128, .f32⟩ : BufTy).Contents (Elt F) → (⟨S65536x128, .f32⟩ : BufTy).Contents (Elt F) → (⟨S65536x128, .f32⟩ : BufTy).Contents (Elt F)) (W V main_v242) (W V main_v257) :=
  binary_fix (settled5 V _ (.tail _ (.tail _ (.tail _ (.tail _ (.tail _ (.tail _ (.head _))))))))

theorem eq_main_v259 (V : Valuation τ sig (Elt F)) : W V main_v259 = ((extractStridedSlice S65536x1 ![0, 2] · slices_S65536x6_S65536x1_0_2) : (⟨S65536x6, .f32⟩ : BufTy).Contents (Elt F) → (⟨S65536x1, .f32⟩ : BufTy).Contents (Elt F)) (W V main_v227) :=
  unary_fix (settled5 V _ (.tail _ (.tail _ (.tail _ (.tail _ (.tail _ (.tail _ (.tail _ (.head _)))))))))

theorem eq_main_v260 (V : Valuation τ sig (Elt F)) : W V main_v260 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v138) (W V main_v134) :=
  binary_fix (settled5 V _ (.tail _ (.tail _ (.tail _ (.tail _ (.tail _ (.tail _ (.tail _ (.tail _ (.head _))))))))))

theorem eq_main_v261 (V : Valuation τ sig (Elt F)) : W V main_v261 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v260) (W V main_arg9) :=
  binary_fix (settled5 V _ (.tail _ (.tail _ (.tail _ (.tail _ (.tail _ (.tail _ (.tail _ (.tail _ (.tail _ (.head _)))))))))))

theorem eq_main_v262 (V : Valuation τ sig (Elt F)) : W V main_v262 = (broadcastInDim S1x64 ![1] bcast_S64_S1x64_1 : (⟨S64, .f32⟩ : BufTy).Contents (Elt F) → (⟨S1x64, .f32⟩ : BufTy).Contents (Elt F)) (W V main_arg10) :=
  unary_fix (settled5 V _ (.tail _ (.tail _ (.tail _ (.tail _ (.tail _ (.tail _ (.tail _ (.tail _ (.tail _ (.tail _ (.head _))))))))))))

theorem eq_main_v263 (V : Valuation τ sig (Elt F)) : W V main_v263 = (broadcastInDim S65536x64 ![0, 1] bcast_S1x64_S65536x64_0_1 : (⟨S1x64, .f32⟩ : BufTy).Contents (Elt F) → (⟨S65536x64, .f32⟩ : BufTy).Contents (Elt F)) (W V main_v262) :=
  unary_fix (settled5 V _ (.tail _ (.tail _ (.tail _ (.tail _ (.tail _ (.tail _ (.tail _ (.tail _ (.tail _ (.tail _ (.tail _ (.head _)))))))))))))

theorem eq_main_v264 (V : Valuation τ sig (Elt F)) : W V main_v264 = (addf : (⟨S65536x64, .f32⟩ : BufTy).Contents (Elt F) → (⟨S65536x64, .f32⟩ : BufTy).Contents (Elt F) → (⟨S65536x64, .f32⟩ : BufTy).Contents (Elt F)) (W V main_v261) (W V main_v263) :=
  binary_fix (settled5 V _ (.tail _ (.tail _ (.tail _ (.tail _ (.tail _ (.tail _ (.tail _ (.tail _ (.tail _ (.tail _ (.tail _ (.tail _ (.head _))))))))))))))

theorem eq_main_cst_47 (V : Valuation τ sig (Elt F)) : W V main_cst_47 = (constant S_ .f32 0x3E4CCCCD#32) :=
  nullary_fix (settled5 V _ (.tail _ (.tail _ (.tail _ (.tail _ (.tail _ (.tail _ (.tail _ (.tail _ (.tail _ (.tail _ (.tail _ (.tail _ (.tail _ (.head _)))))))))))))))

theorem eq_main_call5_cst (V : Valuation τ sig (Elt F)) : W V main_call5_cst = (constant S_ .f32 0x00000000#32) :=
  nullary_fix (settled5 V _ (.tail _ (.tail _ (.tail _ (.tail _ (.tail _ (.tail _ (.tail _ (.tail _ (.tail _ (.tail _ (.tail _ (.tail _ (.tail _ (.tail _ (.head _))))))))))))))))

theorem eq_main_call5_v0 (V : Valuation τ sig (Elt F)) : W V main_call5_v0 = (broadcastInDim S65536x64 ![] bcast_S_S65536x64) (W V main_call5_cst) :=
  unary_fix (settled5 V _ (.tail _ (.tail _ (.tail _ (.tail _ (.tail _ (.tail _ (.tail _ (.tail _ (.tail _ (.tail _ (.tail _ (.tail _ (.tail _ (.tail _ (.tail _ (.head _)))))))))))))))))

theorem eq_main_call5_v1 (V : Valuation τ sig (Elt F)) : W V main_call5_v1 = (cmpf .oge) (W V main_v264) (W V main_call5_v0) :=
  binary_fix (settled5 V _ (.tail _ (.tail _ (.tail _ (.tail _ (.tail _ (.tail _ (.tail _ (.tail _ (.tail _ (.tail _ (.tail _ (.tail _ (.tail _ (.tail _ (.tail _ (.tail _ (.head _))))))))))))))))))

theorem eq_main_call5_v2 (V : Valuation τ sig (Elt F)) : W V main_call5_v2 = id (W V main_cst_47) :=
  unary_fix (settled5 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_call5_v3 (V : Valuation τ sig (Elt F)) : W V main_call5_v3 = (broadcastInDim S65536x64 ![] bcast_S_S65536x64) (W V main_call5_v2) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_call5_v4 (V : Valuation τ sig (Elt F)) : W V main_call5_v4 = mulf (W V main_call5_v3) (W V main_v264) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_v265 (V : Valuation τ sig (Elt F)) : W V main_v265 = select (W V main_call5_v1) (W V main_v264) (W V main_call5_v4) :=
  ternary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_v266 (V : Valuation τ sig (Elt F)) : W V main_v266 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v265) (W V main_arg11) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_v267 (V : Valuation τ sig (Elt F)) : W V main_v267 = (broadcastInDim S1x128 ![1] bcast_S128_S1x128_1 : (⟨S128, .f32⟩ : BufTy).Contents (Elt F) → (⟨S1x128, .f32⟩ : BufTy).Contents (Elt F)) (W V main_arg12) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_v268 (V : Valuation τ sig (Elt F)) : W V main_v268 = (broadcastInDim S65536x128 ![0, 1] bcast_S1x128_S65536x128_0_1 : (⟨S1x128, .f32⟩ : BufTy).Contents (Elt F) → (⟨S65536x128, .f32⟩ : BufTy).Contents (Elt F)) (W V main_v267) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v269 (V : Valuation τ sig (Elt F)) : W V main_v269 = (addf : (⟨S65536x128, .f32⟩ : BufTy).Contents (Elt F) → (⟨S65536x128, .f32⟩ : BufTy).Contents (Elt F) → (⟨S65536x128, .f32⟩ : BufTy).Contents (Elt F)) (W V main_v266) (W V main_v268) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v270 (V : Valuation τ sig (Elt F)) : W V main_v270 = (Host.tanh : (⟨S65536x128, .f32⟩ : BufTy).Contents (Elt F) → (⟨S65536x128, .f32⟩ : BufTy).Contents (Elt F)) (W V main_v269) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v271 (V : Valuation τ sig (Elt F)) : W V main_v271 = (broadcastInDim S65536x128 ![0, 1] bcast_S65536x1_S65536x128_0_1 : (⟨S65536x1, .f32⟩ : BufTy).Contents (Elt F) → (⟨S65536x128, .f32⟩ : BufTy).Contents (Elt F)) (W V main_v259) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_v272 (V : Valuation τ sig (Elt F)) : W V main_v272 = (mulf : (⟨S65536x128, .f32⟩ : BufTy).Contents (Elt F) → (⟨S65536x128, .f32⟩ : BufTy).Contents (Elt F) → (⟨S65536x128, .f32⟩ : BufTy).Contents (Elt F)) (W V main_v271) (W V main_v270) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_v273 (V : Valuation τ sig (Elt F)) : W V main_v273 = (Host.tanh : (⟨S65536x128, .f32⟩ : BufTy).Contents (Elt F) → (⟨S65536x128, .f32⟩ : BufTy).Contents (Elt F)) (W V main_v272) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_v274 (V : Valuation τ sig (Elt F)) : W V main_v274 = (addf : (⟨S65536x128, .f32⟩ : BufTy).Contents (Elt F) → (⟨S65536x128, .f32⟩ : BufTy).Contents (Elt F) → (⟨S65536x128, .f32⟩ : BufTy).Contents (Elt F)) (W V main_v258) (W V main_v273) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_v275 (V : Valuation τ sig (Elt F)) : W V main_v275 = ((extractStridedSlice S65536x1 ![0, 3] · slices_S65536x6_S65536x1_0_3) : (⟨S65536x6, .f32⟩ : BufTy).Contents (Elt F) → (⟨S65536x1, .f32⟩ : BufTy).Contents (Elt F)) (W V main_v227) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_v276 (V : Valuation τ sig (Elt F)) : W V main_v276 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v130) (W V main_v60) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_v277 (V : Valuation τ sig (Elt F)) : W V main_v277 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v276) (W V main_arg9) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_v278 (V : Valuation τ sig (Elt F)) : W V main_v278 = (broadcastInDim S1x64 ![1] bcast_S64_S1x64_1 : (⟨S64, .f32⟩ : BufTy).Contents (Elt F) → (⟨S1x64, .f32⟩ : BufTy).Contents (Elt F)) (W V main_arg10) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_v279 (V : Valuation τ sig (Elt F)) : W V main_v279 = (broadcastInDim S65536x64 ![0, 1] bcast_S1x64_S65536x64_0_1 : (⟨S1x64, .f32⟩ : BufTy).Contents (Elt F) → (⟨S65536x64, .f32⟩ : BufTy).Contents (Elt F)) (W V main_v278) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_v280 (V : Valuation τ sig (Elt F)) : W V main_v280 = (addf : (⟨S65536x64, .f32⟩ : BufTy).Contents (Elt F) → (⟨S65536x64, .f32⟩ : BufTy).Contents (Elt F) → (⟨S65536x64, .f32⟩ : BufTy).Contents (Elt F)) (W V main_v277) (W V main_v279) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_cst_48 (V : Valuation τ sig (Elt F)) : W V main_cst_48 = (constant S_ .f32 0x3E4CCCCD#32) :=
  nullary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

theorem eq_main_call6_cst (V : Valuation τ sig (Elt F)) : W V main_call6_cst = (constant S_ .f32 0x00000000#32) :=
  nullary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))

theorem eq_main_call6_v0 (V : Valuation τ sig (Elt F)) : W V main_call6_v0 = (broadcastInDim S65536x64 ![] bcast_S_S65536x64) (W V main_call6_cst) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

theorem eq_main_call6_v1 (V : Valuation τ sig (Elt F)) : W V main_call6_v1 = (cmpf .oge) (W V main_v280) (W V main_call6_v0) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

theorem eq_main_call6_v2 (V : Valuation τ sig (Elt F)) : W V main_call6_v2 = id (W V main_cst_48) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))

theorem eq_main_call6_v3 (V : Valuation τ sig (Elt F)) : W V main_call6_v3 = (broadcastInDim S65536x64 ![] bcast_S_S65536x64) (W V main_call6_v2) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))

theorem eq_main_call6_v4 (V : Valuation τ sig (Elt F)) : W V main_call6_v4 = mulf (W V main_call6_v3) (W V main_v280) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))

theorem eq_main_v281 (V : Valuation τ sig (Elt F)) : W V main_v281 = select (W V main_call6_v1) (W V main_v280) (W V main_call6_v4) :=
  ternary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))

theorem eq_main_v282 (V : Valuation τ sig (Elt F)) : W V main_v282 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v281) (W V main_arg11) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))

theorem eq_main_v283 (V : Valuation τ sig (Elt F)) : W V main_v283 = (broadcastInDim S1x128 ![1] bcast_S128_S1x128_1 : (⟨S128, .f32⟩ : BufTy).Contents (Elt F) → (⟨S1x128, .f32⟩ : BufTy).Contents (Elt F)) (W V main_arg12) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))

theorem eq_main_v284 (V : Valuation τ sig (Elt F)) : W V main_v284 = (broadcastInDim S65536x128 ![0, 1] bcast_S1x128_S65536x128_0_1 : (⟨S1x128, .f32⟩ : BufTy).Contents (Elt F) → (⟨S65536x128, .f32⟩ : BufTy).Contents (Elt F)) (W V main_v283) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))

theorem eq_main_v285 (V : Valuation τ sig (Elt F)) : W V main_v285 = (addf : (⟨S65536x128, .f32⟩ : BufTy).Contents (Elt F) → (⟨S65536x128, .f32⟩ : BufTy).Contents (Elt F) → (⟨S65536x128, .f32⟩ : BufTy).Contents (Elt F)) (W V main_v282) (W V main_v284) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))

theorem eq_main_v286 (V : Valuation τ sig (Elt F)) : W V main_v286 = (Host.tanh : (⟨S65536x128, .f32⟩ : BufTy).Contents (Elt F) → (⟨S65536x128, .f32⟩ : BufTy).Contents (Elt F)) (W V main_v285) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))

theorem eq_main_v287 (V : Valuation τ sig (Elt F)) : W V main_v287 = (broadcastInDim S65536x128 ![0, 1] bcast_S65536x1_S65536x128_0_1 : (⟨S65536x1, .f32⟩ : BufTy).Contents (Elt F) → (⟨S65536x128, .f32⟩ : BufTy).Contents (Elt F)) (W V main_v275) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))

theorem eq_main_v288 (V : Valuation τ sig (Elt F)) : W V main_v288 = (mulf : (⟨S65536x128, .f32⟩ : BufTy).Contents (Elt F) → (⟨S65536x128, .f32⟩ : BufTy).Contents (Elt F) → (⟨S65536x128, .f32⟩ : BufTy).Contents (Elt F)) (W V main_v287) (W V main_v286) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))

theorem eq_main_v289 (V : Valuation τ sig (Elt F)) : W V main_v289 = (Host.tanh : (⟨S65536x128, .f32⟩ : BufTy).Contents (Elt F) → (⟨S65536x128, .f32⟩ : BufTy).Contents (Elt F)) (W V main_v288) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))

theorem eq_main_v290 (V : Valuation τ sig (Elt F)) : W V main_v290 = (addf : (⟨S65536x128, .f32⟩ : BufTy).Contents (Elt F) → (⟨S65536x128, .f32⟩ : BufTy).Contents (Elt F) → (⟨S65536x128, .f32⟩ : BufTy).Contents (Elt F)) (W V main_v274) (W V main_v289) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))

theorem eq_main_v291 (V : Valuation τ sig (Elt F)) : W V main_v291 = ((extractStridedSlice S65536x1 ![0, 4] · slices_S65536x6_S65536x1_0_4) : (⟨S65536x6, .f32⟩ : BufTy).Contents (Elt F) → (⟨S65536x1, .f32⟩ : BufTy).Contents (Elt F)) (W V main_v227) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))

theorem eq_main_v292 (V : Valuation τ sig (Elt F)) : W V main_v292 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v134) (W V main_v49) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))

theorem eq_main_v293 (V : Valuation τ sig (Elt F)) : W V main_v293 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v292) (W V main_arg9) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))

theorem eq_main_v294 (V : Valuation τ sig (Elt F)) : W V main_v294 = (broadcastInDim S1x64 ![1] bcast_S64_S1x64_1 : (⟨S64, .f32⟩ : BufTy).Contents (Elt F) → (⟨S1x64, .f32⟩ : BufTy).Contents (Elt F)) (W V main_arg10) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))

theorem eq_main_v295 (V : Valuation τ sig (Elt F)) : W V main_v295 = (broadcastInDim S65536x64 ![0, 1] bcast_S1x64_S65536x64_0_1 : (⟨S1x64, .f32⟩ : BufTy).Contents (Elt F) → (⟨S65536x64, .f32⟩ : BufTy).Contents (Elt F)) (W V main_v294) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))

theorem eq_main_v296 (V : Valuation τ sig (Elt F)) : W V main_v296 = (addf : (⟨S65536x64, .f32⟩ : BufTy).Contents (Elt F) → (⟨S65536x64, .f32⟩ : BufTy).Contents (Elt F) → (⟨S65536x64, .f32⟩ : BufTy).Contents (Elt F)) (W V main_v293) (W V main_v295) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))

theorem eq_main_cst_49 (V : Valuation τ sig (Elt F)) : W V main_cst_49 = (constant S_ .f32 0x3E4CCCCD#32) :=
  nullary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))

theorem eq_main_call7_cst (V : Valuation τ sig (Elt F)) : W V main_call7_cst = (constant S_ .f32 0x00000000#32) :=
  nullary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))

theorem eq_main_call7_v0 (V : Valuation τ sig (Elt F)) : W V main_call7_v0 = (broadcastInDim S65536x64 ![] bcast_S_S65536x64) (W V main_call7_cst) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))

theorem eq_main_call7_v1 (V : Valuation τ sig (Elt F)) : W V main_call7_v1 = (cmpf .oge) (W V main_v296) (W V main_call7_v0) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))

theorem eq_main_call7_v2 (V : Valuation τ sig (Elt F)) : W V main_call7_v2 = id (W V main_cst_49) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))

theorem eq_main_call7_v3 (V : Valuation τ sig (Elt F)) : W V main_call7_v3 = (broadcastInDim S65536x64 ![] bcast_S_S65536x64) (W V main_call7_v2) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))

theorem eq_main_call7_v4 (V : Valuation τ sig (Elt F)) : W V main_call7_v4 = mulf (W V main_call7_v3) (W V main_v296) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))

theorem eq_main_v297 (V : Valuation τ sig (Elt F)) : W V main_v297 = select (W V main_call7_v1) (W V main_v296) (W V main_call7_v4) :=
  ternary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))

theorem eq_main_v298 (V : Valuation τ sig (Elt F)) : W V main_v298 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v297) (W V main_arg11) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))

theorem eq_main_v299 (V : Valuation τ sig (Elt F)) : W V main_v299 = (broadcastInDim S1x128 ![1] bcast_S128_S1x128_1 : (⟨S128, .f32⟩ : BufTy).Contents (Elt F) → (⟨S1x128, .f32⟩ : BufTy).Contents (Elt F)) (W V main_arg12) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))

theorem eq_main_v300 (V : Valuation τ sig (Elt F)) : W V main_v300 = (broadcastInDim S65536x128 ![0, 1] bcast_S1x128_S65536x128_0_1 : (⟨S1x128, .f32⟩ : BufTy).Contents (Elt F) → (⟨S65536x128, .f32⟩ : BufTy).Contents (Elt F)) (W V main_v299) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))

theorem eq_main_v301 (V : Valuation τ sig (Elt F)) : W V main_v301 = (addf : (⟨S65536x128, .f32⟩ : BufTy).Contents (Elt F) → (⟨S65536x128, .f32⟩ : BufTy).Contents (Elt F) → (⟨S65536x128, .f32⟩ : BufTy).Contents (Elt F)) (W V main_v298) (W V main_v300) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))

theorem eq_main_v302 (V : Valuation τ sig (Elt F)) : W V main_v302 = (Host.tanh : (⟨S65536x128, .f32⟩ : BufTy).Contents (Elt F) → (⟨S65536x128, .f32⟩ : BufTy).Contents (Elt F)) (W V main_v301) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))))

theorem eq_main_v303 (V : Valuation τ sig (Elt F)) : W V main_v303 = (broadcastInDim S65536x128 ![0, 1] bcast_S65536x1_S65536x128_0_1 : (⟨S65536x1, .f32⟩ : BufTy).Contents (Elt F) → (⟨S65536x128, .f32⟩ : BufTy).Contents (Elt F)) (W V main_v291) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))))

theorem eq_main_v304 (V : Valuation τ sig (Elt F)) : W V main_v304 = (mulf : (⟨S65536x128, .f32⟩ : BufTy).Contents (Elt F) → (⟨S65536x128, .f32⟩ : BufTy).Contents (Elt F) → (⟨S65536x128, .f32⟩ : BufTy).Contents (Elt F)) (W V main_v303) (W V main_v302) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))))))

theorem eq_main_v305 (V : Valuation τ sig (Elt F)) : W V main_v305 = (Host.tanh : (⟨S65536x128, .f32⟩ : BufTy).Contents (Elt F) → (⟨S65536x128, .f32⟩ : BufTy).Contents (Elt F)) (W V main_v304) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))))))

theorem eq_main_v306 (V : Valuation τ sig (Elt F)) : W V main_v306 = (addf : (⟨S65536x128, .f32⟩ : BufTy).Contents (Elt F) → (⟨S65536x128, .f32⟩ : BufTy).Contents (Elt F) → (⟨S65536x128, .f32⟩ : BufTy).Contents (Elt F)) (W V main_v290) (W V main_v305) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))))))))

theorem eq_main_v307 (V : Valuation τ sig (Elt F)) : W V main_v307 = ((extractStridedSlice S65536x1 ![0, 5] · slices_S65536x6_S65536x1_0_5) : (⟨S65536x6, .f32⟩ : BufTy).Contents (Elt F) → (⟨S65536x1, .f32⟩ : BufTy).Contents (Elt F)) (W V main_v227) :=
  unary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))))))))))))))))))))))))))))

theorem eq_main_v308 (V : Valuation τ sig (Elt F)) : W V main_v308 = ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) (W V main_v138) (W V main_v38) :=
  binary_fix (settled5 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))))))))))))))))))))))))))))

end Cert.ReferenceIdeal.RefRun

end
-- ==== Proof.RefEqs6.lean ====
/-
  Window 6 of the reference program read as equations. With W V the contents after the whole of @main from
  contents V, each operation of the window says that its result buffer holds its function of its operands'
  contents — all at the same final contents W V, because W V is a fixed point of every operation of @main. One
  statement per operation of the window, 37 in all, in the window's order; a call's buffers are named by the
  references the call's record gives them.
-/
import proofs.«113614_j77704548319488_1_alg».proof.Proof.RefEqW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v309 (V : Valuation τ sig (Elt F)) : W V main_v309 = ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)) (W V main_v308) (W V main_arg9) :=
  binary_fix (settled6 V _ (.head _))

theorem eq_main_v310 (V : Valuation τ sig (Elt F)) : W V main_v310 = (broadcastInDim S1x64 ![1] bcast_S64_S1x64_1 : (⟨S64, .f32⟩ : BufTy).Contents (Elt F) → (⟨S1x64, .f32⟩ : BufTy).Contents (Elt F)) (W V main_arg10) :=
  unary_fix (settled6 V _ (.tail _ (.head _)))

theorem eq_main_v311 (V : Valuation τ sig (Elt F)) : W V main_v311 = (broadcastInDim S65536x64 ![0, 1] bcast_S1x64_S65536x64_0_1 : (⟨S1x64, .f32⟩ : BufTy).Contents (Elt F) → (⟨S65536x64, .f32⟩ : BufTy).Contents (Elt F)) (W V main_v310) :=
  unary_fix (settled6 V _ (.tail _ (.tail _ (.head _))))

theorem eq_main_v312 (V : Valuation τ sig (Elt F)) : W V main_v312 = (addf : (⟨S65536x64, .f32⟩ : BufTy).Contents (Elt F) → (⟨S65536x64, .f32⟩ : BufTy).Contents (Elt F) → (⟨S65536x64, .f32⟩ : BufTy).Contents (Elt F)) (W V main_v309) (W V main_v311) :=
  binary_fix (settled6 V _ (.tail _ (.tail _ (.tail _ (.head _)))))

theorem eq_main_cst_50 (V : Valuation τ sig (Elt F)) : W V main_cst_50 = (constant S_ .f32 0x3E4CCCCD#32) :=
  nullary_fix (settled6 V _ (.tail _ (.tail _ (.tail _ (.tail _ (.head _))))))

theorem eq_main_call8_cst (V : Valuation τ sig (Elt F)) : W V main_call8_cst = (constant S_ .f32 0x00000000#32) :=
  nullary_fix (settled6 V _ (.tail _ (.tail _ (.tail _ (.tail _ (.tail _ (.head _)))))))

theorem eq_main_call8_v0 (V : Valuation τ sig (Elt F)) : W V main_call8_v0 = (broadcastInDim S65536x64 ![] bcast_S_S65536x64) (W V main_call8_cst) :=
  unary_fix (settled6 V _ (.tail _ (.tail _ (.tail _ (.tail _ (.tail _ (.tail _ (.head _))))))))

theorem eq_main_call8_v1 (V : Valuation τ sig (Elt F)) : W V main_call8_v1 = (cmpf .oge) (W V main_v312) (W V main_call8_v0) :=
  binary_fix (settled6 V _ (.tail _ (.tail _ (.tail _ (.tail _ (.tail _ (.tail _ (.tail _ (.head _)))))))))

theorem eq_main_call8_v2 (V : Valuation τ sig (Elt F)) : W V main_call8_v2 = id (W V main_cst_50) :=
  unary_fix (settled6 V _ (.tail _ (.tail _ (.tail _ (.tail _ (.tail _ (.tail _ (.tail _ (.tail _ (.head _))))))))))

theorem eq_main_call8_v3 (V : Valuation τ sig (Elt F)) : W V main_call8_v3 = (broadcastInDim S65536x64 ![] bcast_S_S65536x64) (W V main_call8_v2) :=
  unary_fix (settled6 V _ (.tail _ (.tail _ (.tail _ (.tail _ (.tail _ (.tail _ (.tail _ (.tail _ (.tail _ (.head _)))))))))))

theorem eq_main_call8_v4 (V : Valuation τ sig (Elt F)) : W V main_call8_v4 = mulf (W V main_call8_v3) (W V main_v312) :=
  binary_fix (settled6 V _ (.tail _ (.tail _ (.tail _ (.tail _ (.tail _ (.tail _ (.tail _ (.tail _ (.tail _ (.tail _ (.head _))))))))))))

theorem eq_main_v313 (V : Valuation τ sig (Elt F)) : W V main_v313 = select (W V main_call8_v1) (W V main_v312) (W V main_call8_v4) :=
  ternary_fix (settled6 V _ (.tail _ (.tail _ (.tail _ (.tail _ (.tail _ (.tail _ (.tail _ (.tail _ (.tail _ (.tail _ (.tail _ (.head _)))))))))))))

theorem eq_main_v314 (V : Valuation τ sig (Elt F)) : W V main_v314 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v313) (W V main_arg11) :=
  binary_fix (settled6 V _ (.tail _ (.tail _ (.tail _ (.tail _ (.tail _ (.tail _ (.tail _ (.tail _ (.tail _ (.tail _ (.tail _ (.tail _ (.head _))))))))))))))

theorem eq_main_v315 (V : Valuation τ sig (Elt F)) : W V main_v315 = (broadcastInDim S1x128 ![1] bcast_S128_S1x128_1 : (⟨S128, .f32⟩ : BufTy).Contents (Elt F) → (⟨S1x128, .f32⟩ : BufTy).Contents (Elt F)) (W V main_arg12) :=
  unary_fix (settled6 V _ (.tail _ (.tail _ (.tail _ (.tail _ (.tail _ (.tail _ (.tail _ (.tail _ (.tail _ (.tail _ (.tail _ (.tail _ (.tail _ (.head _)))))))))))))))

theorem eq_main_v316 (V : Valuation τ sig (Elt F)) : W V main_v316 = (broadcastInDim S65536x128 ![0, 1] bcast_S1x128_S65536x128_0_1 : (⟨S1x128, .f32⟩ : BufTy).Contents (Elt F) → (⟨S65536x128, .f32⟩ : BufTy).Contents (Elt F)) (W V main_v315) :=
  unary_fix (settled6 V _ (.tail _ (.tail _ (.tail _ (.tail _ (.tail _ (.tail _ (.tail _ (.tail _ (.tail _ (.tail _ (.tail _ (.tail _ (.tail _ (.tail _ (.head _))))))))))))))))

theorem eq_main_v317 (V : Valuation τ sig (Elt F)) : W V main_v317 = (addf : (⟨S65536x128, .f32⟩ : BufTy).Contents (Elt F) → (⟨S65536x128, .f32⟩ : BufTy).Contents (Elt F) → (⟨S65536x128, .f32⟩ : BufTy).Contents (Elt F)) (W V main_v314) (W V main_v316) :=
  binary_fix (settled6 V _ (.tail _ (.tail _ (.tail _ (.tail _ (.tail _ (.tail _ (.tail _ (.tail _ (.tail _ (.tail _ (.tail _ (.tail _ (.tail _ (.tail _ (.tail _ (.head _)))))))))))))))))

theorem eq_main_v318 (V : Valuation τ sig (Elt F)) : W V main_v318 = (Host.tanh : (⟨S65536x128, .f32⟩ : BufTy).Contents (Elt F) → (⟨S65536x128, .f32⟩ : BufTy).Contents (Elt F)) (W V main_v317) :=
  unary_fix (settled6 V _ (.tail _ (.tail _ (.tail _ (.tail _ (.tail _ (.tail _ (.tail _ (.tail _ (.tail _ (.tail _ (.tail _ (.tail _ (.tail _ (.tail _ (.tail _ (.tail _ (.head _))))))))))))))))))

theorem eq_main_v319 (V : Valuation τ sig (Elt F)) : W V main_v319 = (broadcastInDim S65536x128 ![0, 1] bcast_S65536x1_S65536x128_0_1 : (⟨S65536x1, .f32⟩ : BufTy).Contents (Elt F) → (⟨S65536x128, .f32⟩ : BufTy).Contents (Elt F)) (W V main_v307) :=
  unary_fix (settled6 V _ (.tail _ (.tail _ (.tail _ (.tail _ (.tail _ (.tail _ (.tail _ (.tail _ (.tail _ (.tail _ (.tail _ (.tail _ (.tail _ (.tail _ (.tail _ (.tail _ (.tail _ (.head _)))))))))))))))))))

theorem eq_main_v320 (V : Valuation τ sig (Elt F)) : W V main_v320 = (mulf : (⟨S65536x128, .f32⟩ : BufTy).Contents (Elt F) → (⟨S65536x128, .f32⟩ : BufTy).Contents (Elt F) → (⟨S65536x128, .f32⟩ : BufTy).Contents (Elt F)) (W V main_v319) (W V main_v318) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.head _))))))))))))))))))))

theorem eq_main_v321 (V : Valuation τ sig (Elt F)) : W V main_v321 = (Host.tanh : (⟨S65536x128, .f32⟩ : BufTy).Contents (Elt F) → (⟨S65536x128, .f32⟩ : BufTy).Contents (Elt F)) (W V main_v320) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))

theorem eq_main_v322 (V : Valuation τ sig (Elt F)) : W V main_v322 = (addf : (⟨S65536x128, .f32⟩ : BufTy).Contents (Elt F) → (⟨S65536x128, .f32⟩ : BufTy).Contents (Elt F) → (⟨S65536x128, .f32⟩ : BufTy).Contents (Elt F)) (W V main_v306) (W V main_v321) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))

theorem eq_main_v323 (V : Valuation τ sig (Elt F)) : W V main_v323 = (fun u => concatenate S65536x384 1 [⟨S65536x128, u 0⟩, ⟨S65536x128, u 1⟩, ⟨S65536x128, u 2⟩] concatenates_S65536x128_S65536x128_S65536x128_S65536x384_d1) (fun i => W V (![main_v24, main_v140, main_v322] i)) :=
  nary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))

theorem eq_main_v324 (V : Valuation τ sig (Elt F)) : W V main_v324 = ((fun l r => Host.dotGeneral dot_S65536x384_S384x64_S65536x64_1_0_0_1_n_n none l r) : (⟨S65536x384, .f32⟩ : BufTy).Contents (Elt F) → (⟨S384x64, .f32⟩ : BufTy).Contents (Elt F) → (⟨S65536x64, .f32⟩ : BufTy).Contents (Elt F)) (W V main_v323) (W V main_arg13) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))

theorem eq_main_v325 (V : Valuation τ sig (Elt F)) : W V main_v325 = (broadcastInDim S1x64 ![1] bcast_S64_S1x64_1 : (⟨S64, .f32⟩ : BufTy).Contents (Elt F) → (⟨S1x64, .f32⟩ : BufTy).Contents (Elt F)) (W V main_arg14) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

theorem eq_main_v326 (V : Valuation τ sig (Elt F)) : W V main_v326 = (broadcastInDim S65536x64 ![0, 1] bcast_S1x64_S65536x64_0_1 : (⟨S1x64, .f32⟩ : BufTy).Contents (Elt F) → (⟨S65536x64, .f32⟩ : BufTy).Contents (Elt F)) (W V main_v325) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))

theorem eq_main_v327 (V : Valuation τ sig (Elt F)) : W V main_v327 = (addf : (⟨S65536x64, .f32⟩ : BufTy).Contents (Elt F) → (⟨S65536x64, .f32⟩ : BufTy).Contents (Elt F) → (⟨S65536x64, .f32⟩ : BufTy).Contents (Elt F)) (W V main_v324) (W V main_v326) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))

theorem eq_main_v328 (V : Valuation τ sig (Elt F)) : W V main_v328 = (Host.tanh : (⟨S65536x64, .f32⟩ : BufTy).Contents (Elt F) → (⟨S65536x64, .f32⟩ : BufTy).Contents (Elt F)) (W V main_v327) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))

theorem eq_main_v329 (V : Valuation τ sig (Elt F)) : W V main_v329 = ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) (W V main_v328) (W V main_arg15) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))

theorem eq_main_v330 (V : Valuation τ sig (Elt F)) : W V main_v330 = (broadcastInDim S1x64 ![1] bcast_S64_S1x64_1 : (⟨S64, .f32⟩ : BufTy).Contents (Elt F) → (⟨S1x64, .f32⟩ : BufTy).Contents (Elt F)) (W V main_arg16) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))

theorem eq_main_v331 (V : Valuation τ sig (Elt F)) : W V main_v331 = (broadcastInDim S65536x64 ![0, 1] bcast_S1x64_S65536x64_0_1 : (⟨S1x64, .f32⟩ : BufTy).Contents (Elt F) → (⟨S65536x64, .f32⟩ : BufTy).Contents (Elt F)) (W V main_v330) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))

theorem eq_main_v332 (V : Valuation τ sig (Elt F)) : W V main_v332 = (addf : (⟨S65536x64, .f32⟩ : BufTy).Contents (Elt F) → (⟨S65536x64, .f32⟩ : BufTy).Contents (Elt F) → (⟨S65536x64, .f32⟩ : BufTy).Contents (Elt F)) (W V main_v329) (W V main_v331) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))

theorem eq_main_v333 (V : Valuation τ sig (Elt F)) : W V main_v333 = (Host.tanh : (⟨S65536x64, .f32⟩ : BufTy).Contents (Elt F) → (⟨S65536x64, .f32⟩ : BufTy).Contents (Elt F)) (W V main_v332) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))

theorem eq_main_v334 (V : Valuation τ sig (Elt F)) : W V main_v334 = ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) (W V main_v333) (W V main_arg17) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))

theorem eq_main_v335 (V : Valuation τ sig (Elt F)) : W V main_v335 = (broadcastInDim S1x128 ![1] bcast_S128_S1x128_1 : (⟨S128, .f32⟩ : BufTy).Contents (Elt F) → (⟨S1x128, .f32⟩ : BufTy).Contents (Elt F)) (W V main_arg18) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

theorem eq_main_v336 (V : Valuation τ sig (Elt F)) : W V main_v336 = (broadcastInDim S65536x128 ![0, 1] bcast_S1x128_S65536x128_0_1 : (⟨S1x128, .f32⟩ : BufTy).Contents (Elt F) → (⟨S65536x128, .f32⟩ : BufTy).Contents (Elt F)) (W V main_v335) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

theorem eq_main_v337 (V : Valuation τ sig (Elt F)) : W V main_v337 = (addf : (⟨S65536x128, .f32⟩ : BufTy).Contents (Elt F) → (⟨S65536x128, .f32⟩ : BufTy).Contents (Elt F) → (⟨S65536x128, .f32⟩ : BufTy).Contents (Elt F)) (W V main_v334) (W V main_v336) :=
  binary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))

theorem eq_main_v338 (V : Valuation τ sig (Elt F)) : W V main_v338 = (Host.tanh : (⟨S65536x128, .f32⟩ : BufTy).Contents (Elt F) → (⟨S65536x128, .f32⟩ : BufTy).Contents (Elt F)) (W V main_v337) :=
  unary_fix (settled6 V _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))

end Cert.ReferenceIdeal.RefRun

end
-- ==== Proof.RefValueLib3.lean ====
/-
  One more array-level pattern: an affine map followed by the hyperbolic tangent, row by row — a matrix product, a bias
  vector stretched down the rows, the tangent — reads, at row `a` and entry `j`, the tangent of the row's dot product
  with column `j` plus the bias entry.
-/
import proofs.«113614_j77704548319488_1_alg».proof.Proof.RefValueLib2

noncomputable section

namespace Cert.ReferenceIdeal.RefValue

open Idealize.ShloMosaic Idealize.ShloMosaic.ValueIdx Cert.Lib.HostRows Cert.RowOps
open scoped BigOperators

theorem dense_tanh_rows {n0 K N : ℕ}
    (hv : (⟨1, ![N]⟩ : Shape).BroadcastsInDim ⟨2, ![1, N]⟩ (![1] : Fin 1 → Fin 2))
    (hb : (⟨2, ![1, N]⟩ : Shape).BroadcastsInDim ⟨2, ![n0, N]⟩ (![0, 1] : Fin 2 → Fin 2))
    (X : FVec Ideal ⟨2, ![n0, K]⟩ .f32) (Wm : FVec Ideal ⟨2, ![K, N]⟩ .f32) (B : FVec Ideal ⟨1, ![N]⟩ .f32)
    (a : Fin n0) (j : Fin N) :
    Host.tanh (addf (Host.dotGeneral (DotDims.plain n0 K N) none X Wm)
      (broadcastInDim ⟨2, ![n0, N]⟩ (![0, 1] : Fin 2 → Fin 2) hb (broadcastInDim ⟨2, ![1, N]⟩ (![1] : Fin 1 → Fin 2) hv B)))
      (ix2 a j) = Ideal.tanh ((∑ k : Fin K, X (ix2 a k) * Wm (ix2 k j)) + B (ix1 j)) := by
  rw [hostTanh_apply, addf_apply, bcast_row, bcast_vec_row, host_dot_plain]

end Cert.ReferenceIdeal.RefValue

end
-- ==== Proof.RefValue4.lean ====
/-
  The reference program's values, last stage, given the soft-max of the six further ratios (`hn`): the six weighted
  gated maps of the second kind (each through one call of the leaky rectifier), their sum left to right, the three
  128-vectors laid end to end, and the three final layers — the last of which is the program's result.
-/
import proofs.«113614_j77704548319488_1_alg».proof.Proof.RefValue3
import proofs.«113614_j77704548319488_1_alg».proof.Proof.RefEqs3
import proofs.«113614_j77704548319488_1_alg».proof.Proof.RefEqs4
import proofs.«113614_j77704548319488_1_alg».proof.Proof.RefEqs5
import proofs.«113614_j77704548319488_1_alg».proof.Proof.RefEqs6
import proofs.«113614_j77704548319488_1_alg».proof.Proof.RefValueLib3

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Lib.HostRows Cert.RowOps
open scoped BigOperators

variable (V : Valuation τ sig (Elt Ideal))

/-- The weighted gated map number 0. -/
theorem v242_val (hn : ∀ (r : Fin 65536) (c : Fin 6), W V main_v227 (ix2 r c) = Spec.nrm2 (RefBack.Wt V) (RefBack.J V r) c)
    (r : Fin 65536) (q : Fin 128) :
    W V main_v242 (ix2 r q) = Spec.tri1 (RefBack.Wt V) (RefBack.J V r) 0 (Spec.av (RefBack.Wt V) (RefBack.J V r)) (Spec.vl (RefBack.Wt V) (RefBack.J V r)) q := by
  have hg : W V main_v239 (ix2 r q)
      = Spec.gate (Wt V).hW1 (Wt V).hB1 (Wt V).hW2 (Wt V).hB2 (Spec.av (Wt V) (J V r)) (Spec.vl (Wt V) (J V r)) q := by
    rw [eq_main_v239, eq_main_v238, eq_main_v237, eq_main_v236, eq_main_v235, eq_main_v234, eq_main_call3_v4, eq_main_call3_v3,
      eq_main_call3_v2, eq_main_cst_45, eq_main_call3_v1, eq_main_call3_v0, eq_main_call3_cst, eq_main_v233, eq_main_v232, eq_main_v231,
      eq_main_v230, eq_main_v229]
    refine (gate_rows _ _ _ _ _ _ (W V main_v130) (W V main_v138) (W V main_arg9) (W V main_arg10) (W V main_arg11)
      (W V main_arg12) r q).trans ?_
    simp only [v130_val V, v138_val V]
    rfl
  have hc : W V main_v228 (ix2 r 0) = Spec.nrm2 (Wt V) (J V r) 0 := by
    rw [eq_main_v228]
    exact (slice2_axis1_apply 0 _ _ r 0 (0 : Fin 6) rfl).trans (hn r 0)
  rw [eq_main_v242, eq_main_v241, eq_main_v240]
  rw [hostTanh_apply, mulf_apply, bcast_col, hc, hg]
  rfl

/-- The weighted gated map number 1. -/
theorem v257_val (hn : ∀ (r : Fin 65536) (c : Fin 6), W V main_v227 (ix2 r c) = Spec.nrm2 (RefBack.Wt V) (RefBack.J V r) c)
    (r : Fin 65536) (q : Fin 128) :
    W V main_v257 (ix2 r q) = Spec.tri1 (RefBack.Wt V) (RefBack.J V r) 1 (Spec.av (RefBack.Wt V) (RefBack.J V r)) (Spec.al (RefBack.Wt V) (RefBack.J V r)) q := by
  have hg : W V main_v254 (ix2 r q)
      = Spec.gate (Wt V).hW1 (Wt V).hB1 (Wt V).hW2 (Wt V).hB2 (Spec.av (Wt V) (J V r)) (Spec.al (Wt V) (J V r)) q := by
    rw [eq_main_v254, eq_main_v253, eq_main_v252, eq_main_v251, eq_main_v250, eq_main_v249, eq_main_call4_v4, eq_main_call4_v3,
      eq_main_call4_v2, eq_main_cst_46, eq_main_call4_v1, eq_main_call4_v0, eq_main_call4_cst, eq_main_v248, eq_main_v247, eq_main_v246,
      eq_main_v245, eq_main_v244]
    refine (gate_rows _ _ _ _ _ _ (W V main_v130) (W V main_v134) (W V main_arg9) (W V main_arg10) (W V main_arg11)
      (W V main_arg12) r q).trans ?_
    simp only [v130_val V, v134_val V]
    rfl
  have hc : W V main_v243 (ix2 r 0) = Spec.nrm2 (Wt V) (J V r) 1 := by
    rw [eq_main_v243]
    exact (slice2_axis1_apply 1 _ _ r 0 (1 : Fin 6) rfl).trans (hn r 1)
  rw [eq_main_v257, eq_main_v256, eq_main_v255]
  rw [hostTanh_apply, mulf_apply, bcast_col, hc, hg]
  rfl

/-- The weighted gated map number 2. -/
theorem v273_val (hn : ∀ (r : Fin 65536) (c : Fin 6), W V main_v227 (ix2 r c) = Spec.nrm2 (RefBack.Wt V) (RefBack.J V r) c)
    (r : Fin 65536) (q : Fin 128) :
    W V main_v273 (ix2 r q) = Spec.tri1 (RefBack.Wt V) (RefBack.J V r) 2 (Spec.vl (RefBack.Wt V) (RefBack.J V r)) (Spec.al (RefBack.Wt V) (RefBack.J V r)) q := by
  have hg : W V main_v270 (ix2 r q)
      = Spec.gate (Wt V).hW1 (Wt V).hB1 (Wt V).hW2 (Wt V).hB2 (Spec.vl (Wt V) (J V r)) (Spec.al (Wt V) (J V r)) q := by
    rw [eq_main_v270, eq_main_v269, eq_main_v268, eq_main_v267, eq_main_v266, eq_main_v265, eq_main_call5_v4, eq_main_call5_v3,
      eq_main_call5_v2, eq_main_cst_47, eq_main_call5_v1, eq_main_call5_v0, eq_main_call5_cst, eq_main_v264, eq_main_v263, eq_main_v262,
      eq_main_v261, eq_main_v260]
    refine (gate_rows _ _ _ _ _ _ (W V main_v138) (W V main_v134) (W V main_arg9) (W V main_arg10) (W V main_arg11)
      (W V main_arg12) r q).trans ?_
    simp only [v138_val V, v134_val V]
    rfl
  have hc : W V main_v259 (ix2 r 0) = Spec.nrm2 (Wt V) (J V r) 2 := by
    rw [eq_main_v259]
    exact (slice2_axis1_apply 2 _ _ r 0 (2 : Fin 6) rfl).trans (hn r 2)
  rw [eq_main_v273, eq_main_v272, eq_main_v271]
  rw [hostTanh_apply, mulf_apply, bcast_col, hc, hg]
  rfl

/-- The weighted gated map number 3. -/
theorem v289_val (hn : ∀ (r : Fin 65536) (c : Fin 6), W V main_v227 (ix2 r c) = Spec.nrm2 (RefBack.Wt V) (RefBack.J V r) c)
    (r : Fin 65536) (q : Fin 128) :
    W V main_v289 (ix2 r q) = Spec.tri1 (RefBack.Wt V) (RefBack.J V r) 3 (Spec.av (RefBack.Wt V) (RefBack.J V r)) (Spec.smax (RefBack.J V r).l) q := by
  have hg : W V main_v286 (ix2 r q)
      = Spec.gate (Wt V).hW1 (Wt V).hB1 (Wt V).hW2 (Wt V).hB2 (Spec.av (Wt V) (J V r)) (Spec.smax (J V r).l) q := by
    rw [eq_main_v286, eq_main_v285, eq_main_v284, eq_main_v283, eq_main_v282, eq_main_v281, eq_main_call6_v4, eq_main_call6_v3,
      eq_main_call6_v2, eq_main_cst_48, eq_main_call6_v1, eq_main_call6_v0, eq_main_call6_cst, eq_main_v280, eq_main_v279, eq_main_v278,
      eq_main_v277, eq_main_v276]
    refine (gate_rows _ _ _ _ _ _ (W V main_v130) (W V main_v60) (W V main_arg9) (W V main_arg10) (W V main_arg11)
      (W V main_arg12) r q).trans ?_
    simp only [v130_val V, v60_val V]
    rfl
  have hc : W V main_v275 (ix2 r 0) = Spec.nrm2 (Wt V) (J V r) 3 := by
    rw [eq_main_v275]
    exact (slice2_axis1_apply 3 _ _ r 0 (3 : Fin 6) rfl).trans (hn r 3)
  rw [eq_main_v289, eq_main_v288, eq_main_v287]
  rw [hostTanh_apply, mulf_apply, bcast_col, hc, hg]
  rfl

/-- The weighted gated map number 4. -/
theorem v305_val (hn : ∀ (r : Fin 65536) (c : Fin 6), W V main_v227 (ix2 r c) = Spec.nrm2 (RefBack.Wt V) (RefBack.J V r) c)
    (r : Fin 65536) (q : Fin 128) :
    W V main_v305 (ix2 r q) = Spec.tri1 (RefBack.Wt V) (RefBack.J V r) 4 (Spec.al (RefBack.Wt V) (RefBack.J V r)) (Spec.smax (RefBack.J V r).v) q := by
  have hg : W V main_v302 (ix2 r q)
      = Spec.gate (Wt V).hW1 (Wt V).hB1 (Wt V).hW2 (Wt V).hB2 (Spec.al (Wt V) (J V r)) (Spec.smax (J V r).v) q := by
    rw [eq_main_v302, eq_main_v301, eq_main_v300, eq_main_v299, eq_main_v298, eq_main_v297, eq_main_call7_v4, eq_main_call7_v3,
      eq_main_call7_v2, eq_main_cst_49, eq_main_call7_v1, eq_main_call7_v0, eq_main_call7_cst, eq_main_v296, eq_main_v295, eq_main_v294,
      eq_main_v293, eq_main_v292]
    refine (gate_rows _ _ _ _ _ _ (W V main_v134) (W V main_v49) (W V main_arg9) (W V main_arg10) (W V main_arg11)
      (W V main_arg12) r q).trans ?_
    simp only [v134_val V, v49_val V]
    rfl
  have hc : W V main_v291 (ix2 r 0) = Spec.nrm2 (Wt V) (J V r) 4 := by
    rw [eq_main_v291]
    exact (slice2_axis1_apply 4 _ _ r 0 (4 : Fin 6) rfl).trans (hn r 4)
  rw [eq_main_v305, eq_main_v304, eq_main_v303]
  rw [hostTanh_apply, mulf_apply, bcast_col, hc, hg]
  rfl

/-- The weighted gated map number 5. -/
theorem v321_val (hn : ∀ (r : Fin 65536) (c : Fin 6), W V main_v227 (ix2 r c) = Spec.nrm2 (RefBack.Wt V) (RefBack.J V r) c)
    (r : Fin 65536) (q : Fin 128) :
    W V main_v321 (ix2 r q) = Spec.tri1 (RefBack.Wt V) (RefBack.J V r) 5 (Spec.vl (RefBack.Wt V) (RefBack.J V r)) (Spec.smax (RefBack.J V r).a) q := by
  have hg : W V main_v318 (ix2 r q)
      = Spec.gate (Wt V).hW1 (Wt V).hB1 (Wt V).hW2 (Wt V).hB2 (Spec.vl (Wt V) (J V r)) (Spec.smax (J V r).a) q := by
    rw [eq_main_v318, eq_main_v317, eq_main_v316, eq_main_v315, eq_main_v314, eq_main_v313, eq_main_call8_v4, eq_main_call8_v3,
      eq_main_call8_v2, eq_main_cst_50, eq_main_call8_v1, eq_main_call8_v0, eq_main_call8_cst, eq_main_v312, eq_main_v311, eq_main_v310,
      eq_main_v309, eq_main_v308]
    refine (gate_rows _ _ _ _ _ _ (W V main_v138) (W V main_v38) (W V main_arg9) (W V main_arg10) (W V main_arg11)
      (W V main_arg12) r q).trans ?_
    simp only [v138_val V, v38_val V]
    rfl
  have hc : W V main_v307 (ix2 r 0) = Spec.nrm2 (Wt V) (J V r) 5 := by
    rw [eq_main_v307]
    exact (slice2_axis1_apply 5 _ _ r 0 (5 : Fin 6) rfl).trans (hn r 5)
  rw [eq_main_v321, eq_main_v320, eq_main_v319]
  rw [hostTanh_apply, mulf_apply, bcast_col, hc, hg]
  rfl

/-- The six added up, left to right. -/
theorem v322_val (hn : ∀ (r : Fin 65536) (c : Fin 6), W V main_v227 (ix2 r c) = Spec.nrm2 (RefBack.Wt V) (RefBack.J V r) c)
    (r : Fin 65536) (q : Fin 128) : W V main_v322 (ix2 r q) = Spec.tri (RefBack.Wt V) (RefBack.J V r) q := by
  rw [eq_main_v322, eq_main_v306, eq_main_v290, eq_main_v274, eq_main_v258]
  simp only [addf_apply]
  rw [v242_val V hn, v257_val V hn, v273_val V hn, v289_val V hn, v305_val V hn, v321_val V hn]
  rfl

/-- The weighted mean, the first sum and the second sum laid end to end. -/
theorem v323_val (hn : ∀ (r : Fin 65536) (c : Fin 6), W V main_v227 (ix2 r c) = Spec.nrm2 (RefBack.Wt V) (RefBack.J V r) c)
    (r : Fin 65536) (k : Fin 384) : W V main_v323 (ix2 r k) = Spec.fus (RefBack.Wt V) (RefBack.J V r) k := by
  rw [eq_main_v323]
  refine (concat3 (W V main_v24) (W V main_v140) (W V main_v322) _ r k).trans ?_
  simp only [v24_val V, v140_val V, v322_val V hn]
  rfl

/-- The first final layer. -/
theorem v328_val (hn : ∀ (r : Fin 65536) (c : Fin 6), W V main_v227 (ix2 r c) = Spec.nrm2 (RefBack.Wt V) (RefBack.J V r) c)
    (r : Fin 65536) (k : Fin 64) : W V main_v328 (ix2 r k) = Spec.h1 (RefBack.Wt V) (RefBack.J V r) k := by
  rw [eq_main_v328, eq_main_v327, eq_main_v326, eq_main_v325, eq_main_v324]
  refine (dense_tanh_rows _ _ (W V main_v323) (W V main_arg13) (W V main_arg14) r k).trans ?_
  simp only [v323_val V hn]
  rfl

/-- The second final layer. -/
theorem v333_val (hn : ∀ (r : Fin 65536) (c : Fin 6), W V main_v227 (ix2 r c) = Spec.nrm2 (RefBack.Wt V) (RefBack.J V r) c)
    (r : Fin 65536) (k : Fin 64) : W V main_v333 (ix2 r k) = Spec.h2 (RefBack.Wt V) (RefBack.J V r) k := by
  rw [eq_main_v333, eq_main_v332, eq_main_v331, eq_main_v330, eq_main_v329]
  refine (dense_tanh_rows _ _ (W V main_v328) (W V main_arg15) (W V main_arg16) r k).trans ?_
  simp only [v328_val V hn]
  rfl

/-- The third final layer: the program's result. -/
theorem v338_val (hn : ∀ (r : Fin 65536) (c : Fin 6), W V main_v227 (ix2 r c) = Spec.nrm2 (RefBack.Wt V) (RefBack.J V r) c)
    (r : Fin 65536) (j : Fin 128) : W V main_v338 (ix2 r j) = Spec.out (RefBack.Wt V) (RefBack.J V r) j := by
  rw [eq_main_v338, eq_main_v337, eq_main_v336, eq_main_v335, eq_main_v334]
  refine (dense_tanh_rows _ _ (W V main_v333) (W V main_arg17) (W V main_arg18) r j).trans ?_
  simp only [v333_val V hn]
  rfl

end Cert.ReferenceIdeal.RefValue

end
-- ==== Proof.RefValue5.lean ====
/-
  The reference program's values, third stage: the soft-maxes of the three gated maps, the six further ratios, the six
  side by side, and their soft-max.
-/
import proofs.«113614_j77704548319488_1_alg».proof.Proof.RefValue2
import proofs.«113614_j77704548319488_1_alg».proof.Proof.RefEqs3
import proofs.«113614_j77704548319488_1_alg».proof.Proof.RefEqs4

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Lib.HostRows Cert.RowOps
open scoped BigOperators

variable (V : Valuation τ sig (Elt Ideal))

/-- The soft-max of the first gated map. -/
theorem v151_val (r : Fin 65536) (q : Fin 128) : W V main_v151 (ix2 r q) = Spec.smax (Spec.gav (Wt V) (J V r)) q := by
  rw [eq_main_v151, eq_main_v150, eq_main_v149, eq_main_v148, eq_main_v147, eq_main_v146, eq_main_v145, eq_main_v144, eq_main_v143, eq_main_v142, eq_main_v141, eq_main_cst_21, eq_main_cst_22, eq_main_cst_23]
  refine (softmax_rows _ _ _ _ _ (W V main_v104) r q).trans ?_
  exact congrArg (fun f => Spec.smax f q) (funext fun k => v104_val V r k)

/-- The soft-max of the second gated map. -/
theorem v162_val (r : Fin 65536) (q : Fin 128) : W V main_v162 (ix2 r q) = Spec.smax (Spec.gal (Wt V) (J V r)) q := by
  rw [eq_main_v162, eq_main_v161, eq_main_v160, eq_main_v159, eq_main_v158, eq_main_v157, eq_main_v156, eq_main_v155, eq_main_v154, eq_main_v153, eq_main_v152, eq_main_cst_24, eq_main_cst_25, eq_main_cst_26]
  refine (softmax_rows _ _ _ _ _ (W V main_v115) r q).trans ?_
  exact congrArg (fun f => Spec.smax f q) (funext fun k => v115_val V r k)

/-- The soft-max of the third gated map. -/
theorem v173_val (r : Fin 65536) (q : Fin 128) : W V main_v173 (ix2 r q) = Spec.smax (Spec.gvl (Wt V) (J V r)) q := by
  rw [eq_main_v173, eq_main_v172, eq_main_v171, eq_main_v170, eq_main_v169, eq_main_v168, eq_main_v167, eq_main_v166, eq_main_v165, eq_main_v164, eq_main_v163, eq_main_cst_27, eq_main_cst_28, eq_main_cst_29]
  refine (softmax_rows _ _ _ _ _ (W V main_v126) r q).trans ?_
  exact congrArg (fun f => Spec.smax f q) (funext fun k => v126_val V r k)

/-- The first further ratio. -/
theorem v179_val (r : Fin 65536) : W V main_v179 (ix1 r) = Spec.q0 (Wt V) (J V r) := by
  rw [eq_main_v179, eq_main_v178, eq_main_v177, eq_main_cst_31, eq_main_v176, eq_main_cst_30, eq_main_v175,
    eq_main_v174]
  refine (ratio_rows _ _ _ (W V main_v66) (W V main_v78) (W V main_v151) (W V main_v173) r).trans ?_
  rw [v66_val V, v78_val V]
  simp only [v151_val V, v173_val V]
  rfl

/-- The second. -/
theorem v185_val (r : Fin 65536) : W V main_v185 (ix1 r) = Spec.q1 (Wt V) (J V r) := by
  rw [eq_main_v185, eq_main_v184, eq_main_v183, eq_main_cst_33, eq_main_v182, eq_main_cst_32, eq_main_v181,
    eq_main_v180]
  refine (ratio_rows _ _ _ (W V main_v66) (W V main_v72) (W V main_v151) (W V main_v162) r).trans ?_
  rw [v66_val V, v72_val V]
  simp only [v151_val V, v162_val V]
  rfl

/-- The third. -/
theorem v191_val (r : Fin 65536) : W V main_v191 (ix1 r) = Spec.q2 (Wt V) (J V r) := by
  rw [eq_main_v191, eq_main_v190, eq_main_v189, eq_main_cst_35, eq_main_v188, eq_main_cst_34, eq_main_v187,
    eq_main_v186]
  refine (ratio_rows _ _ _ (W V main_v72) (W V main_v78) (W V main_v162) (W V main_v173) r).trans ?_
  rw [v72_val V, v78_val V]
  simp only [v162_val V, v173_val V]
  rfl

/-- The fourth. -/
theorem v197_val (r : Fin 65536) : W V main_v197 (ix1 r) = Spec.q3 (Wt V) (J V r) := by
  rw [eq_main_v197, eq_main_v196, eq_main_v195, eq_main_cst_37, eq_main_v194, eq_main_cst_36, eq_main_v193,
    eq_main_v192]
  refine (ratio_rows _ _ _ (W V main_v66) (W V main_v27) (W V main_v151) (W V main_v60) r).trans ?_
  rw [v66_val V, v27_val V]
  simp only [v151_val V, v60_val V]
  rfl

/-- The fifth. -/
theorem v203_val (r : Fin 65536) : W V main_v203 (ix1 r) = Spec.q4 (Wt V) (J V r) := by
  rw [eq_main_v203, eq_main_v202, eq_main_v201, eq_main_cst_39, eq_main_v200, eq_main_cst_38, eq_main_v199,
    eq_main_v198]
  refine (ratio_rows _ _ _ (W V main_v72) (W V main_v26) (W V main_v162) (W V main_v49) r).trans ?_
  rw [v72_val V, v26_val V]
  simp only [v162_val V, v49_val V]
  rfl

/-- The sixth. -/
theorem v209_val (r : Fin 65536) : W V main_v209 (ix1 r) = Spec.q5 (Wt V) (J V r) := by
  rw [eq_main_v209, eq_main_v208, eq_main_v207, eq_main_cst_41, eq_main_v206, eq_main_cst_40, eq_main_v205,
    eq_main_v204]
  refine (ratio_rows _ _ _ (W V main_v25) (W V main_v78) (W V main_v173) (W V main_v38) r).trans ?_
  rw [v25_val V, v78_val V]
  simp only [v173_val V, v38_val V]
  rfl

/-- The six ratios side by side. -/
theorem v216_val (r : Fin 65536) (k : Fin 6) : W V main_v216 (ix2 r k) = Spec.six1 (Wt V) (J V r) k := by
  have h210 : W V main_v210 (ix2 r 0) = Spec.q0 (Wt V) (J V r) := by
    rw [eq_main_v210]; exact (bcast_vec_col _ _ r 0).trans (v179_val V r)
  have h211 : W V main_v211 (ix2 r 0) = Spec.q1 (Wt V) (J V r) := by
    rw [eq_main_v211]; exact (bcast_vec_col _ _ r 0).trans (v185_val V r)
  have h212 : W V main_v212 (ix2 r 0) = Spec.q2 (Wt V) (J V r) := by
    rw [eq_main_v212]; exact (bcast_vec_col _ _ r 0).trans (v191_val V r)
  have h213 : W V main_v213 (ix2 r 0) = Spec.q3 (Wt V) (J V r) := by
    rw [eq_main_v213]; exact (bcast_vec_col _ _ r 0).trans (v197_val V r)
  have h214 : W V main_v214 (ix2 r 0) = Spec.q4 (Wt V) (J V r) := by
    rw [eq_main_v214]; exact (bcast_vec_col _ _ r 0).trans (v203_val V r)
  have h215 : W V main_v215 (ix2 r 0) = Spec.q5 (Wt V) (J V r) := by
    rw [eq_main_v215]; exact (bcast_vec_col _ _ r 0).trans (v209_val V r)
  rw [eq_main_v216]
  refine (concat6c (W V main_v210) (W V main_v211) (W V main_v212) (W V main_v213) (W V main_v214) (W V main_v215) _ r k).trans ?_
  rw [h210, h211, h212, h213, h214, h215]
  rfl

/-- Their soft-max. -/
theorem v227_val (r : Fin 65536) (c : Fin 6) : W V main_v227 (ix2 r c) = Spec.nrm2 (Wt V) (J V r) c := by
  rw [eq_main_v227, eq_main_v226, eq_main_v225, eq_main_v224, eq_main_v223, eq_main_v222, eq_main_v221, eq_main_v220, eq_main_v219, eq_main_v218, eq_main_v217, eq_main_cst_42, eq_main_cst_43, eq_main_cst_44]
  refine (softmax_rows _ _ _ _ _ (W V main_v216) r c).trans ?_
  exact congrArg (fun f => Spec.smax f c) (funext fun k => v216_val V r k)

end Cert.ReferenceIdeal.RefValue

end
-- ==== Proof.RefValue6.lean ====
/-
  The reference program's result, whole. At every row and entry the result buffer's final contents are the row's
  specification value at that entry, for the weights and the row read off the argument buffers' final contents; the
  arguments end as they started, so these are the weights and the row of the launch contents; and an array is its
  entries. So the contents of the result buffer after the program are the result array `G` of the nineteen argument
  arrays.
-/
import proofs.«113614_j77704548319488_1_alg».proof.Proof.RefValue4
import proofs.«113614_j77704548319488_1_alg».proof.Proof.RefValue5

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Lib.HostRows Cert.RowOps
open scoped BigOperators

variable (V : Valuation τ sig (Elt Ideal))

/-- The result at a row and an entry. -/
theorem ref_out (r : Fin 65536) (j : Fin 128) :
    W V main_v338 (ix2 r j) = Spec.out (RefBack.Wt V) (RefBack.J V r) j :=
  v338_val V (v227_val V) r j

/-- The result buffer after the program, as the one function of the argument arrays. -/
theorem ref_value :
    after RefRun.ops V (main_v338 : DevRef τ sig)
      = Cert.Arrays.G (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) := by
  have hW : RefBack.Wt V = Cert.Arrays.wtsOf (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) := by
    unfold RefBack.Wt
    rw [W_arg3, W_arg4, W_arg5, W_arg6, W_arg7, W_arg8, W_arg9, W_arg10, W_arg11, W_arg12, W_arg13, W_arg14, W_arg15, W_arg16, W_arg17, W_arg18]
  have hJ : ∀ r, RefBack.J V r = Cert.Arrays.rowOf (V main_arg0) (V main_arg1) (V main_arg2) r := fun r => by
    unfold RefBack.J
    rw [W_arg0, W_arg1, W_arg2]
  rw [← W_eq_after V]
  funext i
  refine (congrArg (W V main_v338) (eq_ix2 i)).trans ?_
  refine (ref_out V (i 0) (i 1)).trans ?_
  rw [hW]
  exact congrArg (fun R => Spec.out _ R (i 1)) (hJ (i 0))

end Cert.ReferenceIdeal.RefValue

end
-- ==== Proof.lean ====
/-
  The proof of the claim: the gated fusion network computed row by row.

  Every value the network computes for a row depends on that row's three feature vectors and on the weights only, so
  the result array is one function `G` of the nineteen argument arrays: row `r` of `G` is the row specification
  (`Spec.out`) of row `r`. The idealized kernel computes it on sixty-four tiles of 1024 rows: each value of its body,
  read at a row of the tile, is the corresponding value of the specification (the matrix products as sums over the
  contracted coordinate, the lane reductions as sums and running maxima over the row, the joins of tiles along the lanes
  as vectors laid end to end), so the block a grid point writes back is the corresponding block of `G`, and the blocks
  cover the result array. The idealized reference computes it on whole arrays: the contents after its straight line of
  host operations satisfy one equation per operation, and these equations read at a row are the same steps of the same
  specification. At exact extended reals no rounding separates the kernel's bf16 matrix products from the reference's
  f32 ones, and no algebraic law is needed beyond reading both programs at a row, so finiteness of the inputs is never
  used. Run from memories that agree on the arguments, both results are `G` of the same arrays.

  The frames of the two kernels are their frame certificates; the reference's frame is its line of host operations,
  none of which writes an argument. The idealization ledger is empty.
-/
import proofs.«113614_j77704548319488_1_alg».proof.Defs
import proofs.«113614_j77704548319488_1_alg».proof.Proof.Gen.Kernel
import proofs.«113614_j77704548319488_1_alg».proof.Proof.Gen.KernelIdeal
import proofs.«113614_j77704548319488_1_alg».proof.Proof.Gen.ReferenceIdeal
import proofs.«113614_j77704548319488_1_alg».proof.Proof.Gen.Pre_finite_inputs
import proofs.«113614_j77704548319488_1_alg».proof.Proof.Frames
import proofs.«113614_j77704548319488_1_alg».proof.Proof.KernelArray
import proofs.«113614_j77704548319488_1_alg».proof.Proof.RefValue6
import Idealize.ShloMosaic.Adequacy
import Idealize.ShloMosaic.Init

noncomputable section

namespace Cert.Proof

open Idealize.ShloMosaic Idealize.ShloMosaic.TcCoe Idealize.SL.Sem Idealize.ShloMosaic.StableHlo

open Cert.ReferenceIdeal Cert.ReferenceIdeal.RefRun in
/-- The two idealized programs, from memories agreeing on the arguments, end with equal results: both results are `G` of
    the arguments. -/
theorem algebraic : Cert.algebraic_KernelIdeal_ReferenceIdeal := by
  intro m ρ m' ρ' _ hagree
  refine ⟨fun c => Cert.Arrays.G (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (Cert.KernelIdeal.Hand.A14 m c) (Cert.KernelIdeal.Hand.A15 m c) (Cert.KernelIdeal.Hand.A16 m c) (Cert.KernelIdeal.Hand.A17 m c) (Cert.KernelIdeal.Hand.A18 m c), Cert.KernelIdeal.Hand.run m ρ, ?_⟩
  refine (θ_run Cert.ReferenceIdeal.defs _ _).mono (fun r h c => ?_) (run_main (F := Ideal) m' ρ')
  obtain ⟨e0, e1, e2, e3, e4, e5, e6, e7, e8, e9, e10, e11, e12, e13, e14, e15, e16, e17, e18⟩ := hagree c
  refine ⟨?_, (h c main_arg0).trans (arg0_kept _),
    (h c main_arg1).trans (arg1_kept _),
    (h c main_arg2).trans (arg2_kept _),
    (h c main_arg3).trans (arg3_kept _),
    (h c main_arg4).trans (arg4_kept _),
    (h c main_arg5).trans (arg5_kept _),
    (h c main_arg6).trans (arg6_kept _),
    (h c main_arg7).trans (arg7_kept _),
    (h c main_arg8).trans (arg8_kept _),
    (h c main_arg9).trans (arg9_kept _),
    (h c main_arg10).trans (arg10_kept _),
    (h c main_arg11).trans (arg11_kept _),
    (h c main_arg12).trans (arg12_kept _),
    (h c main_arg13).trans (arg13_kept _),
    (h c main_arg14).trans (arg14_kept _),
    (h c main_arg15).trans (arg15_kept _),
    (h c main_arg16).trans (arg16_kept _),
    (h c main_arg17).trans (arg17_kept _),
    (h c main_arg18).trans (arg18_kept _)⟩
  rw [h c main_v338]
  refine (Cert.ReferenceIdeal.RefValue.ref_value (launchContents m' c)).trans ?_
  show Cert.Arrays.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18)) = _
  rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, Cert.Proof.Frames.preserves,
    algebraic⟩

end Cert.Proof

end
